-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v27)) (v1 : (c : Dev Cert.KernelIdeal.nD) → Buf (Elt Ideal) ((c.tc : Thread Cert.KernelIdeal.nD Cert.KernelIdeal.τ).loc Cert.KernelIdeal.main_v31)) (v2 : (c : Dev Cert.KernelIdeal.nD) → Buf (Elt Ideal) ((c.tc : Thread Cert.KernelIdeal.nD Cert.KernelIdeal.τ).loc Cert.KernelIdeal.main_v32)) (v3 : (c : Dev Cert.KernelIdeal.nD) → Buf (Elt Ideal) ((c.tc : Thread Cert.KernelIdeal.nD Cert.KernelIdeal.τ).loc Cert.KernelIdeal.main_v29)) (v4 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_v31) = v1 c
          ∧ r.2.mem ((c.tc : Thread Cert.KernelIdeal.nD Cert.KernelIdeal.τ).loc Cert.KernelIdeal.main_v32) = v2 c
          ∧ r.2.mem ((c.tc : Thread Cert.KernelIdeal.nD Cert.KernelIdeal.τ).loc Cert.KernelIdeal.main_v29) = v3 c
          ∧ r.2.mem ((c.tc : Thread Cert.KernelIdeal.nD Cert.KernelIdeal.τ).loc Cert.KernelIdeal.main_v34) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_v46) = v2 c
          ∧ r.2.mem ((c.tc : Thread Cert.ReferenceIdeal.nD Cert.ReferenceIdeal.τ).loc Cert.ReferenceIdeal.main_v48) = v3 c
          ∧ r.2.mem ((c.tc : Thread Cert.ReferenceIdeal.nD Cert.ReferenceIdeal.τ).loc Cert.ReferenceIdeal.main_v50) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1024x2048 : Shape := ⟨3, ![2, 1024, 2048]⟩
abbrev S32000x2048 : Shape := ⟨2, ![32000, 2048]⟩
abbrev S2x1024 : Shape := ⟨2, ![2, 1024]⟩
abbrev S2 : Shape := ⟨1, ![2]⟩
abbrev S_ : Shape := ⟨0, ![]⟩

class Facts : Prop where
  bcast_S_S2x1024x2048 : S_.BroadcastsInDim S2x1024x2048 (![] : Fin 0 → Fin S2x1024x2048.rank)
  reducesTo_S2x1024x2048_S_d0_1_2 : S2x1024x2048.ReducesTo [0, 1, 2] S_
  h_S_ : 0 < S_.numel
  bcast_S_S32000x2048 : S_.BroadcastsInDim S32000x2048 (![] : Fin 0 → Fin S32000x2048.rank)
  reducesTo_S32000x2048_S_d0_1 : S32000x2048.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S32000x2048 .f32) (main_v13 : IVec S_ 1) (main_v16 : IVec S2x1024x2048 1) : IVec S_ 1 :=
  let main_c_5 : IVec S_ 1 := constantI S_ 1 1#1
  let main_v17 : IVec S_ 1 := (fun x v => Host.reduce IntOp.andi x v reducesTo_S2x1024x2048_S_d0_1_2 h_S_) main_v16 main_c_5
  let main_v18 : IVec S_ 1 := andi main_v13 main_v17
  let main_v19 : FVec F S32000x2048 .f32 := Host.absf main_arg5
  let main_cst_6 : FVec F S_ .f32 := constant S_ .f32 0x7F800000#32
  let main_v20 : FVec F S32000x2048 .f32 := broadcastInDim S32000x2048 ![] bcast_S_S32000x2048 main_cst_6
  let main_v21 : IVec S32000x2048 1 := cmpf .olt main_v19 main_v20
  let main_c_7 : IVec S_ 1 := constantI S_ 1 1#1
  let main_v22 : IVec S_ 1 := (fun x v => Host.reduce IntOp.andi x v reducesTo_S32000x2048_S_d0_1 h_S_) main_v21 main_c_7
  let main_v23 : IVec S_ 1 := andi main_v18 main_v22
  main_v23

def fn {F : FTy → Type} [FloatOps F] (main_arg0 : FVec F S2x1024x2048 .f32) (main_arg1 : FVec F S32000x2048 .f32) (main_arg2 : IVec S2x1024 32) (main_arg3 : FVec F S2 .f32) (main_arg4 : FVec F S2x1024x2048 .f32) (main_arg5 : FVec F S32000x2048 .f32) : IVec S_ 1 :=
  let main_v0 : FVec F S2x1024x2048 .f32 := Host.absf main_arg0
  let main_cst : FVec F S_ .f32 := constant S_ .f32 0x7F800000#32
  let main_v1 : FVec F S2x1024x2048 .f32 := broadcastInDim S2x1024x2048 ![] bcast_S_S2x1024x2048 main_cst
  let main_v2 : IVec S2x1024x2048 1 := cmpf .olt main_v0 main_v1
  let main_c : IVec S_ 1 := constantI S_ 1 1#1
  let main_v3 : IVec S_ 1 := (fun x v => Host.reduce IntOp.andi x v reducesTo_S2x1024x2048_S_d0_1_2 h_S_) main_v2 main_c
  let main_v4 : FVec F S32000x2048 .f32 := Host.absf main_arg1
  let main_cst_0 : FVec F S_ .f32 := constant S_ .f32 0x7F800000#32
  let main_v5 : FVec F S32000x2048 .f32 := broadcastInDim S32000x2048 ![] bcast_S_S32000x2048 main_cst_0
  let main_v6 : IVec S32000x2048 1 := cmpf .olt main_v4 main_v5
  let main_c_1 : IVec S_ 1 := constantI S_ 1 1#1
  let main_v7 : IVec S_ 1 := (fun x v => Host.reduce IntOp.andi x v reducesTo_S32000x2048_S_d0_1 h_S_) main_v6 main_c_1
  let main_v8 : IVec S_ 1 := andi main_v3 main_v7
  let main_v9 : FVec F S2 .f32 := Host.absf main_arg3
  let main_cst_2 : FVec F S_ .f32 := constant S_ .f32 0x7F800000#32
  let main_v10 : FVec F S2 .f32 := broadcastInDim S2 ![] bcast_S_S2 main_cst_2
  let main_v11 : IVec S2 1 := cmpf .olt main_v9 main_v10
  let main_c_3 : IVec S_ 1 := constantI S_ 1 1#1
  let main_v12 : IVec S_ 1 := (fun x v => Host.reduce IntOp.andi x v reducesTo_S2_S_d0 h_S_) main_v11 main_c_3
  let main_v13 : IVec S_ 1 := andi main_v8 main_v12
  let main_v14 : FVec F S2x1024x2048 .f32 := Host.absf main_arg4
  let main_cst_4 : FVec F S_ .f32 := constant S_ .f32 0x7F800000#32
  let main_v15 : FVec F S2x1024x2048 .f32 := broadcastInDim S2x1024x2048 ![] bcast_S_S2x1024x2048 main_cst_4
  let main_v16 : IVec S2x1024x2048 1 := cmpf .olt main_v14 main_v15
  fn_part1 (F := F) main_arg5 main_v13 main_v16
-- ==== Kernel.lean ====
abbrev S2x1024x2048 : Shape := ⟨3, ![2, 1024, 2048]⟩
abbrev S32000x2048 : Shape := ⟨2, ![32000, 2048]⟩
abbrev S2x1024 : Shape := ⟨2, ![2, 1024]⟩
abbrev S2 : Shape := ⟨1, ![2]⟩
abbrev S2x512x2048 : Shape := ⟨3, ![2, 512, 2048]⟩
abbrev S640x2048 : Shape := ⟨2, ![640, 2048]⟩
abbrev S2x512 : Shape := ⟨2, ![2, 512]⟩
abbrev S1024x1 : Shape := ⟨2, ![1024, 1]⟩
abbrev S1024x2048 : Shape := ⟨2, ![1024, 2048]⟩
abbrev S1024x640 : Shape := ⟨2, ![1024, 640]⟩
abbrev S1024 : Shape := ⟨1, ![1024]⟩
abbrev S_ : Shape := ⟨0, ![]⟩
abbrev S1 : Shape := ⟨1, ![1]⟩

abbrev nBuf : Space → Nat
  | .hbm => 101
  | .vmem => 19
  | .smem => 0
  | _ => 0

abbrev bufTy : (tb : Table) → Fin (tcTables nBuf tb) → BufTy
  | .hbm, ⟨0, _⟩ => ⟨S2x1024x2048, .f32⟩
  | .hbm, ⟨1, _⟩ => ⟨S32000x2048, .f32⟩
  | .hbm, ⟨2, _⟩ => ⟨S2x1024, .i32⟩
  | .hbm, ⟨3, _⟩ => ⟨S2, .f32⟩
  | .hbm, ⟨4, _⟩ => ⟨S2x1024x2048, .f32⟩
  | .hbm, ⟨5, _⟩ => ⟨S32000x2048, .f32⟩
  | .hbm, ⟨6, _⟩ => ⟨S2x1024, .f32⟩
  | .hbm, ⟨7, _⟩ => ⟨S2x1024x2048, .bf16⟩
  | .hbm, ⟨8, _⟩ => ⟨S2x1024, .f32⟩
  | .hbm, ⟨9, _⟩ => ⟨S2x1024, .f32⟩
  | .hbm, ⟨10, _⟩ => ⟨S2x1024x2048, .bf16⟩
  | .hbm, ⟨11, _⟩ => ⟨S2x1024, .f32⟩
  | .hbm, ⟨12, _⟩ => ⟨S2x1024, .f32⟩
  | .hbm, ⟨13, _⟩ => ⟨S_, .f32⟩
  | .hbm, ⟨14, _⟩ => ⟨S2, .f32⟩
  | .hbm, ⟨15, _⟩ => ⟨S2x1024, .f32⟩
  | .hbm, ⟨16, _⟩ => ⟨S_, .f32⟩
  | .hbm, ⟨17, _⟩ => ⟨S2, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S2, .f32⟩
  | .hbm, ⟨23, _⟩ => ⟨S2, .f32⟩
  | .hbm, ⟨24, _⟩ => ⟨S_, .i32⟩
  | .hbm, ⟨25, _⟩ => ⟨S_, .f32⟩
  | .hbm, ⟨26, _⟩ => ⟨S_, .f32⟩
  | .hbm, ⟨27, _⟩ => ⟨S1, .f32⟩
  | .hbm, ⟨28, _⟩ => ⟨S_, .f32⟩
  | .hbm, ⟨29, _⟩ => ⟨S1, .f32⟩
  | .hbm, ⟨30, _⟩ => ⟨S1, .f32⟩
  | .hbm, ⟨31, _⟩ => ⟨S2, .f32⟩
  | .hbm, ⟨32, _⟩ => ⟨S2, .f32⟩
  | .hbm, ⟨33, _⟩ => ⟨S2, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .i1⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .i1⟩
  | .hbm, ⟨48, _⟩ => ⟨S_, .f32⟩
  | .hbm, ⟨49, _⟩ => ⟨S_, .i1⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S2, .f32⟩
  | .hbm, ⟨54, _⟩ => ⟨S2, .f32⟩
  | .hbm, ⟨55, _⟩ => ⟨S2, .f32⟩
  | .hbm, ⟨56, _⟩ => ⟨S2, .f32⟩
  | .hbm, ⟨57, _⟩ => ⟨S2, .f32⟩
  | .hbm, ⟨58, _⟩ => ⟨S2, .f32⟩
  | .hbm, ⟨59, _⟩ => ⟨S_, .f32⟩
  | .hbm, ⟨60, _⟩ => ⟨S2, .f32⟩
  | .hbm, ⟨61, _⟩ => ⟨S2, .f32⟩
  | .hbm, ⟨62, _⟩ => ⟨S2, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .i32⟩
  | .hbm, ⟨76, _⟩ => ⟨S_, .f32⟩
  | .hbm, ⟨77, _⟩ => ⟨S_, .f32⟩
  | .hbm, ⟨78, _⟩ => ⟨S1, .f32⟩
  | .hbm, ⟨79, _⟩ => ⟨S_, .f32⟩
  | .hbm, ⟨80, _⟩ => ⟨S1, .f32⟩
  | .hbm, ⟨81, _⟩ => ⟨S1, .f32⟩
  | .hbm, ⟨82, _⟩ => ⟨S2, .f32⟩
  | .hbm, ⟨83, _⟩ => ⟨S2, .f32⟩
  | .hbm, ⟨84, _⟩ => ⟨S2, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .i1⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .local _ .vmem, ⟨0, _⟩ => ⟨S2x512x2048, .bf16⟩
  | .local _ .vmem, ⟨1, _⟩ => ⟨S2x512x2048, .bf16⟩
  | .local _ .vmem, ⟨2, _⟩ => ⟨S640x2048, .f32⟩
  | .local _ .vmem, ⟨3, _⟩ => ⟨S640x2048, .f32⟩
  | .local _ .vmem, ⟨4, _⟩ => ⟨S2x512, .f32⟩
  | .local _ .vmem, ⟨5, _⟩ => ⟨S2x512, .f32⟩
  | .local _ .vmem, ⟨6, _⟩ => ⟨S2x512, .f32⟩
  | .local _ .vmem, ⟨7, _⟩ => ⟨S2x512, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S2x512x2048, .bf16⟩
  | .local _ .vmem, ⟨12, _⟩ => ⟨S2x512x2048, .bf16⟩
  | .local _ .vmem, ⟨13, _⟩ => ⟨S640x2048, .f32⟩
  | .local _ .vmem, ⟨14, _⟩ => ⟨S640x2048, .f32⟩
  | .local _ .vmem, ⟨15, _⟩ => ⟨S2x512, .f32⟩
  | .local _ .vmem, ⟨16, _⟩ => ⟨S2x512, .f32⟩
  | .local _ .vmem, ⟨17, _⟩ => ⟨S1024x1, .f32⟩
  | .local _ .vmem, ⟨18, _⟩ => ⟨S1024x1, .f32⟩
  | _, _ => ⟨S2x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_call0_call0_cst : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_cst_0 : Ref sig .tc := ⟨.hbm, 28, rfl⟩
abbrev main_call0_call0_v2 : Ref sig .tc := ⟨.hbm, 29, rfl⟩
abbrev main_call0_call0_v3 : Ref sig .tc := ⟨.hbm, 30, rfl⟩
abbrev main_call0_call0_v4 : Ref sig .tc := ⟨.hbm, 31, rfl⟩
abbrev main_call0_call0_v5 : Ref sig .tc := ⟨.hbm, 32, rfl⟩
abbrev main_call0_call0_v6 : Ref sig .tc := ⟨.hbm, 33, rfl⟩
abbrev main_call0_call0_v7 : Ref sig .tc := ⟨.hbm, 34, rfl⟩
abbrev main_call0_call0_cst_1 : Ref sig .tc := ⟨.hbm, 35, rfl⟩
abbrev main_call0_call0_v8 : Ref sig .tc := ⟨.hbm, 36, rfl⟩
abbrev main_call0_call0_cst_2 : Ref sig .tc := ⟨.hbm, 37, rfl⟩
abbrev main_call0_call0_v9 : Ref sig .tc := ⟨.hbm, 38, rfl⟩
abbrev main_call0_call0_v10 : Ref sig .tc := ⟨.hbm, 39, rfl⟩
abbrev main_call0_call0_cst_3 : Ref sig .tc := ⟨.hbm, 40, rfl⟩
abbrev main_call0_call0_v11 : Ref sig .tc := ⟨.hbm, 41, rfl⟩
abbrev main_call0_call0_cst_4 : Ref sig .tc := ⟨.hbm, 42, rfl⟩
abbrev main_call0_call0_call0_v0 : Ref sig .tc := ⟨.hbm, 43, rfl⟩
abbrev main_call0_v0 : Ref sig .tc := ⟨.hbm, 44, rfl⟩
abbrev main_v13 : Ref sig .tc := ⟨.hbm, 45, rfl⟩
abbrev main_cst_3 : Ref sig .tc := ⟨.hbm, 46, rfl⟩
abbrev main_v14 : Ref sig .tc := ⟨.hbm, 47, rfl⟩
abbrev main_cst_4 : Ref sig .tc := ⟨.hbm, 48, rfl⟩
abbrev main_v15 : Ref sig .tc := ⟨.hbm, 49, rfl⟩
abbrev main_cst_5 : Ref sig .tc := ⟨.hbm, 50, rfl⟩
abbrev main_call1_v0 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_cst_6 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_cst_7 : Ref sig .tc := ⟨.hbm, 63, rfl⟩
abbrev main_v26 : Ref sig .tc := ⟨.hbm, 64, rfl⟩
abbrev main_cst_8 : Ref sig .tc := ⟨.hbm, 65, rfl⟩
abbrev main_v27 : Ref sig .tc := ⟨.hbm, 66, rfl⟩
abbrev main_cst_9 : Ref sig .tc := ⟨.hbm, 67, rfl⟩
abbrev main_v28 : Ref sig .tc := ⟨.hbm, 68, rfl⟩
abbrev main_cst_10 : Ref sig .tc := ⟨.hbm, 69, rfl⟩
abbrev main_v29 : Ref sig .tc := ⟨.hbm, 70, rfl⟩
abbrev main_cst_11 : Ref sig .tc := ⟨.hbm, 71, rfl⟩
abbrev main_v30 : Ref sig .tc := ⟨.hbm, 72, rfl⟩
abbrev main_cst_12 : Ref sig .tc := ⟨.hbm, 73, rfl⟩
abbrev main_v31 : Ref sig .tc := ⟨.hbm, 74, rfl⟩
abbrev main_c_13 : Ref sig .tc := ⟨.hbm, 75, rfl⟩
abbrev main_call3_call0_cst : Ref sig .tc := ⟨.hbm, 76, rfl⟩
abbrev main_call3_call0_v0 : Ref sig .tc := ⟨.hbm, 77, rfl⟩
abbrev main_call3_call0_v1 : Ref sig .tc := ⟨.hbm, 78, rfl⟩
abbrev main_call3_call0_cst_0 : Ref sig .tc := ⟨.hbm, 79, rfl⟩
abbrev main_call3_call0_v2 : Ref sig .tc := ⟨.hbm, 80, rfl⟩
abbrev main_call3_call0_v3 : Ref sig .tc := ⟨.hbm, 81, rfl⟩
abbrev main_call3_call0_v4 : Ref sig .tc := ⟨.hbm, 82, rfl⟩
abbrev main_call3_call0_v5 : Ref sig .tc := ⟨.hbm, 83, rfl⟩
abbrev main_call3_call0_v6 : Ref sig .tc := ⟨.hbm, 84, rfl⟩
abbrev main_call3_call0_v7 : Ref sig .tc := ⟨.hbm, 85, rfl⟩
abbrev main_call3_call0_cst_1 : Ref sig .tc := ⟨.hbm, 86, rfl⟩
abbrev main_call3_call0_v8 : Ref sig .tc := ⟨.hbm, 87, rfl⟩
abbrev main_call3_call0_cst_2 : Ref sig .tc := ⟨.hbm, 88, rfl⟩
abbrev main_call3_call0_v9 : Ref sig .tc := ⟨.hbm, 89, rfl⟩
abbrev main_call3_call0_v10 : Ref sig .tc := ⟨.hbm, 90, rfl⟩
abbrev main_call3_call0_cst_3 : Ref sig .tc := ⟨.hbm, 91, rfl⟩
abbrev main_call3_call0_v11 : Ref sig .tc := ⟨.hbm, 92, rfl⟩
abbrev main_call3_call0_cst_4 : Ref sig .tc := ⟨.hbm, 93, rfl⟩
abbrev main_call3_call0_call0_v0 : Ref sig .tc := ⟨.hbm, 94, rfl⟩
abbrev main_call3_v0 : Ref sig .tc := ⟨.hbm, 95, rfl⟩
abbrev main_v32 : Ref sig .tc := ⟨.hbm, 96, rfl⟩
abbrev main_cst_14 : Ref sig .tc := ⟨.hbm, 97, rfl⟩
abbrev main_v33 : Ref sig .tc := ⟨.hbm, 98, rfl⟩
abbrev main_cst_15 : Ref sig .tc := ⟨.hbm, 99, rfl⟩
abbrev main_v34 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_scratch0 : Ref sig .tc := ⟨.vmem, 17, rfl⟩
abbrev cc1_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨2, ![2, 50], ![false, false]⟩

def k0_cond2 (i : grid0.Coords) : BitVec 1 :=
  let arg1 : BitVec 32 := BitVec.ofNat 32 (i 1).val
  let c49_i32 : BitVec 32 := 49#32
  let v37 : BitVec 1 := Scalar.cmpi .eq arg1 c49_i32
  let v38 : BitVec 32 := Scalar.extui v37
  let c0_i32_22 : BitVec 32 := 0#32
  let v39 : BitVec 1 := Scalar.cmpi .ne v38 c0_i32_22
  v39

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S640x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![2, 50], ![false, false]⟩

def k1_cond2 (i : grid1.Coords) : BitVec 1 :=
  let arg1 : BitVec 32 := BitVec.ofNat 32 (i 1).val
  let c49_i32 : BitVec 32 := 49#32
  let v30 : BitVec 1 := Scalar.cmpi .eq arg1 c49_i32
  let v31 : BitVec 32 := Scalar.extui v30
  let c0_i32_17 : BitVec 32 := 0#32
  let v32 : BitVec 1 := Scalar.cmpi .ne v31 c0_i32_17
  v32

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S2x512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S640x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S2x512x2048_S2x512x2048_0_0_0 : ∀ a, (![0, 0, 0] : Fin 3 → Nat) a + S2x512x2048.size a ≤ S2x512x2048.size a
  h_S2x512x2048 : 0 < S2x512x2048.numel
  shapeCasts_S2x512x2048_S2x512x2048 : S2x512x2048.ShapeCasts S2x512x2048
  shapeCasts_S2x512x2048_S1024x2048 : S2x512x2048.ShapeCasts S1024x2048
  inb_S640x2048_S640x2048_0_0 : ∀ a, (![0, 0] : Fin 2 → Nat) a + S640x2048.size a ≤ S640x2048.size a
  h_S640x2048 : 0 < S640x2048.numel
  reduces_S1024x640_S1024 : S1024x640.Reduces [1] S1024
  shapeCasts_S1024_S1024x1 : S1024.ShapeCasts S1024x1
  broadcasts_S1024x1_S1024x640 : S1024x1.Broadcasts S1024x640
  shapeCasts_S1024x1_S2x512 : S1024x1.ShapeCasts S2x512
  inb_S2x512_S2x512_0_0 : ∀ a, (![0, 0] : Fin 2 → Nat) a + S2x512.size a ≤ S2x512.size a
  h_S2x512 : 0 < S2x512.numel
  reducesTo_S2x1024_S2_d1 : S2x1024.ReducesTo [1] S2
  h_S_ : 0 < S_.numel
  reducesTo_S2_S_d0 : S2.ReducesTo [0] S_
  bcast_S_S2 : S_.BroadcastsInDim S2 (![] : Fin 0 → Fin S2.rank)
  bcast_S_S1 : S_.BroadcastsInDim S1 (![] : Fin 0 → Fin S1.rank)
  bcast_S1_S2_0 : S1.BroadcastsInDim S2 (![0] : Fin 1 → Fin S2.rank)
  reducesTo_S2x1024_S_d0_1 : S2x1024.ReducesTo [0, 1] S_
  dot_S1024x2048_S640x2048_S1024x640_1_1_0_0_n_n_wf : DotDims.WF S1024x2048 S640x2048 S1024x640 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x512x2048.size a ≤ S2x1024x2048.size a
  hwx0_0 : ∀ i : grid0.Coords, EltTy.bits .bf16 = 32 ∨ (Rect.block (s := S2x1024x2048) S2x512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S640x2048.size a ≤ S32000x2048.size a
  hwx0_1 : ∀ i : grid0.Coords, EltTy.bits .f32 = 32 ∨ (Rect.block (s := S32000x2048) S640x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x512.size a ≤ S2x1024.size a
  hwx0_2 : ∀ i : grid0.Coords, EltTy.bits .f32 = 32 ∨ (Rect.block (s := S2x1024) S2x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x512.size a ≤ S2x1024.size a
  hwx0_3 : ∀ i : grid0.Coords, EltTy.bits .f32 = 32 ∨ (Rect.block (s := S2x1024) S2x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2x512x2048.size a ≤ S2x1024x2048.size a
  hwx1_0 : ∀ i : grid1.Coords, EltTy.bits .bf16 = 32 ∨ (Rect.block (s := S2x1024x2048) S2x512x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S640x2048.size a ≤ S32000x2048.size a
  hwx1_1 : ∀ i : grid1.Coords, EltTy.bits .f32 = 32 ∨ (Rect.block (s := S32000x2048) S640x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2x512.size a ≤ S2x1024.size a
  hwx1_2 : ∀ i : grid1.Coords, EltTy.bits .f32 = 32 ∨ (Rect.block (s := S2x1024) S2x512.size (cc1_transform_2 i) (hinb1_2 i)).WholeWords (EltTy.packing .f32)

variable [Facts₀]

def dot_S1024x2048_S640x2048_S1024x640_1_1_0_0_n_n : DotDims S1024x2048 S640x2048 S1024x640 where
  lhsContracting := [1]
  rhsContracting := [1]
  lhsNonContracting := [0]
  rhsNonContracting := [0]
  lhsBatch := []
  rhsBatch := []
  wf := dot_S1024x2048_S640x2048_S1024x640_1_1_0_0_n_n_wf

abbrev win0_0 : Pipeline.Window sig grid0 :=
  Pipeline.Window.ofSpec (Memref.whole main_v1) S2x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S640x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S2x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S2x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v3) S2x512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S640x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S2x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S2x1024x2048 : Shape := ⟨3, ![2, 1024, 2048]⟩
abbrev S32000x2048 : Shape := ⟨2, ![32000, 2048]⟩
abbrev S2x1024 : Shape := ⟨2, ![2, 1024]⟩
abbrev S2 : Shape := ⟨1, ![2]⟩
abbrev S2x1024x32000 : Shape := ⟨3, ![2, 1024, 32000]⟩
abbrev S_ : Shape := ⟨0, ![]⟩
abbrev S2x1024x1 : Shape := ⟨3, ![2, 1024, 1]⟩
abbrev S1 : Shape := ⟨1, ![1]⟩

abbrev nBuf : Space → Nat
  | .hbm => 120
  | .vmem => 0
  | .smem => 0
  | _ => 0

abbrev bufTy : (tb : Table) → Fin (tcTables nBuf tb) → BufTy
  | .hbm, ⟨0, _⟩ => ⟨S2x1024x2048, .f32⟩
  | .hbm, ⟨1, _⟩ => ⟨S32000x2048, .f32⟩
  | .hbm, ⟨2, _⟩ => ⟨S2x1024, .i32⟩
  | .hbm, ⟨3, _⟩ => ⟨S2, .f32⟩
  | .hbm, ⟨4, _⟩ => ⟨S2x1024x2048, .f32⟩
  | .hbm, ⟨5, _⟩ => ⟨S32000x2048, .f32⟩
  | .hbm, ⟨6, _⟩ => ⟨S2x1024, .f32⟩
  | .hbm, ⟨7, _⟩ => ⟨S2x1024x32000, .f32⟩
  | .hbm, ⟨8, _⟩ => ⟨S_, .f32⟩
  | .hbm, ⟨9, _⟩ => ⟨S2x1024, .f32⟩
  | .hbm, ⟨10, _⟩ => ⟨S2x1024x1, .f32⟩
  | .hbm, ⟨11, _⟩ => ⟨S2x1024x32000, .f32⟩
  | .hbm, ⟨12, _⟩ => ⟨S2x1024x32000, .f32⟩
  | .hbm, ⟨13, _⟩ => ⟨S2x1024x32000, .f32⟩
  | .hbm, ⟨14, _⟩ => ⟨S_, .f32⟩
  | .hbm, ⟨15, _⟩ => ⟨S2x1024, .f32⟩
  | .hbm, ⟨16, _⟩ => ⟨S2x1024, .f32⟩
  | .hbm, ⟨17, _⟩ => ⟨S2x1024, .f32⟩
  | .hbm, ⟨18, _⟩ => ⟨S2x1024, .f32⟩
  | .hbm, ⟨19, _⟩ => ⟨S2x1024, .f32⟩
  | .hbm, ⟨20, _⟩ => ⟨S_, .f32⟩
  | .hbm, ⟨21, _⟩ => ⟨S2, .f32⟩
  | .hbm, ⟨22, _⟩ => ⟨S2x1024x32000, .f32⟩
  | .hbm, ⟨23, _⟩ => ⟨S_, .f32⟩
  | .hbm, ⟨24, _⟩ => ⟨S2x1024, .f32⟩
  | .hbm, ⟨25, _⟩ => ⟨S2x1024x1, .f32⟩
  | .hbm, ⟨26, _⟩ => ⟨S2x1024x32000, .f32⟩
  | .hbm, ⟨27, _⟩ => ⟨S2x1024x32000, .f32⟩
  | .hbm, ⟨28, _⟩ => ⟨S2x1024x32000, .f32⟩
  | .hbm, ⟨29, _⟩ => ⟨S_, .f32⟩
  | .hbm, ⟨30, _⟩ => ⟨S2x1024, .f32⟩
  | .hbm, ⟨31, _⟩ => ⟨S2x1024, .f32⟩
  | .hbm, ⟨32, _⟩ => ⟨S2x1024, .f32⟩
  | .hbm, ⟨33, _⟩ => ⟨S2x1024, .f32⟩
  | .hbm, ⟨34, _⟩ => ⟨S2x1024, .f32⟩
  | .hbm, ⟨35, _⟩ => ⟨S_, .f32⟩
  | .hbm, ⟨36, _⟩ => ⟨S2, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S2, .f32⟩
  | .hbm, ⟨42, _⟩ => ⟨S2, .f32⟩
  | .hbm, ⟨43, _⟩ => ⟨S_, .i32⟩
  | .hbm, ⟨44, _⟩ => ⟨S_, .f32⟩
  | .hbm, ⟨45, _⟩ => ⟨S_, .f32⟩
  | .hbm, ⟨46, _⟩ => ⟨S1, .f32⟩
  | .hbm, ⟨47, _⟩ => ⟨S_, .f32⟩
  | .hbm, ⟨48, _⟩ => ⟨S1, .f32⟩
  | .hbm, ⟨49, _⟩ => ⟨S1, .f32⟩
  | .hbm, ⟨50, _⟩ => ⟨S2, .f32⟩
  | .hbm, ⟨51, _⟩ => ⟨S2, .f32⟩
  | .hbm, ⟨52, _⟩ => ⟨S2, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .i1⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .i1⟩
  | .hbm, ⟨67, _⟩ => ⟨S_, .f32⟩
  | .hbm, ⟨68, _⟩ => ⟨S_, .i1⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S2, .f32⟩
  | .hbm, ⟨73, _⟩ => ⟨S2, .f32⟩
  | .hbm, ⟨74, _⟩ => ⟨S2, .f32⟩
  | .hbm, ⟨75, _⟩ => ⟨S2, .f32⟩
  | .hbm, ⟨76, _⟩ => ⟨S2, .f32⟩
  | .hbm, ⟨77, _⟩ => ⟨S2, .f32⟩
  | .hbm, ⟨78, _⟩ => ⟨S_, .f32⟩
  | .hbm, ⟨79, _⟩ => ⟨S2, .f32⟩
  | .hbm, ⟨80, _⟩ => ⟨S2, .f32⟩
  | .hbm, ⟨81, _⟩ => ⟨S2, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .i32⟩
  | .hbm, ⟨91, _⟩ => ⟨S_, .f32⟩
  | .hbm, ⟨92, _⟩ => ⟨S_, .f32⟩
  | .hbm, ⟨93, _⟩ => ⟨S1, .f32⟩
  | .hbm, ⟨94, _⟩ => ⟨S_, .f32⟩
  | .hbm, ⟨95, _⟩ => ⟨S1, .f32⟩
  | .hbm, ⟨96, _⟩ => ⟨S1, .f32⟩
  | .hbm, ⟨97, _⟩ => ⟨S2, .f32⟩
  | .hbm, ⟨98, _⟩ => ⟨S2, .f32⟩
  | .hbm, ⟨99, _⟩ => ⟨S2, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .i1⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | _, _ => ⟨S2x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c : Ref sig .tc := ⟨.hbm, 43, rfl⟩
abbrev main_call0_call0_cst : Ref sig .tc := ⟨.hbm, 44, rfl⟩
abbrev main_call0_call0_v0 : Ref sig .tc := ⟨.hbm, 45, rfl⟩
abbrev main_call0_call0_v1 : Ref sig .tc := ⟨.hbm, 46, rfl⟩
abbrev main_call0_call0_cst_0 : Ref sig .tc := ⟨.hbm, 47, rfl⟩
abbrev main_call0_call0_v2 : Ref sig .tc := ⟨.hbm, 48, rfl⟩
abbrev main_call0_call0_v3 : Ref sig .tc := ⟨.hbm, 49, rfl⟩
abbrev main_call0_call0_v4 : Ref sig .tc := ⟨.hbm, 50, rfl⟩
abbrev main_call0_call0_v5 : Ref sig .tc := ⟨.hbm, 51, rfl⟩
abbrev main_call0_call0_v6 : Ref sig .tc := ⟨.hbm, 52, rfl⟩
abbrev main_call0_call0_v7 : Ref sig .tc := ⟨.hbm, 53, rfl⟩
abbrev main_call0_call0_cst_1 : Ref sig .tc := ⟨.hbm, 54, rfl⟩
abbrev main_call0_call0_v8 : Ref sig .tc := ⟨.hbm, 55, rfl⟩
abbrev main_call0_call0_cst_2 : Ref sig .tc := ⟨.hbm, 56, rfl⟩
abbrev main_call0_call0_v9 : Ref sig .tc := ⟨.hbm, 57, rfl⟩
abbrev main_call0_call0_v10 : Ref sig .tc := ⟨.hbm, 58, rfl⟩
abbrev main_call0_call0_cst_3 : Ref sig .tc := ⟨.hbm, 59, rfl⟩
abbrev main_call0_call0_v11 : Ref sig .tc := ⟨.hbm, 60, rfl⟩
abbrev main_call0_call0_cst_4 : Ref sig .tc := ⟨.hbm, 61, rfl⟩
abbrev main_call0_call0_call0_v0 : Ref sig .tc := ⟨.hbm, 62, rfl⟩
abbrev main_call0_v0 : Ref sig .tc := ⟨.hbm, 63, rfl⟩
abbrev main_v29 : Ref sig .tc := ⟨.hbm, 64, rfl⟩
abbrev main_cst_7 : Ref sig .tc := ⟨.hbm, 65, rfl⟩
abbrev main_v30 : Ref sig .tc := ⟨.hbm, 66, rfl⟩
abbrev main_cst_8 : Ref sig .tc := ⟨.hbm, 67, rfl⟩
abbrev main_v31 : Ref sig .tc := ⟨.hbm, 68, rfl⟩
abbrev main_cst_9 : Ref sig .tc := ⟨.hbm, 69, rfl⟩
abbrev main_call1_v0 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_cst_10 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_cst_11 : Ref sig .tc := ⟨.hbm, 82, rfl⟩
abbrev main_v42 : Ref sig .tc := ⟨.hbm, 83, rfl⟩
abbrev main_cst_12 : Ref sig .tc := ⟨.hbm, 84, rfl⟩
abbrev main_v43 : Ref sig .tc := ⟨.hbm, 85, rfl⟩
abbrev main_cst_13 : Ref sig .tc := ⟨.hbm, 86, rfl⟩
abbrev main_v44 : Ref sig .tc := ⟨.hbm, 87, rfl⟩
abbrev main_cst_14 : Ref sig .tc := ⟨.hbm, 88, rfl⟩
abbrev main_v45 : Ref sig .tc := ⟨.hbm, 89, rfl⟩
abbrev main_c_15 : Ref sig .tc := ⟨.hbm, 90, rfl⟩
abbrev main_call3_call0_cst : Ref sig .tc := ⟨.hbm, 91, rfl⟩
abbrev main_call3_call0_v0 : Ref sig .tc := ⟨.hbm, 92, rfl⟩
abbrev main_call3_call0_v1 : Ref sig .tc := ⟨.hbm, 93, rfl⟩
abbrev main_call3_call0_cst_0 : Ref sig .tc := ⟨.hbm, 94, rfl⟩
abbrev main_call3_call0_v2 : Ref sig .tc := ⟨.hbm, 95, rfl⟩
abbrev main_call3_call0_v3 : Ref sig .tc := ⟨.hbm, 96, rfl⟩
abbrev main_call3_call0_v4 : Ref sig .tc := ⟨.hbm, 97, rfl⟩
abbrev main_call3_call0_v5 : Ref sig .tc := ⟨.hbm, 98, rfl⟩
abbrev main_call3_call0_v6 : Ref sig .tc := ⟨.hbm, 99, rfl⟩
abbrev main_call3_call0_v7 : Ref sig .tc := ⟨.hbm, 100, rfl⟩
abbrev main_call3_call0_cst_1 : Ref sig .tc := ⟨.hbm, 101, rfl⟩
abbrev main_call3_call0_v8 : Ref sig .tc := ⟨.hbm, 102, rfl⟩
abbrev main_call3_call0_cst_2 : Ref sig .tc := ⟨.hbm, 103, rfl⟩
abbrev main_call3_call0_v9 : Ref sig .tc := ⟨.hbm, 104, rfl⟩
abbrev main_call3_call0_v10 : Ref sig .tc := ⟨.hbm, 105, rfl⟩
abbrev main_call3_call0_cst_3 : Ref sig .tc := ⟨.hbm, 106, rfl⟩
abbrev main_call3_call0_v11 : Ref sig .tc := ⟨.hbm, 107, rfl⟩
abbrev main_call3_call0_cst_4 : Ref sig .tc := ⟨.hbm, 108, rfl⟩
abbrev main_call3_call0_call0_v0 : Ref sig .tc := ⟨.hbm, 109, rfl⟩
abbrev main_call3_v0 : Ref sig .tc := ⟨.hbm, 110, rfl⟩
abbrev main_v46 : Ref sig .tc := ⟨.hbm, 111, rfl⟩
abbrev main_cst_16 : Ref sig .tc := ⟨.hbm, 112, rfl⟩
abbrev main_v47 : Ref sig .tc := ⟨.hbm, 113, rfl⟩
abbrev main_cst_17 : Ref sig .tc := ⟨.hbm, 114, rfl⟩
abbrev main_v48 : Ref sig .tc := ⟨.hbm, 115, rfl⟩
abbrev main_cst_18 : Ref sig .tc := ⟨.hbm, 116, rfl⟩
abbrev main_v49 : Ref sig .tc := ⟨.hbm, 117, rfl⟩
abbrev main_cst_19 : Ref sig .tc := ⟨.hbm, 118, rfl⟩
abbrev main_v50 : Ref sig .tc := ⟨.hbm, 119, rfl⟩

abbrev nD : Nat := 1
abbrev τ : Topo := Topo.v7x

variable {F : FTy → Type} [FloatOps F]

class Facts₀ : Prop where
  reducesTo_S2x1024x32000_S2x1024_d2 : S2x1024x32000.ReducesTo [2] S2x1024
  h_S_ : 0 < S_.numel
  bcast_S2x1024_S2x1024x1_0_1 : S2x1024.BroadcastsInDim S2x1024x1 (![0, 1] : Fin 2 → Fin S2x1024x1.rank)
  bcast_S2x1024x1_S2x1024x32000_0_1_2 : S2x1024x1.BroadcastsInDim S2x1024x32000 (![0, 1, 2] : Fin 3 → Fin S2x1024x32000.rank)
  reducesTo_S2x1024_S2_d1 : S2x1024.ReducesTo [1] S2
  reducesTo_S2_S_d0 : S2.ReducesTo [0] S_
  bcast_S_S2 : S_.BroadcastsInDim S2 (![] : Fin 0 → Fin S2.rank)
  bcast_S_S1 : S_.BroadcastsInDim S1 (![] : Fin 0 → Fin S1.rank)
  bcast_S1_S2_0 : S1.BroadcastsInDim S2 (![0] : Fin 1 → Fin S2.rank)
  reducesTo_S2x1024x32000_S_d0_1_2 : S2x1024x32000.ReducesTo [0, 1, 2] S_
  dot_S2x1024x2048_S32000x2048_S2x1024x32000_2_1_01_0_n_n_wf : DotDims.WF S2x1024x2048 S32000x2048 S2x1024x32000 [2] [1] [0, 1] [0] [] []

variable [Facts₀]

def dot_S2x1024x2048_S32000x2048_S2x1024x32000_2_1_01_0_n_n : DotDims S2x1024x2048 S32000x2048 S2x1024x32000 where
  lhsContracting := [2]
  rhsContracting := [1]
  lhsNonContracting := [0, 1]
  rhsNonContracting := [0]
  lhsBatch := []
  rhsBatch := []
  wf := dot_S2x1024x2048_S32000x2048_S2x1024x32000_2_1_01_0_n_n_wf

class Facts : Prop extends Facts₀ where

variable [Facts]
-- ==== Proof.KB.Runs.lean ====
/-
  What the two kernel regions' runs share.

  Both kernels walk a grid of 2 x 50 points: the row tile s (512 rows of each of the two batch entries) and,
  innermost, the vocabulary tile v.  At v = 0 the three (two) running columns kept in scratch are reset, at every
  point they are updated from the tile's logits, and at v = 49 the finished columns are written to the output
  blocks.  So a point is in one of three cases: first tile (reset, no output), middle tile (no reset, no
  output), last tile (no reset, output).  Here: the two conditions in closed form over the grid, where the
  output windows are idle, the memrefs a point's body is called with, and the scratch buffers as owned memrefs.
-/
import proofs.«154765_j27539330302083_2_alg».proof.Proof.Gen.Kernel.Launch
import proofs.«154765_j27539330302083_2_alg».proof.Proof.Gen.Kernel.Skeleton
import proofs.«154765_j27539330302083_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

/-! ## Region 0 -/

/-- The reset condition: the vocabulary tile is the first. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 50 = 0 :=
  (by decide +kernel : ∀ t : Fin grid0.N, cond0_0 (grid0.coords t) ↔ t.val % 50 = 0)
/-- The output condition: the vocabulary tile is the last. -/
abbrev cond0_1 (i : grid0.Coords) : Prop := k0_cond2 i = 1#1
theorem hcond0_1 : ∀ t : Fin cfg0.N, cond0_1 (grid0.coords t) ↔ t.val % 50 = 49 :=
  (by decide +kernel : ∀ t : Fin grid0.N, cond0_1 (grid0.coords t) ↔ t.val % 50 = 49)

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

abbrev ms0_0 (t : Fin cfg0.N) : Memref sig .tc .vmem S2x512x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S640x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x512 .f32 := win0_3.stage (cfg0.slots t 3)
abbrev hs0_3 (t : Fin cfg0.N) : (ms0_3 t).IsWhole := hstage0_3 ((cfg0.slots t 3).cast nbuf0_3)
/-- The running maximum, the running sum of exponentials, the running sum of logits: one column each. -/
abbrev scM0_0 : Memref sig .tc .vmem S1024x1 .f32 := Memref.whole cc0_scratch0
abbrev scM0_1 : Memref sig .tc .vmem S1024x1 .f32 := Memref.whole cc0_scratch1
abbrev scM0_2 : Memref sig .tc .vmem S1024x1 .f32 := Memref.whole cc0_scratch2
abbrev VS0_0 : View sig .tc .vmem S1024x1 .f32 := scM0_0.view
abbrev VS0_1 : View sig .tc .vmem S1024x1 .f32 := scM0_1.view
abbrev VS0_2 : View sig .tc .vmem S1024x1 .f32 := scM0_2.view
abbrev VO0_2 : View sig .tc .vmem S2x512 .f32 := (Memref.whole cc0_stg2_0 : Memref sig .tc .vmem S2x512 .f32).view
abbrev VO0_3 : View sig .tc .vmem S2x512 .f32 := (Memref.whole cc0_stg3_0 : Memref sig .tc .vmem S2x512 .f32).view

/-- The scratch of region 0 as owned memrefs: the three columns, then the other region's buffers, at anything. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)
          ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f)) ∗ (∃ r, prngReg c r)) := by
  unfold Pipeline.ΦA; rw [scopedRest0_eq]; simp only [scM0_0, scM0_1, scM0_2, owns_whole]; try rfl

/-! ## Region 1 -/

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 50 = 0 :=
  (by decide +kernel : ∀ t : Fin grid1.N, cond1_0 (grid1.coords t) ↔ t.val % 50 = 0)
abbrev cond1_1 (i : grid1.Coords) : Prop := k1_cond2 i = 1#1
theorem hcond1_1 : ∀ t : Fin cfg1.N, cond1_1 (grid1.coords t) ↔ t.val % 50 = 49 :=
  (by decide +kernel : ∀ t : Fin grid1.N, cond1_1 (grid1.coords t) ↔ t.val % 50 = 49)

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

abbrev ms1_0 (t : Fin cfg1.N) : Memref sig .tc .vmem S2x512x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S640x2048 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2x512 .f32 := win1_2.stage (cfg1.slots t 2)
abbrev hs1_2 (t : Fin cfg1.N) : (ms1_2 t).IsWhole := hstage1_2 ((cfg1.slots t 2).cast nbuf1_2)
abbrev scM1_0 : Memref sig .tc .vmem S1024x1 .f32 := Memref.whole cc1_scratch0
abbrev scM1_1 : Memref sig .tc .vmem S1024x1 .f32 := Memref.whole cc1_scratch1
abbrev VS1_0 : View sig .tc .vmem S1024x1 .f32 := scM1_0.view
abbrev VS1_1 : View sig .tc .vmem S1024x1 .f32 := scM1_1.view
abbrev VO1_2 : View sig .tc .vmem S2x512 .f32 := (Memref.whole cc1_stg2_0 : Memref sig .tc .vmem S2x512 .f32).view

end Cert.Kernel.Hand

end
-- ==== Proof.KB.Run0A.lean ====
/-
  Region 0, a point of the first vocabulary tile: the body resets the three running columns, updates them from
  the tile, and stores nothing into the output blocks.  The run: on whole memrefs, the two input blocks at their
  contents, the output buffers handed back untouched, the three columns at anything before and, after, holding the
  pieces the body's stores wrote (found by running the body).
-/
import proofs.«154765_j27539330302083_2_alg».proof.Proof.KB.Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 4000000 in
noncomputable def kernelRun0_A (c : Dev nD) (i : grid0.Coords) (arg2 : Memref sig .tc .vmem S2x512x2048 .bf16) (harg2 : arg2.IsWhole) (arg3 : Memref sig .tc .vmem S640x2048 .f32) (harg3 : arg3.IsWhole) (arg4 : Memref sig .tc .vmem S2x512 .f32) (harg4 : arg4.IsWhole) (arg5 : Memref sig .tc .vmem S2x512 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : cond0_0 i) (hc1 : ¬cond0_1 i)
    (x0 : Vec F S2x512x2048 .bf16) (x1 : Vec F S640x2048 .f32) :
    Σ' (LS0 : List (View.Piece (Elt F) S1024x1 .f32)) (LS1 : List (View.Piece (Elt F) S1024x1 .f32)), { LS2 : List (View.Piece (Elt F) S1024x1 .f32) //
      ∀ (xi2 xi3 : Vec F S2x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare xi2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc0_kernel i arg2 harg2 arg3 harg3 arg4 harg4 arg5 harg5 arg6 harg6 arg7 harg7 arg8 harg8) K } := by
  refine ⟨?_, ?_, ?_, fun xi2 xi3 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.Kernel.Hand

end
-- ==== Proof.KB.Run0B.lean ====
/-
  Region 0, a point of a middle vocabulary tile: the body updates the running columns from the tile and what the point before left in them, and stores nothing into the output block(s).  The run: on whole memrefs, the two input blocks at their contents, the output buffer(s) handed back untouched, the running columns at what the point before left, and afterwards every buffer the body stored into holding the pieces its stores wrote (found by running the body).
-/
import proofs.«154765_j27539330302083_2_alg».proof.Proof.KB.Run0A

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 4000000 in
noncomputable def kernelRun0_B (c : Dev nD) (i : grid0.Coords) (arg2 : Memref sig .tc .vmem S2x512x2048 .bf16) (harg2 : arg2.IsWhole) (arg3 : Memref sig .tc .vmem S640x2048 .f32) (harg3 : arg3.IsWhole) (arg4 : Memref sig .tc .vmem S2x512 .f32) (harg4 : arg4.IsWhole) (arg5 : Memref sig .tc .vmem S2x512 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : ¬cond0_1 i)
    (x0 : Vec F S2x512x2048 .bf16) (x1 : Vec F S640x2048 .f32) (xs0 : Vec F S1024x1 .f32) (xs1 : Vec F S1024x1 .f32) (xs2 : Vec F S1024x1 .f32) :
    Σ' (LS0 : List (View.Piece (Elt F) S1024x1 .f32)) (LS1 : List (View.Piece (Elt F) S1024x1 .f32)), { LS2 : List (View.Piece (Elt F) S1024x1 .f32) //
      ∀ (xi2 xi3 : Vec F S2x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc0_kernel i arg2 harg2 arg3 harg3 arg4 harg4 arg5 harg5 arg6 harg6 arg7 harg7 arg8 harg8) K } := by
  refine ⟨?_, ?_, ?_, fun xi2 xi3 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.Kernel.Hand

end
-- ==== Proof.KB.Run0C.lean ====
/-
  Region 0, a point of the last vocabulary tile: the body updates the running columns from the tile and what the point before left in them, and writes the finished columns to the output block(s).  The run: on whole memrefs, the two input blocks at their contents, the output buffer(s) at anything before, the running columns at what the point before left, and afterwards every buffer the body stored into holding the pieces its stores wrote (found by running the body).
-/
import proofs.«154765_j27539330302083_2_alg».proof.Proof.KB.Run0B

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 4000000 in
noncomputable def kernelRun0_C (c : Dev nD) (i : grid0.Coords) (arg2 : Memref sig .tc .vmem S2x512x2048 .bf16) (harg2 : arg2.IsWhole) (arg3 : Memref sig .tc .vmem S640x2048 .f32) (harg3 : arg3.IsWhole) (arg4 : Memref sig .tc .vmem S2x512 .f32) (harg4 : arg4.IsWhole) (arg5 : Memref sig .tc .vmem S2x512 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 : Vec F S2x512x2048 .bf16) (x1 : Vec F S640x2048 .f32) (xs0 : Vec F S1024x1 .f32) (xs1 : Vec F S1024x1 .f32) (xs2 : Vec F S1024x1 .f32) :
    Σ' (L2 : List (View.Piece (Elt F) S2x512 .f32)) (L3 : List (View.Piece (Elt F) S2x512 .f32)) (LS0 : List (View.Piece (Elt F) S1024x1 .f32)) (LS1 : List (View.Piece (Elt F) S1024x1 .f32)), { LS2 : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc0_kernel i arg2 harg2 arg3 harg3 arg4 harg4 arg5 harg5 arg6 harg6 arg7 harg7 arg8 harg8) K } := by
  refine ⟨?_, ?_, ?_, ?_, ?_, fun E K => ?run⟩
  case run =>
    simp only [cc0_kernel_eq_skeleton]; unfold cc0_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HS0]; · iexists _; iexact HS0
    isplitl [HS1]; · iexists _; iexact HS1
    iexists _; iexact HS2

end Cert.Kernel.Hand

end
-- ==== Proof.KB.Run1A.lean ====
/-
  Region 1, a point of the first vocabulary tile: the body resets the running columns, updates them from the tile, and stores nothing into the output block(s).  The run: on whole memrefs, the two input blocks at their contents, the output buffer(s) handed back untouched, the running columns at anything before, and afterwards every buffer the body stored into holding the pieces its stores wrote (found by running the body).
-/
import proofs.«154765_j27539330302083_2_alg».proof.Proof.KB.Run0C

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 4000000 in
noncomputable def kernelRun1_A (c : Dev nD) (i : grid1.Coords) (arg2 : Memref sig .tc .vmem S2x512x2048 .bf16) (harg2 : arg2.IsWhole) (arg3 : Memref sig .tc .vmem S640x2048 .f32) (harg3 : arg3.IsWhole) (arg4 : Memref sig .tc .vmem S2x512 .f32) (harg4 : arg4.IsWhole) (arg5 : Memref sig .tc .vmem S1024x1 .f32) (harg5 : arg5.IsWhole) (arg6 : Memref sig .tc .vmem S1024x1 .f32) (harg6 : arg6.IsWhole) (hc0 : cond1_0 i) (hc1 : ¬cond1_1 i)
    (x0 : Vec F S2x512x2048 .bf16) (x1 : Vec F S640x2048 .f32) :
    Σ' (LS0 : List (View.Piece (Elt F) S1024x1 .f32)), { LS1 : List (View.Piece (Elt F) S1024x1 .f32) //
      ∀ (xi2 : Vec F S2x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc1_kernel i arg2 harg2 arg3 harg3 arg4 harg4 arg5 harg5 arg6 harg6) K } := by
  refine ⟨?_, ?_, fun xi2 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.Kernel.Hand

end
-- ==== Proof.KB.Run1B.lean ====
/-
  Region 1, a point of a middle vocabulary tile: the body updates the running columns from the tile and what the point before left in them, and stores nothing into the output block(s).  The run: on whole memrefs, the two input blocks at their contents, the output buffer(s) handed back untouched, the running columns at what the point before left, and afterwards every buffer the body stored into holding the pieces its stores wrote (found by running the body).
-/
import proofs.«154765_j27539330302083_2_alg».proof.Proof.KB.Run1A

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 4000000 in
noncomputable def kernelRun1_B (c : Dev nD) (i : grid1.Coords) (arg2 : Memref sig .tc .vmem S2x512x2048 .bf16) (harg2 : arg2.IsWhole) (arg3 : Memref sig .tc .vmem S640x2048 .f32) (harg3 : arg3.IsWhole) (arg4 : Memref sig .tc .vmem S2x512 .f32) (harg4 : arg4.IsWhole) (arg5 : Memref sig .tc .vmem S1024x1 .f32) (harg5 : arg5.IsWhole) (arg6 : Memref sig .tc .vmem S1024x1 .f32) (harg6 : arg6.IsWhole) (hc0 : ¬cond1_0 i) (hc1 : ¬cond1_1 i)
    (x0 : Vec F S2x512x2048 .bf16) (x1 : Vec F S640x2048 .f32) (xs0 : Vec F S1024x1 .f32) (xs1 : Vec F S1024x1 .f32) :
    Σ' (LS0 : List (View.Piece (Elt F) S1024x1 .f32)), { LS1 : List (View.Piece (Elt F) S1024x1 .f32) //
      ∀ (xi2 : Vec F S2x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0 ∗ owns (c : Thread nD τ) arg6 fullShare xs1
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc1_kernel i arg2 harg2 arg3 harg3 arg4 harg4 arg5 harg5 arg6 harg6) K } := by
  refine ⟨?_, ?_, fun xi2 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.Kernel.Hand

end
-- ==== Proof.KB.Run1C.lean ====
/-
  Region 1, a point of the last vocabulary tile: the body updates the running columns from the tile and what the point before left in them, and writes the finished columns to the output block(s).  The run: on whole memrefs, the two input blocks at their contents, the output buffer(s) at anything before, the running columns at what the point before left, and afterwards every buffer the body stored into holding the pieces its stores wrote (found by running the body).
-/
import proofs.«154765_j27539330302083_2_alg».proof.Proof.KB.Run1B

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 4000000 in
noncomputable def kernelRun1_C (c : Dev nD) (i : grid1.Coords) (arg2 : Memref sig .tc .vmem S2x512x2048 .bf16) (harg2 : arg2.IsWhole) (arg3 : Memref sig .tc .vmem S640x2048 .f32) (harg3 : arg3.IsWhole) (arg4 : Memref sig .tc .vmem S2x512 .f32) (harg4 : arg4.IsWhole) (arg5 : Memref sig .tc .vmem S1024x1 .f32) (harg5 : arg5.IsWhole) (arg6 : Memref sig .tc .vmem S1024x1 .f32) (harg6 : arg6.IsWhole) (hc0 : ¬cond1_0 i) (hc1 : cond1_1 i)
    (x0 : Vec F S2x512x2048 .bf16) (x1 : Vec F S640x2048 .f32) (xs0 : Vec F S1024x1 .f32) (xs1 : Vec F S1024x1 .f32) :
    Σ' (L2 : List (View.Piece (Elt F) S2x512 .f32)) (LS0 : List (View.Piece (Elt F) S1024x1 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0 ∗ owns (c : Thread nD τ) arg6 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc1_kernel i arg2 harg2 arg3 harg3 arg4 harg4 arg5 harg5 arg6 harg6) K } := by
  refine ⟨?_, ?_, ?_, fun E K => ?run⟩
  case run =>
    simp only [cc1_kernel_eq_skeleton]; unfold cc1_kernel_skel
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg2.eq_unread hf0; obtain rfl := harg3.eq_unread hf1; obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    iexists _; iexact HS1

end Cert.Kernel.Hand

end
-- ==== Proof.KB.Body0.lean ====
/-
  Region 0: what the running columns and the output block(s) hold after each grid point, the invariant that carries
  the columns from one point to the next, the proof data of the pipeline, and the body's obligation at every point.

  After a point of the first vocabulary tile the columns hold what the reset-and-update leaves; after any other
  point, what the update leaves of the columns the point before left; the output block(s) are written at the
  points of the last tile only.  Between points the three (two) columns are owned at exactly those contents; the
  other scoped buffers and the generator register ride along at anything.
-/
import proofs.«154765_j27539330302083_2_alg».proof.Proof.KB.Run1C

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

section Region
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves -/

/-- After a point of the first tile: the output block(s) untouched (a placeholder nothing reads), the columns at the
    pieces the body wrote. -/
def resA0 (c : Dev nD) (t : Fin cfg0.N) (h0 : t.val % 50 = 0) (h1 : ¬t.val % 50 = 49) : (Vec F S2x512 .f32 × Vec F S2x512 .f32) × (Vec F S1024x1 .f32 × Vec F S1024x1 .f32 × Vec F S1024x1 .f32) :=
  ((VO0_2.read (Elt F) (VO0_2.writes (Elt F) VO0_2.junk []), VO0_3.read (Elt F) (VO0_3.writes (Elt F) VO0_3.junk [])), (VS0_0.read (Elt F) (VS0_0.writes (Elt F) VS0_0.junk (kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t)).1), VS0_1.read (Elt F) (VS0_1.writes (Elt F) VS0_1.junk (kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t)).2.1), VS0_2.read (Elt F) (VS0_2.writes (Elt F) VS0_2.junk (kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t)).2.2.1)))
/-- After a point of a middle tile, from what the point before left in the columns. -/
def resB0 (c : Dev nD) (t : Fin cfg0.N) (h0 : ¬t.val % 50 = 0) (h1 : ¬t.val % 50 = 49) (prev : (Vec F S1024x1 .f32 × Vec F S1024x1 .f32 × Vec F S1024x1 .f32)) : (Vec F S2x512 .f32 × Vec F S2x512 .f32) × (Vec F S1024x1 .f32 × Vec F S1024x1 .f32 × Vec F S1024x1 .f32) :=
  ((VO0_2.read (Elt F) (VO0_2.writes (Elt F) VO0_2.junk []), VO0_3.read (Elt F) (VO0_3.writes (Elt F) VO0_3.junk [])), (VS0_0.read (Elt F) (VS0_0.writes (Elt F) VS0_0.junk (kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) prev.1 prev.2.1 prev.2.2).1), VS0_1.read (Elt F) (VS0_1.writes (Elt F) VS0_1.junk (kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) prev.1 prev.2.1 prev.2.2).2.1), VS0_2.read (Elt F) (VS0_2.writes (Elt F) VS0_2.junk (kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) prev.1 prev.2.1 prev.2.2).2.2.1)))
/-- After a point of the last tile, from what the point before left in the columns. -/
def resC0 (c : Dev nD) (t : Fin cfg0.N) (h0 : ¬t.val % 50 = 0) (h1 : t.val % 50 = 49) (prev : (Vec F S1024x1 .f32 × Vec F S1024x1 .f32 × Vec F S1024x1 .f32)) : (Vec F S2x512 .f32 × Vec F S2x512 .f32) × (Vec F S1024x1 .f32 × Vec F S1024x1 .f32 × Vec F S1024x1 .f32) :=
  ((VO0_2.read (Elt F) (VO0_2.writes (Elt F) VO0_2.junk (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) prev.1 prev.2.1 prev.2.2).1), VO0_3.read (Elt F) (VO0_3.writes (Elt F) VO0_3.junk (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) prev.1 prev.2.1 prev.2.2).2.1)), (VS0_0.read (Elt F) (VS0_0.writes (Elt F) VS0_0.junk (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) prev.1 prev.2.1 prev.2.2).2.2.1), VS0_1.read (Elt F) (VS0_1.writes (Elt F) VS0_1.junk (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) prev.1 prev.2.1 prev.2.2).2.2.2.1), VS0_2.read (Elt F) (VS0_2.writes (Elt F) VS0_2.junk (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) prev.1 prev.2.1 prev.2.2).2.2.2.2.1)))

theorem scoverA0_0 (c : Dev nD) (t : Fin cfg0.N) (h0 : t.val % 50 = 0) (h1 : ¬t.val % 50 = 49) (y : S1024x1.Idx) :
    ∃ pc ∈ (kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t)).1, y ∈ pc.1.set :=
  View.cover_of_tiledL ((kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t)).1) S1024x1.size (by sl_kernel_rfl) y
theorem scoverB0_0 (c : Dev nD) (t : Fin cfg0.N) (h0 : ¬t.val % 50 = 0) (h1 : ¬t.val % 50 = 49) (prev : (Vec F S1024x1 .f32 × Vec F S1024x1 .f32 × Vec F S1024x1 .f32)) (y : S1024x1.Idx) :
    ∃ pc ∈ (kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) prev.1 prev.2.1 prev.2.2).1, y ∈ pc.1.set :=
  View.cover_of_tiledL ((kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) prev.1 prev.2.1 prev.2.2).1) S1024x1.size (by sl_kernel_rfl) y
theorem scoverC0_0 (c : Dev nD) (t : Fin cfg0.N) (h0 : ¬t.val % 50 = 0) (h1 : t.val % 50 = 49) (prev : (Vec F S1024x1 .f32 × Vec F S1024x1 .f32 × Vec F S1024x1 .f32)) (y : S1024x1.Idx) :
    ∃ pc ∈ (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) prev.1 prev.2.1 prev.2.2).2.2.1, y ∈ pc.1.set :=
  View.cover_of_tiledL ((kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) prev.1 prev.2.1 prev.2.2).2.2.1) S1024x1.size (by sl_kernel_rfl) y

theorem scoverA0_1 (c : Dev nD) (t : Fin cfg0.N) (h0 : t.val % 50 = 0) (h1 : ¬t.val % 50 = 49) (y : S1024x1.Idx) :
    ∃ pc ∈ (kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t)).2.1, y ∈ pc.1.set :=
  View.cover_of_tiledL ((kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t)).2.1) S1024x1.size (by sl_kernel_rfl) y
theorem scoverB0_1 (c : Dev nD) (t : Fin cfg0.N) (h0 : ¬t.val % 50 = 0) (h1 : ¬t.val % 50 = 49) (prev : (Vec F S1024x1 .f32 × Vec F S1024x1 .f32 × Vec F S1024x1 .f32)) (y : S1024x1.Idx) :
    ∃ pc ∈ (kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) prev.1 prev.2.1 prev.2.2).2.1, y ∈ pc.1.set :=
  View.cover_of_tiledL ((kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) prev.1 prev.2.1 prev.2.2).2.1) S1024x1.size (by sl_kernel_rfl) y
theorem scoverC0_1 (c : Dev nD) (t : Fin cfg0.N) (h0 : ¬t.val % 50 = 0) (h1 : t.val % 50 = 49) (prev : (Vec F S1024x1 .f32 × Vec F S1024x1 .f32 × Vec F S1024x1 .f32)) (y : S1024x1.Idx) :
    ∃ pc ∈ (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) prev.1 prev.2.1 prev.2.2).2.2.2.1, y ∈ pc.1.set :=
  View.cover_of_tiledL ((kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) prev.1 prev.2.1 prev.2.2).2.2.2.1) S1024x1.size (by sl_kernel_rfl) y

theorem scoverA0_2 (c : Dev nD) (t : Fin cfg0.N) (h0 : t.val % 50 = 0) (h1 : ¬t.val % 50 = 49) (y : S1024x1.Idx) :
    ∃ pc ∈ (kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t)).2.2.1, y ∈ pc.1.set :=
  View.cover_of_tiledL ((kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t)).2.2.1) S1024x1.size (by sl_kernel_rfl) y
theorem scoverB0_2 (c : Dev nD) (t : Fin cfg0.N) (h0 : ¬t.val % 50 = 0) (h1 : ¬t.val % 50 = 49) (prev : (Vec F S1024x1 .f32 × Vec F S1024x1 .f32 × Vec F S1024x1 .f32)) (y : S1024x1.Idx) :
    ∃ pc ∈ (kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) prev.1 prev.2.1 prev.2.2).2.2.1, y ∈ pc.1.set :=
  View.cover_of_tiledL ((kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) prev.1 prev.2.1 prev.2.2).2.2.1) S1024x1.size (by sl_kernel_rfl) y
theorem scoverC0_2 (c : Dev nD) (t : Fin cfg0.N) (h0 : ¬t.val % 50 = 0) (h1 : t.val % 50 = 49) (prev : (Vec F S1024x1 .f32 × Vec F S1024x1 .f32 × Vec F S1024x1 .f32)) (y : S1024x1.Idx) :
    ∃ pc ∈ (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) prev.1 prev.2.1 prev.2.2).2.2.2.2.1, y ∈ pc.1.set :=
  View.cover_of_tiledL ((kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) prev.1 prev.2.1 prev.2.2).2.2.2.2.1) S1024x1.size (by sl_kernel_rfl) y

theorem coverC0_2 (c : Dev nD) (t : Fin cfg0.N) (h0 : ¬t.val % 50 = 0) (h1 : t.val % 50 = 49) (prev : (Vec F S1024x1 .f32 × Vec F S1024x1 .f32 × Vec F S1024x1 .f32)) (y : S2x512.Idx) :
    ∃ pc ∈ (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) prev.1 prev.2.1 prev.2.2).1, y ∈ pc.1.set :=
  View.cover_of_tiledL ((kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) prev.1 prev.2.1 prev.2.2).1) S2x512.size (by sl_kernel_rfl) y

theorem coverC0_3 (c : Dev nD) (t : Fin cfg0.N) (h0 : ¬t.val % 50 = 0) (h1 : t.val % 50 = 49) (prev : (Vec F S1024x1 .f32 × Vec F S1024x1 .f32 × Vec F S1024x1 .f32)) (y : S2x512.Idx) :
    ∃ pc ∈ (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) prev.1 prev.2.1 prev.2.2).2.1, y ∈ pc.1.set :=
  View.cover_of_tiledL ((kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) prev.1 prev.2.1 prev.2.2).2.1) S2x512.size (by sl_kernel_rfl) y

/-! ## Point by point -/

/-- What the output block(s) and the columns hold after the body at position `n`. -/
def outsAt0 (c : Dev nD) : (n : ℕ) → n < cfg0.N → (Vec F S2x512 .f32 × Vec F S2x512 .f32) × (Vec F S1024x1 .f32 × Vec F S1024x1 .f32 × Vec F S1024x1 .f32)
  | 0, hn => resA0 V c ⟨0, hn⟩ (Nat.zero_mod _) (by show ¬ (0 % 50 = 49); decide)
  | n + 1, hn =>
    if h0 : (n + 1) % 50 = 0 then
      if h1 : (n + 1) % 50 = 49 then False.elim (by omega)
      else resA0 V c ⟨n + 1, hn⟩ h0 h1
    else
      if h1 : (n + 1) % 50 = 49 then resC0 V c ⟨n + 1, hn⟩ h0 h1 (outsAt0 c n (Nat.lt_of_succ_lt hn)).2
      else resB0 V c ⟨n + 1, hn⟩ h0 h1 (outsAt0 c n (Nat.lt_of_succ_lt hn)).2

theorem outsAt0_A (c : Dev nD) (t : Fin cfg0.N) (h0 : t.val % 50 = 0) (h1 : ¬t.val % 50 = 49) :
    outsAt0 V c t.val t.isLt = resA0 V c t h0 h1 := by
  obtain ⟨n, hn⟩ := t
  cases n with
  | zero => rfl
  | succ n => exact (dif_pos h0).trans ((dif_neg h1).trans rfl)
theorem outsAt0_B (c : Dev nD) (t : Fin cfg0.N) (h0 : ¬t.val % 50 = 0) (h1 : ¬t.val % 50 = 49) :
    outsAt0 V c t.val t.isLt = resB0 V c t h0 h1 (outsAt0 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)
theorem outsAt0_C (c : Dev nD) (t : Fin cfg0.N) (h0 : ¬t.val % 50 = 0) (h1 : t.val % 50 = 49) :
    outsAt0 V c t.val t.isLt = resC0 V c t h0 h1 (outsAt0 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

/-- The scoped buffers of the other region, at anything. -/
def Rest0 (c : Dev nD) : sProp 𝕄 := iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

theorem PhiA0_eq' (c : Dev nD) :
    (Pipeline.ΦA spec0 c : sProp 𝕄) = iprop(iprop((∃ d, owns (c : Thread nD τ) scM0_0 fullShare d) ∗ (∃ d, owns (c : Thread nD τ) scM0_1 fullShare d) ∗ (∃ d, owns (c : Thread nD τ) scM0_2 fullShare d) ∗ Rest0 (F := F) c) ∗ (∃ r, prngReg c r)) := by
  unfold Rest0; exact PhiA0_eq c

/-- Between points: the columns at what the point before left, the rest at anything. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2.1) ∗ owns (c : Thread nD τ) scM0_2 fullShare ((outsAt0 V c n hn).2.2.2) ∗ Rest0 (F := F) c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2.1) ∗ owns (c : Thread nD τ) scM0_1 fullShare ((outsAt0 V c n hn).2.2.1) ∗ owns (c : Thread nD τ) scM0_2 fullShare ((outsAt0 V c n hn).2.2.2) ∗ Rest0 (F := F) c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2.1) ∗ owns (c : Thread nD τ) scM0_1 fullShare ((outsAt0 V c (n - 1) (by omega)).2.2.1) ∗ owns (c : Thread nD τ) scM0_2 fullShare ((outsAt0 V c (n - 1) (by omega)).2.2.2) ∗ Rest0 (F := F) c) ∗ (∃ r, prngReg c r)) := by
  cases n with
  | zero => exact absurd rfl hz
  | succ n => rfl

/-! ## The pipeline's proof data -/

def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1.1
    | ⟨3, _⟩ => (outsAt0 V c t.val t.isLt).1.2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1.1 := by dsimp only [dat0]
theorem after0_3 (c : Dev nD) (t : Fin cfg0.N) : (dat0 V c).after 3 t = (outsAt0 V c t.val t.isLt).1.2 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 8000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 100 := lt_of_lt_of_eq t.isLt (show cfg0.N = 100 from N_0)
  by_cases h0 : t.val % 50 = 0
  · have h1 : ¬t.val % 50 = 49 := by omega
    rw [show (dat0 V c).leavesExact 0 t = owns (c : Thread nD τ) (ms0_0 t) fullShare ((dat0 V c).after 0 t) from by
      unfold Dat.leavesExact; rw [liveAt0_0 t], after0_0]
    rw [show (dat0 V c).leavesExact 1 t = owns (c : Thread nD τ) (ms0_1 t) fullShare ((dat0 V c).after 1 t) from by
      unfold Dat.leavesExact; rw [liveAt0_1 t], after0_1]
    rw [Dat.leavesExact_idle (dat0 V c) 2 t (idleAt0_2 t (fun h => h1 ((hcond0_1 t).mp h))) (noFlush0_2 t (fun h => h1 ((hcond0_1 t).mp h)))]
    rw [Dat.leavesExact_idle (dat0 V c) 3 t (idleAt0_3 t (fun h => h1 ((hcond0_1 t).mp h))) (noFlush0_3 t (fun h => h1 ((hcond0_1 t).mp h)))]
    rw [outsAt0_A V c t h0 h1]
    unfold resA0; (try dsimp only)
    by_cases hz : t.val = 0
    · rw [PhiS0_castSucc V c t, PhiS0_zero V c _ _ hz, PhiA0_eq']
      iintro ⟨⟨⟨HS0, HS1, HS2, HR⟩, Hg⟩, Ho, ⟨%d0, H0⟩, ⟨%d1, H1⟩, ⟨%d2, H2⟩, ⟨%d3, H3⟩⟩
      iapply ((kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t)).2.2.2 _ _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HS0 HS1 HS2 HR Hg]
      · isplitr [Hg]
        swap; · iexact Hg
        isplitl [HS0]
        · unfold owns; iexists _; isplitr
          swap; · iexact HS0
          ipureintro; exact View.read_writes_of_cover _ _ _ _ _ (scoverA0_0 V c t h0 h1)
        isplitl [HS1]
        · unfold owns; iexists _; isplitr
          swap; · iexact HS1
          ipureintro; exact View.read_writes_of_cover _ _ _ _ _ (scoverA0_1 V c t h0 h1)
        isplitl [HS2]
        · unfold owns; iexists _; isplitr
          swap; · iexact HS2
          ipureintro; exact View.read_writes_of_cover _ _ _ _ _ (scoverA0_2 V c t h0 h1)
        iexact HR
      isplitl [Ho]; · iexact Ho
      isplitl [H0]; · iexact H0
      isplitl [H1]; · iexact H1
      isplitl [H2]; · iexists _; iexact H2
      iexists _; iexact H3
    · rw [PhiS0_castSucc V c t, PhiS0_pos V c _ _ hz]
      iintro ⟨⟨⟨HS0, HS1, HS2, HR⟩, Hg⟩, Ho, ⟨%d0, H0⟩, ⟨%d1, H1⟩, ⟨%d2, H2⟩, ⟨%d3, H3⟩⟩
      iapply ((kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t)).2.2.2 _ _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [HS0 HS1 HS2 HR Hg]
      · isplitr [Hg]
        swap; · iexact Hg
        isplitl [HS0]
        · unfold owns; iexists _; isplitr
          swap; · iexact HS0
          ipureintro; exact View.read_writes_of_cover _ _ _ _ _ (scoverA0_0 V c t h0 h1)
        isplitl [HS1]
        · unfold owns; iexists _; isplitr
          swap; · iexact HS1
          ipureintro; exact View.read_writes_of_cover _ _ _ _ _ (scoverA0_1 V c t h0 h1)
        isplitl [HS2]
        · unfold owns; iexists _; isplitr
          swap; · iexact HS2
          ipureintro; exact View.read_writes_of_cover _ _ _ _ _ (scoverA0_2 V c t h0 h1)
        iexact HR
      isplitl [Ho]; · iexact Ho
      isplitl [H0]; · iexact H0
      isplitl [H1]; · iexact H1
      isplitl [H2]; · iexists _; iexact H2
      iexists _; iexact H3
  · have hz : t.val ≠ 0 := fun e => h0 (by rw [e])
    rw [PhiS0_castSucc V c t, PhiS0_pos V c _ _ hz]
    by_cases h1 : t.val % 50 = 49
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t ((hcond0_1 t).mpr h1)], after0_2]
      rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      unfold resC0; (try dsimp only)
      iintro ⟨⟨⟨HS0, HS1, HS2, HR⟩, Hg⟩, Ho, ⟨%d0, H0⟩, ⟨%d1, H1⟩, ⟨%d2, H2⟩, ⟨%d3, H3⟩⟩
      iapply ((kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2).2.2.2.2.2 Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      isplitl [HS2]; · iexact HS2
      iintro ⟨H0, H1, ⟨%e2, H2⟩, ⟨%e3, H3⟩, ⟨%es0, HS0⟩, ⟨%es1, HS1⟩, ⟨%es2, HS2⟩⟩
      isplitl [HS0 HS1 HS2 HR Hg]
      · isplitr [Hg]
        swap; · iexact Hg
        isplitl [HS0]
        · unfold owns; iexists _; isplitr
          swap; · iexact HS0
          ipureintro; exact View.read_writes_of_cover _ _ _ _ _ (scoverC0_0 V c t h0 h1 _)
        isplitl [HS1]
        · unfold owns; iexists _; isplitr
          swap; · iexact HS1
          ipureintro; exact View.read_writes_of_cover _ _ _ _ _ (scoverC0_1 V c t h0 h1 _)
        isplitl [HS2]
        · unfold owns; iexists _; isplitr
          swap; · iexact HS2
          ipureintro; exact View.read_writes_of_cover _ _ _ _ _ (scoverC0_2 V c t h0 h1 _)
        iexact HR
      isplitl [Ho]; · iexact Ho
      isplitl [H0]; · iexact H0
      isplitl [H1]; · iexact H1
      isplitl [H2]
      · unfold owns; iexists _; isplitr
        swap; · iexact H2
        ipureintro; exact View.read_writes_of_cover _ _ _ _ _ (coverC0_2 V c t h0 h1 _)
      unfold owns; iexists _; isplitr
      swap; · iexact H3
      ipureintro; exact View.read_writes_of_cover _ _ _ _ _ (coverC0_3 V c t h0 h1 _)
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2 t (fun h => h1 ((hcond0_1 t).mp h))) (noFlush0_2 t (fun h => h1 ((hcond0_1 t).mp h)))]
      rw [Dat.leavesExact_idle (dat0 V c) 3 t (idleAt0_3 t (fun h => h1 ((hcond0_1 t).mp h))) (noFlush0_3 t (fun h => h1 ((hcond0_1 t).mp h)))]
      rw [outsAt0_B V c t h0 h1]
      unfold resB0; (try dsimp only)
      iintro ⟨⟨⟨HS0, HS1, HS2, HR⟩, Hg⟩, Ho, ⟨%d0, H0⟩, ⟨%d1, H1⟩, ⟨%d2, H2⟩, ⟨%d3, H3⟩⟩
      iapply ((kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2).2.2.2 _ _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HS0 HS1 HS2 HR Hg]
      · isplitr [Hg]
        swap; · iexact Hg
        isplitl [HS0]
        · unfold owns; iexists _; isplitr
          swap; · iexact HS0
          ipureintro; exact View.read_writes_of_cover _ _ _ _ _ (scoverB0_0 V c t h0 h1 _)
        isplitl [HS1]
        · unfold owns; iexists _; isplitr
          swap; · iexact HS1
          ipureintro; exact View.read_writes_of_cover _ _ _ _ _ (scoverB0_1 V c t h0 h1 _)
        isplitl [HS2]
        · unfold owns; iexists _; isplitr
          swap; · iexact HS2
          ipureintro; exact View.read_writes_of_cover _ _ _ _ _ (scoverB0_2 V c t h0 h1 _)
        iexact HR
      isplitl [Ho]; · iexact Ho
      isplitl [H0]; · iexact H0
      isplitl [H1]; · iexact H1
      isplitl [H2]; · iexists _; iexact H2
      iexists _; iexact H3

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht]
  rw [PhiA0_eq']
  iintro ⟨⟨HS0, HS1, HS2, HR⟩, Hg⟩
  isplitr [Hg]
  swap; · iexact Hg
  isplitl [HS0]; · iexists _; iexact HS0
  isplitl [HS1]; · iexists _; iexact HS1
  isplitl [HS2]; · iexists _; iexact HS2
  iexact HR

theorem hout0 (c : Dev nD) : (dat0 V c).Φ (Fin.last cfg0.N) ⊢ Pipeline.ΦA spec0 c :=
  Phi_out0 V c _ (by rw [Fin.val_last]; have : cfg0.N = 100 := N_0; omega)

end Region

end Cert.Kernel.Hand

end
-- ==== Proof.KB.Body1.lean ====
/-
  Region 1: what the running columns and the output block(s) hold after each grid point, the invariant that carries
  the columns from one point to the next, the proof data of the pipeline, and the body's obligation at every point.

  After a point of the first vocabulary tile the columns hold what the reset-and-update leaves; after any other
  point, what the update leaves of the columns the point before left; the output block(s) are written at the
  points of the last tile only.  Between points the three (two) columns are owned at exactly those contents; the
  other scoped buffers and the generator register ride along at anything.
-/
import proofs.«154765_j27539330302083_2_alg».proof.Proof.KB.Run1C

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

section Region
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

/-- After a point of the first tile: the output block(s) untouched (a placeholder nothing reads), the columns at the
    pieces the body wrote. -/
def resA1 (c : Dev nD) (t : Fin cfg1.N) (h0 : t.val % 50 = 0) (h1 : ¬t.val % 50 = 49) : Vec F S2x512 .f32 × (Vec F S1024x1 .f32 × Vec F S1024x1 .f32) :=
  (VO1_2.read (Elt F) (VO1_2.writes (Elt F) VO1_2.junk []), (VS1_0.read (Elt F) (VS1_0.writes (Elt F) VS1_0.junk (kernelRun1_A c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (iblk1 V c 0 t) (iblk1 V c 1 t)).1), VS1_1.read (Elt F) (VS1_1.writes (Elt F) VS1_1.junk (kernelRun1_A c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (iblk1 V c 0 t) (iblk1 V c 1 t)).2.1)))
/-- After a point of a middle tile, from what the point before left in the columns. -/
def resB1 (c : Dev nD) (t : Fin cfg1.N) (h0 : ¬t.val % 50 = 0) (h1 : ¬t.val % 50 = 49) (prev : (Vec F S1024x1 .f32 × Vec F S1024x1 .f32)) : Vec F S2x512 .f32 × (Vec F S1024x1 .f32 × Vec F S1024x1 .f32) :=
  (VO1_2.read (Elt F) (VO1_2.writes (Elt F) VO1_2.junk []), (VS1_0.read (Elt F) (VS1_0.writes (Elt F) VS1_0.junk (kernelRun1_B c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) (fun h => h1 ((hcond1_1 t).mp h)) (iblk1 V c 0 t) (iblk1 V c 1 t) prev.1 prev.2).1), VS1_1.read (Elt F) (VS1_1.writes (Elt F) VS1_1.junk (kernelRun1_B c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) (fun h => h1 ((hcond1_1 t).mp h)) (iblk1 V c 0 t) (iblk1 V c 1 t) prev.1 prev.2).2.1)))
/-- After a point of the last tile, from what the point before left in the columns. -/
def resC1 (c : Dev nD) (t : Fin cfg1.N) (h0 : ¬t.val % 50 = 0) (h1 : t.val % 50 = 49) (prev : (Vec F S1024x1 .f32 × Vec F S1024x1 .f32)) : Vec F S2x512 .f32 × (Vec F S1024x1 .f32 × Vec F S1024x1 .f32) :=
  (VO1_2.read (Elt F) (VO1_2.writes (Elt F) VO1_2.junk (kernelRun1_C c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (iblk1 V c 1 t) prev.1 prev.2).1), (VS1_0.read (Elt F) (VS1_0.writes (Elt F) VS1_0.junk (kernelRun1_C c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (iblk1 V c 1 t) prev.1 prev.2).2.1), VS1_1.read (Elt F) (VS1_1.writes (Elt F) VS1_1.junk (kernelRun1_C c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (iblk1 V c 1 t) prev.1 prev.2).2.2.1)))

theorem scoverA1_0 (c : Dev nD) (t : Fin cfg1.N) (h0 : t.val % 50 = 0) (h1 : ¬t.val % 50 = 49) (y : S1024x1.Idx) :
    ∃ pc ∈ (kernelRun1_A c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (iblk1 V c 0 t) (iblk1 V c 1 t)).1, y ∈ pc.1.set :=
  View.cover_of_tiledL ((kernelRun1_A c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (iblk1 V c 0 t) (iblk1 V c 1 t)).1) S1024x1.size (by sl_kernel_rfl) y
theorem scoverB1_0 (c : Dev nD) (t : Fin cfg1.N) (h0 : ¬t.val % 50 = 0) (h1 : ¬t.val % 50 = 49) (prev : (Vec F S1024x1 .f32 × Vec F S1024x1 .f32)) (y : S1024x1.Idx) :
    ∃ pc ∈ (kernelRun1_B c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) (fun h => h1 ((hcond1_1 t).mp h)) (iblk1 V c 0 t) (iblk1 V c 1 t) prev.1 prev.2).1, y ∈ pc.1.set :=
  View.cover_of_tiledL ((kernelRun1_B c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) (fun h => h1 ((hcond1_1 t).mp h)) (iblk1 V c 0 t) (iblk1 V c 1 t) prev.1 prev.2).1) S1024x1.size (by sl_kernel_rfl) y
theorem scoverC1_0 (c : Dev nD) (t : Fin cfg1.N) (h0 : ¬t.val % 50 = 0) (h1 : t.val % 50 = 49) (prev : (Vec F S1024x1 .f32 × Vec F S1024x1 .f32)) (y : S1024x1.Idx) :
    ∃ pc ∈ (kernelRun1_C c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (iblk1 V c 1 t) prev.1 prev.2).2.1, y ∈ pc.1.set :=
  View.cover_of_tiledL ((kernelRun1_C c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (iblk1 V c 1 t) prev.1 prev.2).2.1) S1024x1.size (by sl_kernel_rfl) y

theorem scoverA1_1 (c : Dev nD) (t : Fin cfg1.N) (h0 : t.val % 50 = 0) (h1 : ¬t.val % 50 = 49) (y : S1024x1.Idx) :
    ∃ pc ∈ (kernelRun1_A c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (iblk1 V c 0 t) (iblk1 V c 1 t)).2.1, y ∈ pc.1.set :=
  View.cover_of_tiledL ((kernelRun1_A c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (iblk1 V c 0 t) (iblk1 V c 1 t)).2.1) S1024x1.size (by sl_kernel_rfl) y
theorem scoverB1_1 (c : Dev nD) (t : Fin cfg1.N) (h0 : ¬t.val % 50 = 0) (h1 : ¬t.val % 50 = 49) (prev : (Vec F S1024x1 .f32 × Vec F S1024x1 .f32)) (y : S1024x1.Idx) :
    ∃ pc ∈ (kernelRun1_B c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) (fun h => h1 ((hcond1_1 t).mp h)) (iblk1 V c 0 t) (iblk1 V c 1 t) prev.1 prev.2).2.1, y ∈ pc.1.set :=
  View.cover_of_tiledL ((kernelRun1_B c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) (fun h => h1 ((hcond1_1 t).mp h)) (iblk1 V c 0 t) (iblk1 V c 1 t) prev.1 prev.2).2.1) S1024x1.size (by sl_kernel_rfl) y
theorem scoverC1_1 (c : Dev nD) (t : Fin cfg1.N) (h0 : ¬t.val % 50 = 0) (h1 : t.val % 50 = 49) (prev : (Vec F S1024x1 .f32 × Vec F S1024x1 .f32)) (y : S1024x1.Idx) :
    ∃ pc ∈ (kernelRun1_C c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (iblk1 V c 1 t) prev.1 prev.2).2.2.1, y ∈ pc.1.set :=
  View.cover_of_tiledL ((kernelRun1_C c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (iblk1 V c 1 t) prev.1 prev.2).2.2.1) S1024x1.size (by sl_kernel_rfl) y

theorem coverC1_2 (c : Dev nD) (t : Fin cfg1.N) (h0 : ¬t.val % 50 = 0) (h1 : t.val % 50 = 49) (prev : (Vec F S1024x1 .f32 × Vec F S1024x1 .f32)) (y : S2x512.Idx) :
    ∃ pc ∈ (kernelRun1_C c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (iblk1 V c 1 t) prev.1 prev.2).1, y ∈ pc.1.set :=
  View.cover_of_tiledL ((kernelRun1_C c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (iblk1 V c 1 t) prev.1 prev.2).1) S2x512.size (by sl_kernel_rfl) y

/-! ## Point by point -/

/-- What the output block(s) and the columns hold after the body at position `n`. -/
def outsAt1 (c : Dev nD) : (n : ℕ) → n < cfg1.N → Vec F S2x512 .f32 × (Vec F S1024x1 .f32 × Vec F S1024x1 .f32)
  | 0, hn => resA1 V c ⟨0, hn⟩ (Nat.zero_mod _) (by show ¬ (0 % 50 = 49); decide)
  | n + 1, hn =>
    if h0 : (n + 1) % 50 = 0 then
      if h1 : (n + 1) % 50 = 49 then False.elim (by omega)
      else resA1 V c ⟨n + 1, hn⟩ h0 h1
    else
      if h1 : (n + 1) % 50 = 49 then resC1 V c ⟨n + 1, hn⟩ h0 h1 (outsAt1 c n (Nat.lt_of_succ_lt hn)).2
      else resB1 V c ⟨n + 1, hn⟩ h0 h1 (outsAt1 c n (Nat.lt_of_succ_lt hn)).2

theorem outsAt1_A (c : Dev nD) (t : Fin cfg1.N) (h0 : t.val % 50 = 0) (h1 : ¬t.val % 50 = 49) :
    outsAt1 V c t.val t.isLt = resA1 V c t h0 h1 := by
  obtain ⟨n, hn⟩ := t
  cases n with
  | zero => rfl
  | succ n => exact (dif_pos h0).trans ((dif_neg h1).trans rfl)
theorem outsAt1_B (c : Dev nD) (t : Fin cfg1.N) (h0 : ¬t.val % 50 = 0) (h1 : ¬t.val % 50 = 49) :
    outsAt1 V c t.val t.isLt = resB1 V c t h0 h1 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)
theorem outsAt1_C (c : Dev nD) (t : Fin cfg1.N) (h0 : ¬t.val % 50 = 0) (h1 : t.val % 50 = 49) :
    outsAt1 V c t.val t.isLt = resC1 V c t h0 h1 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

/-- The scoped buffers of the other region, at anything. -/
def Rest1 (c : Dev nD) : sProp 𝕄 := iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f))

theorem PhiA1_flat (c : Dev nD) :
    (Pipeline.ΦA spec1 c : sProp 𝕄) = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

theorem PhiA1_eq' (c : Dev nD) :
    (Pipeline.ΦA spec1 c : sProp 𝕄) ⊣⊢ iprop(iprop((∃ d, owns (c : Thread nD τ) scM1_0 fullShare d) ∗ (∃ d, owns (c : Thread nD τ) scM1_1 fullShare d) ∗ Rest1 (F := F) c) ∗ (∃ r, prngReg c r)) := by
  rw [PhiA1_flat]; unfold Rest1
  constructor
  · iintro ⟨⟨A0, A1, A2, A3, A4, A5, A6, A7, A8, A9, A10, S0, S1⟩, Hg⟩
    isplitr [Hg]
    · isplitl [S0]; · iexact S0
      isplitl [S1]; · iexact S1
      isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      iexact A10
    iexact Hg
  · iintro ⟨⟨S0, S1, A0, A1, A2, A3, A4, A5, A6, A7, A8, A9, A10⟩, Hg⟩
    isplitr [Hg]
    · isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      isplitl [A10]; · iexact A10
      isplitl [S0]; · iexact S0
      iexact S1
    iexact Hg

/-- Between points: the columns at what the point before left, the rest at anything. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2.1) ∗ owns (c : Thread nD τ) scM1_1 fullShare ((outsAt1 V c n hn).2.2) ∗ Rest1 (F := F) c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1_0 fullShare ((outsAt1 V c n hn).2.1) ∗ owns (c : Thread nD τ) scM1_1 fullShare ((outsAt1 V c n hn).2.2) ∗ Rest1 (F := F) c) ∗ (∃ r, prngReg c r)) := rfl
theorem PhiS1_pos (c : Dev nD) (n : ℕ) (h : n ≤ cfg1.N) (hz : n ≠ 0) :
    PhiS1 V c n h = iprop(iprop(owns (c : Thread nD τ) scM1_0 fullShare ((outsAt1 V c (n - 1) (by omega)).2.1) ∗ owns (c : Thread nD τ) scM1_1 fullShare ((outsAt1 V c (n - 1) (by omega)).2.2) ∗ Rest1 (F := F) c) ∗ (∃ r, prngReg c r)) := by
  cases n with
  | zero => exact absurd rfl hz
  | succ n => rfl

/-! ## The pipeline's proof data -/

def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 100 := lt_of_lt_of_eq t.isLt (show cfg1.N = 100 from N_1)
  by_cases h0 : t.val % 50 = 0
  · have h1 : ¬t.val % 50 = 49 := by omega
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [Dat.leavesExact_idle (dat1 V c) 2 t (idleAt1_2 t (fun h => h1 ((hcond1_1 t).mp h))) (noFlush1_2 t (fun h => h1 ((hcond1_1 t).mp h)))]
    rw [outsAt1_A V c t h0 h1]
    unfold resA1; (try dsimp only)
    by_cases hz : t.val = 0
    · rw [PhiS1_castSucc V c t, PhiS1_zero V c _ _ hz]
      refine (sep_mono (PhiA1_eq' (F := F) c).mp .rfl).trans ?_
      iintro ⟨⟨⟨HS0, HS1, HR⟩, Hg⟩, Ho, ⟨%d0, H0⟩, ⟨%d1, H1⟩, ⟨%d2, H2⟩⟩
      iapply ((kernelRun1_A c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 HR Hg]
      · isplitr [Hg]
        swap; · iexact Hg
        isplitl [HS0]
        · unfold owns; iexists _; isplitr
          swap; · iexact HS0
          ipureintro; exact View.read_writes_of_cover _ _ _ _ _ (scoverA1_0 V c t h0 h1)
        isplitl [HS1]
        · unfold owns; iexists _; isplitr
          swap; · iexact HS1
          ipureintro; exact View.read_writes_of_cover _ _ _ _ _ (scoverA1_1 V c t h0 h1)
        iexact HR
      isplitl [Ho]; · iexact Ho
      isplitl [H0]; · iexact H0
      isplitl [H1]; · iexact H1
      iexists _; iexact H2
    · rw [PhiS1_castSucc V c t, PhiS1_pos V c _ _ hz]
      iintro ⟨⟨⟨HS0, HS1, HR⟩, Hg⟩, Ho, ⟨%d0, H0⟩, ⟨%d1, H1⟩, ⟨%d2, H2⟩⟩
      iapply ((kernelRun1_A c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS0]; · iexists _; iexact HS0
      isplitl [HS1]; · iexists _; iexact HS1
      iintro ⟨H0, H1, H2, ⟨%es0, HS0⟩, ⟨%es1, HS1⟩⟩
      isplitl [HS0 HS1 HR Hg]
      · isplitr [Hg]
        swap; · iexact Hg
        isplitl [HS0]
        · unfold owns; iexists _; isplitr
          swap; · iexact HS0
          ipureintro; exact View.read_writes_of_cover _ _ _ _ _ (scoverA1_0 V c t h0 h1)
        isplitl [HS1]
        · unfold owns; iexists _; isplitr
          swap; · iexact HS1
          ipureintro; exact View.read_writes_of_cover _ _ _ _ _ (scoverA1_1 V c t h0 h1)
        iexact HR
      isplitl [Ho]; · iexact Ho
      isplitl [H0]; · iexact H0
      isplitl [H1]; · iexact H1
      iexists _; iexact H2
  · have hz : t.val ≠ 0 := fun e => h0 (by rw [e])
    rw [PhiS1_castSucc V c t, PhiS1_pos V c _ _ hz]
    by_cases h1 : t.val % 50 = 49
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold resC1; (try dsimp only)
      iintro ⟨⟨⟨HS0, HS1, HR⟩, Hg⟩, Ho, ⟨%d0, H0⟩, ⟨%d1, H1⟩, ⟨%d2, H2⟩⟩
      iapply ((kernelRun1_C c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2).2.2.2 Set.univ _)
      isplitl [H0]; · iexact H0
      isplitl [H1]; · iexact H1
      isplitl [H2]; · iexists _; iexact H2
      isplitl [HS0]; · iexact HS0
      isplitl [HS1]; · iexact HS1
      iintro ⟨H0, H1, ⟨%e2, H2⟩, ⟨%es0, HS0⟩, ⟨%es1, HS1⟩⟩
      isplitl [HS0 HS1 HR Hg]
      · isplitr [Hg]
        swap; · iexact Hg
        isplitl [HS0]
        · unfold owns; iexists _; isplitr
          swap; · iexact HS0
          ipureintro; exact View.read_writes_of_cover _ _ _ _ _ (scoverC1_0 V c t h0 h1 _)
        isplitl [HS1]
        · unfold owns; iexists _; isplitr
          swap; · iexact HS1
          ipureintro; exact View.read_writes_of_cover _ _ _ _ _ (scoverC1_1 V c t h0 h1 _)
        iexact HR
      isplitl [Ho]; · iexact Ho
      isplitl [H0]; · iexact H0
      isplitl [H1]; · iexact H1
      unfold owns; iexists _; isplitr
      swap; · iexact H2
      ipureintro; exact View.read_writes_of_cover _ _ _ _ _ (coverC1_2 V c t h0 h1 _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2 t (fun h => h1 ((hcond1_1 t).mp h))) (noFlush1_2 t (fun h => h1 ((hcond1_1 t).mp h)))]
      rw [outsAt1_B V c t h0 h1]
      unfold resB1; (try dsimp only)
      iintro ⟨⟨⟨HS0, HS1, HR⟩, Hg⟩, Ho, ⟨%d0, H0⟩, ⟨%d1, H1⟩, ⟨%d2, H2⟩⟩
      iapply ((kernelRun1_B c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2).2.2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 HR Hg]
      · isplitr [Hg]
        swap; · iexact Hg
        isplitl [HS0]
        · unfold owns; iexists _; isplitr
          swap; · iexact HS0
          ipureintro; exact View.read_writes_of_cover _ _ _ _ _ (scoverB1_0 V c t h0 h1 _)
        isplitl [HS1]
        · unfold owns; iexists _; isplitr
          swap; · iexact HS1
          ipureintro; exact View.read_writes_of_cover _ _ _ _ _ (scoverB1_1 V c t h0 h1 _)
        iexact HR
      isplitl [Ho]; · iexact Ho
      isplitl [H0]; · iexact H0
      isplitl [H1]; · iexact H1
      iexists _; iexact H2

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  refine (show _ ⊢ _ from ?_).trans (PhiA1_eq' (F := F) c).mpr
  iintro ⟨⟨HS0, HS1, HR⟩, Hg⟩
  isplitr [Hg]
  swap; · iexact Hg
  isplitl [HS0]; · iexists _; iexact HS0
  isplitl [HS1]; · iexists _; iexact HS1
  iexact HR

theorem hout1 (c : Dev nD) : (dat1 V c).Φ (Fin.last cfg1.N) ⊢ Pipeline.ΦA spec1 c :=
  Phi_out1 V c _ (by rw [Fin.val_last]; have : cfg1.N = 100 := N_1; omega)

end Region

end Cert.Kernel.Hand

end
-- ==== Proof.KB.Segs.lean ====
/-
  The whole program as a list of segments — host operations, the first kernel, a host operation, the second kernel,
  the host operations that reduce the kernels' outputs to the five scalars — and its run: every weakly fair execution
  terminates, and at the end every unscoped buffer of each core holds what folding the segments over the launch memory
  gives: the host stretches by their operations, each kernel by what its pipeline leaves in its arrays.
-/
import proofs.«154765_j27539330302083_2_alg».proof.Proof.KB.Body0
import proofs.«154765_j27539330302083_2_alg».proof.Proof.KB.Body1
import proofs.«154765_j27539330302083_2_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Core `c`'s buffers at launch. -/
abbrev W0 (c : Dev nD) : Valuation τ sig (Elt F) := fun b => m (c, b)
/-- After the host operations before the first kernel (the mask converted, the activations rounded). -/
abbrev W1 (c : Dev nD) : Valuation τ sig (Elt F) := StableHlo.after hostOps0 (W0 m c)
abbrev V1 : (c : Dev nD) → (b : Ref sig .tc) → Buf (Elt F) ((c : Thread nD τ).loc b) := fun c b => W1 m c b
/-- After the first kernel: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the host operation between the kernels (the reference model's activations rounded). -/
abbrev W3 (c : Dev nD) : Valuation τ sig (Elt F) := StableHlo.after hostOps1 (W2 m c)
abbrev V3 : (c : Dev nD) → (b : Ref sig .tc) → Buf (Elt F) ((c : Thread nD τ).loc b) := fun c b => W3 m c b
/-- After the second kernel. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
/-- After each stretch of the host operations that follow the kernels. -/
abbrev W5 (c : Dev nD) : Valuation τ sig (Elt F) := StableHlo.after hostOps2 (W4 m c)
abbrev W6 (c : Dev nD) : Valuation τ sig (Elt F) := StableHlo.after hostOps2_1 (W5 m c)
abbrev W7 (c : Dev nD) : Valuation τ sig (Elt F) := StableHlo.after hostOps2_2 (W6 m c)
abbrev W8 (c : Dev nD) : Valuation τ sig (Elt F) := StableHlo.after hostOps2_3 (W7 m c)
abbrev W9 (c : Dev nD) : Valuation τ sig (Elt F) := StableHlo.after hostOps2_4 (W8 m c)
abbrev W10 (c : Dev nD) : Valuation τ sig (Elt F) := StableHlo.after hostOps2_5 (W9 m c)
abbrev W11 (c : Dev nD) : Valuation τ sig (Elt F) := StableHlo.after hostOps2_6 (W10 m c)
abbrev W12 (c : Dev nD) : Valuation τ sig (Elt F) := StableHlo.after hostOps2_7 (W11 m c)
abbrev W13 (c : Dev nD) : Valuation τ sig (Elt F) := StableHlo.after hostOps2_8 (W12 m c)

abbrev adm : (p : Fin 2) → (pcfgs (F := F) p).Adm := fun p => (cfgs p).toPCfg_adm
/-- Both pipelines' proof data, each at its kernel's entry contents. -/
def pdats : (p : Fin 2) → (c : Dev nD) → Dat τ (Elt F) Unit ℕ (Pipeline.UD sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Kernel 0 as a segment: entered from every unscoped buffer at the contents before it, left at the contents
    after it; its arrays split out of the unscoped buffers and put back at what the pipeline leaves; the generator
    register and the scoped rest into the invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec0 c from ?_).trans (hin0 (V1 m) c)
    unfold Pipeline.ΦA
    iintro ⟨Hp, -, Hr⟩
    isplitl [Hr]; · iexact Hr
    iexact Hp
  hout c := by
    refine (hout0 (V1 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel 1 as a segment: entered from every unscoped buffer at the contents before it, left at the contents
    after it; its arrays split out of the unscoped buffers and put back at what the pipeline leaves; the generator
    register and the scoped rest into the invariant and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := Pipeline.UD sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec1 c from ?_).trans (hin1 (V3 m) c)
    unfold Pipeline.ΦA
    iintro ⟨Hp, -, Hr⟩
    isplitl [Hr]; · iexact Hr
    iexact Hp
  hout c := by
    refine (hout1 (V3 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .host (hseg hostOps2_1 hostOps2_1_sub hostOps2_1_fresh (W5 m)),
    .host (hseg hostOps2_2 hostOps2_2_sub hostOps2_2_fresh (W6 m)),
    .host (hseg hostOps2_3 hostOps2_3_sub hostOps2_3_fresh (W7 m)),
    .host (hseg hostOps2_4 hostOps2_4_sub hostOps2_4_fresh (W8 m)),
    .host (hseg hostOps2_5 hostOps2_5_sub hostOps2_5_fresh (W9 m)),
    .host (hseg hostOps2_6 hostOps2_6_sub hostOps2_6_fresh (W10 m)),
    .host (hseg hostOps2_7 hostOps2_7_sub hostOps2_7_fresh (W11 m)),
    .host (hseg hostOps2_8 hostOps2_8_sub hostOps2_8_fresh (W12 m)) ]

set_option backward.isDefEq.respectTransparency.types false in
/-- THE RUN: from any memory with zero counters every weakly fair execution terminates, and every final memory holds, at
    each unscoped buffer of each core, the fold of the segments over the launch memory. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W13 m c b) :=
  Pipeline.θ_run_regions_kit (pcfgs (F := F)) adm (pdats m) () cellOf_inj embL defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6,
          StableHlo.seq hostOps2_7,
          StableHlo.seq hostOps2_8 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => StableHlo.held (c : Thread nD τ) (Pipeline.ucRefs τ sig) (W13 m c))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W13 m c) ∗ R c) ⊢ _
      iintro ⟨Hh, -, Ho⟩
      isplitl [Hh]; · iexact Hh
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m c b)
    (hfin := fun c s' => by
      iintro ⟨Hh, HSI⟩
      unfold StableHlo.held
      imodintro
      iapply (pointsTo_read_all (Pipeline.ucRefs τ sig) (fun b => (((c : Thread nD τ)).1, b)) (W13 m c) s')
      isplitl [Hh] <;> iassumption)
    (hQ := fun s h => h)

end Cert.Kernel.Hand

end
-- ==== Proof.KB.Frame.lean ====
/-
  The argument arrays end as launched: no host operation writes one, and a kernel only reads the two it stages
  (the vocabulary matrices), whose arrays the pipeline leaves as it found them.  So the run's final memory, read at
  the six arguments, is the launch memory.
-/
import proofs.«154765_j27539330302083_2_alg».proof.Proof.KB.Segs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem W13_main_arg0 (c : Dev nD) : W13 m c (Proc.devRef .tc main_arg0) = m ((c : Thread nD τ).loc main_arg0) :=
  (StableHlo.after_of_writes_sub hostOps2_8 (W12 m c) hostOps2_8_writes (by decide) : W13 m c (Proc.devRef .tc main_arg0) = W12 m c (Proc.devRef .tc main_arg0)).trans <|
  (StableHlo.after_of_writes_sub hostOps2_7 (W11 m c) hostOps2_7_writes (by decide) : W12 m c (Proc.devRef .tc main_arg0) = W11 m c (Proc.devRef .tc main_arg0)).trans <|
  (StableHlo.after_of_writes_sub hostOps2_6 (W10 m c) hostOps2_6_writes (by decide) : W11 m c (Proc.devRef .tc main_arg0) = W10 m c (Proc.devRef .tc main_arg0)).trans <|
  (StableHlo.after_of_writes_sub hostOps2_5 (W9 m c) hostOps2_5_writes (by decide) : W10 m c (Proc.devRef .tc main_arg0) = W9 m c (Proc.devRef .tc main_arg0)).trans <|
  (StableHlo.after_of_writes_sub hostOps2_4 (W8 m c) hostOps2_4_writes (by decide) : W9 m c (Proc.devRef .tc main_arg0) = W8 m c (Proc.devRef .tc main_arg0)).trans <|
  (StableHlo.after_of_writes_sub hostOps2_3 (W7 m c) hostOps2_3_writes (by decide) : W8 m c (Proc.devRef .tc main_arg0) = W7 m c (Proc.devRef .tc main_arg0)).trans <|
  (StableHlo.after_of_writes_sub hostOps2_2 (W6 m c) hostOps2_2_writes (by decide) : W7 m c (Proc.devRef .tc main_arg0) = W6 m c (Proc.devRef .tc main_arg0)).trans <|
  (StableHlo.after_of_writes_sub hostOps2_1 (W5 m c) hostOps2_1_writes (by decide) : W6 m c (Proc.devRef .tc main_arg0) = W5 m c (Proc.devRef .tc main_arg0)).trans <|
  (StableHlo.after_of_writes_sub hostOps2 (W4 m c) hostOps2_writes (by decide) : W5 m c (Proc.devRef .tc main_arg0) = W4 m c (Proc.devRef .tc main_arg0)).trans <|
  (W4_of_ne m c main_arg0 (by decide) : W4 m c (Proc.devRef .tc main_arg0) = W3 m c (Proc.devRef .tc main_arg0)).trans <|
  (StableHlo.after_of_writes_sub hostOps1 (W2 m c) hostOps1_writes (by decide) : W3 m c (Proc.devRef .tc main_arg0) = W2 m c (Proc.devRef .tc main_arg0)).trans <|
  (W2_of_ne m c main_arg0 (by decide) : W2 m c (Proc.devRef .tc main_arg0) = W1 m c (Proc.devRef .tc main_arg0)).trans <|
  (StableHlo.after_of_writes_sub hostOps0 (W0 m c) hostOps0_writes (by decide) : W1 m c (Proc.devRef .tc main_arg0) = W0 m c (Proc.devRef .tc main_arg0))
theorem W13_main_arg1 (c : Dev nD) : W13 m c (Proc.devRef .tc main_arg1) = m ((c : Thread nD τ).loc main_arg1) :=
  (StableHlo.after_of_writes_sub hostOps2_8 (W12 m c) hostOps2_8_writes (by decide) : W13 m c (Proc.devRef .tc main_arg1) = W12 m c (Proc.devRef .tc main_arg1)).trans <|
  (StableHlo.after_of_writes_sub hostOps2_7 (W11 m c) hostOps2_7_writes (by decide) : W12 m c (Proc.devRef .tc main_arg1) = W11 m c (Proc.devRef .tc main_arg1)).trans <|
  (StableHlo.after_of_writes_sub hostOps2_6 (W10 m c) hostOps2_6_writes (by decide) : W11 m c (Proc.devRef .tc main_arg1) = W10 m c (Proc.devRef .tc main_arg1)).trans <|
  (StableHlo.after_of_writes_sub hostOps2_5 (W9 m c) hostOps2_5_writes (by decide) : W10 m c (Proc.devRef .tc main_arg1) = W9 m c (Proc.devRef .tc main_arg1)).trans <|
  (StableHlo.after_of_writes_sub hostOps2_4 (W8 m c) hostOps2_4_writes (by decide) : W9 m c (Proc.devRef .tc main_arg1) = W8 m c (Proc.devRef .tc main_arg1)).trans <|
  (StableHlo.after_of_writes_sub hostOps2_3 (W7 m c) hostOps2_3_writes (by decide) : W8 m c (Proc.devRef .tc main_arg1) = W7 m c (Proc.devRef .tc main_arg1)).trans <|
  (StableHlo.after_of_writes_sub hostOps2_2 (W6 m c) hostOps2_2_writes (by decide) : W7 m c (Proc.devRef .tc main_arg1) = W6 m c (Proc.devRef .tc main_arg1)).trans <|
  (StableHlo.after_of_writes_sub hostOps2_1 (W5 m c) hostOps2_1_writes (by decide) : W6 m c (Proc.devRef .tc main_arg1) = W5 m c (Proc.devRef .tc main_arg1)).trans <|
  (StableHlo.after_of_writes_sub hostOps2 (W4 m c) hostOps2_writes (by decide) : W5 m c (Proc.devRef .tc main_arg1) = W4 m c (Proc.devRef .tc main_arg1)).trans <|
  (W4_of_ne m c main_arg1 (by decide) : W4 m c (Proc.devRef .tc main_arg1) = W3 m c (Proc.devRef .tc main_arg1)).trans <|
  (StableHlo.after_of_writes_sub hostOps1 (W2 m c) hostOps1_writes (by decide) : W3 m c (Proc.devRef .tc main_arg1) = W2 m c (Proc.devRef .tc main_arg1)).trans <|
  ((W2_arr m c 1).trans (((dat0 (V1 m) c).arrAt_in 1 rfl _).trans (A_eq0 (V1 m) c 1)) : W2 m c (Proc.devRef .tc main_arg1) = W1 m c (Proc.devRef .tc main_arg1)).trans <|
  (StableHlo.after_of_writes_sub hostOps0 (W0 m c) hostOps0_writes (by decide) : W1 m c (Proc.devRef .tc main_arg1) = W0 m c (Proc.devRef .tc main_arg1))
theorem W13_main_arg2 (c : Dev nD) : W13 m c (Proc.devRef .tc main_arg2) = m ((c : Thread nD τ).loc main_arg2) :=
  (StableHlo.after_of_writes_sub hostOps2_8 (W12 m c) hostOps2_8_writes (by decide) : W13 m c (Proc.devRef .tc main_arg2) = W12 m c (Proc.devRef .tc main_arg2)).trans <|
  (StableHlo.after_of_writes_sub hostOps2_7 (W11 m c) hostOps2_7_writes (by decide) : W12 m c (Proc.devRef .tc main_arg2) = W11 m c (Proc.devRef .tc main_arg2)).trans <|
  (StableHlo.after_of_writes_sub hostOps2_6 (W10 m c) hostOps2_6_writes (by decide) : W11 m c (Proc.devRef .tc main_arg2) = W10 m c (Proc.devRef .tc main_arg2)).trans <|
  (StableHlo.after_of_writes_sub hostOps2_5 (W9 m c) hostOps2_5_writes (by decide) : W10 m c (Proc.devRef .tc main_arg2) = W9 m c (Proc.devRef .tc main_arg2)).trans <|
  (StableHlo.after_of_writes_sub hostOps2_4 (W8 m c) hostOps2_4_writes (by decide) : W9 m c (Proc.devRef .tc main_arg2) = W8 m c (Proc.devRef .tc main_arg2)).trans <|
  (StableHlo.after_of_writes_sub hostOps2_3 (W7 m c) hostOps2_3_writes (by decide) : W8 m c (Proc.devRef .tc main_arg2) = W7 m c (Proc.devRef .tc main_arg2)).trans <|
  (StableHlo.after_of_writes_sub hostOps2_2 (W6 m c) hostOps2_2_writes (by decide) : W7 m c (Proc.devRef .tc main_arg2) = W6 m c (Proc.devRef .tc main_arg2)).trans <|
  (StableHlo.after_of_writes_sub hostOps2_1 (W5 m c) hostOps2_1_writes (by decide) : W6 m c (Proc.devRef .tc main_arg2) = W5 m c (Proc.devRef .tc main_arg2)).trans <|
  (StableHlo.after_of_writes_sub hostOps2 (W4 m c) hostOps2_writes (by decide) : W5 m c (Proc.devRef .tc main_arg2) = W4 m c (Proc.devRef .tc main_arg2)).trans <|
  (W4_of_ne m c main_arg2 (by decide) : W4 m c (Proc.devRef .tc main_arg2) = W3 m c (Proc.devRef .tc main_arg2)).trans <|
  (StableHlo.after_of_writes_sub hostOps1 (W2 m c) hostOps1_writes (by decide) : W3 m c (Proc.devRef .tc main_arg2) = W2 m c (Proc.devRef .tc main_arg2)).trans <|
  (W2_of_ne m c main_arg2 (by decide) : W2 m c (Proc.devRef .tc main_arg2) = W1 m c (Proc.devRef .tc main_arg2)).trans <|
  (StableHlo.after_of_writes_sub hostOps0 (W0 m c) hostOps0_writes (by decide) : W1 m c (Proc.devRef .tc main_arg2) = W0 m c (Proc.devRef .tc main_arg2))
theorem W13_main_arg3 (c : Dev nD) : W13 m c (Proc.devRef .tc main_arg3) = m ((c : Thread nD τ).loc main_arg3) :=
  (StableHlo.after_of_writes_sub hostOps2_8 (W12 m c) hostOps2_8_writes (by decide) : W13 m c (Proc.devRef .tc main_arg3) = W12 m c (Proc.devRef .tc main_arg3)).trans <|
  (StableHlo.after_of_writes_sub hostOps2_7 (W11 m c) hostOps2_7_writes (by decide) : W12 m c (Proc.devRef .tc main_arg3) = W11 m c (Proc.devRef .tc main_arg3)).trans <|
  (StableHlo.after_of_writes_sub hostOps2_6 (W10 m c) hostOps2_6_writes (by decide) : W11 m c (Proc.devRef .tc main_arg3) = W10 m c (Proc.devRef .tc main_arg3)).trans <|
  (StableHlo.after_of_writes_sub hostOps2_5 (W9 m c) hostOps2_5_writes (by decide) : W10 m c (Proc.devRef .tc main_arg3) = W9 m c (Proc.devRef .tc main_arg3)).trans <|
  (StableHlo.after_of_writes_sub hostOps2_4 (W8 m c) hostOps2_4_writes (by decide) : W9 m c (Proc.devRef .tc main_arg3) = W8 m c (Proc.devRef .tc main_arg3)).trans <|
  (StableHlo.after_of_writes_sub hostOps2_3 (W7 m c) hostOps2_3_writes (by decide) : W8 m c (Proc.devRef .tc main_arg3) = W7 m c (Proc.devRef .tc main_arg3)).trans <|
  (StableHlo.after_of_writes_sub hostOps2_2 (W6 m c) hostOps2_2_writes (by decide) : W7 m c (Proc.devRef .tc main_arg3) = W6 m c (Proc.devRef .tc main_arg3)).trans <|
  (StableHlo.after_of_writes_sub hostOps2_1 (W5 m c) hostOps2_1_writes (by decide) : W6 m c (Proc.devRef .tc main_arg3) = W5 m c (Proc.devRef .tc main_arg3)).trans <|
  (StableHlo.after_of_writes_sub hostOps2 (W4 m c) hostOps2_writes (by decide) : W5 m c (Proc.devRef .tc main_arg3) = W4 m c (Proc.devRef .tc main_arg3)).trans <|
  (W4_of_ne m c main_arg3 (by decide) : W4 m c (Proc.devRef .tc main_arg3) = W3 m c (Proc.devRef .tc main_arg3)).trans <|
  (StableHlo.after_of_writes_sub hostOps1 (W2 m c) hostOps1_writes (by decide) : W3 m c (Proc.devRef .tc main_arg3) = W2 m c (Proc.devRef .tc main_arg3)).trans <|
  (W2_of_ne m c main_arg3 (by decide) : W2 m c (Proc.devRef .tc main_arg3) = W1 m c (Proc.devRef .tc main_arg3)).trans <|
  (StableHlo.after_of_writes_sub hostOps0 (W0 m c) hostOps0_writes (by decide) : W1 m c (Proc.devRef .tc main_arg3) = W0 m c (Proc.devRef .tc main_arg3))
theorem W13_main_arg4 (c : Dev nD) : W13 m c (Proc.devRef .tc main_arg4) = m ((c : Thread nD τ).loc main_arg4) :=
  (StableHlo.after_of_writes_sub hostOps2_8 (W12 m c) hostOps2_8_writes (by decide) : W13 m c (Proc.devRef .tc main_arg4) = W12 m c (Proc.devRef .tc main_arg4)).trans <|
  (StableHlo.after_of_writes_sub hostOps2_7 (W11 m c) hostOps2_7_writes (by decide) : W12 m c (Proc.devRef .tc main_arg4) = W11 m c (Proc.devRef .tc main_arg4)).trans <|
  (StableHlo.after_of_writes_sub hostOps2_6 (W10 m c) hostOps2_6_writes (by decide) : W11 m c (Proc.devRef .tc main_arg4) = W10 m c (Proc.devRef .tc main_arg4)).trans <|
  (StableHlo.after_of_writes_sub hostOps2_5 (W9 m c) hostOps2_5_writes (by decide) : W10 m c (Proc.devRef .tc main_arg4) = W9 m c (Proc.devRef .tc main_arg4)).trans <|
  (StableHlo.after_of_writes_sub hostOps2_4 (W8 m c) hostOps2_4_writes (by decide) : W9 m c (Proc.devRef .tc main_arg4) = W8 m c (Proc.devRef .tc main_arg4)).trans <|
  (StableHlo.after_of_writes_sub hostOps2_3 (W7 m c) hostOps2_3_writes (by decide) : W8 m c (Proc.devRef .tc main_arg4) = W7 m c (Proc.devRef .tc main_arg4)).trans <|
  (StableHlo.after_of_writes_sub hostOps2_2 (W6 m c) hostOps2_2_writes (by decide) : W7 m c (Proc.devRef .tc main_arg4) = W6 m c (Proc.devRef .tc main_arg4)).trans <|
  (StableHlo.after_of_writes_sub hostOps2_1 (W5 m c) hostOps2_1_writes (by decide) : W6 m c (Proc.devRef .tc main_arg4) = W5 m c (Proc.devRef .tc main_arg4)).trans <|
  (StableHlo.after_of_writes_sub hostOps2 (W4 m c) hostOps2_writes (by decide) : W5 m c (Proc.devRef .tc main_arg4) = W4 m c (Proc.devRef .tc main_arg4)).trans <|
  (W4_of_ne m c main_arg4 (by decide) : W4 m c (Proc.devRef .tc main_arg4) = W3 m c (Proc.devRef .tc main_arg4)).trans <|
  (StableHlo.after_of_writes_sub hostOps1 (W2 m c) hostOps1_writes (by decide) : W3 m c (Proc.devRef .tc main_arg4) = W2 m c (Proc.devRef .tc main_arg4)).trans <|
  (W2_of_ne m c main_arg4 (by decide) : W2 m c (Proc.devRef .tc main_arg4) = W1 m c (Proc.devRef .tc main_arg4)).trans <|
  (StableHlo.after_of_writes_sub hostOps0 (W0 m c) hostOps0_writes (by decide) : W1 m c (Proc.devRef .tc main_arg4) = W0 m c (Proc.devRef .tc main_arg4))
theorem W13_main_arg5 (c : Dev nD) : W13 m c (Proc.devRef .tc main_arg5) = m ((c : Thread nD τ).loc main_arg5) :=
  (StableHlo.after_of_writes_sub hostOps2_8 (W12 m c) hostOps2_8_writes (by decide) : W13 m c (Proc.devRef .tc main_arg5) = W12 m c (Proc.devRef .tc main_arg5)).trans <|
  (StableHlo.after_of_writes_sub hostOps2_7 (W11 m c) hostOps2_7_writes (by decide) : W12 m c (Proc.devRef .tc main_arg5) = W11 m c (Proc.devRef .tc main_arg5)).trans <|
  (StableHlo.after_of_writes_sub hostOps2_6 (W10 m c) hostOps2_6_writes (by decide) : W11 m c (Proc.devRef .tc main_arg5) = W10 m c (Proc.devRef .tc main_arg5)).trans <|
  (StableHlo.after_of_writes_sub hostOps2_5 (W9 m c) hostOps2_5_writes (by decide) : W10 m c (Proc.devRef .tc main_arg5) = W9 m c (Proc.devRef .tc main_arg5)).trans <|
  (StableHlo.after_of_writes_sub hostOps2_4 (W8 m c) hostOps2_4_writes (by decide) : W9 m c (Proc.devRef .tc main_arg5) = W8 m c (Proc.devRef .tc main_arg5)).trans <|
  (StableHlo.after_of_writes_sub hostOps2_3 (W7 m c) hostOps2_3_writes (by decide) : W8 m c (Proc.devRef .tc main_arg5) = W7 m c (Proc.devRef .tc main_arg5)).trans <|
  (StableHlo.after_of_writes_sub hostOps2_2 (W6 m c) hostOps2_2_writes (by decide) : W7 m c (Proc.devRef .tc main_arg5) = W6 m c (Proc.devRef .tc main_arg5)).trans <|
  (StableHlo.after_of_writes_sub hostOps2_1 (W5 m c) hostOps2_1_writes (by decide) : W6 m c (Proc.devRef .tc main_arg5) = W5 m c (Proc.devRef .tc main_arg5)).trans <|
  (StableHlo.after_of_writes_sub hostOps2 (W4 m c) hostOps2_writes (by decide) : W5 m c (Proc.devRef .tc main_arg5) = W4 m c (Proc.devRef .tc main_arg5)).trans <|
  ((W4_arr m c 1).trans (((dat1 (V3 m) c).arrAt_in 1 rfl _).trans (A_eq1 (V3 m) c 1)) : W4 m c (Proc.devRef .tc main_arg5) = W3 m c (Proc.devRef .tc main_arg5)).trans <|
  (StableHlo.after_of_writes_sub hostOps1 (W2 m c) hostOps1_writes (by decide) : W3 m c (Proc.devRef .tc main_arg5) = W2 m c (Proc.devRef .tc main_arg5)).trans <|
  (W2_of_ne m c main_arg5 (by decide) : W2 m c (Proc.devRef .tc main_arg5) = W1 m c (Proc.devRef .tc main_arg5)).trans <|
  (StableHlo.after_of_writes_sub hostOps0 (W0 m c) hostOps0_writes (by decide) : W1 m c (Proc.devRef .tc main_arg5) = W0 m c (Proc.devRef .tc main_arg5))

/-- Every weakly fair execution terminates and leaves the six argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W13_main_arg0 m c),
     (h c _ (mem_uc main_arg1 (by decide))).trans (W13_main_arg1 m c),
     (h c _ (mem_uc main_arg2 (by decide))).trans (W13_main_arg2 m c),
     (h c _ (mem_uc main_arg3 (by decide))).trans (W13_main_arg3 m c),
     (h c _ (mem_uc main_arg4 (by decide))).trans (W13_main_arg4 m c),
     (h c _ (mem_uc main_arg5 (by decide))).trans (W13_main_arg5 m c)⟩) (run_all m ρ)

end Cert.Kernel.Hand

end
-- ==== Proof.KI.Runs.lean ====
/-
  What the two kernel regions' runs share.

  Both kernels walk a grid of 2 x 50 points: the row tile s (512 rows of each of the two batch entries) and,
  innermost, the vocabulary tile v.  At v = 0 the three (two) running columns kept in scratch are reset, at every
  point they are updated from the tile's logits, and at v = 49 the finished columns are written to the output
  blocks.  So a point is in one of three cases: first tile (reset, no output), middle tile (no reset, no
  output), last tile (no reset, output).  Here: the two conditions in closed form over the grid, where the
  output windows are idle, the memrefs a point's body is called with, and the scratch buffers as owned memrefs.
-/
import proofs.«154765_j27539330302083_2_alg».proof.Proof.Gen.KernelIdeal.Launch
import proofs.«154765_j27539330302083_2_alg».proof.Proof.Gen.KernelIdeal.Skeleton
import proofs.«154765_j27539330302083_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-! ## Region 0 -/

/-- The reset condition: the vocabulary tile is the first. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 50 = 0 :=
  (by decide +kernel : ∀ t : Fin grid0.N, cond0_0 (grid0.coords t) ↔ t.val % 50 = 0)
/-- The output condition: the vocabulary tile is the last. -/
abbrev cond0_1 (i : grid0.Coords) : Prop := k0_cond2 i = 1#1
theorem hcond0_1 : ∀ t : Fin cfg0.N, cond0_1 (grid0.coords t) ↔ t.val % 50 = 49 :=
  (by decide +kernel : ∀ t : Fin grid0.N, cond0_1 (grid0.coords t) ↔ t.val % 50 = 49)

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

abbrev ms0_0 (t : Fin cfg0.N) : Memref sig .tc .vmem S2x512x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S640x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x512 .f32 := win0_3.stage (cfg0.slots t 3)
abbrev hs0_3 (t : Fin cfg0.N) : (ms0_3 t).IsWhole := hstage0_3 ((cfg0.slots t 3).cast nbuf0_3)
/-- The running maximum, the running sum of exponentials, the running sum of logits: one column each. -/
abbrev scM0_0 : Memref sig .tc .vmem S1024x1 .f32 := Memref.whole cc0_scratch0
abbrev scM0_1 : Memref sig .tc .vmem S1024x1 .f32 := Memref.whole cc0_scratch1
abbrev scM0_2 : Memref sig .tc .vmem S1024x1 .f32 := Memref.whole cc0_scratch2
abbrev VS0_0 : View sig .tc .vmem S1024x1 .f32 := scM0_0.view
abbrev VS0_1 : View sig .tc .vmem S1024x1 .f32 := scM0_1.view
abbrev VS0_2 : View sig .tc .vmem S1024x1 .f32 := scM0_2.view
abbrev VO0_2 : View sig .tc .vmem S2x512 .f32 := (Memref.whole cc0_stg2_0 : Memref sig .tc .vmem S2x512 .f32).view
abbrev VO0_3 : View sig .tc .vmem S2x512 .f32 := (Memref.whole cc0_stg3_0 : Memref sig .tc .vmem S2x512 .f32).view

/-- The scratch of region 0 as owned memrefs: the three columns, then the other region's buffers, at anything. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)
          ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f)) ∗ (∃ r, prngReg c r)) := by
  unfold Pipeline.ΦA; rw [scopedRest0_eq]; simp only [scM0_0, scM0_1, scM0_2, owns_whole]; try rfl

/-! ## Region 1 -/

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 50 = 0 :=
  (by decide +kernel : ∀ t : Fin grid1.N, cond1_0 (grid1.coords t) ↔ t.val % 50 = 0)
abbrev cond1_1 (i : grid1.Coords) : Prop := k1_cond2 i = 1#1
theorem hcond1_1 : ∀ t : Fin cfg1.N, cond1_1 (grid1.coords t) ↔ t.val % 50 = 49 :=
  (by decide +kernel : ∀ t : Fin grid1.N, cond1_1 (grid1.coords t) ↔ t.val % 50 = 49)

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

abbrev ms1_0 (t : Fin cfg1.N) : Memref sig .tc .vmem S2x512x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S640x2048 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2x512 .f32 := win1_2.stage (cfg1.slots t 2)
abbrev hs1_2 (t : Fin cfg1.N) : (ms1_2 t).IsWhole := hstage1_2 ((cfg1.slots t 2).cast nbuf1_2)
abbrev scM1_0 : Memref sig .tc .vmem S1024x1 .f32 := Memref.whole cc1_scratch0
abbrev scM1_1 : Memref sig .tc .vmem S1024x1 .f32 := Memref.whole cc1_scratch1
abbrev VS1_0 : View sig .tc .vmem S1024x1 .f32 := scM1_0.view
abbrev VS1_1 : View sig .tc .vmem S1024x1 .f32 := scM1_1.view
abbrev VO1_2 : View sig .tc .vmem S2x512 .f32 := (Memref.whole cc1_stg2_0 : Memref sig .tc .vmem S2x512 .f32).view

end Cert.KernelIdeal.Hand

end
-- ==== Proof.KI.Run0A.lean ====
/-
  Region 0, a point of the first vocabulary tile: the body resets the three running columns, updates them from
  the tile, and stores nothing into the output blocks.  The run: on whole memrefs, the two input blocks at their
  contents, the output buffers handed back untouched, the three columns at anything before and, after, holding the
  pieces the body's stores wrote (found by running the body).
-/
import proofs.«154765_j27539330302083_2_alg».proof.Proof.KI.Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 4000000 in
noncomputable def kernelRun0_A (c : Dev nD) (i : grid0.Coords) (arg2 : Memref sig .tc .vmem S2x512x2048 .bf16) (harg2 : arg2.IsWhole) (arg3 : Memref sig .tc .vmem S640x2048 .f32) (harg3 : arg3.IsWhole) (arg4 : Memref sig .tc .vmem S2x512 .f32) (harg4 : arg4.IsWhole) (arg5 : Memref sig .tc .vmem S2x512 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : cond0_0 i) (hc1 : ¬cond0_1 i)
    (x0 : Vec F S2x512x2048 .bf16) (x1 : Vec F S640x2048 .f32) :
    Σ' (LS0 : List (View.Piece (Elt F) S1024x1 .f32)) (LS1 : List (View.Piece (Elt F) S1024x1 .f32)), { LS2 : List (View.Piece (Elt F) S1024x1 .f32) //
      ∀ (xi2 xi3 : Vec F S2x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare xi2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc0_kernel i arg2 harg2 arg3 harg3 arg4 harg4 arg5 harg5 arg6 harg6 arg7 harg7 arg8 harg8) K } := by
  refine ⟨?_, ?_, ?_, fun xi2 xi3 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.KernelIdeal.Hand

end
-- ==== Proof.KI.Run0B.lean ====
/-
  Region 0, a point of a middle vocabulary tile: the body updates the running columns from the tile and what the point before left in them, and stores nothing into the output block(s).  The run: on whole memrefs, the two input blocks at their contents, the output buffer(s) handed back untouched, the running columns at what the point before left, and afterwards every buffer the body stored into holding the pieces its stores wrote (found by running the body).
-/
import proofs.«154765_j27539330302083_2_alg».proof.Proof.KI.Run0A

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 4000000 in
noncomputable def kernelRun0_B (c : Dev nD) (i : grid0.Coords) (arg2 : Memref sig .tc .vmem S2x512x2048 .bf16) (harg2 : arg2.IsWhole) (arg3 : Memref sig .tc .vmem S640x2048 .f32) (harg3 : arg3.IsWhole) (arg4 : Memref sig .tc .vmem S2x512 .f32) (harg4 : arg4.IsWhole) (arg5 : Memref sig .tc .vmem S2x512 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : ¬cond0_1 i)
    (x0 : Vec F S2x512x2048 .bf16) (x1 : Vec F S640x2048 .f32) (xs0 : Vec F S1024x1 .f32) (xs1 : Vec F S1024x1 .f32) (xs2 : Vec F S1024x1 .f32) :
    Σ' (LS0 : List (View.Piece (Elt F) S1024x1 .f32)) (LS1 : List (View.Piece (Elt F) S1024x1 .f32)), { LS2 : List (View.Piece (Elt F) S1024x1 .f32) //
      ∀ (xi2 xi3 : Vec F S2x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc0_kernel i arg2 harg2 arg3 harg3 arg4 harg4 arg5 harg5 arg6 harg6 arg7 harg7 arg8 harg8) K } := by
  refine ⟨?_, ?_, ?_, fun xi2 xi3 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.KernelIdeal.Hand

end
-- ==== Proof.KI.Run0C.lean ====
/-
  Region 0, a point of the last vocabulary tile: the body updates the running columns from the tile and what the point before left in them, and writes the finished columns to the output block(s).  The run: on whole memrefs, the two input blocks at their contents, the output buffer(s) at anything before, the running columns at what the point before left, and afterwards every buffer the body stored into holding the pieces its stores wrote (found by running the body).
-/
import proofs.«154765_j27539330302083_2_alg».proof.Proof.KI.Run0B

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 4000000 in
noncomputable def kernelRun0_C (c : Dev nD) (i : grid0.Coords) (arg2 : Memref sig .tc .vmem S2x512x2048 .bf16) (harg2 : arg2.IsWhole) (arg3 : Memref sig .tc .vmem S640x2048 .f32) (harg3 : arg3.IsWhole) (arg4 : Memref sig .tc .vmem S2x512 .f32) (harg4 : arg4.IsWhole) (arg5 : Memref sig .tc .vmem S2x512 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 : Vec F S2x512x2048 .bf16) (x1 : Vec F S640x2048 .f32) (xs0 : Vec F S1024x1 .f32) (xs1 : Vec F S1024x1 .f32) (xs2 : Vec F S1024x1 .f32) :
    Σ' (L2 : List (View.Piece (Elt F) S2x512 .f32)) (L3 : List (View.Piece (Elt F) S2x512 .f32)) (LS0 : List (View.Piece (Elt F) S1024x1 .f32)) (LS1 : List (View.Piece (Elt F) S1024x1 .f32)), { LS2 : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc0_kernel i arg2 harg2 arg3 harg3 arg4 harg4 arg5 harg5 arg6 harg6 arg7 harg7 arg8 harg8) K } := by
  refine ⟨?_, ?_, ?_, ?_, ?_, fun E K => ?run⟩
  case run =>
    simp only [cc0_kernel_eq_skeleton]; unfold cc0_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HS0]; · iexists _; iexact HS0
    isplitl [HS1]; · iexists _; iexact HS1
    iexists _; iexact HS2

end Cert.KernelIdeal.Hand

end
-- ==== Proof.KI.Run1A.lean ====
/-
  Region 1, a point of the first vocabulary tile: the body resets the running columns, updates them from the tile, and stores nothing into the output block(s).  The run: on whole memrefs, the two input blocks at their contents, the output buffer(s) handed back untouched, the running columns at anything before, and afterwards every buffer the body stored into holding the pieces its stores wrote (found by running the body).
-/
import proofs.«154765_j27539330302083_2_alg».proof.Proof.KI.Run0C

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 4000000 in
noncomputable def kernelRun1_A (c : Dev nD) (i : grid1.Coords) (arg2 : Memref sig .tc .vmem S2x512x2048 .bf16) (harg2 : arg2.IsWhole) (arg3 : Memref sig .tc .vmem S640x2048 .f32) (harg3 : arg3.IsWhole) (arg4 : Memref sig .tc .vmem S2x512 .f32) (harg4 : arg4.IsWhole) (arg5 : Memref sig .tc .vmem S1024x1 .f32) (harg5 : arg5.IsWhole) (arg6 : Memref sig .tc .vmem S1024x1 .f32) (harg6 : arg6.IsWhole) (hc0 : cond1_0 i) (hc1 : ¬cond1_1 i)
    (x0 : Vec F S2x512x2048 .bf16) (x1 : Vec F S640x2048 .f32) :
    Σ' (LS0 : List (View.Piece (Elt F) S1024x1 .f32)), { LS1 : List (View.Piece (Elt F) S1024x1 .f32) //
      ∀ (xi2 : Vec F S2x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc1_kernel i arg2 harg2 arg3 harg3 arg4 harg4 arg5 harg5 arg6 harg6) K } := by
  refine ⟨?_, ?_, fun xi2 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.KernelIdeal.Hand

end
-- ==== Proof.KI.Run1B.lean ====
/-
  Region 1, a point of a middle vocabulary tile: the body updates the running columns from the tile and what the point before left in them, and stores nothing into the output block(s).  The run: on whole memrefs, the two input blocks at their contents, the output buffer(s) handed back untouched, the running columns at what the point before left, and afterwards every buffer the body stored into holding the pieces its stores wrote (found by running the body).
-/
import proofs.«154765_j27539330302083_2_alg».proof.Proof.KI.Run1A

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 4000000 in
noncomputable def kernelRun1_B (c : Dev nD) (i : grid1.Coords) (arg2 : Memref sig .tc .vmem S2x512x2048 .bf16) (harg2 : arg2.IsWhole) (arg3 : Memref sig .tc .vmem S640x2048 .f32) (harg3 : arg3.IsWhole) (arg4 : Memref sig .tc .vmem S2x512 .f32) (harg4 : arg4.IsWhole) (arg5 : Memref sig .tc .vmem S1024x1 .f32) (harg5 : arg5.IsWhole) (arg6 : Memref sig .tc .vmem S1024x1 .f32) (harg6 : arg6.IsWhole) (hc0 : ¬cond1_0 i) (hc1 : ¬cond1_1 i)
    (x0 : Vec F S2x512x2048 .bf16) (x1 : Vec F S640x2048 .f32) (xs0 : Vec F S1024x1 .f32) (xs1 : Vec F S1024x1 .f32) :
    Σ' (LS0 : List (View.Piece (Elt F) S1024x1 .f32)), { LS1 : List (View.Piece (Elt F) S1024x1 .f32) //
      ∀ (xi2 : Vec F S2x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0 ∗ owns (c : Thread nD τ) arg6 fullShare xs1
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc1_kernel i arg2 harg2 arg3 harg3 arg4 harg4 arg5 harg5 arg6 harg6) K } := by
  refine ⟨?_, ?_, fun xi2 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.KernelIdeal.Hand

end
-- ==== Proof.KI.Run1C.lean ====
/-
  Region 1, a point of the last vocabulary tile: the body updates the running columns from the tile and what the point before left in them, and writes the finished columns to the output block(s).  The run: on whole memrefs, the two input blocks at their contents, the output buffer(s) at anything before, the running columns at what the point before left, and afterwards every buffer the body stored into holding the pieces its stores wrote (found by running the body).
-/
import proofs.«154765_j27539330302083_2_alg».proof.Proof.KI.Run1B

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 4000000 in
noncomputable def kernelRun1_C (c : Dev nD) (i : grid1.Coords) (arg2 : Memref sig .tc .vmem S2x512x2048 .bf16) (harg2 : arg2.IsWhole) (arg3 : Memref sig .tc .vmem S640x2048 .f32) (harg3 : arg3.IsWhole) (arg4 : Memref sig .tc .vmem S2x512 .f32) (harg4 : arg4.IsWhole) (arg5 : Memref sig .tc .vmem S1024x1 .f32) (harg5 : arg5.IsWhole) (arg6 : Memref sig .tc .vmem S1024x1 .f32) (harg6 : arg6.IsWhole) (hc0 : ¬cond1_0 i) (hc1 : cond1_1 i)
    (x0 : Vec F S2x512x2048 .bf16) (x1 : Vec F S640x2048 .f32) (xs0 : Vec F S1024x1 .f32) (xs1 : Vec F S1024x1 .f32) :
    Σ' (L2 : List (View.Piece (Elt F) S2x512 .f32)) (LS0 : List (View.Piece (Elt F) S1024x1 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0 ∗ owns (c : Thread nD τ) arg6 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc1_kernel i arg2 harg2 arg3 harg3 arg4 harg4 arg5 harg5 arg6 harg6) K } := by
  refine ⟨?_, ?_, ?_, fun E K => ?run⟩
  case run =>
    simp only [cc1_kernel_eq_skeleton]; unfold cc1_kernel_skel
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg2.eq_unread hf0; obtain rfl := harg3.eq_unread hf1; obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    iexists _; iexact HS1

end Cert.KernelIdeal.Hand

end
-- ==== Proof.KI.Body0.lean ====
/-
  Region 0: what the running columns and the output block(s) hold after each grid point, the invariant that carries
  the columns from one point to the next, the proof data of the pipeline, and the body's obligation at every point.

  After a point of the first vocabulary tile the columns hold what the reset-and-update leaves; after any other
  point, what the update leaves of the columns the point before left; the output block(s) are written at the
  points of the last tile only.  Between points the three (two) columns are owned at exactly those contents; the
  other scoped buffers and the generator register ride along at anything.
-/
import proofs.«154765_j27539330302083_2_alg».proof.Proof.KI.Run1C

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

section Region
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves -/

/-- After a point of the first tile: the output block(s) untouched (a placeholder nothing reads), the columns at the
    pieces the body wrote. -/
def resA0 (c : Dev nD) (t : Fin cfg0.N) (h0 : t.val % 50 = 0) (h1 : ¬t.val % 50 = 49) : (Vec F S2x512 .f32 × Vec F S2x512 .f32) × (Vec F S1024x1 .f32 × Vec F S1024x1 .f32 × Vec F S1024x1 .f32) :=
  ((VO0_2.read (Elt F) (VO0_2.writes (Elt F) VO0_2.junk []), VO0_3.read (Elt F) (VO0_3.writes (Elt F) VO0_3.junk [])), (VS0_0.read (Elt F) (VS0_0.writes (Elt F) VS0_0.junk (kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t)).1), VS0_1.read (Elt F) (VS0_1.writes (Elt F) VS0_1.junk (kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t)).2.1), VS0_2.read (Elt F) (VS0_2.writes (Elt F) VS0_2.junk (kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t)).2.2.1)))
/-- After a point of a middle tile, from what the point before left in the columns. -/
def resB0 (c : Dev nD) (t : Fin cfg0.N) (h0 : ¬t.val % 50 = 0) (h1 : ¬t.val % 50 = 49) (prev : (Vec F S1024x1 .f32 × Vec F S1024x1 .f32 × Vec F S1024x1 .f32)) : (Vec F S2x512 .f32 × Vec F S2x512 .f32) × (Vec F S1024x1 .f32 × Vec F S1024x1 .f32 × Vec F S1024x1 .f32) :=
  ((VO0_2.read (Elt F) (VO0_2.writes (Elt F) VO0_2.junk []), VO0_3.read (Elt F) (VO0_3.writes (Elt F) VO0_3.junk [])), (VS0_0.read (Elt F) (VS0_0.writes (Elt F) VS0_0.junk (kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) prev.1 prev.2.1 prev.2.2).1), VS0_1.read (Elt F) (VS0_1.writes (Elt F) VS0_1.junk (kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) prev.1 prev.2.1 prev.2.2).2.1), VS0_2.read (Elt F) (VS0_2.writes (Elt F) VS0_2.junk (kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) prev.1 prev.2.1 prev.2.2).2.2.1)))
/-- After a point of the last tile, from what the point before left in the columns. -/
def resC0 (c : Dev nD) (t : Fin cfg0.N) (h0 : ¬t.val % 50 = 0) (h1 : t.val % 50 = 49) (prev : (Vec F S1024x1 .f32 × Vec F S1024x1 .f32 × Vec F S1024x1 .f32)) : (Vec F S2x512 .f32 × Vec F S2x512 .f32) × (Vec F S1024x1 .f32 × Vec F S1024x1 .f32 × Vec F S1024x1 .f32) :=
  ((VO0_2.read (Elt F) (VO0_2.writes (Elt F) VO0_2.junk (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) prev.1 prev.2.1 prev.2.2).1), VO0_3.read (Elt F) (VO0_3.writes (Elt F) VO0_3.junk (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) prev.1 prev.2.1 prev.2.2).2.1)), (VS0_0.read (Elt F) (VS0_0.writes (Elt F) VS0_0.junk (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) prev.1 prev.2.1 prev.2.2).2.2.1), VS0_1.read (Elt F) (VS0_1.writes (Elt F) VS0_1.junk (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) prev.1 prev.2.1 prev.2.2).2.2.2.1), VS0_2.read (Elt F) (VS0_2.writes (Elt F) VS0_2.junk (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) prev.1 prev.2.1 prev.2.2).2.2.2.2.1)))

theorem scoverA0_0 (c : Dev nD) (t : Fin cfg0.N) (h0 : t.val % 50 = 0) (h1 : ¬t.val % 50 = 49) (y : S1024x1.Idx) :
    ∃ pc ∈ (kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t)).1, y ∈ pc.1.set :=
  View.cover_of_tiledL ((kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t)).1) S1024x1.size (by sl_kernel_rfl) y
theorem scoverB0_0 (c : Dev nD) (t : Fin cfg0.N) (h0 : ¬t.val % 50 = 0) (h1 : ¬t.val % 50 = 49) (prev : (Vec F S1024x1 .f32 × Vec F S1024x1 .f32 × Vec F S1024x1 .f32)) (y : S1024x1.Idx) :
    ∃ pc ∈ (kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) prev.1 prev.2.1 prev.2.2).1, y ∈ pc.1.set :=
  View.cover_of_tiledL ((kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) prev.1 prev.2.1 prev.2.2).1) S1024x1.size (by sl_kernel_rfl) y
theorem scoverC0_0 (c : Dev nD) (t : Fin cfg0.N) (h0 : ¬t.val % 50 = 0) (h1 : t.val % 50 = 49) (prev : (Vec F S1024x1 .f32 × Vec F S1024x1 .f32 × Vec F S1024x1 .f32)) (y : S1024x1.Idx) :
    ∃ pc ∈ (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) prev.1 prev.2.1 prev.2.2).2.2.1, y ∈ pc.1.set :=
  View.cover_of_tiledL ((kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) prev.1 prev.2.1 prev.2.2).2.2.1) S1024x1.size (by sl_kernel_rfl) y

theorem scoverA0_1 (c : Dev nD) (t : Fin cfg0.N) (h0 : t.val % 50 = 0) (h1 : ¬t.val % 50 = 49) (y : S1024x1.Idx) :
    ∃ pc ∈ (kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t)).2.1, y ∈ pc.1.set :=
  View.cover_of_tiledL ((kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t)).2.1) S1024x1.size (by sl_kernel_rfl) y
theorem scoverB0_1 (c : Dev nD) (t : Fin cfg0.N) (h0 : ¬t.val % 50 = 0) (h1 : ¬t.val % 50 = 49) (prev : (Vec F S1024x1 .f32 × Vec F S1024x1 .f32 × Vec F S1024x1 .f32)) (y : S1024x1.Idx) :
    ∃ pc ∈ (kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) prev.1 prev.2.1 prev.2.2).2.1, y ∈ pc.1.set :=
  View.cover_of_tiledL ((kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) prev.1 prev.2.1 prev.2.2).2.1) S1024x1.size (by sl_kernel_rfl) y
theorem scoverC0_1 (c : Dev nD) (t : Fin cfg0.N) (h0 : ¬t.val % 50 = 0) (h1 : t.val % 50 = 49) (prev : (Vec F S1024x1 .f32 × Vec F S1024x1 .f32 × Vec F S1024x1 .f32)) (y : S1024x1.Idx) :
    ∃ pc ∈ (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) prev.1 prev.2.1 prev.2.2).2.2.2.1, y ∈ pc.1.set :=
  View.cover_of_tiledL ((kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) prev.1 prev.2.1 prev.2.2).2.2.2.1) S1024x1.size (by sl_kernel_rfl) y

theorem scoverA0_2 (c : Dev nD) (t : Fin cfg0.N) (h0 : t.val % 50 = 0) (h1 : ¬t.val % 50 = 49) (y : S1024x1.Idx) :
    ∃ pc ∈ (kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t)).2.2.1, y ∈ pc.1.set :=
  View.cover_of_tiledL ((kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t)).2.2.1) S1024x1.size (by sl_kernel_rfl) y
theorem scoverB0_2 (c : Dev nD) (t : Fin cfg0.N) (h0 : ¬t.val % 50 = 0) (h1 : ¬t.val % 50 = 49) (prev : (Vec F S1024x1 .f32 × Vec F S1024x1 .f32 × Vec F S1024x1 .f32)) (y : S1024x1.Idx) :
    ∃ pc ∈ (kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) prev.1 prev.2.1 prev.2.2).2.2.1, y ∈ pc.1.set :=
  View.cover_of_tiledL ((kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) prev.1 prev.2.1 prev.2.2).2.2.1) S1024x1.size (by sl_kernel_rfl) y
theorem scoverC0_2 (c : Dev nD) (t : Fin cfg0.N) (h0 : ¬t.val % 50 = 0) (h1 : t.val % 50 = 49) (prev : (Vec F S1024x1 .f32 × Vec F S1024x1 .f32 × Vec F S1024x1 .f32)) (y : S1024x1.Idx) :
    ∃ pc ∈ (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) prev.1 prev.2.1 prev.2.2).2.2.2.2.1, y ∈ pc.1.set :=
  View.cover_of_tiledL ((kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) prev.1 prev.2.1 prev.2.2).2.2.2.2.1) S1024x1.size (by sl_kernel_rfl) y

theorem coverC0_2 (c : Dev nD) (t : Fin cfg0.N) (h0 : ¬t.val % 50 = 0) (h1 : t.val % 50 = 49) (prev : (Vec F S1024x1 .f32 × Vec F S1024x1 .f32 × Vec F S1024x1 .f32)) (y : S2x512.Idx) :
    ∃ pc ∈ (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) prev.1 prev.2.1 prev.2.2).1, y ∈ pc.1.set :=
  View.cover_of_tiledL ((kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) prev.1 prev.2.1 prev.2.2).1) S2x512.size (by sl_kernel_rfl) y

theorem coverC0_3 (c : Dev nD) (t : Fin cfg0.N) (h0 : ¬t.val % 50 = 0) (h1 : t.val % 50 = 49) (prev : (Vec F S1024x1 .f32 × Vec F S1024x1 .f32 × Vec F S1024x1 .f32)) (y : S2x512.Idx) :
    ∃ pc ∈ (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) prev.1 prev.2.1 prev.2.2).2.1, y ∈ pc.1.set :=
  View.cover_of_tiledL ((kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) prev.1 prev.2.1 prev.2.2).2.1) S2x512.size (by sl_kernel_rfl) y

/-! ## Point by point -/

/-- What the output block(s) and the columns hold after the body at position `n`. -/
def outsAt0 (c : Dev nD) : (n : ℕ) → n < cfg0.N → (Vec F S2x512 .f32 × Vec F S2x512 .f32) × (Vec F S1024x1 .f32 × Vec F S1024x1 .f32 × Vec F S1024x1 .f32)
  | 0, hn => resA0 V c ⟨0, hn⟩ (Nat.zero_mod _) (by show ¬ (0 % 50 = 49); decide)
  | n + 1, hn =>
    if h0 : (n + 1) % 50 = 0 then
      if h1 : (n + 1) % 50 = 49 then False.elim (by omega)
      else resA0 V c ⟨n + 1, hn⟩ h0 h1
    else
      if h1 : (n + 1) % 50 = 49 then resC0 V c ⟨n + 1, hn⟩ h0 h1 (outsAt0 c n (Nat.lt_of_succ_lt hn)).2
      else resB0 V c ⟨n + 1, hn⟩ h0 h1 (outsAt0 c n (Nat.lt_of_succ_lt hn)).2

theorem outsAt0_A (c : Dev nD) (t : Fin cfg0.N) (h0 : t.val % 50 = 0) (h1 : ¬t.val % 50 = 49) :
    outsAt0 V c t.val t.isLt = resA0 V c t h0 h1 := by
  obtain ⟨n, hn⟩ := t
  cases n with
  | zero => rfl
  | succ n => exact (dif_pos h0).trans ((dif_neg h1).trans rfl)
theorem outsAt0_B (c : Dev nD) (t : Fin cfg0.N) (h0 : ¬t.val % 50 = 0) (h1 : ¬t.val % 50 = 49) :
    outsAt0 V c t.val t.isLt = resB0 V c t h0 h1 (outsAt0 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)
theorem outsAt0_C (c : Dev nD) (t : Fin cfg0.N) (h0 : ¬t.val % 50 = 0) (h1 : t.val % 50 = 49) :
    outsAt0 V c t.val t.isLt = resC0 V c t h0 h1 (outsAt0 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

/-- The scoped buffers of the other region, at anything. -/
def Rest0 (c : Dev nD) : sProp 𝕄 := iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

theorem PhiA0_eq' (c : Dev nD) :
    (Pipeline.ΦA spec0 c : sProp 𝕄) = iprop(iprop((∃ d, owns (c : Thread nD τ) scM0_0 fullShare d) ∗ (∃ d, owns (c : Thread nD τ) scM0_1 fullShare d) ∗ (∃ d, owns (c : Thread nD τ) scM0_2 fullShare d) ∗ Rest0 (F := F) c) ∗ (∃ r, prngReg c r)) := by
  unfold Rest0; exact PhiA0_eq c

/-- Between points: the columns at what the point before left, the rest at anything. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2.1) ∗ owns (c : Thread nD τ) scM0_2 fullShare ((outsAt0 V c n hn).2.2.2) ∗ Rest0 (F := F) c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2.1) ∗ owns (c : Thread nD τ) scM0_1 fullShare ((outsAt0 V c n hn).2.2.1) ∗ owns (c : Thread nD τ) scM0_2 fullShare ((outsAt0 V c n hn).2.2.2) ∗ Rest0 (F := F) c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2.1) ∗ owns (c : Thread nD τ) scM0_1 fullShare ((outsAt0 V c (n - 1) (by omega)).2.2.1) ∗ owns (c : Thread nD τ) scM0_2 fullShare ((outsAt0 V c (n - 1) (by omega)).2.2.2) ∗ Rest0 (F := F) c) ∗ (∃ r, prngReg c r)) := by
  cases n with
  | zero => exact absurd rfl hz
  | succ n => rfl

/-! ## The pipeline's proof data -/

def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1.1
    | ⟨3, _⟩ => (outsAt0 V c t.val t.isLt).1.2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1.1 := by dsimp only [dat0]
theorem after0_3 (c : Dev nD) (t : Fin cfg0.N) : (dat0 V c).after 3 t = (outsAt0 V c t.val t.isLt).1.2 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 8000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 100 := lt_of_lt_of_eq t.isLt (show cfg0.N = 100 from N_0)
  by_cases h0 : t.val % 50 = 0
  · have h1 : ¬t.val % 50 = 49 := by omega
    rw [show (dat0 V c).leavesExact 0 t = owns (c : Thread nD τ) (ms0_0 t) fullShare ((dat0 V c).after 0 t) from by
      unfold Dat.leavesExact; rw [liveAt0_0 t], after0_0]
    rw [show (dat0 V c).leavesExact 1 t = owns (c : Thread nD τ) (ms0_1 t) fullShare ((dat0 V c).after 1 t) from by
      unfold Dat.leavesExact; rw [liveAt0_1 t], after0_1]
    rw [Dat.leavesExact_idle (dat0 V c) 2 t (idleAt0_2 t (fun h => h1 ((hcond0_1 t).mp h))) (noFlush0_2 t (fun h => h1 ((hcond0_1 t).mp h)))]
    rw [Dat.leavesExact_idle (dat0 V c) 3 t (idleAt0_3 t (fun h => h1 ((hcond0_1 t).mp h))) (noFlush0_3 t (fun h => h1 ((hcond0_1 t).mp h)))]
    rw [outsAt0_A V c t h0 h1]
    unfold resA0; (try dsimp only)
    by_cases hz : t.val = 0
    · rw [PhiS0_castSucc V c t, PhiS0_zero V c _ _ hz, PhiA0_eq']
      iintro ⟨⟨⟨HS0, HS1, HS2, HR⟩, Hg⟩, Ho, ⟨%d0, H0⟩, ⟨%d1, H1⟩, ⟨%d2, H2⟩, ⟨%d3, H3⟩⟩
      iapply ((kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t)).2.2.2 _ _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HS0 HS1 HS2 HR Hg]
      · isplitr [Hg]
        swap; · iexact Hg
        isplitl [HS0]
        · unfold owns; iexists _; isplitr
          swap; · iexact HS0
          ipureintro; exact View.read_writes_of_cover _ _ _ _ _ (scoverA0_0 V c t h0 h1)
        isplitl [HS1]
        · unfold owns; iexists _; isplitr
          swap; · iexact HS1
          ipureintro; exact View.read_writes_of_cover _ _ _ _ _ (scoverA0_1 V c t h0 h1)
        isplitl [HS2]
        · unfold owns; iexists _; isplitr
          swap; · iexact HS2
          ipureintro; exact View.read_writes_of_cover _ _ _ _ _ (scoverA0_2 V c t h0 h1)
        iexact HR
      isplitl [Ho]; · iexact Ho
      isplitl [H0]; · iexact H0
      isplitl [H1]; · iexact H1
      isplitl [H2]; · iexists _; iexact H2
      iexists _; iexact H3
    · rw [PhiS0_castSucc V c t, PhiS0_pos V c _ _ hz]
      iintro ⟨⟨⟨HS0, HS1, HS2, HR⟩, Hg⟩, Ho, ⟨%d0, H0⟩, ⟨%d1, H1⟩, ⟨%d2, H2⟩, ⟨%d3, H3⟩⟩
      iapply ((kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t)).2.2.2 _ _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [HS0 HS1 HS2 HR Hg]
      · isplitr [Hg]
        swap; · iexact Hg
        isplitl [HS0]
        · unfold owns; iexists _; isplitr
          swap; · iexact HS0
          ipureintro; exact View.read_writes_of_cover _ _ _ _ _ (scoverA0_0 V c t h0 h1)
        isplitl [HS1]
        · unfold owns; iexists _; isplitr
          swap; · iexact HS1
          ipureintro; exact View.read_writes_of_cover _ _ _ _ _ (scoverA0_1 V c t h0 h1)
        isplitl [HS2]
        · unfold owns; iexists _; isplitr
          swap; · iexact HS2
          ipureintro; exact View.read_writes_of_cover _ _ _ _ _ (scoverA0_2 V c t h0 h1)
        iexact HR
      isplitl [Ho]; · iexact Ho
      isplitl [H0]; · iexact H0
      isplitl [H1]; · iexact H1
      isplitl [H2]; · iexists _; iexact H2
      iexists _; iexact H3
  · have hz : t.val ≠ 0 := fun e => h0 (by rw [e])
    rw [PhiS0_castSucc V c t, PhiS0_pos V c _ _ hz]
    by_cases h1 : t.val % 50 = 49
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t ((hcond0_1 t).mpr h1)], after0_2]
      rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      unfold resC0; (try dsimp only)
      iintro ⟨⟨⟨HS0, HS1, HS2, HR⟩, Hg⟩, Ho, ⟨%d0, H0⟩, ⟨%d1, H1⟩, ⟨%d2, H2⟩, ⟨%d3, H3⟩⟩
      iapply ((kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2).2.2.2.2.2 Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      isplitl [HS2]; · iexact HS2
      iintro ⟨H0, H1, ⟨%e2, H2⟩, ⟨%e3, H3⟩, ⟨%es0, HS0⟩, ⟨%es1, HS1⟩, ⟨%es2, HS2⟩⟩
      isplitl [HS0 HS1 HS2 HR Hg]
      · isplitr [Hg]
        swap; · iexact Hg
        isplitl [HS0]
        · unfold owns; iexists _; isplitr
          swap; · iexact HS0
          ipureintro; exact View.read_writes_of_cover _ _ _ _ _ (scoverC0_0 V c t h0 h1 _)
        isplitl [HS1]
        · unfold owns; iexists _; isplitr
          swap; · iexact HS1
          ipureintro; exact View.read_writes_of_cover _ _ _ _ _ (scoverC0_1 V c t h0 h1 _)
        isplitl [HS2]
        · unfold owns; iexists _; isplitr
          swap; · iexact HS2
          ipureintro; exact View.read_writes_of_cover _ _ _ _ _ (scoverC0_2 V c t h0 h1 _)
        iexact HR
      isplitl [Ho]; · iexact Ho
      isplitl [H0]; · iexact H0
      isplitl [H1]; · iexact H1
      isplitl [H2]
      · unfold owns; iexists _; isplitr
        swap; · iexact H2
        ipureintro; exact View.read_writes_of_cover _ _ _ _ _ (coverC0_2 V c t h0 h1 _)
      unfold owns; iexists _; isplitr
      swap; · iexact H3
      ipureintro; exact View.read_writes_of_cover _ _ _ _ _ (coverC0_3 V c t h0 h1 _)
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2 t (fun h => h1 ((hcond0_1 t).mp h))) (noFlush0_2 t (fun h => h1 ((hcond0_1 t).mp h)))]
      rw [Dat.leavesExact_idle (dat0 V c) 3 t (idleAt0_3 t (fun h => h1 ((hcond0_1 t).mp h))) (noFlush0_3 t (fun h => h1 ((hcond0_1 t).mp h)))]
      rw [outsAt0_B V c t h0 h1]
      unfold resB0; (try dsimp only)
      iintro ⟨⟨⟨HS0, HS1, HS2, HR⟩, Hg⟩, Ho, ⟨%d0, H0⟩, ⟨%d1, H1⟩, ⟨%d2, H2⟩, ⟨%d3, H3⟩⟩
      iapply ((kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2).2.2.2 _ _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HS0 HS1 HS2 HR Hg]
      · isplitr [Hg]
        swap; · iexact Hg
        isplitl [HS0]
        · unfold owns; iexists _; isplitr
          swap; · iexact HS0
          ipureintro; exact View.read_writes_of_cover _ _ _ _ _ (scoverB0_0 V c t h0 h1 _)
        isplitl [HS1]
        · unfold owns; iexists _; isplitr
          swap; · iexact HS1
          ipureintro; exact View.read_writes_of_cover _ _ _ _ _ (scoverB0_1 V c t h0 h1 _)
        isplitl [HS2]
        · unfold owns; iexists _; isplitr
          swap; · iexact HS2
          ipureintro; exact View.read_writes_of_cover _ _ _ _ _ (scoverB0_2 V c t h0 h1 _)
        iexact HR
      isplitl [Ho]; · iexact Ho
      isplitl [H0]; · iexact H0
      isplitl [H1]; · iexact H1
      isplitl [H2]; · iexists _; iexact H2
      iexists _; iexact H3

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht]
  rw [PhiA0_eq']
  iintro ⟨⟨HS0, HS1, HS2, HR⟩, Hg⟩
  isplitr [Hg]
  swap; · iexact Hg
  isplitl [HS0]; · iexists _; iexact HS0
  isplitl [HS1]; · iexists _; iexact HS1
  isplitl [HS2]; · iexists _; iexact HS2
  iexact HR

theorem hout0 (c : Dev nD) : (dat0 V c).Φ (Fin.last cfg0.N) ⊢ Pipeline.ΦA spec0 c :=
  Phi_out0 V c _ (by rw [Fin.val_last]; have : cfg0.N = 100 := N_0; omega)

end Region

end Cert.KernelIdeal.Hand

end
-- ==== Proof.KI.Body1.lean ====
/-
  Region 1: what the running columns and the output block(s) hold after each grid point, the invariant that carries
  the columns from one point to the next, the proof data of the pipeline, and the body's obligation at every point.

  After a point of the first vocabulary tile the columns hold what the reset-and-update leaves; after any other
  point, what the update leaves of the columns the point before left; the output block(s) are written at the
  points of the last tile only.  Between points the three (two) columns are owned at exactly those contents; the
  other scoped buffers and the generator register ride along at anything.
-/
import proofs.«154765_j27539330302083_2_alg».proof.Proof.KI.Run1C

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

section Region
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

/-- After a point of the first tile: the output block(s) untouched (a placeholder nothing reads), the columns at the
    pieces the body wrote. -/
def resA1 (c : Dev nD) (t : Fin cfg1.N) (h0 : t.val % 50 = 0) (h1 : ¬t.val % 50 = 49) : Vec F S2x512 .f32 × (Vec F S1024x1 .f32 × Vec F S1024x1 .f32) :=
  (VO1_2.read (Elt F) (VO1_2.writes (Elt F) VO1_2.junk []), (VS1_0.read (Elt F) (VS1_0.writes (Elt F) VS1_0.junk (kernelRun1_A c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (iblk1 V c 0 t) (iblk1 V c 1 t)).1), VS1_1.read (Elt F) (VS1_1.writes (Elt F) VS1_1.junk (kernelRun1_A c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (iblk1 V c 0 t) (iblk1 V c 1 t)).2.1)))
/-- After a point of a middle tile, from what the point before left in the columns. -/
def resB1 (c : Dev nD) (t : Fin cfg1.N) (h0 : ¬t.val % 50 = 0) (h1 : ¬t.val % 50 = 49) (prev : (Vec F S1024x1 .f32 × Vec F S1024x1 .f32)) : Vec F S2x512 .f32 × (Vec F S1024x1 .f32 × Vec F S1024x1 .f32) :=
  (VO1_2.read (Elt F) (VO1_2.writes (Elt F) VO1_2.junk []), (VS1_0.read (Elt F) (VS1_0.writes (Elt F) VS1_0.junk (kernelRun1_B c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) (fun h => h1 ((hcond1_1 t).mp h)) (iblk1 V c 0 t) (iblk1 V c 1 t) prev.1 prev.2).1), VS1_1.read (Elt F) (VS1_1.writes (Elt F) VS1_1.junk (kernelRun1_B c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) (fun h => h1 ((hcond1_1 t).mp h)) (iblk1 V c 0 t) (iblk1 V c 1 t) prev.1 prev.2).2.1)))
/-- After a point of the last tile, from what the point before left in the columns. -/
def resC1 (c : Dev nD) (t : Fin cfg1.N) (h0 : ¬t.val % 50 = 0) (h1 : t.val % 50 = 49) (prev : (Vec F S1024x1 .f32 × Vec F S1024x1 .f32)) : Vec F S2x512 .f32 × (Vec F S1024x1 .f32 × Vec F S1024x1 .f32) :=
  (VO1_2.read (Elt F) (VO1_2.writes (Elt F) VO1_2.junk (kernelRun1_C c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (iblk1 V c 1 t) prev.1 prev.2).1), (VS1_0.read (Elt F) (VS1_0.writes (Elt F) VS1_0.junk (kernelRun1_C c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (iblk1 V c 1 t) prev.1 prev.2).2.1), VS1_1.read (Elt F) (VS1_1.writes (Elt F) VS1_1.junk (kernelRun1_C c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (iblk1 V c 1 t) prev.1 prev.2).2.2.1)))

theorem scoverA1_0 (c : Dev nD) (t : Fin cfg1.N) (h0 : t.val % 50 = 0) (h1 : ¬t.val % 50 = 49) (y : S1024x1.Idx) :
    ∃ pc ∈ (kernelRun1_A c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (iblk1 V c 0 t) (iblk1 V c 1 t)).1, y ∈ pc.1.set :=
  View.cover_of_tiledL ((kernelRun1_A c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (iblk1 V c 0 t) (iblk1 V c 1 t)).1) S1024x1.size (by sl_kernel_rfl) y
theorem scoverB1_0 (c : Dev nD) (t : Fin cfg1.N) (h0 : ¬t.val % 50 = 0) (h1 : ¬t.val % 50 = 49) (prev : (Vec F S1024x1 .f32 × Vec F S1024x1 .f32)) (y : S1024x1.Idx) :
    ∃ pc ∈ (kernelRun1_B c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) (fun h => h1 ((hcond1_1 t).mp h)) (iblk1 V c 0 t) (iblk1 V c 1 t) prev.1 prev.2).1, y ∈ pc.1.set :=
  View.cover_of_tiledL ((kernelRun1_B c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) (fun h => h1 ((hcond1_1 t).mp h)) (iblk1 V c 0 t) (iblk1 V c 1 t) prev.1 prev.2).1) S1024x1.size (by sl_kernel_rfl) y
theorem scoverC1_0 (c : Dev nD) (t : Fin cfg1.N) (h0 : ¬t.val % 50 = 0) (h1 : t.val % 50 = 49) (prev : (Vec F S1024x1 .f32 × Vec F S1024x1 .f32)) (y : S1024x1.Idx) :
    ∃ pc ∈ (kernelRun1_C c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (iblk1 V c 1 t) prev.1 prev.2).2.1, y ∈ pc.1.set :=
  View.cover_of_tiledL ((kernelRun1_C c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (iblk1 V c 1 t) prev.1 prev.2).2.1) S1024x1.size (by sl_kernel_rfl) y

theorem scoverA1_1 (c : Dev nD) (t : Fin cfg1.N) (h0 : t.val % 50 = 0) (h1 : ¬t.val % 50 = 49) (y : S1024x1.Idx) :
    ∃ pc ∈ (kernelRun1_A c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (iblk1 V c 0 t) (iblk1 V c 1 t)).2.1, y ∈ pc.1.set :=
  View.cover_of_tiledL ((kernelRun1_A c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (iblk1 V c 0 t) (iblk1 V c 1 t)).2.1) S1024x1.size (by sl_kernel_rfl) y
theorem scoverB1_1 (c : Dev nD) (t : Fin cfg1.N) (h0 : ¬t.val % 50 = 0) (h1 : ¬t.val % 50 = 49) (prev : (Vec F S1024x1 .f32 × Vec F S1024x1 .f32)) (y : S1024x1.Idx) :
    ∃ pc ∈ (kernelRun1_B c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) (fun h => h1 ((hcond1_1 t).mp h)) (iblk1 V c 0 t) (iblk1 V c 1 t) prev.1 prev.2).2.1, y ∈ pc.1.set :=
  View.cover_of_tiledL ((kernelRun1_B c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) (fun h => h1 ((hcond1_1 t).mp h)) (iblk1 V c 0 t) (iblk1 V c 1 t) prev.1 prev.2).2.1) S1024x1.size (by sl_kernel_rfl) y
theorem scoverC1_1 (c : Dev nD) (t : Fin cfg1.N) (h0 : ¬t.val % 50 = 0) (h1 : t.val % 50 = 49) (prev : (Vec F S1024x1 .f32 × Vec F S1024x1 .f32)) (y : S1024x1.Idx) :
    ∃ pc ∈ (kernelRun1_C c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (iblk1 V c 1 t) prev.1 prev.2).2.2.1, y ∈ pc.1.set :=
  View.cover_of_tiledL ((kernelRun1_C c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (iblk1 V c 1 t) prev.1 prev.2).2.2.1) S1024x1.size (by sl_kernel_rfl) y

theorem coverC1_2 (c : Dev nD) (t : Fin cfg1.N) (h0 : ¬t.val % 50 = 0) (h1 : t.val % 50 = 49) (prev : (Vec F S1024x1 .f32 × Vec F S1024x1 .f32)) (y : S2x512.Idx) :
    ∃ pc ∈ (kernelRun1_C c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (iblk1 V c 1 t) prev.1 prev.2).1, y ∈ pc.1.set :=
  View.cover_of_tiledL ((kernelRun1_C c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (iblk1 V c 1 t) prev.1 prev.2).1) S2x512.size (by sl_kernel_rfl) y

/-! ## Point by point -/

/-- What the output block(s) and the columns hold after the body at position `n`. -/
def outsAt1 (c : Dev nD) : (n : ℕ) → n < cfg1.N → Vec F S2x512 .f32 × (Vec F S1024x1 .f32 × Vec F S1024x1 .f32)
  | 0, hn => resA1 V c ⟨0, hn⟩ (Nat.zero_mod _) (by show ¬ (0 % 50 = 49); decide)
  | n + 1, hn =>
    if h0 : (n + 1) % 50 = 0 then
      if h1 : (n + 1) % 50 = 49 then False.elim (by omega)
      else resA1 V c ⟨n + 1, hn⟩ h0 h1
    else
      if h1 : (n + 1) % 50 = 49 then resC1 V c ⟨n + 1, hn⟩ h0 h1 (outsAt1 c n (Nat.lt_of_succ_lt hn)).2
      else resB1 V c ⟨n + 1, hn⟩ h0 h1 (outsAt1 c n (Nat.lt_of_succ_lt hn)).2

theorem outsAt1_A (c : Dev nD) (t : Fin cfg1.N) (h0 : t.val % 50 = 0) (h1 : ¬t.val % 50 = 49) :
    outsAt1 V c t.val t.isLt = resA1 V c t h0 h1 := by
  obtain ⟨n, hn⟩ := t
  cases n with
  | zero => rfl
  | succ n => exact (dif_pos h0).trans ((dif_neg h1).trans rfl)
theorem outsAt1_B (c : Dev nD) (t : Fin cfg1.N) (h0 : ¬t.val % 50 = 0) (h1 : ¬t.val % 50 = 49) :
    outsAt1 V c t.val t.isLt = resB1 V c t h0 h1 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)
theorem outsAt1_C (c : Dev nD) (t : Fin cfg1.N) (h0 : ¬t.val % 50 = 0) (h1 : t.val % 50 = 49) :
    outsAt1 V c t.val t.isLt = resC1 V c t h0 h1 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

/-- The scoped buffers of the other region, at anything. -/
def Rest1 (c : Dev nD) : sProp 𝕄 := iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f))

theorem PhiA1_flat (c : Dev nD) :
    (Pipeline.ΦA spec1 c : sProp 𝕄) = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

theorem PhiA1_eq' (c : Dev nD) :
    (Pipeline.ΦA spec1 c : sProp 𝕄) ⊣⊢ iprop(iprop((∃ d, owns (c : Thread nD τ) scM1_0 fullShare d) ∗ (∃ d, owns (c : Thread nD τ) scM1_1 fullShare d) ∗ Rest1 (F := F) c) ∗ (∃ r, prngReg c r)) := by
  rw [PhiA1_flat]; unfold Rest1
  constructor
  · iintro ⟨⟨A0, A1, A2, A3, A4, A5, A6, A7, A8, A9, A10, S0, S1⟩, Hg⟩
    isplitr [Hg]
    · isplitl [S0]; · iexact S0
      isplitl [S1]; · iexact S1
      isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      iexact A10
    iexact Hg
  · iintro ⟨⟨S0, S1, A0, A1, A2, A3, A4, A5, A6, A7, A8, A9, A10⟩, Hg⟩
    isplitr [Hg]
    · isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      isplitl [A10]; · iexact A10
      isplitl [S0]; · iexact S0
      iexact S1
    iexact Hg

/-- Between points: the columns at what the point before left, the rest at anything. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2.1) ∗ owns (c : Thread nD τ) scM1_1 fullShare ((outsAt1 V c n hn).2.2) ∗ Rest1 (F := F) c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1_0 fullShare ((outsAt1 V c n hn).2.1) ∗ owns (c : Thread nD τ) scM1_1 fullShare ((outsAt1 V c n hn).2.2) ∗ Rest1 (F := F) c) ∗ (∃ r, prngReg c r)) := rfl
theorem PhiS1_pos (c : Dev nD) (n : ℕ) (h : n ≤ cfg1.N) (hz : n ≠ 0) :
    PhiS1 V c n h = iprop(iprop(owns (c : Thread nD τ) scM1_0 fullShare ((outsAt1 V c (n - 1) (by omega)).2.1) ∗ owns (c : Thread nD τ) scM1_1 fullShare ((outsAt1 V c (n - 1) (by omega)).2.2) ∗ Rest1 (F := F) c) ∗ (∃ r, prngReg c r)) := by
  cases n with
  | zero => exact absurd rfl hz
  | succ n => rfl

/-! ## The pipeline's proof data -/

def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 100 := lt_of_lt_of_eq t.isLt (show cfg1.N = 100 from N_1)
  by_cases h0 : t.val % 50 = 0
  · have h1 : ¬t.val % 50 = 49 := by omega
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [Dat.leavesExact_idle (dat1 V c) 2 t (idleAt1_2 t (fun h => h1 ((hcond1_1 t).mp h))) (noFlush1_2 t (fun h => h1 ((hcond1_1 t).mp h)))]
    rw [outsAt1_A V c t h0 h1]
    unfold resA1; (try dsimp only)
    by_cases hz : t.val = 0
    · rw [PhiS1_castSucc V c t, PhiS1_zero V c _ _ hz]
      refine (sep_mono (PhiA1_eq' (F := F) c).mp .rfl).trans ?_
      iintro ⟨⟨⟨HS0, HS1, HR⟩, Hg⟩, Ho, ⟨%d0, H0⟩, ⟨%d1, H1⟩, ⟨%d2, H2⟩⟩
      iapply ((kernelRun1_A c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 HR Hg]
      · isplitr [Hg]
        swap; · iexact Hg
        isplitl [HS0]
        · unfold owns; iexists _; isplitr
          swap; · iexact HS0
          ipureintro; exact View.read_writes_of_cover _ _ _ _ _ (scoverA1_0 V c t h0 h1)
        isplitl [HS1]
        · unfold owns; iexists _; isplitr
          swap; · iexact HS1
          ipureintro; exact View.read_writes_of_cover _ _ _ _ _ (scoverA1_1 V c t h0 h1)
        iexact HR
      isplitl [Ho]; · iexact Ho
      isplitl [H0]; · iexact H0
      isplitl [H1]; · iexact H1
      iexists _; iexact H2
    · rw [PhiS1_castSucc V c t, PhiS1_pos V c _ _ hz]
      iintro ⟨⟨⟨HS0, HS1, HR⟩, Hg⟩, Ho, ⟨%d0, H0⟩, ⟨%d1, H1⟩, ⟨%d2, H2⟩⟩
      iapply ((kernelRun1_A c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS0]; · iexists _; iexact HS0
      isplitl [HS1]; · iexists _; iexact HS1
      iintro ⟨H0, H1, H2, ⟨%es0, HS0⟩, ⟨%es1, HS1⟩⟩
      isplitl [HS0 HS1 HR Hg]
      · isplitr [Hg]
        swap; · iexact Hg
        isplitl [HS0]
        · unfold owns; iexists _; isplitr
          swap; · iexact HS0
          ipureintro; exact View.read_writes_of_cover _ _ _ _ _ (scoverA1_0 V c t h0 h1)
        isplitl [HS1]
        · unfold owns; iexists _; isplitr
          swap; · iexact HS1
          ipureintro; exact View.read_writes_of_cover _ _ _ _ _ (scoverA1_1 V c t h0 h1)
        iexact HR
      isplitl [Ho]; · iexact Ho
      isplitl [H0]; · iexact H0
      isplitl [H1]; · iexact H1
      iexists _; iexact H2
  · have hz : t.val ≠ 0 := fun e => h0 (by rw [e])
    rw [PhiS1_castSucc V c t, PhiS1_pos V c _ _ hz]
    by_cases h1 : t.val % 50 = 49
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold resC1; (try dsimp only)
      iintro ⟨⟨⟨HS0, HS1, HR⟩, Hg⟩, Ho, ⟨%d0, H0⟩, ⟨%d1, H1⟩, ⟨%d2, H2⟩⟩
      iapply ((kernelRun1_C c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2).2.2.2 Set.univ _)
      isplitl [H0]; · iexact H0
      isplitl [H1]; · iexact H1
      isplitl [H2]; · iexists _; iexact H2
      isplitl [HS0]; · iexact HS0
      isplitl [HS1]; · iexact HS1
      iintro ⟨H0, H1, ⟨%e2, H2⟩, ⟨%es0, HS0⟩, ⟨%es1, HS1⟩⟩
      isplitl [HS0 HS1 HR Hg]
      · isplitr [Hg]
        swap; · iexact Hg
        isplitl [HS0]
        · unfold owns; iexists _; isplitr
          swap; · iexact HS0
          ipureintro; exact View.read_writes_of_cover _ _ _ _ _ (scoverC1_0 V c t h0 h1 _)
        isplitl [HS1]
        · unfold owns; iexists _; isplitr
          swap; · iexact HS1
          ipureintro; exact View.read_writes_of_cover _ _ _ _ _ (scoverC1_1 V c t h0 h1 _)
        iexact HR
      isplitl [Ho]; · iexact Ho
      isplitl [H0]; · iexact H0
      isplitl [H1]; · iexact H1
      unfold owns; iexists _; isplitr
      swap; · iexact H2
      ipureintro; exact View.read_writes_of_cover _ _ _ _ _ (coverC1_2 V c t h0 h1 _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2 t (fun h => h1 ((hcond1_1 t).mp h))) (noFlush1_2 t (fun h => h1 ((hcond1_1 t).mp h)))]
      rw [outsAt1_B V c t h0 h1]
      unfold resB1; (try dsimp only)
      iintro ⟨⟨⟨HS0, HS1, HR⟩, Hg⟩, Ho, ⟨%d0, H0⟩, ⟨%d1, H1⟩, ⟨%d2, H2⟩⟩
      iapply ((kernelRun1_B c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2).2.2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 HR Hg]
      · isplitr [Hg]
        swap; · iexact Hg
        isplitl [HS0]
        · unfold owns; iexists _; isplitr
          swap; · iexact HS0
          ipureintro; exact View.read_writes_of_cover _ _ _ _ _ (scoverB1_0 V c t h0 h1 _)
        isplitl [HS1]
        · unfold owns; iexists _; isplitr
          swap; · iexact HS1
          ipureintro; exact View.read_writes_of_cover _ _ _ _ _ (scoverB1_1 V c t h0 h1 _)
        iexact HR
      isplitl [Ho]; · iexact Ho
      isplitl [H0]; · iexact H0
      isplitl [H1]; · iexact H1
      iexists _; iexact H2

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  refine (show _ ⊢ _ from ?_).trans (PhiA1_eq' (F := F) c).mpr
  iintro ⟨⟨HS0, HS1, HR⟩, Hg⟩
  isplitr [Hg]
  swap; · iexact Hg
  isplitl [HS0]; · iexists _; iexact HS0
  isplitl [HS1]; · iexists _; iexact HS1
  iexact HR

theorem hout1 (c : Dev nD) : (dat1 V c).Φ (Fin.last cfg1.N) ⊢ Pipeline.ΦA spec1 c :=
  Phi_out1 V c _ (by rw [Fin.val_last]; have : cfg1.N = 100 := N_1; omega)

end Region

end Cert.KernelIdeal.Hand

end
-- ==== Proof.KI.Segs.lean ====
/-
  The whole program as a list of segments — host operations, the first kernel, a host operation, the second kernel,
  the host operations that reduce the kernels' outputs to the five scalars — and its run: every weakly fair execution
  terminates, and at the end every unscoped buffer of each core holds what folding the segments over the launch memory
  gives: the host stretches by their operations, each kernel by what its pipeline leaves in its arrays.
-/
import proofs.«154765_j27539330302083_2_alg».proof.Proof.KI.Body0
import proofs.«154765_j27539330302083_2_alg».proof.Proof.KI.Body1
import proofs.«154765_j27539330302083_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Core `c`'s buffers at launch. -/
abbrev W0 (c : Dev nD) : Valuation τ sig (Elt F) := fun b => m (c, b)
/-- After the host operations before the first kernel (the mask converted, the activations rounded). -/
abbrev W1 (c : Dev nD) : Valuation τ sig (Elt F) := StableHlo.after hostOps0 (W0 m c)
abbrev V1 : (c : Dev nD) → (b : Ref sig .tc) → Buf (Elt F) ((c : Thread nD τ).loc b) := fun c b => W1 m c b
/-- After the first kernel: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the host operation between the kernels (the reference model's activations rounded). -/
abbrev W3 (c : Dev nD) : Valuation τ sig (Elt F) := StableHlo.after hostOps1 (W2 m c)
abbrev V3 : (c : Dev nD) → (b : Ref sig .tc) → Buf (Elt F) ((c : Thread nD τ).loc b) := fun c b => W3 m c b
/-- After the second kernel. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
/-- After each stretch of the host operations that follow the kernels. -/
abbrev W5 (c : Dev nD) : Valuation τ sig (Elt F) := StableHlo.after hostOps2 (W4 m c)
abbrev W6 (c : Dev nD) : Valuation τ sig (Elt F) := StableHlo.after hostOps2_1 (W5 m c)
abbrev W7 (c : Dev nD) : Valuation τ sig (Elt F) := StableHlo.after hostOps2_2 (W6 m c)
abbrev W8 (c : Dev nD) : Valuation τ sig (Elt F) := StableHlo.after hostOps2_3 (W7 m c)
abbrev W9 (c : Dev nD) : Valuation τ sig (Elt F) := StableHlo.after hostOps2_4 (W8 m c)
abbrev W10 (c : Dev nD) : Valuation τ sig (Elt F) := StableHlo.after hostOps2_5 (W9 m c)
abbrev W11 (c : Dev nD) : Valuation τ sig (Elt F) := StableHlo.after hostOps2_6 (W10 m c)
abbrev W12 (c : Dev nD) : Valuation τ sig (Elt F) := StableHlo.after hostOps2_7 (W11 m c)
abbrev W13 (c : Dev nD) : Valuation τ sig (Elt F) := StableHlo.after hostOps2_8 (W12 m c)

abbrev adm : (p : Fin 2) → (pcfgs (F := F) p).Adm := fun p => (cfgs p).toPCfg_adm
/-- Both pipelines' proof data, each at its kernel's entry contents. -/
def pdats : (p : Fin 2) → (c : Dev nD) → Dat τ (Elt F) Unit ℕ (Pipeline.UD sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Kernel 0 as a segment: entered from every unscoped buffer at the contents before it, left at the contents
    after it; its arrays split out of the unscoped buffers and put back at what the pipeline leaves; the generator
    register and the scoped rest into the invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec0 c from ?_).trans (hin0 (V1 m) c)
    unfold Pipeline.ΦA
    iintro ⟨Hp, -, Hr⟩
    isplitl [Hr]; · iexact Hr
    iexact Hp
  hout c := by
    refine (hout0 (V1 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel 1 as a segment: entered from every unscoped buffer at the contents before it, left at the contents
    after it; its arrays split out of the unscoped buffers and put back at what the pipeline leaves; the generator
    register and the scoped rest into the invariant and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := Pipeline.UD sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec1 c from ?_).trans (hin1 (V3 m) c)
    unfold Pipeline.ΦA
    iintro ⟨Hp, -, Hr⟩
    isplitl [Hr]; · iexact Hr
    iexact Hp
  hout c := by
    refine (hout1 (V3 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .host (hseg hostOps2_1 hostOps2_1_sub hostOps2_1_fresh (W5 m)),
    .host (hseg hostOps2_2 hostOps2_2_sub hostOps2_2_fresh (W6 m)),
    .host (hseg hostOps2_3 hostOps2_3_sub hostOps2_3_fresh (W7 m)),
    .host (hseg hostOps2_4 hostOps2_4_sub hostOps2_4_fresh (W8 m)),
    .host (hseg hostOps2_5 hostOps2_5_sub hostOps2_5_fresh (W9 m)),
    .host (hseg hostOps2_6 hostOps2_6_sub hostOps2_6_fresh (W10 m)),
    .host (hseg hostOps2_7 hostOps2_7_sub hostOps2_7_fresh (W11 m)),
    .host (hseg hostOps2_8 hostOps2_8_sub hostOps2_8_fresh (W12 m)) ]

set_option backward.isDefEq.respectTransparency.types false in
/-- THE RUN: from any memory with zero counters every weakly fair execution terminates, and every final memory holds, at
    each unscoped buffer of each core, the fold of the segments over the launch memory. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W13 m c b) :=
  Pipeline.θ_run_regions_kit (pcfgs (F := F)) adm (pdats m) () cellOf_inj embL defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6,
          StableHlo.seq hostOps2_7,
          StableHlo.seq hostOps2_8 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => StableHlo.held (c : Thread nD τ) (Pipeline.ucRefs τ sig) (W13 m c))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W13 m c) ∗ R c) ⊢ _
      iintro ⟨Hh, -, Ho⟩
      isplitl [Hh]; · iexact Hh
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m c b)
    (hfin := fun c s' => by
      iintro ⟨Hh, HSI⟩
      unfold StableHlo.held
      imodintro
      iapply (pointsTo_read_all (Pipeline.ucRefs τ sig) (fun b => (((c : Thread nD τ)).1, b)) (W13 m c) s')
      isplitl [Hh] <;> iassumption)
    (hQ := fun s h => h)

end Cert.KernelIdeal.Hand

end
-- ==== Proof.KI.Frame.lean ====
/-
  The argument arrays end as launched: no host operation writes one, and a kernel only reads the two it stages
  (the vocabulary matrices), whose arrays the pipeline leaves as it found them.  So the run's final memory, read at
  the six arguments, is the launch memory.
-/
import proofs.«154765_j27539330302083_2_alg».proof.Proof.KI.Segs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem W13_main_arg0 (c : Dev nD) : W13 m c (Proc.devRef .tc main_arg0) = m ((c : Thread nD τ).loc main_arg0) :=
  (StableHlo.after_of_writes_sub hostOps2_8 (W12 m c) hostOps2_8_writes (by decide) : W13 m c (Proc.devRef .tc main_arg0) = W12 m c (Proc.devRef .tc main_arg0)).trans <|
  (StableHlo.after_of_writes_sub hostOps2_7 (W11 m c) hostOps2_7_writes (by decide) : W12 m c (Proc.devRef .tc main_arg0) = W11 m c (Proc.devRef .tc main_arg0)).trans <|
  (StableHlo.after_of_writes_sub hostOps2_6 (W10 m c) hostOps2_6_writes (by decide) : W11 m c (Proc.devRef .tc main_arg0) = W10 m c (Proc.devRef .tc main_arg0)).trans <|
  (StableHlo.after_of_writes_sub hostOps2_5 (W9 m c) hostOps2_5_writes (by decide) : W10 m c (Proc.devRef .tc main_arg0) = W9 m c (Proc.devRef .tc main_arg0)).trans <|
  (StableHlo.after_of_writes_sub hostOps2_4 (W8 m c) hostOps2_4_writes (by decide) : W9 m c (Proc.devRef .tc main_arg0) = W8 m c (Proc.devRef .tc main_arg0)).trans <|
  (StableHlo.after_of_writes_sub hostOps2_3 (W7 m c) hostOps2_3_writes (by decide) : W8 m c (Proc.devRef .tc main_arg0) = W7 m c (Proc.devRef .tc main_arg0)).trans <|
  (StableHlo.after_of_writes_sub hostOps2_2 (W6 m c) hostOps2_2_writes (by decide) : W7 m c (Proc.devRef .tc main_arg0) = W6 m c (Proc.devRef .tc main_arg0)).trans <|
  (StableHlo.after_of_writes_sub hostOps2_1 (W5 m c) hostOps2_1_writes (by decide) : W6 m c (Proc.devRef .tc main_arg0) = W5 m c (Proc.devRef .tc main_arg0)).trans <|
  (StableHlo.after_of_writes_sub hostOps2 (W4 m c) hostOps2_writes (by decide) : W5 m c (Proc.devRef .tc main_arg0) = W4 m c (Proc.devRef .tc main_arg0)).trans <|
  (W4_of_ne m c main_arg0 (by decide) : W4 m c (Proc.devRef .tc main_arg0) = W3 m c (Proc.devRef .tc main_arg0)).trans <|
  (StableHlo.after_of_writes_sub hostOps1 (W2 m c) hostOps1_writes (by decide) : W3 m c (Proc.devRef .tc main_arg0) = W2 m c (Proc.devRef .tc main_arg0)).trans <|
  (W2_of_ne m c main_arg0 (by decide) : W2 m c (Proc.devRef .tc main_arg0) = W1 m c (Proc.devRef .tc main_arg0)).trans <|
  (StableHlo.after_of_writes_sub hostOps0 (W0 m c) hostOps0_writes (by decide) : W1 m c (Proc.devRef .tc main_arg0) = W0 m c (Proc.devRef .tc main_arg0))
theorem W13_main_arg1 (c : Dev nD) : W13 m c (Proc.devRef .tc main_arg1) = m ((c : Thread nD τ).loc main_arg1) :=
  (StableHlo.after_of_writes_sub hostOps2_8 (W12 m c) hostOps2_8_writes (by decide) : W13 m c (Proc.devRef .tc main_arg1) = W12 m c (Proc.devRef .tc main_arg1)).trans <|
  (StableHlo.after_of_writes_sub hostOps2_7 (W11 m c) hostOps2_7_writes (by decide) : W12 m c (Proc.devRef .tc main_arg1) = W11 m c (Proc.devRef .tc main_arg1)).trans <|
  (StableHlo.after_of_writes_sub hostOps2_6 (W10 m c) hostOps2_6_writes (by decide) : W11 m c (Proc.devRef .tc main_arg1) = W10 m c (Proc.devRef .tc main_arg1)).trans <|
  (StableHlo.after_of_writes_sub hostOps2_5 (W9 m c) hostOps2_5_writes (by decide) : W10 m c (Proc.devRef .tc main_arg1) = W9 m c (Proc.devRef .tc main_arg1)).trans <|
  (StableHlo.after_of_writes_sub hostOps2_4 (W8 m c) hostOps2_4_writes (by decide) : W9 m c (Proc.devRef .tc main_arg1) = W8 m c (Proc.devRef .tc main_arg1)).trans <|
  (StableHlo.after_of_writes_sub hostOps2_3 (W7 m c) hostOps2_3_writes (by decide) : W8 m c (Proc.devRef .tc main_arg1) = W7 m c (Proc.devRef .tc main_arg1)).trans <|
  (StableHlo.after_of_writes_sub hostOps2_2 (W6 m c) hostOps2_2_writes (by decide) : W7 m c (Proc.devRef .tc main_arg1) = W6 m c (Proc.devRef .tc main_arg1)).trans <|
  (StableHlo.after_of_writes_sub hostOps2_1 (W5 m c) hostOps2_1_writes (by decide) : W6 m c (Proc.devRef .tc main_arg1) = W5 m c (Proc.devRef .tc main_arg1)).trans <|
  (StableHlo.after_of_writes_sub hostOps2 (W4 m c) hostOps2_writes (by decide) : W5 m c (Proc.devRef .tc main_arg1) = W4 m c (Proc.devRef .tc main_arg1)).trans <|
  (W4_of_ne m c main_arg1 (by decide) : W4 m c (Proc.devRef .tc main_arg1) = W3 m c (Proc.devRef .tc main_arg1)).trans <|
  (StableHlo.after_of_writes_sub hostOps1 (W2 m c) hostOps1_writes (by decide) : W3 m c (Proc.devRef .tc main_arg1) = W2 m c (Proc.devRef .tc main_arg1)).trans <|
  ((W2_arr m c 1).trans (((dat0 (V1 m) c).arrAt_in 1 rfl _).trans (A_eq0 (V1 m) c 1)) : W2 m c (Proc.devRef .tc main_arg1) = W1 m c (Proc.devRef .tc main_arg1)).trans <|
  (StableHlo.after_of_writes_sub hostOps0 (W0 m c) hostOps0_writes (by decide) : W1 m c (Proc.devRef .tc main_arg1) = W0 m c (Proc.devRef .tc main_arg1))
theorem W13_main_arg2 (c : Dev nD) : W13 m c (Proc.devRef .tc main_arg2) = m ((c : Thread nD τ).loc main_arg2) :=
  (StableHlo.after_of_writes_sub hostOps2_8 (W12 m c) hostOps2_8_writes (by decide) : W13 m c (Proc.devRef .tc main_arg2) = W12 m c (Proc.devRef .tc main_arg2)).trans <|
  (StableHlo.after_of_writes_sub hostOps2_7 (W11 m c) hostOps2_7_writes (by decide) : W12 m c (Proc.devRef .tc main_arg2) = W11 m c (Proc.devRef .tc main_arg2)).trans <|
  (StableHlo.after_of_writes_sub hostOps2_6 (W10 m c) hostOps2_6_writes (by decide) : W11 m c (Proc.devRef .tc main_arg2) = W10 m c (Proc.devRef .tc main_arg2)).trans <|
  (StableHlo.after_of_writes_sub hostOps2_5 (W9 m c) hostOps2_5_writes (by decide) : W10 m c (Proc.devRef .tc main_arg2) = W9 m c (Proc.devRef .tc main_arg2)).trans <|
  (StableHlo.after_of_writes_sub hostOps2_4 (W8 m c) hostOps2_4_writes (by decide) : W9 m c (Proc.devRef .tc main_arg2) = W8 m c (Proc.devRef .tc main_arg2)).trans <|
  (StableHlo.after_of_writes_sub hostOps2_3 (W7 m c) hostOps2_3_writes (by decide) : W8 m c (Proc.devRef .tc main_arg2) = W7 m c (Proc.devRef .tc main_arg2)).trans <|
  (StableHlo.after_of_writes_sub hostOps2_2 (W6 m c) hostOps2_2_writes (by decide) : W7 m c (Proc.devRef .tc main_arg2) = W6 m c (Proc.devRef .tc main_arg2)).trans <|
  (StableHlo.after_of_writes_sub hostOps2_1 (W5 m c) hostOps2_1_writes (by decide) : W6 m c (Proc.devRef .tc main_arg2) = W5 m c (Proc.devRef .tc main_arg2)).trans <|
  (StableHlo.after_of_writes_sub hostOps2 (W4 m c) hostOps2_writes (by decide) : W5 m c (Proc.devRef .tc main_arg2) = W4 m c (Proc.devRef .tc main_arg2)).trans <|
  (W4_of_ne m c main_arg2 (by decide) : W4 m c (Proc.devRef .tc main_arg2) = W3 m c (Proc.devRef .tc main_arg2)).trans <|
  (StableHlo.after_of_writes_sub hostOps1 (W2 m c) hostOps1_writes (by decide) : W3 m c (Proc.devRef .tc main_arg2) = W2 m c (Proc.devRef .tc main_arg2)).trans <|
  (W2_of_ne m c main_arg2 (by decide) : W2 m c (Proc.devRef .tc main_arg2) = W1 m c (Proc.devRef .tc main_arg2)).trans <|
  (StableHlo.after_of_writes_sub hostOps0 (W0 m c) hostOps0_writes (by decide) : W1 m c (Proc.devRef .tc main_arg2) = W0 m c (Proc.devRef .tc main_arg2))
theorem W13_main_arg3 (c : Dev nD) : W13 m c (Proc.devRef .tc main_arg3) = m ((c : Thread nD τ).loc main_arg3) :=
  (StableHlo.after_of_writes_sub hostOps2_8 (W12 m c) hostOps2_8_writes (by decide) : W13 m c (Proc.devRef .tc main_arg3) = W12 m c (Proc.devRef .tc main_arg3)).trans <|
  (StableHlo.after_of_writes_sub hostOps2_7 (W11 m c) hostOps2_7_writes (by decide) : W12 m c (Proc.devRef .tc main_arg3) = W11 m c (Proc.devRef .tc main_arg3)).trans <|
  (StableHlo.after_of_writes_sub hostOps2_6 (W10 m c) hostOps2_6_writes (by decide) : W11 m c (Proc.devRef .tc main_arg3) = W10 m c (Proc.devRef .tc main_arg3)).trans <|
  (StableHlo.after_of_writes_sub hostOps2_5 (W9 m c) hostOps2_5_writes (by decide) : W10 m c (Proc.devRef .tc main_arg3) = W9 m c (Proc.devRef .tc main_arg3)).trans <|
  (StableHlo.after_of_writes_sub hostOps2_4 (W8 m c) hostOps2_4_writes (by decide) : W9 m c (Proc.devRef .tc main_arg3) = W8 m c (Proc.devRef .tc main_arg3)).trans <|
  (StableHlo.after_of_writes_sub hostOps2_3 (W7 m c) hostOps2_3_writes (by decide) : W8 m c (Proc.devRef .tc main_arg3) = W7 m c (Proc.devRef .tc main_arg3)).trans <|
  (StableHlo.after_of_writes_sub hostOps2_2 (W6 m c) hostOps2_2_writes (by decide) : W7 m c (Proc.devRef .tc main_arg3) = W6 m c (Proc.devRef .tc main_arg3)).trans <|
  (StableHlo.after_of_writes_sub hostOps2_1 (W5 m c) hostOps2_1_writes (by decide) : W6 m c (Proc.devRef .tc main_arg3) = W5 m c (Proc.devRef .tc main_arg3)).trans <|
  (StableHlo.after_of_writes_sub hostOps2 (W4 m c) hostOps2_writes (by decide) : W5 m c (Proc.devRef .tc main_arg3) = W4 m c (Proc.devRef .tc main_arg3)).trans <|
  (W4_of_ne m c main_arg3 (by decide) : W4 m c (Proc.devRef .tc main_arg3) = W3 m c (Proc.devRef .tc main_arg3)).trans <|
  (StableHlo.after_of_writes_sub hostOps1 (W2 m c) hostOps1_writes (by decide) : W3 m c (Proc.devRef .tc main_arg3) = W2 m c (Proc.devRef .tc main_arg3)).trans <|
  (W2_of_ne m c main_arg3 (by decide) : W2 m c (Proc.devRef .tc main_arg3) = W1 m c (Proc.devRef .tc main_arg3)).trans <|
  (StableHlo.after_of_writes_sub hostOps0 (W0 m c) hostOps0_writes (by decide) : W1 m c (Proc.devRef .tc main_arg3) = W0 m c (Proc.devRef .tc main_arg3))
theorem W13_main_arg4 (c : Dev nD) : W13 m c (Proc.devRef .tc main_arg4) = m ((c : Thread nD τ).loc main_arg4) :=
  (StableHlo.after_of_writes_sub hostOps2_8 (W12 m c) hostOps2_8_writes (by decide) : W13 m c (Proc.devRef .tc main_arg4) = W12 m c (Proc.devRef .tc main_arg4)).trans <|
  (StableHlo.after_of_writes_sub hostOps2_7 (W11 m c) hostOps2_7_writes (by decide) : W12 m c (Proc.devRef .tc main_arg4) = W11 m c (Proc.devRef .tc main_arg4)).trans <|
  (StableHlo.after_of_writes_sub hostOps2_6 (W10 m c) hostOps2_6_writes (by decide) : W11 m c (Proc.devRef .tc main_arg4) = W10 m c (Proc.devRef .tc main_arg4)).trans <|
  (StableHlo.after_of_writes_sub hostOps2_5 (W9 m c) hostOps2_5_writes (by decide) : W10 m c (Proc.devRef .tc main_arg4) = W9 m c (Proc.devRef .tc main_arg4)).trans <|
  (StableHlo.after_of_writes_sub hostOps2_4 (W8 m c) hostOps2_4_writes (by decide) : W9 m c (Proc.devRef .tc main_arg4) = W8 m c (Proc.devRef .tc main_arg4)).trans <|
  (StableHlo.after_of_writes_sub hostOps2_3 (W7 m c) hostOps2_3_writes (by decide) : W8 m c (Proc.devRef .tc main_arg4) = W7 m c (Proc.devRef .tc main_arg4)).trans <|
  (StableHlo.after_of_writes_sub hostOps2_2 (W6 m c) hostOps2_2_writes (by decide) : W7 m c (Proc.devRef .tc main_arg4) = W6 m c (Proc.devRef .tc main_arg4)).trans <|
  (StableHlo.after_of_writes_sub hostOps2_1 (W5 m c) hostOps2_1_writes (by decide) : W6 m c (Proc.devRef .tc main_arg4) = W5 m c (Proc.devRef .tc main_arg4)).trans <|
  (StableHlo.after_of_writes_sub hostOps2 (W4 m c) hostOps2_writes (by decide) : W5 m c (Proc.devRef .tc main_arg4) = W4 m c (Proc.devRef .tc main_arg4)).trans <|
  (W4_of_ne m c main_arg4 (by decide) : W4 m c (Proc.devRef .tc main_arg4) = W3 m c (Proc.devRef .tc main_arg4)).trans <|
  (StableHlo.after_of_writes_sub hostOps1 (W2 m c) hostOps1_writes (by decide) : W3 m c (Proc.devRef .tc main_arg4) = W2 m c (Proc.devRef .tc main_arg4)).trans <|
  (W2_of_ne m c main_arg4 (by decide) : W2 m c (Proc.devRef .tc main_arg4) = W1 m c (Proc.devRef .tc main_arg4)).trans <|
  (StableHlo.after_of_writes_sub hostOps0 (W0 m c) hostOps0_writes (by decide) : W1 m c (Proc.devRef .tc main_arg4) = W0 m c (Proc.devRef .tc main_arg4))
theorem W13_main_arg5 (c : Dev nD) : W13 m c (Proc.devRef .tc main_arg5) = m ((c : Thread nD τ).loc main_arg5) :=
  (StableHlo.after_of_writes_sub hostOps2_8 (W12 m c) hostOps2_8_writes (by decide) : W13 m c (Proc.devRef .tc main_arg5) = W12 m c (Proc.devRef .tc main_arg5)).trans <|
  (StableHlo.after_of_writes_sub hostOps2_7 (W11 m c) hostOps2_7_writes (by decide) : W12 m c (Proc.devRef .tc main_arg5) = W11 m c (Proc.devRef .tc main_arg5)).trans <|
  (StableHlo.after_of_writes_sub hostOps2_6 (W10 m c) hostOps2_6_writes (by decide) : W11 m c (Proc.devRef .tc main_arg5) = W10 m c (Proc.devRef .tc main_arg5)).trans <|
  (StableHlo.after_of_writes_sub hostOps2_5 (W9 m c) hostOps2_5_writes (by decide) : W10 m c (Proc.devRef .tc main_arg5) = W9 m c (Proc.devRef .tc main_arg5)).trans <|
  (StableHlo.after_of_writes_sub hostOps2_4 (W8 m c) hostOps2_4_writes (by decide) : W9 m c (Proc.devRef .tc main_arg5) = W8 m c (Proc.devRef .tc main_arg5)).trans <|
  (StableHlo.after_of_writes_sub hostOps2_3 (W7 m c) hostOps2_3_writes (by decide) : W8 m c (Proc.devRef .tc main_arg5) = W7 m c (Proc.devRef .tc main_arg5)).trans <|
  (StableHlo.after_of_writes_sub hostOps2_2 (W6 m c) hostOps2_2_writes (by decide) : W7 m c (Proc.devRef .tc main_arg5) = W6 m c (Proc.devRef .tc main_arg5)).trans <|
  (StableHlo.after_of_writes_sub hostOps2_1 (W5 m c) hostOps2_1_writes (by decide) : W6 m c (Proc.devRef .tc main_arg5) = W5 m c (Proc.devRef .tc main_arg5)).trans <|
  (StableHlo.after_of_writes_sub hostOps2 (W4 m c) hostOps2_writes (by decide) : W5 m c (Proc.devRef .tc main_arg5) = W4 m c (Proc.devRef .tc main_arg5)).trans <|
  ((W4_arr m c 1).trans (((dat1 (V3 m) c).arrAt_in 1 rfl _).trans (A_eq1 (V3 m) c 1)) : W4 m c (Proc.devRef .tc main_arg5) = W3 m c (Proc.devRef .tc main_arg5)).trans <|
  (StableHlo.after_of_writes_sub hostOps1 (W2 m c) hostOps1_writes (by decide) : W3 m c (Proc.devRef .tc main_arg5) = W2 m c (Proc.devRef .tc main_arg5)).trans <|
  (W2_of_ne m c main_arg5 (by decide) : W2 m c (Proc.devRef .tc main_arg5) = W1 m c (Proc.devRef .tc main_arg5)).trans <|
  (StableHlo.after_of_writes_sub hostOps0 (W0 m c) hostOps0_writes (by decide) : W1 m c (Proc.devRef .tc main_arg5) = W0 m c (Proc.devRef .tc main_arg5))

/-- Every weakly fair execution terminates and leaves the six argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W13_main_arg0 m c),
     (h c _ (mem_uc main_arg1 (by decide))).trans (W13_main_arg1 m c),
     (h c _ (mem_uc main_arg2 (by decide))).trans (W13_main_arg2 m c),
     (h c _ (mem_uc main_arg3 (by decide))).trans (W13_main_arg3 m c),
     (h c _ (mem_uc main_arg4 (by decide))).trans (W13_main_arg4 m c),
     (h c _ (mem_uc main_arg5 (by decide))).trans (W13_main_arg5 m c)⟩) (run_all m ρ)

end Cert.KernelIdeal.Hand

end
-- ==== Proof.Spec.lean ====
/-
  The mathematics both programs compute, stated once over the argument arrays.

  An activation array X[b, s, h] (2 x 1024 x 2048) and a vocabulary matrix W[v, h] (32000 x 2048) give
  the logits  logit(b, s, v) = sum over h of X[b, s, h] * W[v, h].  For one row (b, s) the quantity
  both programs report is the largest log-softmax value of the row,

      M - (M + log (sum over v of exp (logit v - M))),   M the greatest logit of the row,

  and the sum of the row's logits.  The kernel walks the vocabulary in 50 tiles of 640 entries,
  keeping a running maximum, a running sum of exponentials rescaled whenever the maximum grows, and a
  running sum of logits; `walk` is that recurrence, tile by tile.
-/
import Idealize.ShloMosaic.PureOps.Ideal
import Idealize.ShloMosaic.Lib.ValueIdx

noncomputable section

namespace Cert.Spec

open Idealize.ShloMosaic Idealize.ShloMosaic.ValueIdx
open scoped BigOperators

abbrev SX : Shape := ⟨3, ![2, 1024, 2048]⟩
abbrev SW : Shape := ⟨2, ![32000, 2048]⟩
abbrev SM : Shape := ⟨2, ![2, 1024]⟩

/-- The logit of row (b, s) against vocabulary entry v. -/
def logit (X : SX.Idx → EReal) (W : SW.Idx → EReal) (b : Fin 2) (s : Fin 1024) (v : Fin 32000) : EReal :=
  ∑ h : Fin 2048, X (ix3 b s h) * W (ix2 v h)

/-- The greatest logit of a row, as a fold of max from minus infinity. -/
def rowMax (X : SX.Idx → EReal) (W : SW.Idx → EReal) (b : Fin 2) (s : Fin 1024) : EReal :=
  Finset.univ.fold max (⊥ : EReal) (fun v : Fin 32000 => logit X W b s v)

/-- The sum of the exponentials of a row's logits shifted by the row's maximum. -/
def expSum (X : SX.Idx → EReal) (W : SW.Idx → EReal) (b : Fin 2) (s : Fin 1024) : EReal :=
  ∑ v : Fin 32000, Ideal.exp (logit X W b s v - rowMax X W b s)

/-- The largest log-softmax value of each row: M - (M + log (sum of exp (logit - M))). -/
def seqlp (X : SX.Idx → EReal) (W : SW.Idx → EReal) : SM.Idx → EReal := fun i =>
  rowMax X W (i 0) (i 1) - (rowMax X W (i 0) (i 1) + Ideal.log (expSum X W (i 0) (i 1)))

/-- The sum of a row's logits. -/
def rowSum (X : SX.Idx → EReal) (W : SW.Idx → EReal) : SM.Idx → EReal := fun i =>
  ∑ v : Fin 32000, logit X W (i 0) (i 1) v

/-- The vocabulary entry at position c of tile j (50 tiles of 640). -/
def vocabAt (j : Fin 50) (c : Fin 640) : Fin 32000 := ⟨j.val * 640 + c.val, by have := j.isLt; have := c.isLt; omega⟩

/-- The state the kernel keeps for one row: running maximum, running rescaled sum of exponentials,
    running sum of logits. -/
structure St where
  mx : EReal
  den : EReal
  tot : EReal

/-- Before the first tile. -/
def St.init : St := ⟨⊥, 0, 0⟩

/-- One tile's update of a row's state from the tile's 640 logits L. -/
def St.step (σ : St) (L : Fin 640 → EReal) : St :=
  let m' := max σ.mx (Finset.univ.fold max (⊥ : EReal) L)
  ⟨m', Ideal.exp (σ.mx - m') * σ.den + ∑ c : Fin 640, Ideal.exp (L c - m'), σ.tot + ∑ c : Fin 640, L c⟩

/-- The row's state after the first n tiles (n ≤ 50; tiles past the last do not occur). -/
def walk (X : SX.Idx → EReal) (W : SW.Idx → EReal) (b : Fin 2) (s : Fin 1024) : (n : ℕ) → St
  | 0 => St.init
  | n + 1 => if h : n < 50 then (walk X W b s n).step (fun c => logit X W b s (vocabAt ⟨n, h⟩ c)) else walk X W b s n

end Cert.Spec

end
-- ==== Proof.Tail.lean ====
/-
  The closing arithmetic of the policy-gradient statistics, stated once over the two per-row arrays.

  P[b, s] is the policy's per-row value (the largest log-softmax entry of row (b, s)), Q[b, s] the
  reference model's, mask[b, s] an integer mask, R[b] a reward per sequence and tot the sum of all
  the policy's logits.  With m = float(mask):

      lp[b]  = sum over s of P[b, s] * m[b, s]          lq[b] = sum over s of Q[b, s] * m[b, s]
      adv[b] = R[b] - (R[0] + R[1]) / 2
      sd     = sqrt (var R),   var x = (sum over b of (x[b] - mean x)^2) / (2 - 1), taken as NaN unless 2 - 1 > 0
      nadv   = adv / (sd if sd > 0 else 1)   where sd > 0, else adv
      kl[b]  = lp[b] - lq[b]

  and the five reported numbers are, in order,

      0: (sum over b of (-(nadv[b] * lp[b]) + 0.1 * kl[b])) / 2
      1: (lp[0] + lp[1]) / 2
      2: sqrt (var lp)
      3: tot / 65536000
      4: (kl[0] + kl[1]) / 2.

  Every step is the host operation of the program text, in the program's order and with its
  literal words (the mean of R is formed twice, once for adv and once inside var, as the program
  forms it; the variance's guard compares 2 - float(1) with 0 and selects the quiet-NaN word
  otherwise), so that a program ending in these operations ends in this function by computation.
-/
import proofs.«154765_j27539330302083_2_alg».proof.Proof.Spec
import Idealize.ShloMosaic.PureOps

noncomputable section

namespace Cert.Spec

open Idealize.ShloMosaic

/-- One value per sequence. -/
abbrev SR : Shape := ⟨1, ![2]⟩
/-- A single number (rank 0). -/
abbrev SZ : Shape := ⟨0, ![]⟩
/-- A single number held as a vector of length one. -/
abbrev SU : Shape := ⟨1, ![1]⟩

/-! The shape relations the operations take, each decided. -/

theorem tail_rows : SM.ReducesTo [1] SR := by decide
theorem tail_all : SR.ReducesTo [0] SZ := by decide
theorem tail_one : 0 < SZ.numel := by decide
theorem tail_bc_ZR : SZ.BroadcastsInDim SR (![] : Fin 0 → Fin SR.rank) := by decide
theorem tail_bc_ZU : SZ.BroadcastsInDim SU (![] : Fin 0 → Fin SU.rank) := by decide
theorem tail_bc_UR : SU.BroadcastsInDim SR (![0] : Fin 1 → Fin SR.rank) := by decide

/-- The five reported numbers from the per-row arrays P (policy) and Q (reference model), the mask,
    the rewards R and the sum tot of all the policy's logits. -/
def tail (P Q : FVec Ideal SM .f32) (mask : (⟨SM, .i32⟩ : BufTy).Contents (Elt Ideal))
    (R : FVec Ideal ⟨1, ![2]⟩ .f32) (tot : FVec Ideal ⟨0, ![]⟩ .f32) : Fin 5 → FVec Ideal ⟨0, ![]⟩ .f32 :=
  -- the mask as floats; the masked row sums of P and of Q
  let v0 : FVec Ideal SM .f32 := sitofp (F := Ideal) .f32 mask
  let v11 : FVec Ideal SM .f32 := mulf (F := Ideal) P v0
  let v12 : FVec Ideal SR .f32 := Host.reduceAdd (F := Ideal) v11 (constant (F := Ideal) SZ .f32 0x00000000#32) tail_rows tail_one
  let v23 : FVec Ideal SM .f32 := mulf (F := Ideal) Q v0
  let v24 : FVec Ideal SR .f32 := Host.reduceAdd (F := Ideal) v23 (constant (F := Ideal) SZ .f32 0x00000000#32) tail_rows tail_one
  -- the rewards less their mean
  let v25 : FVec Ideal SZ .f32 := Host.reduceAdd (F := Ideal) R (constant (F := Ideal) SZ .f32 0x00000000#32) tail_all tail_one
  let v26 : FVec Ideal SZ .f32 := Host.divf (F := Ideal) v25 (constant (F := Ideal) SZ .f32 0x40000000#32)
  let v27 : FVec Ideal SR .f32 := broadcastInDim SR ![] tail_bc_ZR v26
  let v28 : FVec Ideal SR .f32 := subf (F := Ideal) R v27
  -- the standard deviation of the rewards: the variance with one degree of freedom removed, then its root
  let c : IVec SZ 32 := constantI SZ 32 1#32
  let a0 : FVec Ideal SZ .f32 := Host.reduceAdd (F := Ideal) R (constant (F := Ideal) SZ .f32 0x00000000#32) tail_all tail_one
  let a1 : FVec Ideal SU .f32 := broadcastInDim SU ![] tail_bc_ZU a0
  let a2 : FVec Ideal SU .f32 := broadcastInDim SU ![] tail_bc_ZU (constant (F := Ideal) SZ .f32 0x40000000#32)
  let a3 : FVec Ideal SU .f32 := Host.divf (F := Ideal) a1 a2
  let a4 : FVec Ideal SR .f32 := broadcastInDim SR ![0] tail_bc_UR a3
  let a5 : FVec Ideal SR .f32 := subf (F := Ideal) R a4
  let a6 : FVec Ideal SR .f32 := mulf (F := Ideal) a5 a5
  let a7 : FVec Ideal SZ .f32 := sitofp (F := Ideal) .f32 c
  let a8 : FVec Ideal SZ .f32 := subf (F := Ideal) (constant (F := Ideal) SZ .f32 0x40000000#32) a7
  let a9 : FVec Ideal SZ .f32 := Host.reduceAdd (F := Ideal) a6 (constant (F := Ideal) SZ .f32 0x00000000#32) tail_all tail_one
  let a10 : FVec Ideal SZ .f32 := Host.divf (F := Ideal) a9 a8
  let a11 : IVec SZ 1 := cmpf (F := Ideal) .ogt a8 (constant (F := Ideal) SZ .f32 0x00000000#32)
  let a12 : FVec Ideal SZ .f32 := select a11 a10 (id (constant (F := Ideal) SZ .f32 0x7FC00000#32))
  let v29 : FVec Ideal SZ .f32 := Host.sqrt (F := Ideal) a12
  -- the advantages divided by the deviation where it is positive
  let v30 : IVec SZ 1 := cmpf (F := Ideal) .ogt v29 (constant (F := Ideal) SZ .f32 0x00000000#32)
  let v31 : IVec SZ 1 := cmpf (F := Ideal) .ogt v29 (constant (F := Ideal) SZ .f32 0x00000000#32)
  let v32 : FVec Ideal SZ .f32 := select v31 v29 (id (constant (F := Ideal) SZ .f32 0x3F800000#32))
  let v33 : FVec Ideal SR .f32 := broadcastInDim SR ![] tail_bc_ZR v32
  let v34 : FVec Ideal SR .f32 := Host.divf (F := Ideal) v28 v33
  let v35 : FVec Ideal SR .f32 := select (broadcastInDim SR ![] tail_bc_ZR v30) v34 v28
  -- the loss terms
  let v36 : FVec Ideal SR .f32 := mulf (F := Ideal) v35 v12
  let v37 : FVec Ideal SR .f32 := Host.negf (F := Ideal) v36
  let v38 : FVec Ideal SR .f32 := subf (F := Ideal) v12 v24
  let v39 : FVec Ideal SR .f32 := broadcastInDim SR ![] tail_bc_ZR (constant (F := Ideal) SZ .f32 0x3DCCCCCD#32)
  let v40 : FVec Ideal SR .f32 := mulf (F := Ideal) v39 v38
  let v41 : FVec Ideal SR .f32 := addf (F := Ideal) v37 v40
  let v42 : FVec Ideal SZ .f32 := Host.reduceAdd (F := Ideal) v41 (constant (F := Ideal) SZ .f32 0x00000000#32) tail_all tail_one
  let v43 : FVec Ideal SZ .f32 := Host.divf (F := Ideal) v42 (constant (F := Ideal) SZ .f32 0x40000000#32)
  let v44 : FVec Ideal SZ .f32 := Host.reduceAdd (F := Ideal) v12 (constant (F := Ideal) SZ .f32 0x00000000#32) tail_all tail_one
  let v45 : FVec Ideal SZ .f32 := Host.divf (F := Ideal) v44 (constant (F := Ideal) SZ .f32 0x40000000#32)
  -- the standard deviation of the masked row sums of P, formed as that of the rewards
  let c15 : IVec SZ 32 := constantI SZ 32 1#32
  let b0 : FVec Ideal SZ .f32 := Host.reduceAdd (F := Ideal) v12 (constant (F := Ideal) SZ .f32 0x00000000#32) tail_all tail_one
  let b1 : FVec Ideal SU .f32 := broadcastInDim SU ![] tail_bc_ZU b0
  let b2 : FVec Ideal SU .f32 := broadcastInDim SU ![] tail_bc_ZU (constant (F := Ideal) SZ .f32 0x40000000#32)
  let b3 : FVec Ideal SU .f32 := Host.divf (F := Ideal) b1 b2
  let b4 : FVec Ideal SR .f32 := broadcastInDim SR ![0] tail_bc_UR b3
  let b5 : FVec Ideal SR .f32 := subf (F := Ideal) v12 b4
  let b6 : FVec Ideal SR .f32 := mulf (F := Ideal) b5 b5
  let b7 : FVec Ideal SZ .f32 := sitofp (F := Ideal) .f32 c15
  let b8 : FVec Ideal SZ .f32 := subf (F := Ideal) (constant (F := Ideal) SZ .f32 0x40000000#32) b7
  let b9 : FVec Ideal SZ .f32 := Host.reduceAdd (F := Ideal) b6 (constant (F := Ideal) SZ .f32 0x00000000#32) tail_all tail_one
  let b10 : FVec Ideal SZ .f32 := Host.divf (F := Ideal) b9 b8
  let b11 : IVec SZ 1 := cmpf (F := Ideal) .ogt b8 (constant (F := Ideal) SZ .f32 0x00000000#32)
  let b12 : FVec Ideal SZ .f32 := select b11 b10 (id (constant (F := Ideal) SZ .f32 0x7FC00000#32))
  let v46 : FVec Ideal SZ .f32 := Host.sqrt (F := Ideal) b12
  -- the mean logit, and the mean difference of the row sums
  let v48 : FVec Ideal SZ .f32 := Host.divf (F := Ideal) tot (constant (F := Ideal) SZ .f32 0x4C7A0000#32)
  let v49 : FVec Ideal SZ .f32 := Host.reduceAdd (F := Ideal) v38 (constant (F := Ideal) SZ .f32 0x00000000#32) tail_all tail_one
  let v50 : FVec Ideal SZ .f32 := Host.divf (F := Ideal) v49 (constant (F := Ideal) SZ .f32 0x40000000#32)
  ![v43, v45, v46, v48, v50]

end Cert.Spec

end
-- ==== Proof.KI.TailVal.lean ====
/-
  The five results of the kernel's program as the closing arithmetic of the per-row arrays: after the second kernel
  the program applies to its three output arrays, the mask and the rewards exactly the host operations that the
  specification's closing function names, so each result buffer ends at that function's value.
-/
import proofs.«154765_j27539330302083_2_alg».proof.Proof.KI.Frame
import proofs.«154765_j27539330302083_2_alg».proof.Proof.Tail

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (m : (ℓ : Loc nD τ sig) → Buf (Elt Ideal) ℓ)

/-- The mask as floats, computed before the first kernel, is still there after the second. -/
theorem W4_main_v0 (c : Dev nD) : W4 m c (Proc.devRef .tc main_v0) = sitofp (F := Ideal) .f32 (m ((c : Thread nD τ).loc main_arg2)) := by
  rw [W4_of_ne m c main_v0 (by decide)]
  rw [show W3 m c (Proc.devRef .tc main_v0) = W2 m c (Proc.devRef .tc main_v0) from StableHlo.after_of_writes_sub hostOps1 (W2 m c) hostOps1_writes (by decide)]
  rw [W2_of_ne m c main_v0 (by decide)]
  dsimp only [W1, hostOps0]; after_results

theorem W4_main_arg3 (c : Dev nD) : W4 m c (Proc.devRef .tc main_arg3) = m ((c : Thread nD τ).loc main_arg3) := by
  rw [W4_of_ne m c main_arg3 (by decide)]
  rw [show W3 m c (Proc.devRef .tc main_arg3) = W2 m c (Proc.devRef .tc main_arg3) from StableHlo.after_of_writes_sub hostOps1 (W2 m c) hostOps1_writes (by decide)]
  rw [W2_of_ne m c main_arg3 (by decide)]
  exact StableHlo.after_of_writes_sub hostOps0 (W0 m c) hostOps0_writes (by decide)

/-- The five results after the closing host operations. -/
abbrev closing (c : Dev nD) : Fin 5 → FVec Ideal Cert.Spec.SZ .f32 :=
  Cert.Spec.tail (V4 m c main_v2_0) (V4 m c main_v4) (m ((c : Thread nD τ).loc main_arg2)) (m ((c : Thread nD τ).loc main_arg3))
    (Host.reduceAdd (F := Ideal) (V4 m c main_v2_1) (constant (F := Ideal) S_ .f32 0x00000000#32) reducesTo_S2x1024_S_d0_1 h_S_)

set_option maxHeartbeats 4000000 in
theorem res_v27 (c : Dev nD) : W13 m c (Proc.devRef .tc main_v27) = closing m c 0 := by
  have e0 := W4_main_v0 m c
  have e3 := W4_main_arg3 m c
  dsimp only [W13, W12, W11, W10, W9, W8, W7, W6, W5, hostOps2, hostOps2_1, hostOps2_2, hostOps2_3, hostOps2_4, hostOps2_5, hostOps2_6, hostOps2_7, hostOps2_8,
    fn_std.body, fn_var.body, fn_where.body]
  after_results_simp
  rw [e0, e3]
  rfl

set_option maxHeartbeats 4000000 in
theorem res_v31 (c : Dev nD) : W13 m c (Proc.devRef .tc main_v31) = closing m c 1 := by
  have e0 := W4_main_v0 m c
  have e3 := W4_main_arg3 m c
  dsimp only [W13, W12, W11, W10, W9, W8, W7, W6, W5, hostOps2, hostOps2_1, hostOps2_2, hostOps2_3, hostOps2_4, hostOps2_5, hostOps2_6, hostOps2_7, hostOps2_8,
    fn_std.body, fn_var.body, fn_where.body]
  after_results_simp
  try rw [e0]
  try rw [e3]
  rfl

set_option maxHeartbeats 4000000 in
theorem res_v32 (c : Dev nD) : W13 m c (Proc.devRef .tc main_v32) = closing m c 2 := by
  have e0 := W4_main_v0 m c
  have e3 := W4_main_arg3 m c
  dsimp only [W13, W12, W11, W10, W9, W8, W7, W6, W5, hostOps2, hostOps2_1, hostOps2_2, hostOps2_3, hostOps2_4, hostOps2_5, hostOps2_6, hostOps2_7, hostOps2_8,
    fn_std.body, fn_var.body, fn_where.body]
  after_results_simp
  try rw [e0]
  try rw [e3]
  rfl

set_option maxHeartbeats 4000000 in
theorem res_v29 (c : Dev nD) : W13 m c (Proc.devRef .tc main_v29) = closing m c 3 := by
  have e0 := W4_main_v0 m c
  have e3 := W4_main_arg3 m c
  dsimp only [W13, W12, W11, W10, W9, W8, W7, W6, W5, hostOps2, hostOps2_1, hostOps2_2, hostOps2_3, hostOps2_4, hostOps2_5, hostOps2_6, hostOps2_7, hostOps2_8,
    fn_std.body, fn_var.body, fn_where.body]
  after_results_simp
  try rw [e0]
  try rw [e3]
  rfl

set_option maxHeartbeats 4000000 in
theorem res_v34 (c : Dev nD) : W13 m c (Proc.devRef .tc main_v34) = closing m c 4 := by
  have e0 := W4_main_v0 m c
  have e3 := W4_main_arg3 m c
  dsimp only [W13, W12, W11, W10, W9, W8, W7, W6, W5, hostOps2, hostOps2_1, hostOps2_2, hostOps2_3, hostOps2_4, hostOps2_5, hostOps2_6, hostOps2_7, hostOps2_8,
    fn_std.body, fn_var.body, fn_where.body]
  after_results_simp
  try rw [e0]
  try rw [e3]
  rfl

end Cert.KernelIdeal.Hand

end
-- ==== Proof.KI.Pieces0.lean ====
/-
  Region 0: what each case leaves, as the body's arithmetic.  After a first-tile point the columns are the update
  of the reset columns by the tile; after any other point, the update of what the point before left; at a last-tile
  point the output block(s) are the finished columns laid out as [2, 512].  Each is read off the pieces the run found:
  every store covers its whole buffer, so a buffer ends at its last store's value and a load after a store reads it.
-/
import proofs.«154765_j27539330302083_2_alg».proof.Proof.KI.Body0
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

section Region
variable (V : (c : Dev nD) → (b : Ref sig .tc) → Buf (Elt F) ((c : Thread nD τ).loc b))

theorem hz2 : (![0, 0] : Fin 2 → Nat) = fun _ => 0 := by funext a; fin_cases a <;> rfl
theorem hz3 : (![0, 0, 0] : Fin 3 → Nat) = fun _ => 0 := by funext a; fin_cases a <;> rfl

theorem rdw0_0 (X : Vec F S1024x1 .f32) : View.read (Elt F) (View.whole cc0_scratch0) ((Memref.isWhole_whole cc0_scratch0 : (Memref.whole cc0_scratch0 : Memref sig .tc .vmem S1024x1 .f32).IsWhole).unread X) = X :=
  (Memref.isWhole_whole cc0_scratch0 : (Memref.whole cc0_scratch0 : Memref sig .tc .vmem S1024x1 .f32).IsWhole).read_unread X
theorem rdw0_1 (X : Vec F S1024x1 .f32) : View.read (Elt F) (View.whole cc0_scratch1) ((Memref.isWhole_whole cc0_scratch1 : (Memref.whole cc0_scratch1 : Memref sig .tc .vmem S1024x1 .f32).IsWhole).unread X) = X :=
  (Memref.isWhole_whole cc0_scratch1 : (Memref.whole cc0_scratch1 : Memref sig .tc .vmem S1024x1 .f32).IsWhole).read_unread X
theorem rdw0_2 (X : Vec F S1024x1 .f32) : View.read (Elt F) (View.whole cc0_scratch2) ((Memref.isWhole_whole cc0_scratch2 : (Memref.whole cc0_scratch2 : Memref sig .tc .vmem S1024x1 .f32).IsWhole).unread X) = X :=
  (Memref.isWhole_whole cc0_scratch2 : (Memref.whole cc0_scratch2 : Memref sig .tc .vmem S1024x1 .f32).IsWhole).read_unread X

set_option maxHeartbeats 2000000 in
theorem resA0_scr (c : Dev nD) (t : Fin cfg0.N) (h0 : t.val % 50 = 0) (h1 : ¬t.val % 50 = 49) :
    (resA0 V c t h0 h1).2 = (k0_pay2 (k0_pay9 (iblk0 V c 0 t) (iblk0 V c 1 t) (k0_pay5 (F := F))), k0_pay10 (iblk0 V c 0 t) (iblk0 V c 1 t) (k0_pay5 (F := F)) (k0_pay5 (F := F)) (k0_pay6 (F := F)), k0_pay1 (k0_pay11 (iblk0 V c 0 t) (iblk0 V c 1 t) (k0_pay7 (F := F)))) := by
  refine Prod.ext ?_ (Prod.ext ?_ ?_)
  · unfold resA0; dsimp only
    rw [View.read_writes_eq_canon _ _ _ (scoverA0_0 V c t h0 h1)]
    unfold kernelRun0_A; dsimp only; sl_unfold_words
    rw [View.canon_cons_unit_zero hz2]
    simp only [View.readAt_eq_ld, Memref.IsWhole.read_unread, View.ld_unit_zero (S := S2x512x2048) hz3, View.ld_unit_zero (S := S640x2048) hz2, View.ld_unit_zero (S := S1024x1) hz2, View.readCov_unit_zero (S := S1024x1) _ hz2, rdw0_0, rdw0_1, rdw0_2]
  · unfold resA0; dsimp only
    rw [View.read_writes_eq_canon _ _ _ (scoverA0_1 V c t h0 h1)]
    unfold kernelRun0_A; dsimp only; sl_unfold_words
    rw [View.canon_cons_unit_zero hz2]
    simp only [View.readAt_eq_ld, Memref.IsWhole.read_unread, View.ld_unit_zero (S := S2x512x2048) hz3, View.ld_unit_zero (S := S640x2048) hz2, View.ld_unit_zero (S := S1024x1) hz2, View.readCov_unit_zero (S := S1024x1) _ hz2, rdw0_0, rdw0_1, rdw0_2]
  · unfold resA0; dsimp only
    rw [View.read_writes_eq_canon _ _ _ (scoverA0_2 V c t h0 h1)]
    unfold kernelRun0_A; dsimp only; sl_unfold_words
    rw [View.canon_cons_unit_zero hz2]
    simp only [View.readAt_eq_ld, Memref.IsWhole.read_unread, View.ld_unit_zero (S := S2x512x2048) hz3, View.ld_unit_zero (S := S640x2048) hz2, View.ld_unit_zero (S := S1024x1) hz2, View.readCov_unit_zero (S := S1024x1) _ hz2, rdw0_0, rdw0_1, rdw0_2]

set_option maxHeartbeats 2000000 in
theorem resB0_scr (c : Dev nD) (t : Fin cfg0.N) (h0 : ¬t.val % 50 = 0) (h1 : ¬t.val % 50 = 49) (prev : (Vec F S1024x1 .f32 × Vec F S1024x1 .f32 × Vec F S1024x1 .f32)) :
    (resB0 V c t h0 h1 prev).2 = (k0_pay2 (k0_pay9 (iblk0 V c 0 t) (iblk0 V c 1 t) prev.1), k0_pay10 (iblk0 V c 0 t) (iblk0 V c 1 t) prev.1 prev.1 prev.2.1, k0_pay1 (k0_pay11 (iblk0 V c 0 t) (iblk0 V c 1 t) prev.2.2)) := by
  refine Prod.ext ?_ (Prod.ext ?_ ?_)
  · unfold resB0; dsimp only
    rw [View.read_writes_eq_canon _ _ _ (scoverB0_0 V c t h0 h1 prev)]
    unfold kernelRun0_B; dsimp only; sl_unfold_words
    rw [View.canon_cons_unit_zero hz2]
    simp only [View.readAt_eq_ld, Memref.IsWhole.read_unread, View.ld_unit_zero (S := S2x512x2048) hz3, View.ld_unit_zero (S := S640x2048) hz2, View.ld_unit_zero (S := S1024x1) hz2, View.readCov_unit_zero (S := S1024x1) _ hz2, rdw0_0, rdw0_1, rdw0_2]
  · unfold resB0; dsimp only
    rw [View.read_writes_eq_canon _ _ _ (scoverB0_1 V c t h0 h1 prev)]
    unfold kernelRun0_B; dsimp only; sl_unfold_words
    rw [View.canon_cons_unit_zero hz2]
    simp only [View.readAt_eq_ld, Memref.IsWhole.read_unread, View.ld_unit_zero (S := S2x512x2048) hz3, View.ld_unit_zero (S := S640x2048) hz2, View.ld_unit_zero (S := S1024x1) hz2, View.readCov_unit_zero (S := S1024x1) _ hz2, rdw0_0, rdw0_1, rdw0_2]
  · unfold resB0; dsimp only
    rw [View.read_writes_eq_canon _ _ _ (scoverB0_2 V c t h0 h1 prev)]
    unfold kernelRun0_B; dsimp only; sl_unfold_words
    rw [View.canon_cons_unit_zero hz2]
    simp only [View.readAt_eq_ld, Memref.IsWhole.read_unread, View.ld_unit_zero (S := S2x512x2048) hz3, View.ld_unit_zero (S := S640x2048) hz2, View.ld_unit_zero (S := S1024x1) hz2, View.readCov_unit_zero (S := S1024x1) _ hz2, rdw0_0, rdw0_1, rdw0_2]

set_option maxHeartbeats 2000000 in
theorem resC0_scr (c : Dev nD) (t : Fin cfg0.N) (h0 : ¬t.val % 50 = 0) (h1 : t.val % 50 = 49) (prev : (Vec F S1024x1 .f32 × Vec F S1024x1 .f32 × Vec F S1024x1 .f32)) :
    (resC0 V c t h0 h1 prev).2 = (k0_pay2 (k0_pay9 (iblk0 V c 0 t) (iblk0 V c 1 t) prev.1), k0_pay10 (iblk0 V c 0 t) (iblk0 V c 1 t) prev.1 prev.1 prev.2.1, k0_pay1 (k0_pay11 (iblk0 V c 0 t) (iblk0 V c 1 t) prev.2.2)) := by
  refine Prod.ext ?_ (Prod.ext ?_ ?_)
  · unfold resC0; dsimp only
    rw [View.read_writes_eq_canon _ _ _ (scoverC0_0 V c t h0 h1 prev)]
    unfold kernelRun0_C; dsimp only; sl_unfold_words
    rw [View.canon_cons_unit_zero hz2]
    simp only [View.readAt_eq_ld, Memref.IsWhole.read_unread, View.ld_unit_zero (S := S2x512x2048) hz3, View.ld_unit_zero (S := S640x2048) hz2, View.ld_unit_zero (S := S1024x1) hz2, View.readCov_unit_zero (S := S1024x1) _ hz2, rdw0_0, rdw0_1, rdw0_2]
  · unfold resC0; dsimp only
    rw [View.read_writes_eq_canon _ _ _ (scoverC0_1 V c t h0 h1 prev)]
    unfold kernelRun0_C; dsimp only; sl_unfold_words
    rw [View.canon_cons_unit_zero hz2]
    simp only [View.readAt_eq_ld, Memref.IsWhole.read_unread, View.ld_unit_zero (S := S2x512x2048) hz3, View.ld_unit_zero (S := S640x2048) hz2, View.ld_unit_zero (S := S1024x1) hz2, View.readCov_unit_zero (S := S1024x1) _ hz2, rdw0_0, rdw0_1, rdw0_2]
  · unfold resC0; dsimp only
    rw [View.read_writes_eq_canon _ _ _ (scoverC0_2 V c t h0 h1 prev)]
    unfold kernelRun0_C; dsimp only; sl_unfold_words
    rw [View.canon_cons_unit_zero hz2]
    simp only [View.readAt_eq_ld, Memref.IsWhole.read_unread, View.ld_unit_zero (S := S2x512x2048) hz3, View.ld_unit_zero (S := S640x2048) hz2, View.ld_unit_zero (S := S1024x1) hz2, View.readCov_unit_zero (S := S1024x1) _ hz2, rdw0_0, rdw0_1, rdw0_2]

set_option maxHeartbeats 2000000 in
theorem resC0_out (c : Dev nD) (t : Fin cfg0.N) (h0 : ¬t.val % 50 = 0) (h1 : t.val % 50 = 49) (prev : (Vec F S1024x1 .f32 × Vec F S1024x1 .f32 × Vec F S1024x1 .f32)) :
    (resC0 V c t h0 h1 prev).1 = (k0_pay3 (k0_pay2 (k0_pay9 (iblk0 V c 0 t) (iblk0 V c 1 t) prev.1)) (k0_pay10 (iblk0 V c 0 t) (iblk0 V c 1 t) prev.1 prev.1 prev.2.1) (k0_pay2 (k0_pay9 (iblk0 V c 0 t) (iblk0 V c 1 t) prev.1)), k0_pay4 (k0_pay1 (k0_pay11 (iblk0 V c 0 t) (iblk0 V c 1 t) prev.2.2))) := by
  refine Prod.ext ?_ ?_
  · unfold resC0; dsimp only
    rw [View.read_writes_eq_canon _ _ _ (coverC0_2 V c t h0 h1 prev)]
    unfold kernelRun0_C; dsimp only; sl_unfold_words
    rw [View.canon_cons_unit_zero hz2]
    simp only [View.readAt_eq_ld, Memref.IsWhole.read_unread, View.ld_unit_zero (S := S2x512x2048) hz3, View.ld_unit_zero (S := S640x2048) hz2, View.ld_unit_zero (S := S1024x1) hz2, View.readCov_unit_zero (S := S1024x1) _ hz2, rdw0_0, rdw0_1, rdw0_2]
  · unfold resC0; dsimp only
    rw [View.read_writes_eq_canon _ _ _ (coverC0_3 V c t h0 h1 prev)]
    unfold kernelRun0_C; dsimp only; sl_unfold_words
    rw [View.canon_cons_unit_zero hz2]
    simp only [View.readAt_eq_ld, Memref.IsWhole.read_unread, View.ld_unit_zero (S := S2x512x2048) hz3, View.ld_unit_zero (S := S640x2048) hz2, View.ld_unit_zero (S := S1024x1) hz2, View.readCov_unit_zero (S := S1024x1) _ hz2, rdw0_0, rdw0_1, rdw0_2]

end Region

end Cert.KernelIdeal.Hand

end
-- ==== Proof.LibRowsTimesRows.lean ====
/-
  A product of an `R × n` matrix with the rows of a `k × n` matrix, read at an index, over the extended reals.

  When both operands are contracted on their SECOND axis (no batch axis) — the product `A · Bᵀ` taken without
  materialising the transpose — a product accumulated into the zero matrix is, at row `q` and column `o`, the sum
  over `c : Fin n` of `A (q, c) * B (o, c)`: the zero accumulator contributes `0 + _`, and the contraction index, a
  one-axis multi-index, is re-indexed by its one coordinate. The statement quantifies over the well-formedness proof
  only, so it applies to any record with these six lists. Nothing here needs an entry to be finite.
-/
import Idealize.ShloMosaic.PureOps.Ideal
import Idealize.ShloMosaic.PureOps.Ideal.Laws
import Idealize.ShloMosaic.Lib.ValueIdx

noncomputable section

namespace Cert.RowsTimesRows

open Idealize.ShloMosaic Idealize.ShloMosaic.ValueIdx

/-- The dimension numbers of `A · Bᵀ` for `A : R × n` and `B : k × n`, for any proof that they are well formed. -/
abbrev rowsDims (R n k : Nat)
    (wf : DotDims.WF (⟨2, ![R, n]⟩ : Shape) ⟨2, ![k, n]⟩ ⟨2, ![R, k]⟩ [1] [1] [0] [0] [] []) :
    DotDims (⟨2, ![R, n]⟩ : Shape) ⟨2, ![k, n]⟩ ⟨2, ![R, k]⟩ :=
  { lhsContracting := [1], rhsContracting := [1], lhsNonContracting := [0], rhsNonContracting := [0],
    lhsBatch := [], rhsBatch := [], wf := wf }

theorem rowsDims_contr_rank {R n k : Nat} (wf) : (rowsDims R n k wf).contr.rank = 1 := rfl

theorem rowsDims_contr_size {R n k : Nat} (wf) :
    (rowsDims R n k wf).contr.size ⟨0, by rw [rowsDims_contr_rank]; exact Nat.one_pos⟩ = n := rfl

/-- The contraction index of such a product is one coordinate in `Fin n`. -/
abbrev rowsContr {R n k : Nat} (wf) : (rowsDims R n k wf).contr.Idx ≃ Fin n :=
  contrEquiv1 (rowsDims R n k wf) n (rowsDims_contr_rank wf) (rowsDims_contr_size wf)

/-- The left operand's index at output `(q, o)` and contraction coordinate `c` is `(q, c)`. -/
theorem rowsDims_lhsIdx {R n k : Nat} (wf) (q : Fin R) (o : Fin k) (c : Fin n) :
    (rowsDims R n k wf).lhsIdx (ix2 q o) ((rowsContr wf).symm c) = ix2 q c := by
  funext a
  apply Fin.ext
  match a with
  | ⟨0, h0⟩ =>
    unfold DotDims.lhsIdx
    rw [dif_neg (show ¬(⟨0, h0⟩ : Fin (⟨2, ![R, n]⟩ : Shape).rank) ∈ (rowsDims R n k wf).lhsBatch from List.not_mem_nil),
      dif_pos (show (⟨0, h0⟩ : Fin (⟨2, ![R, n]⟩ : Shape).rank) ∈ (rowsDims R n k wf).lhsNonContracting from
        List.mem_singleton.mpr rfl)]
    rfl
  | ⟨1, h1⟩ =>
    exact ((rowsDims R n k wf).lhsIdx_val_of_single (cl := ⟨1, h1⟩) rfl _ _).trans
      (contrEquiv1_symm_val (rowsDims R n k wf) n (rowsDims_contr_rank wf) (rowsDims_contr_size wf) c)

/-- The right operand's index there is `(o, c)`: its first axis is the output's second. -/
theorem rowsDims_rhsIdx {R n k : Nat} (wf) (q : Fin R) (o : Fin k) (c : Fin n) :
    (rowsDims R n k wf).rhsIdx (ix2 q o) ((rowsContr wf).symm c) = ix2 o c := by
  funext a
  apply Fin.ext
  match a with
  | ⟨0, h0⟩ =>
    unfold DotDims.rhsIdx
    rw [dif_neg (show ¬(⟨0, h0⟩ : Fin (⟨2, ![k, n]⟩ : Shape).rank) ∈ (rowsDims R n k wf).rhsBatch from List.not_mem_nil),
      dif_pos (show (⟨0, h0⟩ : Fin (⟨2, ![k, n]⟩ : Shape).rank) ∈ (rowsDims R n k wf).rhsNonContracting from
        List.mem_singleton.mpr rfl)]
    rfl
  | ⟨1, h1⟩ =>
    exact ((rowsDims R n k wf).rhsIdx_val_of_single (cr := ⟨1, h1⟩) rfl _ _).trans
      (contrEquiv1_symm_val (rowsDims R n k wf) n (rowsDims_contr_rank wf) (rowsDims_contr_size wf) c)

/-- A product `A · Bᵀ` accumulated into the zero matrix, at `(q, o)`: the sum over the shared second axis. -/
theorem rowsMatmul_zero_apply {R n k : Nat} {φ₁ φ₂ : FTy} (wf) (prec : Option ContractPrecision)
    (A : FVec Ideal (⟨2, ![R, n]⟩ : Shape) φ₁) (B : FVec Ideal (⟨2, ![k, n]⟩ : Shape) φ₂) (q : Fin R) (o : Fin k) :
    FloatOps.matmul (rowsDims R n k wf) prec A B (constant (F := Ideal) (⟨2, ![R, k]⟩ : Shape) .f32 0x00000000#32) (ix2 q o)
      = ∑ c : Fin n, A (ix2 q c) * B (ix2 o c) := by
  rw [Ideal.matmul_constant_zero_apply, ← Equiv.sum_comp (rowsContr wf).symm]
  refine Finset.sum_congr rfl fun c _ => ?_
  rw [rowsDims_lhsIdx, rowsDims_rhsIdx]

end Cert.RowsTimesRows

end
-- ==== Proof.LibRowForms.lean ====
/-
  Row reductions of a matrix, and a column laid along the rows, read at an index.

  Reducing a matrix `[a, b]` along its second axis gives a vector `[a]` whose entry `i` depends on row `i` alone: for a
  sum it is the sum of the row's `b` entries, for a maximum the fold of `max` over them from the initial value. And a
  column `[b, 1]`, transposed to the row `[1, b]` and copied down to `[a, b]`, has at `(i, j)` entry `j` of the column,
  whatever `i`. Every index is written by its coordinates.
-/
import Idealize.ShloMosaic.PureOps.Ideal.Laws
import Idealize.ShloMosaic.Lib.ValueIdx
import Idealize.ShloMosaic.Lib.ValueLayout

namespace Cert.RowForms

open Idealize.ShloMosaic Idealize.ShloMosaic.ValueIdx

/-- The index of the matrix that reduces to `i` along the second axis and has `k` there is `(i, k)`. -/
theorem lift_row {a b : ℕ} (h : (⟨2, ![a, b]⟩ : Shape).Reduces [1] ⟨1, ![a]⟩) (i : Fin a)
    (k : Fin ((⟨2, ![a, b]⟩ : Shape).size 1)) : h.lift (ix1 i) k = ix2 i (⟨k.val, k.isLt⟩ : Fin b) := by
  funext d; apply Fin.ext
  match d with
  | ⟨0, _⟩ => rfl
  | ⟨1, _⟩ => rfl

/-- A float sum along the rows, from the zero word, at `i`: the sum of row `i`. -/
theorem multiReduction_add_rows {a b : ℕ} (src : FVec Ideal ⟨2, ![a, b]⟩ .f32)
    (h : (⟨2, ![a, b]⟩ : Shape).Reduces [1] ⟨1, ![a]⟩) (i : Fin a) :
    multiReduction .add [1] ⟨1, ![a]⟩ src 0x00000000#32 h (.inl rfl) rfl (ix1 i) = ∑ k : Fin b, src (ix2 i k) :=
  (Ideal.multiReduction_add_single src 0x00000000#32 h (.inl rfl) rfl (ix1 i)).trans
    (Finset.sum_congr rfl fun k _ => congrArg src (lift_row h i k))

/-- A float maximum along the rows, from the word of minus infinity, at `i`: the fold of `max` over row `i`. -/
theorem multiReduction_max_rows {a b : ℕ} (src : FVec Ideal ⟨2, ![a, b]⟩ .f32)
    (h : (⟨2, ![a, b]⟩ : Shape).Reduces [1] ⟨1, ![a]⟩) (i : Fin a) :
    multiReduction .maximumf [1] ⟨1, ![a]⟩ src 0xFF800000#32 h (.inl rfl) rfl (ix1 i)
      = (Finset.univ : Finset (Fin b)).fold max (Ideal.ofBits .f32 0xFF800000#32) (fun k => src (ix2 i k)) :=
  (Ideal.multiReduction_maximumf_single src 0xFF800000#32 h (.inl rfl) rfl (ix1 i)).trans
    (congrArg (fun f => Finset.fold max (Ideal.ofBits .f32 0xFF800000#32) f (Finset.univ : Finset (Fin b)))
      (funext fun k => congrArg src (lift_row h i k)))

/-- A column `[b, 1]` transposed to a row `[1, b]` and copied down to `[a, b]` reads, at `(i, j)`, the column at `(j, 0)`. -/
theorem rowOfColumn_apply {α : Type} {a b : ℕ} (col : (⟨2, ![b, 1]⟩ : Shape).Idx → α)
    (ht : (⟨2, ![b, 1]⟩ : Shape).Transposes [1, 0] ⟨2, ![1, b]⟩)
    (hb : (⟨2, ![1, b]⟩ : Shape).Broadcasts ⟨2, ![a, b]⟩) (i : Fin a) (j : Fin b) :
    broadcastTo ⟨2, ![a, b]⟩ (transpose ⟨2, ![1, b]⟩ [1, 0] col ht) hb (ix2 i j) = col (ix2 j (0 : Fin 1)) :=
  (broadcastTo_1b_ab_apply _ hb i j).trans (transpose_ix2_apply col ht (0 : Fin 1) j)

end Cert.RowForms
-- ==== Proof.LibColumnForms.lean ====
/-
  A column vector read at an index.

  Summing a matrix along its rows with the summed axis kept gives a column: the sums, an `[a]` vector, are laid out as
  `[a, 1]`, and the column is then copied along a new second axis to `[a, b]`. Entry `(i, j)` of the result is
  entry `i` of the vector, whatever `j`. The two lemmas below say this one layout step at a time, every index
  written by its coordinates.
-/
import Idealize.ShloMosaic.Lib.Pipeline.Value
import Idealize.ShloMosaic.Lib.ValueIdx

namespace Cert.ColumnForms

open Idealize.ShloMosaic Idealize.ShloMosaic.ValueIdx

variable {α : Type}

/-- A vector `[a]` laid out as a column `[a, 1]` reads, at `(i, u)`, the vector at `i`: the row-major position
    `i · 1 + u` of `(i, u)` is `i`, the unit coordinate `u` being `0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` copied along its unit axis to `[a, b]` reads, at `(i, j)`, the column at `(i, 0)`: the first
    coordinate is kept (also when `a = 1`, where it is `0` anyway), the second is the unit axis's only one. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.ColumnForms
-- ==== Proof.LibMergeForms.lean ====
/-
  Reshapes that merge or split the two leading axes, and a bias row copied down the rows, read at an index by
  coordinates.

  A reshape keeps the row-major position of every entry. Merging the leading axes `a, b` of an array into one axis
  of extent `a · b` sends the entry `(r, k, …)` to row `r · b + k`; splitting undoes it. A vector `[k]` laid out as
  one row `[1, k]` and copied to every row of `[R, k]` reads, at `(q, o)`, the vector at `o`.
-/
import Idealize.ShloMosaic.Lib.Pipeline.Value
import Idealize.ShloMosaic.Lib.ValueIdx
import Idealize.ShloMosaic.Lib.ValueLayout

noncomputable section

namespace Cert.PointConv

open Idealize.ShloMosaic Idealize.ShloMosaic.ValueIdx

variable {α : Type}

/-- `[a, b, c]` reshaped to `[m, c]` (`m = a · b`): row `r · b + k` at column `o` is the entry `(r, k, o)`. -/
theorem shapeCast_abc_mc_apply {a b c m : Nat} (x : (⟨3, ![a, b, c]⟩ : Shape).Idx → α)
    (h : (⟨3, ![a, b, c]⟩ : Shape).ShapeCasts ⟨2, ![m, c]⟩) (r : Fin a) (k : Fin b) (o : Fin c) (q : Fin m)
    (hq : q.val = r.val * b + k.val) : shapeCast ⟨2, ![m, c]⟩ x h (ix2 q o) = x (ix3 r k o) :=
  shapeCast_apply x h _ _ (by
    rw [Shape.rowMajor_val_three, Shape.rowMajor_val_two]
    show (r.val * b + k.val) * c + o.val = q.val * c + o.val
    rw [hq])

/-- `[m, c]` reshaped to `[a, b, c]` (`m = a · b`): the entry `(r, k, o)` is row `r · b + k` at column `o`. -/
theorem shapeCast_mc_abc_apply {a b c m : Nat} (x : (⟨2, ![m, c]⟩ : Shape).Idx → α)
    (h : (⟨2, ![m, c]⟩ : Shape).ShapeCasts ⟨3, ![a, b, c]⟩) (r : Fin a) (k : Fin b) (o : Fin c) (q : Fin m)
    (hq : q.val = r.val * b + k.val) : shapeCast ⟨3, ![a, b, c]⟩ x h (ix3 r k o) = x (ix2 q o) :=
  shapeCast_apply x h _ _ (by
    rw [Shape.rowMajor_val_three, Shape.rowMajor_val_two]
    show q.val * c + o.val = (r.val * b + k.val) * c + o.val
    rw [hq])

/-- `[a, b, c, d]` reshaped to `[m, c, d]` (`m = a · b`): the entry `(r · b + k, i, j)` is the entry `(r, k, i, j)`. -/
theorem shapeCast_abcd_mcd_apply {a b c d m : Nat} (x : (⟨4, ![a, b, c, d]⟩ : Shape).Idx → α)
    (h : (⟨4, ![a, b, c, d]⟩ : Shape).ShapeCasts ⟨3, ![m, c, d]⟩) (r : Fin a) (k : Fin b) (i : Fin c) (j : Fin d) (q : Fin m)
    (hq : q.val = r.val * b + k.val) : shapeCast ⟨3, ![m, c, d]⟩ x h (ix3 q i j) = x (ix4 r k i j) :=
  shapeCast_apply x h _ _ (by
    rw [Shape.rowMajor_val_four, Shape.rowMajor_val_three]
    show ((r.val * b + k.val) * c + i.val) * d + j.val = (q.val * c + i.val) * d + j.val
    rw [hq])

/-- A vector `[k]` laid out as the row `[1, k]` and copied to every row of `[R, k]`: at `(q, o)` it is the vector at `o`. -/
theorem rowBias_apply {R k : Nat} (b : (⟨1, ![k]⟩ : Shape).Idx → α) (h1 : (⟨1, ![k]⟩ : Shape).ShapeCasts ⟨2, ![1, k]⟩)
    (h2 : (⟨2, ![1, k]⟩ : Shape).Broadcasts ⟨2, ![R, k]⟩) (q : Fin R) (o : Fin k) :
    broadcastTo ⟨2, ![R, k]⟩ (shapeCast ⟨2, ![1, k]⟩ b h1) h2 (ix2 q o) = b (ix1 o) :=
  (broadcastTo_1b_ab_apply _ h2 q o).trans (shapeCast_a_1a_apply b h1 0 o)

end Cert.PointConv

end
-- ==== Proof.KI.PayCommon.lean ====
/-
  The arithmetic of one tile of the online softmax, read at an index, over the extended reals.

  The activation block [2, 512, 2048] is reshaped to [1024, 2048]: row r is batch entry r / 512 at
  position r % 512.  Its product with the rows of the vocabulary tile [640, 2048], accumulated into
  the zero matrix, is at (r, c) the sum over h of activation (r, h) times tile (c, h): the logit of
  row r against entry c of the tile.  A narrowing of the number format is the identity on extended
  reals.  A row maximum (the fold of max from minus infinity) or row sum of a [1024, 640] matrix,
  laid out as a column [1024, 1], reads at (r, 0) the maximum or sum over row r; a column copied
  along the rows to [1024, 640] reads at (r, c) the column at (r, 0); a column [1024, 1] reshaped to
  [2, 512] reads at (b, s) the column at row b * 512 + s.  Put together, the three updated columns
  of a tile are, at row r, the three fields of one step of the row's running state.
-/
import proofs.«154765_j27539330302083_2_alg».proof.Proof.Spec
import proofs.«154765_j27539330302083_2_alg».proof.Proof.Gen.KernelIdeal.Skeleton
import proofs.«154765_j27539330302083_2_alg».proof.Proof.LibRowsTimesRows
import proofs.«154765_j27539330302083_2_alg».proof.Proof.LibRowForms
import proofs.«154765_j27539330302083_2_alg».proof.Proof.LibColumnForms
import proofs.«154765_j27539330302083_2_alg».proof.Proof.LibMergeForms

noncomputable section

namespace Cert.KernelIdeal.Val

open Idealize.ShloMosaic Idealize.ShloMosaic.ValueIdx
open Cert.KernelIdeal Cert.KernelIdeal.Gen
open scoped BigOperators

/-! ### The two constant words -/

/-- The word 0xFF800000 denotes minus infinity, the bottom element. -/
theorem ofBits_neg_inf : Ideal.ofBits .f32 0xFF800000#32 = ⊥ := by simp [Ideal.ofBits, Ideal.ieee]

/-! ### The logits of a tile and the state of a row -/

/-- The logit of row r of the activation block against entry c of the vocabulary tile. -/
def tileLogit (x0 : Vec Ideal S2x512x2048 .bf16) (x1 : Vec Ideal S640x2048 .f32) (r : Fin 1024) (c : Fin 640) : EReal :=
  ∑ h : Fin 2048,
    (x0 (ix3 (⟨r.val / 512, by have := r.isLt; omega⟩ : Fin 2) (⟨r.val % 512, by omega⟩ : Fin 512) h) : EReal)
      * (x1 (ix2 c h) : EReal)

/-- The running state of row r held by the three columns. -/
def rowSt (mx den tot : Vec Ideal S1024x1 .f32) (r : Fin 1024) : Cert.Spec.St :=
  ⟨mx (ix2 r (0 : Fin 1)), den (ix2 r (0 : Fin 1)), tot (ix2 r (0 : Fin 1))⟩

/-! ### The product at an index -/

/-- The activation block reshaped to [1024, 2048] times the rows of the tile, into the zero matrix,
    at (r, c): the logit of row r against entry c. -/
theorem logits_form (x0 : Vec Ideal S2x512x2048 .bf16) (x1 : Vec Ideal S640x2048 .f32)
    (h1 : S2x512x2048.ShapeCasts S2x512x2048) (h2 : S2x512x2048.ShapeCasts S1024x2048)
    (hlt : FTy.bits .bf16 < FTy.bits .f32) (r : Fin 1024) (c : Fin 640) :
    matmul dot_S1024x2048_S640x2048_S1024x640_1_1_0_0_n_n none
        (shapeCast S1024x2048 (shapeCast S2x512x2048 x0 h1) h2 : FVec Ideal S1024x2048 .bf16)
        (truncf .bf16 (x1 : FVec Ideal S640x2048 .f32) hlt) (constant (F := Ideal) S1024x640 .f32 0x00000000#32) (ix2 r c)
      = tileLogit x0 x1 r c := by
  refine (Cert.RowsTimesRows.rowsMatmul_zero_apply (R := 1024) (n := 2048) (k := 640)
    Facts₀.dot_S1024x2048_S640x2048_S1024x640_1_1_0_0_n_n_wf none _ _ r c).trans ?_
  unfold tileLogit
  refine Finset.sum_congr rfl fun h _ => ?_
  refine congrArg₂ (· * ·) ?_ rfl
  refine (Cert.PointConv.shapeCast_abc_mc_apply (shapeCast S2x512x2048 x0 h1) h2
    (⟨r.val / 512, by have := r.isLt; omega⟩ : Fin 2) (⟨r.val % 512, by omega⟩ : Fin 512) h r ?_).trans ?_
  · show r.val = r.val / 512 * 512 + r.val % 512
    omega
  · exact congrFun (shapeCast_self x0 h1) _

/-! ### Row reductions laid out as a column, a column copied along the rows, a column as [2, 512] -/

/-- The row maxima of a matrix, as a column, at (r, 0): the fold of max from the bottom element over row r. -/
theorem colMax_form (A : FVec Ideal S1024x640 .f32) (h1 : S1024x640.Reduces [1] S1024)
    (h2 : S1024.ShapeCasts S1024x1) (r : Fin 1024) :
    shapeCast S1024x1 (multiReduction .maximumf [1] S1024 A 0xFF800000#32 h1 (.inl rfl) rfl) h2 (ix2 r (0 : Fin 1))
      = Finset.univ.fold max (⊥ : EReal) (fun c : Fin 640 => A (ix2 r c)) := by
  refine (Cert.ColumnForms.shapeCast_a_a1_apply _ h2 r 0).trans ?_
  refine (Cert.RowForms.multiReduction_max_rows A h1 r).trans ?_
  rw [ofBits_neg_inf]

/-- The row sums of a matrix, as a column, at (r, 0): the sum of row r. -/
theorem colSum_form (A : FVec Ideal S1024x640 .f32) (h1 : S1024x640.Reduces [1] S1024)
    (h2 : S1024.ShapeCasts S1024x1) (r : Fin 1024) :
    shapeCast S1024x1 (multiReduction .add [1] S1024 A 0x00000000#32 h1 (.inl rfl) rfl) h2 (ix2 r (0 : Fin 1))
      = ∑ c : Fin 640, A (ix2 r c) :=
  (Cert.ColumnForms.shapeCast_a_a1_apply _ h2 r 0).trans (Cert.RowForms.multiReduction_add_rows A h1 r)

/-- A column [1024, 1] reshaped to [2, 512] reads at (b, s) the column at row b * 512 + s. -/
theorem colRows_form {α : Type} (v : S1024x1.Idx → α) (h : S1024x1.ShapeCasts S2x512) (b : Fin 2) (s : Fin 512) :
    shapeCast S2x512 v h (ix2 b s)
      = v (ix2 (⟨b.val * 512 + s.val, by have := b.isLt; have := s.isLt; omega⟩ : Fin 1024) (0 : Fin 1)) :=
  shapeCast_apply v h _ _ (by
    rw [Shape.rowMajor_val_two, Shape.rowMajor_val_two]
    show (b.val * 512 + s.val) * 1 + 0 = b.val * 512 + s.val
    omega)

/-- Every index of a column [1024, 1] is (r, 0). -/
theorem col_idx (j : S1024x1.Idx) : j = ix2 (⟨(j 0).val, idx2_lt0 j⟩ : Fin 1024) (0 : Fin 1) := by
  funext a
  apply Fin.ext
  match a with
  | ⟨0, _⟩ => rfl
  | ⟨1, _⟩ =>
    show (j 1).val = 0
    have := idx2_lt1 j
    omega

/-- Two columns that agree at every (r, 0) are equal. -/
theorem col_ext (u v : Vec Ideal S1024x1 .f32) (h : ∀ r : Fin 1024, u (ix2 r (0 : Fin 1)) = v (ix2 r (0 : Fin 1))) :
    u = v := by
  funext j
  rw [col_idx j]
  exact h _

/-! ### One tile's update of the three columns, for any matrix of logits -/

/-- The new maximum column at (r, 0). -/
theorem newMax_form (A : FVec Ideal S1024x640 .f32) (mx : Vec Ideal S1024x1 .f32)
    (h1 : S1024x640.Reduces [1] S1024) (h2 : S1024.ShapeCasts S1024x1) (r : Fin 1024) :
    maximumf (mx : FVec Ideal S1024x1 .f32)
        (shapeCast S1024x1 (multiReduction .maximumf [1] S1024 A 0xFF800000#32 h1 (.inl rfl) rfl) h2) (ix2 r (0 : Fin 1))
      = max (mx (ix2 r (0 : Fin 1))) (Finset.univ.fold max (⊥ : EReal) (fun c : Fin 640 => A (ix2 r c))) :=
  congrArg (max (mx (ix2 r (0 : Fin 1)))) (colMax_form A h1 h2 r)

/-- The new denominator column at (r, 0), for a new maximum column M. -/
theorem newDen_form (A : FVec Ideal S1024x640 .f32) (M : FVec Ideal S1024x1 .f32) (mx den : Vec Ideal S1024x1 .f32)
    (h1 : S1024x640.Reduces [1] S1024) (h2 : S1024.ShapeCasts S1024x1) (hb : S1024x1.Broadcasts S1024x640)
    (hs : S1024x1.ShapeCasts S1024x1) (r : Fin 1024) :
    shapeCast S1024x1
        (addf (mulf (exp (subf (mx : FVec Ideal S1024x1 .f32) M)) (den : FVec Ideal S1024x1 .f32))
          (shapeCast S1024x1
            (multiReduction .add [1] S1024 (exp (subf A (broadcastTo S1024x640 M hb))) 0x00000000#32 h1 (.inl rfl) rfl) h2))
        hs (ix2 r (0 : Fin 1))
      = Ideal.exp (mx (ix2 r (0 : Fin 1)) - M (ix2 r (0 : Fin 1))) * den (ix2 r (0 : Fin 1))
        + ∑ c : Fin 640, Ideal.exp (A (ix2 r c) - M (ix2 r (0 : Fin 1))) := by
  rw [shapeCast_self]
  refine congrArg (Ideal.exp (mx (ix2 r (0 : Fin 1)) - M (ix2 r (0 : Fin 1))) * den (ix2 r (0 : Fin 1)) + ·) ?_
  refine (colSum_form _ h1 h2 r).trans ?_
  refine Finset.sum_congr rfl fun c _ => ?_
  exact congrArg (fun t => Ideal.exp (A (ix2 r c) - t)) (Cert.ColumnForms.broadcastTo_a1_ab_apply M hb r c)

/-- The new total column at (r, 0). -/
theorem newTot_form (A : FVec Ideal S1024x640 .f32) (tot : Vec Ideal S1024x1 .f32)
    (h1 : S1024x640.Reduces [1] S1024) (h2 : S1024.ShapeCasts S1024x1) (r : Fin 1024) :
    addf (tot : FVec Ideal S1024x1 .f32)
        (shapeCast S1024x1 (multiReduction .add [1] S1024 A 0x00000000#32 h1 (.inl rfl) rfl) h2) (ix2 r (0 : Fin 1))
      = tot (ix2 r (0 : Fin 1)) + ∑ c : Fin 640, A (ix2 r c) :=
  congrArg (tot (ix2 r (0 : Fin 1)) + ·) (colSum_form A h1 h2 r)

/-- The reported value: column entries combined as m - (m' + log d), reshaped to [2, 512], at (b, s). -/
theorem out_form (v40 v41 v44 : Vec Ideal S1024x1 .f32) (h : S1024x1.ShapeCasts S2x512) (b : Fin 2) (s : Fin 512) :
    shapeCast S2x512
        (subf (F := Ideal) (φ := .f32) v44 (addf (F := Ideal) (φ := .f32) v40 (log (F := Ideal) (φ := .f32) v41)))
        h (ix2 b s)
      = v44 (ix2 (⟨b.val * 512 + s.val, by have := b.isLt; have := s.isLt; omega⟩ : Fin 1024) (0 : Fin 1))
        - (v40 (ix2 (⟨b.val * 512 + s.val, by have := b.isLt; have := s.isLt; omega⟩ : Fin 1024) (0 : Fin 1))
          + Ideal.log (v41 (ix2 (⟨b.val * 512 + s.val, by have := b.isLt; have := s.isLt; omega⟩ : Fin 1024) (0 : Fin 1)))) :=
  colRows_form _ h b s

end Cert.KernelIdeal.Val

end
-- ==== Proof.KI.Blocks0.lean ====
/-
  Region 0 of the grid, block by block.

  The grid has 100 points; point t works on row tile t / 50 (512 rows of each of the two batch
  entries) and vocabulary tile t % 50 (640 entries).  Its activation block is the activations at
  rows (t / 50) * 512 + s', its vocabulary block is rows (t % 50) * 640 + c' of the vocabulary
  matrix, and its two output blocks are columns (t / 50) * 512 + s' of the two [2, 1024] outputs: a
  block's coordinate is always block index times block size plus the coordinate inside the block.
  The output blocks are written back at the last vocabulary tile of each row tile, and those two
  write-backs tile each output array.  After a point of the first vocabulary tile the running
  columns are the update of the reset columns by the tile, after any other point the update of what
  the point before left, and at a last-tile point the output blocks are the finished columns laid
  out as [2, 512].
-/
import proofs.«154765_j27539330302083_2_alg».proof.Proof.KI.Pieces0
import proofs.«154765_j27539330302083_2_alg».proof.Proof.KI.PayCommon
import Idealize.ShloMosaic.Lib.Pipeline.Value

set_option maxRecDepth 16384

noncomputable section

namespace Cert.KernelIdeal.Val

open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.Hand

variable {F : FTy → Type} [FloatOps F]

/-! ### Where each window's block sits at a grid point -/

/-- At point t the activation block is row tile t / 50 of the activations, the vocabulary block is
    tile t % 50 of the vocabulary matrix, and both output blocks are row tile t / 50 of their arrays. -/
theorem idx0 : ∀ t : Fin cfg0.N, (win0_0.index t 0 = 0 ∧ win0_0.index t 1 = t.val / 50 ∧ win0_0.index t 2 = 0)
    ∧ (win0_1.index t 0 = t.val % 50 ∧ win0_1.index t 1 = 0)
    ∧ (win0_2.index t 0 = 0 ∧ win0_2.index t 1 = t.val / 50)
    ∧ (win0_3.index t 0 = 0 ∧ win0_3.index t 1 = t.val / 50) :=
  (by decide +kernel : ∀ t : Fin grid0.N, (win0_0.index t 0 = 0 ∧ win0_0.index t 1 = t.val / 50 ∧ win0_0.index t 2 = 0)
    ∧ (win0_1.index t 0 = t.val % 50 ∧ win0_1.index t 1 = 0)
    ∧ (win0_2.index t 0 = 0 ∧ win0_2.index t 1 = t.val / 50)
    ∧ (win0_3.index t 0 = 0 ∧ win0_3.index t 1 = t.val / 50))

section Blocks
variable (V : (c : Dev nD) → (b : Ref sig .tc) → Buf (Elt F) ((c : Thread nD τ).loc b))

/-- The activation block at point t: entry (b, s', h) is the activations at (b, (t / 50) * 512 + s', h). -/
theorem iblk0_0_apply (c : Dev nD) (t : Fin cfg0.N) (b : Fin 2) (s' : Fin 512) (h : Fin 2048) (q : Fin 1024)
    (hq : q.val = t.val / 50 * 512 + s'.val) :
    (iblk0 V c 0 t : Vec F S2x512x2048 .bf16) (ix3 b s' h) = (V c main_v1 : S2x1024x2048.Idx → Elt F .bf16) (ix3 b q h) := by
  have hi := (idx0 t).1
  unfold iblk0
  rw [View.read_apply]
  show V c main_v1 _ = V c main_v1 _
  congr 1
  funext a
  apply Fin.ext
  match a with
  | ⟨0, _⟩ => show win0_0.index t 0 * 2 + 1 * b.val = b.val; rw [hi.1]; omega
  | ⟨1, _⟩ => show win0_0.index t 1 * 512 + 1 * s'.val = q.val; rw [hi.2.1, hq]; omega
  | ⟨2, _⟩ => show win0_0.index t 2 * 2048 + 1 * h.val = h.val; rw [hi.2.2]; omega

/-- The vocabulary block at point t: entry (c', h) is the vocabulary matrix at ((t % 50) * 640 + c', h). -/
theorem iblk0_1_apply (c : Dev nD) (t : Fin cfg0.N) (c' : Fin 640) (h : Fin 2048) (v : Fin 32000)
    (hv : v.val = t.val % 50 * 640 + c'.val) :
    (iblk0 V c 1 t : Vec F S640x2048 .f32) (ix2 c' h) = (V c main_arg1 : S32000x2048.Idx → Elt F .f32) (ix2 v h) := by
  have hi := (idx0 t).2.1
  unfold iblk0
  rw [View.read_apply]
  show V c main_arg1 _ = V c main_arg1 _
  congr 1
  funext a
  apply Fin.ext
  match a with
  | ⟨0, _⟩ => show win0_1.index t 0 * 640 + 1 * c'.val = v.val; rw [hi.1, hv]; omega
  | ⟨1, _⟩ => show win0_1.index t 1 * 2048 + 1 * h.val = h.val; rw [hi.2]; omega

/-- The first output's block at point t, read off an array G: entry (b, s') is G at (b, (t / 50) * 512 + s'). -/
theorem blk0_2_read (c : Dev nD) (t : Fin cfg0.N) (G : Buf (Elt F) ((c : Thread nD τ).loc main_v2_0)) (b : Fin 2) (s' : Fin 512)
    (q : Fin 1024) (hq : q.val = t.val / 50 * 512 + s'.val) :
    (((cfg0.win 2).blk t).view.read (Elt F) G : Vec F S2x512 .f32) (ix2 b s') = (G : S2x1024.Idx → Elt F .f32) (ix2 b q) := by
  have hi := (idx0 t).2.2.1
  rw [View.read_apply]
  show G _ = G _
  congr 1
  funext a
  apply Fin.ext
  match a with
  | ⟨0, _⟩ => show win0_2.index t 0 * 2 + 1 * b.val = b.val; rw [hi.1]; omega
  | ⟨1, _⟩ => show win0_2.index t 1 * 512 + 1 * s'.val = q.val; rw [hi.2, hq]; omega

/-- The second output's block at point t, read off an array G. -/
theorem blk0_3_read (c : Dev nD) (t : Fin cfg0.N) (G : Buf (Elt F) ((c : Thread nD τ).loc main_v2_1)) (b : Fin 2) (s' : Fin 512)
    (q : Fin 1024) (hq : q.val = t.val / 50 * 512 + s'.val) :
    (((cfg0.win 3).blk t).view.read (Elt F) G : Vec F S2x512 .f32) (ix2 b s') = (G : S2x1024.Idx → Elt F .f32) (ix2 b q) := by
  have hi := (idx0 t).2.2.2
  rw [View.read_apply]
  show G _ = G _
  congr 1
  funext a
  apply Fin.ext
  match a with
  | ⟨0, _⟩ => show win0_3.index t 0 * 2 + 1 * b.val = b.val; rw [hi.1]; omega
  | ⟨1, _⟩ => show win0_3.index t 1 * 512 + 1 * s'.val = q.val; rw [hi.2, hq]; omega

end Blocks

/-! ### The output blocks tile their arrays -/

/-- The output windows are not cut: their blocks are whole [2, 512] blocks at every point. -/
theorem xsize0 : ∀ t : Fin cfg0.N, (win0_2.xsize (grid0.coords t) 0 = 2 ∧ win0_2.xsize (grid0.coords t) 1 = 512)
    ∧ (win0_3.xsize (grid0.coords t) 0 = 2 ∧ win0_3.xsize (grid0.coords t) 1 = 512) :=
  (by decide +kernel : ∀ t : Fin grid0.N, (win0_2.xsize (grid0.coords t) 0 = 2 ∧ win0_2.xsize (grid0.coords t) 1 = 512)
    ∧ (win0_3.xsize (grid0.coords t) 0 = 2 ∧ win0_3.xsize (grid0.coords t) 1 = 512))

/-- Every entry (b, s) of the first output array lies in the block written back at the last tile of row tile s / 512. -/
theorem cover0_2 (c : Dev nD) (i : S2x1024.Idx) :
    ∃ t : Fin cfg0.N, (cfg0.win 2).flush t = true ∧ i ∈ ((cfg0.win 2).blk t).view.set := by
  have h0 : (i 0).val < 2 := idx2_lt0 i
  have h1 : (i 1).val < 1024 := idx2_lt1 i
  have hN : cfg0.N = 100 := N_0
  have hlt : (i 1).val / 512 * 50 + 49 < cfg0.N := by rw [hN]; omega
  refine ⟨⟨(i 1).val / 512 * 50 + 49, hlt⟩, (flush0_2 _).mpr (by show ((i 1).val / 512 * 50 + 49) % 50 = 49; omega), ?_⟩
  have hi := (idx0 ⟨(i 1).val / 512 * 50 + 49, hlt⟩).2.2.1
  have hx := (xsize0 ⟨(i 1).val / 512 * 50 + 49, hlt⟩).1
  show i ∈ ((View.whole main_v2_0).slice (win0_2.rect ⟨(i 1).val / 512 * 50 + 49, hlt⟩)).set
  rw [View.set_slice_whole, Rect.mem_set_unit]
  intro a
  match a with
  | ⟨0, _⟩ =>
    show win0_2.index ⟨(i 1).val / 512 * 50 + 49, hlt⟩ 0 * 2 ≤ (i 0).val
      ∧ (i 0).val < win0_2.index ⟨(i 1).val / 512 * 50 + 49, hlt⟩ 0 * 2 + win0_2.xsize (grid0.coords ⟨(i 1).val / 512 * 50 + 49, hlt⟩) 0
    rw [hi.1, hx.1]; omega
  | ⟨1, _⟩ =>
    show win0_2.index ⟨(i 1).val / 512 * 50 + 49, hlt⟩ 1 * 512 ≤ (i 1).val
      ∧ (i 1).val < win0_2.index ⟨(i 1).val / 512 * 50 + 49, hlt⟩ 1 * 512 + win0_2.xsize (grid0.coords ⟨(i 1).val / 512 * 50 + 49, hlt⟩) 1
    rw [hi.2, hx.2]
    show ((i 1).val / 512 * 50 + 49) / 50 * 512 ≤ (i 1).val ∧ (i 1).val < ((i 1).val / 512 * 50 + 49) / 50 * 512 + 512
    omega

/-- Likewise for the second output array. -/
theorem cover0_3 (c : Dev nD) (i : S2x1024.Idx) :
    ∃ t : Fin cfg0.N, (cfg0.win 3).flush t = true ∧ i ∈ ((cfg0.win 3).blk t).view.set := by
  have h0 : (i 0).val < 2 := idx2_lt0 i
  have h1 : (i 1).val < 1024 := idx2_lt1 i
  have hN : cfg0.N = 100 := N_0
  have hlt : (i 1).val / 512 * 50 + 49 < cfg0.N := by rw [hN]; omega
  refine ⟨⟨(i 1).val / 512 * 50 + 49, hlt⟩, (flush0_3 _).mpr (by show ((i 1).val / 512 * 50 + 49) % 50 = 49; omega), ?_⟩
  have hi := (idx0 ⟨(i 1).val / 512 * 50 + 49, hlt⟩).2.2.2
  have hx := (xsize0 ⟨(i 1).val / 512 * 50 + 49, hlt⟩).2
  show i ∈ ((View.whole main_v2_1).slice (win0_3.rect ⟨(i 1).val / 512 * 50 + 49, hlt⟩)).set
  rw [View.set_slice_whole, Rect.mem_set_unit]
  intro a
  match a with
  | ⟨0, _⟩ =>
    show win0_3.index ⟨(i 1).val / 512 * 50 + 49, hlt⟩ 0 * 2 ≤ (i 0).val
      ∧ (i 0).val < win0_3.index ⟨(i 1).val / 512 * 50 + 49, hlt⟩ 0 * 2 + win0_3.xsize (grid0.coords ⟨(i 1).val / 512 * 50 + 49, hlt⟩) 0
    rw [hi.1, hx.1]; omega
  | ⟨1, _⟩ =>
    show win0_3.index ⟨(i 1).val / 512 * 50 + 49, hlt⟩ 1 * 512 ≤ (i 1).val
      ∧ (i 1).val < win0_3.index ⟨(i 1).val / 512 * 50 + 49, hlt⟩ 1 * 512 + win0_3.xsize (grid0.coords ⟨(i 1).val / 512 * 50 + 49, hlt⟩) 1
    rw [hi.2, hx.2]
    show ((i 1).val / 512 * 50 + 49) / 50 * 512 ≤ (i 1).val ∧ (i 1).val < ((i 1).val / 512 * 50 + 49) / 50 * 512 + 512
    omega

/-! ### The columns and the output blocks after a point, as the body's arithmetic -/

section Outs
variable (V : (c : Dev nD) → (b : Ref sig .tc) → Buf (Elt F) ((c : Thread nD τ).loc b))

/-- After a point of the first tile the columns are the update, by the tile, of the reset columns. -/
theorem outs0_first (c : Dev nD) (t : Fin cfg0.N) (h0 : t.val % 50 = 0) :
    (outsAt0 V c t.val t.isLt).2
      = (k0_pay2 (k0_pay9 (iblk0 V c 0 t) (iblk0 V c 1 t) (k0_pay5 (F := F))),
         k0_pay10 (iblk0 V c 0 t) (iblk0 V c 1 t) (k0_pay5 (F := F)) (k0_pay5 (F := F)) (k0_pay6 (F := F)),
         k0_pay1 (k0_pay11 (iblk0 V c 0 t) (iblk0 V c 1 t) (k0_pay7 (F := F)))) := by
  have h1 : ¬t.val % 50 = 49 := by omega
  rw [outsAt0_A V c t h0 h1]
  exact resA0_scr V c t h0 h1

/-- After any other point the columns are the update, by the tile, of what the point before left. -/
theorem outs0_next (c : Dev nD) (t : Fin cfg0.N) (h0 : ¬t.val % 50 = 0) :
    (outsAt0 V c t.val t.isLt).2
      = (k0_pay2 (k0_pay9 (iblk0 V c 0 t) (iblk0 V c 1 t) (outsAt0 V c (t.val - 1) (Nat.lt_of_le_of_lt (Nat.sub_le _ _) t.isLt)).2.1),
         k0_pay10 (iblk0 V c 0 t) (iblk0 V c 1 t) (outsAt0 V c (t.val - 1) (Nat.lt_of_le_of_lt (Nat.sub_le _ _) t.isLt)).2.1
           (outsAt0 V c (t.val - 1) (Nat.lt_of_le_of_lt (Nat.sub_le _ _) t.isLt)).2.1
           (outsAt0 V c (t.val - 1) (Nat.lt_of_le_of_lt (Nat.sub_le _ _) t.isLt)).2.2.1,
         k0_pay1 (k0_pay11 (iblk0 V c 0 t) (iblk0 V c 1 t) (outsAt0 V c (t.val - 1) (Nat.lt_of_le_of_lt (Nat.sub_le _ _) t.isLt)).2.2.2)) := by
  by_cases h1 : t.val % 50 = 49
  · rw [outsAt0_C V c t h0 h1]
    exact resC0_scr V c t h0 h1 _
  · rw [outsAt0_B V c t h0 h1]
    exact resB0_scr V c t h0 h1 _

/-- After a point of the last tile the output blocks are the finished columns laid out as [2, 512]. -/
theorem outs0_last (c : Dev nD) (t : Fin cfg0.N) (h1 : t.val % 50 = 49) :
    (outsAt0 V c t.val t.isLt).1
      = (k0_pay3 (outsAt0 V c t.val t.isLt).2.1 (outsAt0 V c t.val t.isLt).2.2.1 (outsAt0 V c t.val t.isLt).2.1,
         k0_pay4 (outsAt0 V c t.val t.isLt).2.2.2) := by
  have h0 : ¬t.val % 50 = 0 := by omega
  rw [outsAt0_C V c t h0 h1, resC0_scr, resC0_out]

end Outs

end Cert.KernelIdeal.Val

end
-- ==== Proof.KI.Pay0.lean ====
/-
  The values stored by the first kernel's body, read at an index, over the extended reals.

  The body computes the logits of its 1024 rows against the 640 entries of the current vocabulary
  tile and updates three columns: at row r the new maximum, denominator and total are the three
  fields of one step of the row's running state on the tile's logits.  At the first tile the columns
  are reset to minus infinity, zero and zero, the state before any tile.  After the last tile the
  reported values are, at batch entry b and position s, read off row b * 512 + s of the columns:
  m - (m + log d), and the total.
-/
import proofs.«154765_j27539330302083_2_alg».proof.Proof.KI.PayCommon

noncomputable section

namespace Cert.KernelIdeal.Val

open Idealize.ShloMosaic Idealize.ShloMosaic.ValueIdx
open Cert.KernelIdeal Cert.KernelIdeal.Gen
open scoped BigOperators

/-- The product of the body at (r, c) is the logit of row r against entry c of the tile. -/
theorem pay8_apply (x0 : Vec Ideal S2x512x2048 .bf16) (x1 : Vec Ideal S640x2048 .f32) (r : Fin 1024) (c : Fin 640) :
    k0_pay8 (F := Ideal) x0 x1 (ix2 r c) = tileLogit x0 x1 r c := by
  unfold k0_pay8
  exact logits_form x0 x1 _ _ _ r c

/-- Row r of the product is the tile's logits of row r. -/
theorem pay8_row (x0 : Vec Ideal S2x512x2048 .bf16) (x1 : Vec Ideal S640x2048 .f32) (r : Fin 1024) :
    (fun c : Fin 640 => k0_pay8 (F := Ideal) x0 x1 (ix2 r c)) = tileLogit x0 x1 r :=
  funext (pay8_apply x0 x1 r)

/-- The new maximum column at row r is the maximum field of the row's step. -/
theorem pay9_apply (x0 : Vec Ideal S2x512x2048 .bf16) (x1 : Vec Ideal S640x2048 .f32)
    (mx den tot : Vec Ideal S1024x1 .f32) (r : Fin 1024) :
    k0_pay9 (F := Ideal) x0 x1 mx (ix2 r (0 : Fin 1)) = ((rowSt mx den tot r).step (tileLogit x0 x1 r)).mx := by
  unfold k0_pay9
  refine (newMax_form (k0_pay8 (F := Ideal) x0 x1) mx _ _ r).trans ?_
  exact congrArg (fun f => max (mx (ix2 r (0 : Fin 1))) (Finset.univ.fold max (⊥ : EReal) f)) (pay8_row x0 x1 r)

/-- The new denominator column at row r is the denominator field of the row's step. -/
theorem pay10_apply (x0 : Vec Ideal S2x512x2048 .bf16) (x1 : Vec Ideal S640x2048 .f32)
    (mx den tot : Vec Ideal S1024x1 .f32) (r : Fin 1024) :
    k0_pay10 (F := Ideal) x0 x1 mx mx den (ix2 r (0 : Fin 1)) = ((rowSt mx den tot r).step (tileLogit x0 x1 r)).den := by
  unfold k0_pay10
  refine (newDen_form (k0_pay8 (F := Ideal) x0 x1) (k0_pay9 (F := Ideal) x0 x1 mx) mx den _ _ _ _ r).trans ?_
  rw [pay9_apply x0 x1 mx den tot r]
  simp only [pay8_apply]
  rfl

/-- The new total column at row r is the total field of the row's step. -/
theorem pay11_apply (x0 : Vec Ideal S2x512x2048 .bf16) (x1 : Vec Ideal S640x2048 .f32)
    (mx den tot : Vec Ideal S1024x1 .f32) (r : Fin 1024) :
    k0_pay11 (F := Ideal) x0 x1 tot (ix2 r (0 : Fin 1)) = ((rowSt mx den tot r).step (tileLogit x0 x1 r)).tot := by
  unfold k0_pay11
  refine (newTot_form (k0_pay8 (F := Ideal) x0 x1) tot _ _ r).trans ?_
  simp only [pay8_apply]
  rfl

/-- The reset maximum column is minus infinity everywhere. -/
theorem pay5_apply (r : Fin 1024) : k0_pay5 (F := Ideal) (ix2 r (0 : Fin 1)) = ⊥ := by
  unfold k0_pay5
  exact (congrFun (shapeCast_self _ shapeCasts_S1024x1_S1024x1) (ix2 r (0 : Fin 1))).trans ofBits_neg_inf

/-- The reset denominator column is zero everywhere. -/
theorem pay6_apply (r : Fin 1024) : k0_pay6 (F := Ideal) (ix2 r (0 : Fin 1)) = 0 := by
  unfold k0_pay6
  exact (congrFun (shapeCast_self _ shapeCasts_S1024x1_S1024x1) (ix2 r (0 : Fin 1))).trans Ideal.ofBits_zero_f32

/-- The reset total column is zero everywhere. -/
theorem pay7_apply (r : Fin 1024) : k0_pay7 (F := Ideal) (ix2 r (0 : Fin 1)) = 0 := by
  unfold k0_pay7
  exact (congrFun (shapeCast_self _ shapeCasts_S1024x1_S1024x1) (ix2 r (0 : Fin 1))).trans Ideal.ofBits_zero_f32

/-- The three reset columns hold, at every row, the state before any tile. -/
theorem reset_rowSt (r : Fin 1024) :
    rowSt (k0_pay5 (F := Ideal)) (k0_pay6 (F := Ideal)) (k0_pay7 (F := Ideal)) r = Cert.Spec.St.init := by
  unfold rowSt Cert.Spec.St.init
  rw [pay5_apply, pay6_apply, pay7_apply]

/-- Storing the total column: a reshape of a column to its own shape changes nothing. -/
theorem pay1_eq (v : FVec Ideal S1024x1 .f32) : k0_pay1 (F := Ideal) v = v := by
  unfold k0_pay1
  exact shapeCast_self v _

/-- Storing the maximum column: likewise. -/
theorem pay2_eq (v : FVec Ideal S1024x1 .f32) : k0_pay2 (F := Ideal) v = v := by
  unfold k0_pay2
  exact shapeCast_self v _

/-- The reported log-softmax value at batch entry b, position s, from row b * 512 + s of the columns. -/
theorem pay3_apply (v40 v41 v44 : Vec Ideal S1024x1 .f32) (b : Fin 2) (s : Fin 512) :
    k0_pay3 (F := Ideal) v40 v41 v44 (ix2 b s)
      = v44 (ix2 (⟨b.val * 512 + s.val, by have := b.isLt; have := s.isLt; omega⟩ : Fin 1024) (0 : Fin 1))
        - (v40 (ix2 (⟨b.val * 512 + s.val, by have := b.isLt; have := s.isLt; omega⟩ : Fin 1024) (0 : Fin 1))
          + Ideal.log (v41 (ix2 (⟨b.val * 512 + s.val, by have := b.isLt; have := s.isLt; omega⟩ : Fin 1024) (0 : Fin 1)))) := by
  unfold k0_pay3
  exact out_form v40 v41 v44 _ b s

/-- The reported total at batch entry b, position s, from row b * 512 + s of the total column. -/
theorem pay4_apply (v48 : Vec Ideal S1024x1 .f32) (b : Fin 2) (s : Fin 512) :
    k0_pay4 (F := Ideal) v48 (ix2 b s)
      = v48 (ix2 (⟨b.val * 512 + s.val, by have := b.isLt; have := s.isLt; omega⟩ : Fin 1024) (0 : Fin 1)) := by
  unfold k0_pay4
  exact colRows_form v48 _ b s

end Cert.KernelIdeal.Val

end
-- ==== Proof.Tiles.lean ====
/-
  How the 50 tiles of 640 entries cover the vocabulary of 32000 entries.

  The entries met by the first n tiles are those whose position is below n * 640.  Tile n (for
  n < 50) is the image of its 640 positions under c ↦ n * 640 + c, a one-to-one map; it is disjoint
  from what the first n tiles met, and together they are what the first n + 1 tiles met.  Nothing
  has been met before the first tile, and after the last one every entry has been met, because
  50 * 640 = 32000.  A fold of max from the bottom element is the supremum, and a sum or a supremum
  over a tile is the sum or supremum over its 640 positions.
-/
import proofs.«154765_j27539330302083_2_alg».proof.Proof.Spec

noncomputable section

namespace Cert.Spec

open Idealize.ShloMosaic
open scoped BigOperators

/-- The vocabulary entries met by the first n tiles: those at a position below n * 640. -/
def seen (n : ℕ) : Finset (Fin 32000) := Finset.univ.filter (fun v : Fin 32000 => v.val < n * 640)

/-- The position of entry c of tile j is j * 640 + c. -/
theorem vocabAt_val (j : Fin 50) (c : Fin 640) : (vocabAt j c).val = j.val * 640 + c.val := rfl

/-- Two positions of one tile that name the same vocabulary entry are the same position. -/
theorem vocabAt_injective (j : Fin 50) : Function.Injective (vocabAt j) := by
  intro c d h
  have hv : (vocabAt j c).val = (vocabAt j d).val := congrArg Fin.val h
  rw [vocabAt_val, vocabAt_val] at hv
  exact Fin.ext (by omega)

/-- The vocabulary entries of tile j. -/
def tile (j : Fin 50) : Finset (Fin 32000) := Finset.univ.map ⟨vocabAt j, vocabAt_injective j⟩

/-- An entry belongs to tile j exactly when it is one of the tile's 640 positions. -/
theorem mem_tile (j : Fin 50) (v : Fin 32000) : v ∈ tile j ↔ ∃ c : Fin 640, vocabAt j c = v := by
  unfold tile
  rw [Finset.mem_map]
  constructor
  · rintro ⟨c, _, hc⟩; exact ⟨c, hc⟩
  · rintro ⟨c, hc⟩; exact ⟨c, Finset.mem_univ c, hc⟩

/-- An entry has been met by the first n tiles exactly when its position is below n * 640. -/
theorem mem_seen (n : ℕ) (v : Fin 32000) : v ∈ seen n ↔ v.val < n * 640 := by
  unfold seen
  rw [Finset.mem_filter]
  exact ⟨fun h => h.2, fun h => ⟨Finset.mem_univ v, h⟩⟩

/-- Before the first tile nothing has been met. -/
theorem seen_zero : seen 0 = ∅ := by
  ext v
  rw [mem_seen]
  constructor
  · intro h; omega
  · intro h; exact absurd h (Finset.notMem_empty v)

/-- After the last tile every entry has been met: 50 * 640 = 32000. -/
theorem seen_last : seen 50 = Finset.univ := by
  ext v
  rw [mem_seen]
  have := v.isLt
  constructor
  · intro _; exact Finset.mem_univ v
  · intro _; omega

/-- What the first n + 1 tiles met is what the first n met together with tile n. -/
theorem seen_succ (n : ℕ) (h : n < 50) : seen (n + 1) = seen n ∪ tile ⟨n, h⟩ := by
  ext v
  rw [Finset.mem_union, mem_seen, mem_seen, mem_tile]
  constructor
  · intro hv
    by_cases h1 : v.val < n * 640
    · exact Or.inl h1
    · refine Or.inr ⟨⟨v.val - n * 640, by omega⟩, ?_⟩
      apply Fin.ext
      rw [vocabAt_val]
      show n * 640 + (v.val - n * 640) = v.val
      omega
  · rintro (h1 | ⟨c, rfl⟩)
    · omega
    · rw [vocabAt_val]
      have := c.isLt
      show n * 640 + c.val < (n + 1) * 640
      omega

/-- Tile n holds nothing that the first n tiles met. -/
theorem seen_disjoint (n : ℕ) (h : n < 50) : Disjoint (seen n) (tile ⟨n, h⟩) := by
  rw [Finset.disjoint_left]
  intro v hv ht
  rw [mem_seen] at hv
  rw [mem_tile] at ht
  obtain ⟨c, rfl⟩ := ht
  rw [vocabAt_val] at hv
  have hv' : n * 640 + c.val < n * 640 := hv
  omega

/-- A fold of max from the bottom element is the supremum. -/
theorem fold_max_eq_sup {ι : Type*} (A : Finset ι) (f : ι → EReal) : A.fold max (⊥ : EReal) f = A.sup f := rfl

/-- The supremum over a tile is the supremum over its 640 positions. -/
theorem sup_tile (j : Fin 50) (f : Fin 32000 → EReal) :
    (tile j).sup f = Finset.univ.sup (fun c : Fin 640 => f (vocabAt j c)) := by
  unfold tile
  rw [Finset.sup_map]
  rfl

/-- The sum over a tile is the sum over its 640 positions. -/
theorem sum_tile (j : Fin 50) (f : Fin 32000 → EReal) :
    ∑ v ∈ tile j, f v = ∑ c : Fin 640, f (vocabAt j c) := by
  unfold tile
  rw [Finset.sum_map]
  rfl

end Cert.Spec

end
-- ==== Proof.LibOnlineSoftmax.lean ====
/-
  The online (blockwise) softmax at the extended reals.

  A row of scores s is walked block by block keeping the running maximum m, the running
  denominator l = sum of exp (s j - m) and the running numerator acc = sum of exp (s j - m) * v j;
  at each new block both are rescaled by exp (m_old - m_new).  The laws below say that this walk
  computes the same extended reals as the one-pass softmax: the maximum of a union is the maximum of
  the maxima, the rescaled sums of two disjoint blocks add up to the sum over their union, and
  dividing the numerator by the denominator at the end is the weighted sum of the normalised
  weights.  Every score is a real or the bottom element (a masked position), every value is a real;
  the laws hold because of that finiteness, which is why each carries these hypotheses.
-/
import Idealize.ShloMosaic.PureOps.Ideal

noncomputable section

namespace Cert.Lib.OnlineSoftmax

open Idealize.ShloMosaic
open scoped BigOperators

variable {ι : Type*} [DecidableEq ι]

/-- The maximum of the scores over a finite index set; the bottom element on the empty set. -/
def rowMax (A : Finset ι) (s : ι → EReal) : EReal := A.sup s

/-- The sum over the set of the exponentials of the scores shifted by m. -/
def expSum (A : Finset ι) (s : ι → EReal) (m : EReal) : EReal := ∑ j ∈ A, Ideal.exp (s j - m)

/-- The sum over the set of the exponentials of the shifted scores, each weighted by its value. -/
def expDot (A : Finset ι) (s v : ι → EReal) (m : EReal) : EReal :=
  ∑ j ∈ A, Ideal.exp (s j - m) * v j

/-! ### Real sums inside the extended reals -/

/-- The embedding of the reals commutes with a finite sum. -/
theorem coe_sum {κ : Type*} (A : Finset κ) (f : κ → ℝ) :
    ((∑ j ∈ A, f j : ℝ) : EReal) = ∑ j ∈ A, (f j : EReal) := by
  classical
  induction A using Finset.induction_on with
  | empty => simp
  | insert a A ha ih => rw [Finset.sum_insert ha, Finset.sum_insert ha, EReal.coe_add, ih]

/-- The real number e^(x - c) for an extended real x below the top and a real c: zero at the
    bottom element. -/
def expShift (x : EReal) (c : ℝ) : ℝ := if x = ⊥ then 0 else Real.exp (x.toReal - c)

/-- e^(x - c) is nonnegative. -/
theorem expShift_nonneg (x : EReal) (c : ℝ) : 0 ≤ expShift x c := by
  unfold expShift
  split_ifs
  · exact le_refl 0
  · exact (Real.exp_pos _).le

/-- At a real x, e^(x - c) is the real exponential. -/
theorem expShift_coe (a c : ℝ) : expShift (a : EReal) c = Real.exp (a - c) := by
  unfold expShift
  rw [if_neg (EReal.coe_ne_bot a), EReal.toReal_coe]

/-- e^(x - x) = 1 at a real x. -/
theorem expShift_self (a : ℝ) : expShift (a : EReal) a = 1 := by
  rw [expShift_coe, sub_self, Real.exp_zero]

/-- The exponential of an extended real below the top, shifted by a real, is the real e^(x - c). -/
theorem exp_sub_coe {x : EReal} (hx : x ≠ ⊤) (c : ℝ) :
    Ideal.exp (x - (c : EReal)) = (expShift x c : EReal) := by
  induction x using EReal.rec with
  | bot => rw [EReal.bot_sub, Ideal.exp_bot]; unfold expShift; rw [if_pos rfl]; rfl
  | coe a => rw [← EReal.coe_sub, Ideal.exp_coe, expShift_coe]
  | top => exact absurd rfl hx

/-- Changing the shift from a to c multiplies by e^(a - c): e^(a - c) * e^(x - a) = e^(x - c). -/
theorem expShift_mul (x : EReal) (a c : ℝ) :
    Real.exp (a - c) * expShift x a = expShift x c := by
  unfold expShift
  split_ifs
  · exact mul_zero _
  · rw [← Real.exp_add]; congr 1; ring

/-- The shifted exponential sum against a real shift is the embedding of a real sum. -/
theorem expSum_coe {s : ι → EReal} (hs : ∀ j, s j ≠ ⊤) (A : Finset ι) (c : ℝ) :
    expSum A s (c : EReal) = ((∑ j ∈ A, expShift (s j) c : ℝ) : EReal) := by
  rw [coe_sum]
  exact Finset.sum_congr rfl (fun j _ => exp_sub_coe (hs j) c)

/-- The weighted shifted exponential sum against a real shift, with real values, is the
    embedding of a real sum. -/
theorem expDot_coe {s v : ι → EReal} (hs : ∀ j, s j ≠ ⊤) {vr : ι → ℝ}
    (hvr : ∀ j, v j = (vr j : EReal)) (A : Finset ι) (c : ℝ) :
    expDot A s v (c : EReal) = ((∑ j ∈ A, expShift (s j) c * vr j : ℝ) : EReal) := by
  rw [coe_sum]
  refine Finset.sum_congr rfl (fun j _ => ?_)
  rw [exp_sub_coe (hs j) c, hvr j, ← EReal.coe_mul]

/-! ### The maximum -/

/-- The maximum over the empty set is the bottom element: the starting state of the walk. -/
theorem rowMax_empty (s : ι → EReal) : rowMax (∅ : Finset ι) s = ⊥ := Finset.sup_empty

/-- The maximum over a union is the maximum of the two maxima. -/
theorem rowMax_union (A B : Finset ι) (s : ι → EReal) :
    max (rowMax A s) (rowMax B s) = rowMax (A ∪ B) s := by
  unfold rowMax
  rw [Finset.sup_union]

/-- Every score of the set is at most the maximum. -/
theorem le_rowMax {A : Finset ι} (s : ι → EReal) {j : ι} (hj : j ∈ A) : s j ≤ rowMax A s :=
  Finset.le_sup hj

/-- Scores below the top have their maximum below the top. -/
theorem rowMax_ne_top {s : ι → EReal} (hs : ∀ j, s j ≠ ⊤) (A : Finset ι) : rowMax A s ≠ ⊤ := by
  have h : A.sup s < ⊤ :=
    (Finset.sup_lt_iff bot_lt_top).mpr (fun j _ => lt_top_iff_ne_top.mpr (hs j))
  exact h.ne

/-- A maximum that is the bottom element means every score of the set is masked. -/
theorem eq_bot_of_rowMax_eq_bot {A : Finset ι} {s : ι → EReal} (h : rowMax A s = ⊥) {j : ι}
    (hj : j ∈ A) : s j = ⊥ :=
  le_bot_iff.mp (h ▸ le_rowMax s hj)

/-- A maximum of scores below the top that is not the bottom element is a real, and it is
    attained at a position of the set. -/
theorem rowMax_attained {s : ι → EReal} (hs : ∀ j, s j ≠ ⊤) {A : Finset ι}
    (hM : rowMax A s ≠ ⊥) : ∃ a : ℝ, rowMax A s = (a : EReal) ∧ ∃ j ∈ A, s j = (a : EReal) := by
  rcases A.eq_empty_or_nonempty with rfl | hne
  · exact absurd (rowMax_empty s) hM
  · obtain ⟨j, hj, hsup⟩ := Finset.exists_mem_eq_sup A hne s
    refine ⟨(rowMax A s).toReal, (EReal.coe_toReal (rowMax_ne_top hs A) hM).symm, j, hj, ?_⟩
    rw [EReal.coe_toReal (rowMax_ne_top hs A) hM]
    exact hsup.symm

/-! ### The starting state -/

/-- The denominator over the empty set is zero. -/
theorem expSum_empty (s : ι → EReal) (m : EReal) : expSum (∅ : Finset ι) s m = 0 :=
  Finset.sum_empty

/-- The numerator over the empty set is zero. -/
theorem expDot_empty (s v : ι → EReal) (m : EReal) : expDot (∅ : Finset ι) s v m = 0 :=
  Finset.sum_empty

/-- Over a set all of whose scores are masked, the denominator is zero whatever the shift:
    every term is the exponential of the bottom element. -/
theorem expSum_eq_zero_of_masked {A : Finset ι} {s : ι → EReal} (h : ∀ j ∈ A, s j = ⊥)
    (m : EReal) : expSum A s m = 0 :=
  Finset.sum_eq_zero (fun j hj => by rw [h j hj, EReal.bot_sub, Ideal.exp_bot])

/-- Over a set all of whose scores are masked, the numerator is zero whatever the shift. -/
theorem expDot_eq_zero_of_masked {A : Finset ι} {s : ι → EReal} (h : ∀ j ∈ A, s j = ⊥)
    (v : ι → EReal) (m : EReal) : expDot A s v m = 0 :=
  Finset.sum_eq_zero (fun j hj => by rw [h j hj, EReal.bot_sub, Ideal.exp_bot, zero_mul])

/-! ### Sums against a real shift are real -/

/-- The denominator of scores below the top against a real shift is a nonnegative real. -/
theorem expSum_isReal {s : ι → EReal} (hs : ∀ j, s j ≠ ⊤) (A : Finset ι) (c : ℝ) :
    ∃ r : ℝ, 0 ≤ r ∧ expSum A s (c : EReal) = (r : EReal) :=
  ⟨_, Finset.sum_nonneg (fun j _ => expShift_nonneg (s j) c), expSum_coe hs A c⟩

/-- The numerator of scores below the top and real values against a real shift is a real. -/
theorem expDot_isReal {s v : ι → EReal} (hs : ∀ j, s j ≠ ⊤) (hv : ∀ j, ∃ r : ℝ, v j = (r : EReal))
    (A : Finset ι) (c : ℝ) : ∃ r : ℝ, expDot A s v (c : EReal) = (r : EReal) := by
  choose vr hvr using hv
  exact ⟨_, expDot_coe hs hvr A c⟩

/-- Against its own maximum, when that is not the bottom element, the denominator is a real that
    is at least one: the maximum is attained, and that position contributes e^0 = 1. -/
theorem expSum_rowMax_isReal {s : ι → EReal} (hs : ∀ j, s j ≠ ⊤) {A : Finset ι}
    (hM : rowMax A s ≠ ⊥) : ∃ r : ℝ, 1 ≤ r ∧ expSum A s (rowMax A s) = (r : EReal) := by
  obtain ⟨a, ha, j, hj, hsj⟩ := rowMax_attained hs hM
  rw [ha]
  refine ⟨_, ?_, expSum_coe hs A a⟩
  have h1 : expShift (s j) a = 1 := by rw [hsj, expShift_self]
  rw [← h1]
  exact Finset.single_le_sum (f := fun j => expShift (s j) a)
    (fun i _ => expShift_nonneg (s i) a) hj

/-- Against its own maximum, when that is not the bottom element, the denominator is not zero. -/
theorem expSum_rowMax_ne_zero {s : ι → EReal} (hs : ∀ j, s j ≠ ⊤) {A : Finset ι}
    (hM : rowMax A s ≠ ⊥) : expSum A s (rowMax A s) ≠ 0 := by
  obtain ⟨r, hr, h⟩ := expSum_rowMax_isReal hs hM
  rw [h]
  intro h0
  have : r = 0 := EReal.coe_eq_zero.mp h0
  linarith

/-- Against its own maximum, when that is not the bottom element, the denominator is at least one. -/
theorem one_le_expSum_rowMax {s : ι → EReal} (hs : ∀ j, s j ≠ ⊤) {A : Finset ι}
    (hM : rowMax A s ≠ ⊥) : (1 : EReal) ≤ expSum A s (rowMax A s) := by
  obtain ⟨r, hr, h⟩ := expSum_rowMax_isReal hs hM
  rw [h, ← EReal.coe_one]
  exact EReal.coe_le_coe_iff.mpr hr

/-- Against a real shift, the denominator over a set that holds a real score is a positive real. -/
theorem expSum_pos_of_mem {s : ι → EReal} (hs : ∀ j, s j ≠ ⊤) {A : Finset ι} {j : ι} (hj : j ∈ A)
    (hsj : s j ≠ ⊥) (c : ℝ) : ∃ r : ℝ, 0 < r ∧ expSum A s (c : EReal) = (r : EReal) := by
  refine ⟨_, ?_, expSum_coe hs A c⟩
  have hpos : 0 < expShift (s j) c := by
    unfold expShift
    rw [if_neg hsj]
    exact Real.exp_pos _
  exact lt_of_lt_of_le hpos (Finset.single_le_sum (f := fun j => expShift (s j) c)
    (fun i _ => expShift_nonneg (s i) c) hj)

/-- Against a real shift, the denominator over a set that holds a real score is not zero. -/
theorem expSum_ne_zero_of_mem {s : ι → EReal} (hs : ∀ j, s j ≠ ⊤) {A : Finset ι} {j : ι}
    (hj : j ∈ A) (hsj : s j ≠ ⊥) (c : ℝ) : expSum A s (c : EReal) ≠ 0 := by
  obtain ⟨r, hr, h⟩ := expSum_pos_of_mem hs hj hsj c
  rw [h]
  intro h0
  exact hr.ne' (EReal.coe_eq_zero.mp h0)

/-! ### Rescaling: changing the shift -/

/-- Changing a real shift a of a denominator to a real c multiplies it by exp (a - c): term by
    term e^(a - c) * e^(s j - a) = e^(s j - c), a masked term being zero on both sides. -/
theorem rescale_sum_real {s : ι → EReal} (hs : ∀ j, s j ≠ ⊤) (A : Finset ι) (a c : ℝ) :
    Ideal.exp ((a : EReal) - (c : EReal)) * expSum A s (a : EReal) = expSum A s (c : EReal) := by
  rw [expSum_coe hs A a, expSum_coe hs A c, ← EReal.coe_sub, Ideal.exp_coe, ← EReal.coe_mul,
    Finset.mul_sum]
  exact congrArg _ (Finset.sum_congr rfl (fun j _ => expShift_mul (s j) a c))

/-- Changing a real shift a of a numerator with real values to a real c multiplies it by
    exp (a - c). -/
theorem rescale_dot_real {s v : ι → EReal} (hs : ∀ j, s j ≠ ⊤)
    (hv : ∀ j, ∃ r : ℝ, v j = (r : EReal)) (A : Finset ι) (a c : ℝ) :
    Ideal.exp ((a : EReal) - (c : EReal)) * expDot A s v (a : EReal) = expDot A s v (c : EReal) := by
  choose vr hvr using hv
  rw [expDot_coe hs hvr A a, expDot_coe hs hvr A c, ← EReal.coe_sub, Ideal.exp_coe,
    ← EReal.coe_mul, Finset.mul_sum]
  refine congrArg _ (Finset.sum_congr rfl (fun j _ => ?_))
  rw [← mul_assoc, expShift_mul]

/-- Changing the shift of a denominator from m to a real c multiplies it by exp (m - c), when m is
    an upper bound of the scores below the top: for a real m term by term
    e^(m - c) * e^(s j - m) = e^(s j - c); for m the bottom element every score is masked and both
    sides are zero. -/
theorem rescale_sum {s : ι → EReal} (hs : ∀ j, s j ≠ ⊤) {A : Finset ι} {m : EReal}
    (hmt : m ≠ ⊤) (hle : ∀ j ∈ A, s j ≤ m) (c : ℝ) :
    Ideal.exp (m - (c : EReal)) * expSum A s m = expSum A s (c : EReal) := by
  induction m using EReal.rec with
  | bot =>
    rw [EReal.bot_sub, Ideal.exp_bot, zero_mul,
      expSum_eq_zero_of_masked (fun j hj => le_bot_iff.mp (hle j hj))]
  | coe a => exact rescale_sum_real hs A a c
  | top => exact absurd rfl hmt

/-- Changing the shift of a numerator from m to a real c multiplies it by exp (m - c), under the
    same hypotheses and with real values. -/
theorem rescale_dot {s v : ι → EReal} (hs : ∀ j, s j ≠ ⊤) (hv : ∀ j, ∃ r : ℝ, v j = (r : EReal))
    {A : Finset ι} {m : EReal} (hmt : m ≠ ⊤) (hle : ∀ j ∈ A, s j ≤ m) (c : ℝ) :
    Ideal.exp (m - (c : EReal)) * expDot A s v m = expDot A s v (c : EReal) := by
  induction m using EReal.rec with
  | bot =>
    rw [EReal.bot_sub, Ideal.exp_bot, zero_mul,
      expDot_eq_zero_of_masked (fun j hj => le_bot_iff.mp (hle j hj))]
  | coe a => exact rescale_dot_real hs hv A a c
  | top => exact absurd rfl hmt

/-! ### Merging two blocks -/

/-- The merge step for the denominator, against any real new shift c: the denominator of block A
    against its own maximum, rescaled by exp (max A - c), plus the denominator of a disjoint block
    B against c, is the denominator of the union against c. -/
theorem merge_sum_real {s : ι → EReal} (hs : ∀ j, s j ≠ ⊤) {A B : Finset ι} (hAB : Disjoint A B)
    (c : ℝ) :
    Ideal.exp (rowMax A s - (c : EReal)) * expSum A s (rowMax A s) + expSum B s (c : EReal)
      = expSum (A ∪ B) s (c : EReal) := by
  rw [rescale_sum hs (rowMax_ne_top hs A) (fun j hj => le_rowMax s hj) c]
  unfold expSum
  rw [Finset.sum_union hAB]

/-- The merge step for the numerator, against any real new shift c. -/
theorem merge_dot_real {s v : ι → EReal} (hs : ∀ j, s j ≠ ⊤)
    (hv : ∀ j, ∃ r : ℝ, v j = (r : EReal)) {A B : Finset ι} (hAB : Disjoint A B) (c : ℝ) :
    Ideal.exp (rowMax A s - (c : EReal)) * expDot A s v (rowMax A s) + expDot B s v (c : EReal)
      = expDot (A ∪ B) s v (c : EReal) := by
  rw [rescale_dot hs hv (rowMax_ne_top hs A) (fun j hj => le_rowMax s hj) c]
  unfold expDot
  rw [Finset.sum_union hAB]

/-- The merge step of the online softmax for the denominator. With m the maximum over block A and
    m' the larger of m and the maximum over a disjoint block B, rescaling the running denominator
    by exp (m - m') and adding block B's denominator against m' gives the denominator of the union
    against m'. It holds for m the bottom element too (A empty or fully masked: the rescaled term
    is zero), and for m' the bottom element (every score of both blocks masked: both sides are
    zero). -/
theorem merge_sum {s : ι → EReal} (hs : ∀ j, s j ≠ ⊤) {A B : Finset ι} (hAB : Disjoint A B) :
    Ideal.exp (rowMax A s - max (rowMax A s) (rowMax B s)) * expSum A s (rowMax A s)
        + expSum B s (max (rowMax A s) (rowMax B s))
      = expSum (A ∪ B) s (max (rowMax A s) (rowMax B s)) := by
  by_cases hb : max (rowMax A s) (rowMax B s) = ⊥
  · have hA : rowMax A s = ⊥ := le_bot_iff.mp (hb ▸ le_max_left _ _)
    have hB : rowMax B s = ⊥ := le_bot_iff.mp (hb ▸ le_max_right _ _)
    have hall : ∀ j ∈ A ∪ B, s j = ⊥ := by
      intro j hj
      rcases Finset.mem_union.mp hj with h | h
      · exact eq_bot_of_rowMax_eq_bot hA h
      · exact eq_bot_of_rowMax_eq_bot hB h
    rw [expSum_eq_zero_of_masked hall,
      expSum_eq_zero_of_masked (fun j hj => eq_bot_of_rowMax_eq_bot hB hj),
      expSum_eq_zero_of_masked (fun j hj => eq_bot_of_rowMax_eq_bot hA hj), mul_zero, add_zero]
  · have ht : max (rowMax A s) (rowMax B s) ≠ ⊤ := by
      rw [rowMax_union]; exact rowMax_ne_top hs _
    rw [← EReal.coe_toReal ht hb]
    exact merge_sum_real hs hAB _

/-- The merge step of the online softmax for the numerator, with real values: the same law with
    each term weighted by its value. -/
theorem merge_dot {s v : ι → EReal} (hs : ∀ j, s j ≠ ⊤) (hv : ∀ j, ∃ r : ℝ, v j = (r : EReal))
    {A B : Finset ι} (hAB : Disjoint A B) :
    Ideal.exp (rowMax A s - max (rowMax A s) (rowMax B s)) * expDot A s v (rowMax A s)
        + expDot B s v (max (rowMax A s) (rowMax B s))
      = expDot (A ∪ B) s v (max (rowMax A s) (rowMax B s)) := by
  by_cases hb : max (rowMax A s) (rowMax B s) = ⊥
  · have hA : rowMax A s = ⊥ := le_bot_iff.mp (hb ▸ le_max_left _ _)
    have hB : rowMax B s = ⊥ := le_bot_iff.mp (hb ▸ le_max_right _ _)
    have hall : ∀ j ∈ A ∪ B, s j = ⊥ := by
      intro j hj
      rcases Finset.mem_union.mp hj with h | h
      · exact eq_bot_of_rowMax_eq_bot hA h
      · exact eq_bot_of_rowMax_eq_bot hB h
    rw [expDot_eq_zero_of_masked hall,
      expDot_eq_zero_of_masked (fun j hj => eq_bot_of_rowMax_eq_bot hB hj),
      expDot_eq_zero_of_masked (fun j hj => eq_bot_of_rowMax_eq_bot hA hj), mul_zero, add_zero]
  · have ht : max (rowMax A s) (rowMax B s) ≠ ⊤ := by
      rw [rowMax_union]; exact rowMax_ne_top hs _
    rw [← EReal.coe_toReal ht hb]
    exact merge_dot_real hs hv hAB _

/-- The merge step for the denominator with a real old shift a and a real new shift c. -/
theorem merge_sum_real_real {s : ι → EReal} (hs : ∀ j, s j ≠ ⊤) {A B : Finset ι}
    (hAB : Disjoint A B) (a c : ℝ) :
    Ideal.exp ((a : EReal) - (c : EReal)) * expSum A s (a : EReal) + expSum B s (c : EReal)
      = expSum (A ∪ B) s (c : EReal) := by
  rw [rescale_sum_real hs A a c]
  unfold expSum
  rw [Finset.sum_union hAB]

/-- The merge step for the numerator with a real old shift a and a real new shift c. -/
theorem merge_dot_real_real {s v : ι → EReal} (hs : ∀ j, s j ≠ ⊤)
    (hv : ∀ j, ∃ r : ℝ, v j = (r : EReal)) {A B : Finset ι} (hAB : Disjoint A B) (a c : ℝ) :
    Ideal.exp ((a : EReal) - (c : EReal)) * expDot A s v (a : EReal) + expDot B s v (c : EReal)
      = expDot (A ∪ B) s v (c : EReal) := by
  rw [rescale_dot_real hs hv A a c]
  unfold expDot
  rw [Finset.sum_union hAB]

/-- The merge step for the denominator with the new maximum written as the maximum over the
    union: the running state (maximum, denominator against it) of A becomes that of A ∪ B. -/
theorem merge_sum_union {s : ι → EReal} (hs : ∀ j, s j ≠ ⊤) {A B : Finset ι}
    (hAB : Disjoint A B) :
    Ideal.exp (rowMax A s - rowMax (A ∪ B) s) * expSum A s (rowMax A s)
        + expSum B s (rowMax (A ∪ B) s)
      = expSum (A ∪ B) s (rowMax (A ∪ B) s) := by
  rw [← rowMax_union]
  exact merge_sum hs hAB

/-- The merge step for the numerator with the new maximum written as the maximum over the union. -/
theorem merge_dot_union {s v : ι → EReal} (hs : ∀ j, s j ≠ ⊤)
    (hv : ∀ j, ∃ r : ℝ, v j = (r : EReal)) {A B : Finset ι} (hAB : Disjoint A B) :
    Ideal.exp (rowMax A s - rowMax (A ∪ B) s) * expDot A s v (rowMax A s)
        + expDot B s v (rowMax (A ∪ B) s)
      = expDot (A ∪ B) s v (rowMax (A ∪ B) s) := by
  rw [← rowMax_union]
  exact merge_dot hs hv hAB

/-! ### Normalising at the end -/

/-- Dividing each weight by a nonzero real denominator and then taking the weighted sum is
    dividing the numerator by the denominator: division by a nonzero real is multiplication by its
    real reciprocal, and a real factor moves across a finite sum of reals. -/
theorem normalise_real {s v : ι → EReal} (hs : ∀ j, s j ≠ ⊤)
    (hv : ∀ j, ∃ r : ℝ, v j = (r : EReal)) (A : Finset ι) (c : ℝ)
    (h0 : expSum A s (c : EReal) ≠ 0) :
    ∑ j ∈ A, Ideal.div (Ideal.exp (s j - (c : EReal))) (expSum A s (c : EReal)) * v j
      = Ideal.div (expDot A s v (c : EReal)) (expSum A s (c : EReal)) := by
  choose vr hvr using hv
  have hS : expSum A s (c : EReal) = ((∑ j ∈ A, expShift (s j) c : ℝ) : EReal) := expSum_coe hs A c
  have hS0 : (∑ j ∈ A, expShift (s j) c) ≠ 0 := by
    intro h
    apply h0
    rw [hS, h]
    rfl
  have hterm : ∀ j ∈ A,
      Ideal.div (Ideal.exp (s j - (c : EReal))) (expSum A s (c : EReal)) * v j
        = ((expShift (s j) c * (1 / ∑ k ∈ A, expShift (s k) c) * vr j : ℝ) : EReal) := by
    intro j _
    rw [hS, Ideal.div_coe hS0, exp_sub_coe (hs j) c, hvr j, ← EReal.coe_mul, ← EReal.coe_mul]
  rw [Finset.sum_congr rfl hterm, ← coe_sum, hS, expDot_coe hs hvr A c, Ideal.div_coe hS0,
    ← EReal.coe_mul, Finset.sum_mul]
  refine congrArg _ (Finset.sum_congr rfl (fun j _ => ?_))
  ring

/-- The final step of the online softmax: with M the maximum of the row, not the bottom element
    (some score is real), the weighted sum of the softmax weights exp (s j - M) / l is the
    numerator divided by the denominator l, where l is a real that is at least one. -/
theorem normalise {s v : ι → EReal} (hs : ∀ j, s j ≠ ⊤) (hv : ∀ j, ∃ r : ℝ, v j = (r : EReal))
    {A : Finset ι} (hM : rowMax A s ≠ ⊥) :
    ∑ j ∈ A, Ideal.div (Ideal.exp (s j - rowMax A s)) (expSum A s (rowMax A s)) * v j
      = Ideal.div (expDot A s v (rowMax A s)) (expSum A s (rowMax A s)) := by
  have h0 := expSum_rowMax_ne_zero hs hM
  have ht := rowMax_ne_top hs A
  rw [← EReal.coe_toReal ht hM] at h0 ⊢
  exact normalise_real hs hv A _ h0

/-- The quotient of numerator by denominator does not depend on the real shift: changing the shift
    from c to a multiplies both by the positive real e^(c - a), which cancels. -/
theorem ratio_shift {s v : ι → EReal} (hs : ∀ j, s j ≠ ⊤) (hv : ∀ j, ∃ r : ℝ, v j = (r : EReal))
    (A : Finset ι) (a c : ℝ) (h0 : expSum A s (c : EReal) ≠ 0) :
    Ideal.div (expDot A s v (a : EReal)) (expSum A s (a : EReal))
      = Ideal.div (expDot A s v (c : EReal)) (expSum A s (c : EReal)) := by
  choose vr hvr using hv
  have hk : Real.exp (c - a) ≠ 0 := (Real.exp_pos _).ne'
  have hSc0 : (∑ j ∈ A, expShift (s j) c) ≠ 0 := by
    intro h
    apply h0
    rw [expSum_coe hs A c, h]
    rfl
  have hSa : (∑ j ∈ A, expShift (s j) a) = Real.exp (c - a) * ∑ j ∈ A, expShift (s j) c := by
    rw [Finset.mul_sum]
    exact Finset.sum_congr rfl (fun j _ => (expShift_mul (s j) c a).symm)
  have hNa : (∑ j ∈ A, expShift (s j) a * vr j)
      = Real.exp (c - a) * ∑ j ∈ A, expShift (s j) c * vr j := by
    rw [Finset.mul_sum]
    refine Finset.sum_congr rfl (fun j _ => ?_)
    rw [← mul_assoc, expShift_mul]
  have hSa0 : (∑ j ∈ A, expShift (s j) a) ≠ 0 := by
    rw [hSa]
    exact mul_ne_zero hk hSc0
  rw [expSum_coe hs A a, expSum_coe hs A c, expDot_coe hs hvr A a, expDot_coe hs hvr A c,
    Ideal.div_coe hSa0, Ideal.div_coe hSc0, ← EReal.coe_mul, ← EReal.coe_mul]
  refine congrArg _ ?_
  rw [hSa, hNa]
  field_simp

end Cert.Lib.OnlineSoftmax
-- ==== Proof.Online.lean ====
/-
  The arithmetic of the online softmax over one row of logits.

  With real entries in X and W every logit is a real: a finite sum of products of reals.  The walk
  over the 50 tiles keeps three numbers.  After n tiles (n ≤ 50) the running maximum is the supremum
  of the logits met so far, the running denominator is the sum over them of exp (logit - that
  supremum), and the running total is their sum.  This holds before the first tile (bottom element,
  0, 0 over the empty set) and is kept by each tile: the supremum over a union is the max of the two
  suprema; rescaling the old denominator by exp (old supremum - new supremum) turns each of its
  terms exp (x - old) into exp (x - new) because the logits are never the top element (and when the
  old supremum is the bottom element the old sum is empty or all zero, and the factor is exp ⊥ = 0),
  so adding the new tile's terms gives the sum over the union; the total adds up over disjoint
  sets.  After 50 tiles every vocabulary entry has been met, which gives the row's maximum, its sum
  of shifted exponentials and its sum of logits, and from them the largest log-softmax value.
-/
import proofs.«154765_j27539330302083_2_alg».proof.Proof.Spec
import proofs.«154765_j27539330302083_2_alg».proof.Proof.Tiles
import proofs.«154765_j27539330302083_2_alg».proof.Proof.LibOnlineSoftmax

noncomputable section

namespace Cert.Spec

open Idealize.ShloMosaic Idealize.ShloMosaic.ValueIdx
open scoped BigOperators

/-! ### The logits are reals -/

/-- With real entries every logit is a real: a finite sum of products of reals. -/
theorem logit_real (X : SX.Idx → EReal) (W : SW.Idx → EReal)
    (hX : ∀ i, ∃ r : ℝ, X i = (r : EReal)) (hW : ∀ i, ∃ r : ℝ, W i = (r : EReal))
    (b : Fin 2) (s : Fin 1024) (v : Fin 32000) : ∃ r : ℝ, logit X W b s v = (r : EReal) := by
  choose xr hxr using hX
  choose wr hwr using hW
  refine ⟨∑ h : Fin 2048, xr (ix3 b s h) * wr (ix2 v h), ?_⟩
  unfold logit
  rw [Lib.OnlineSoftmax.coe_sum]
  refine Finset.sum_congr rfl (fun h _ => ?_)
  rw [hxr, hwr, EReal.coe_mul]

/-- With real entries no logit is the top element. -/
theorem logit_ne_top (X : SX.Idx → EReal) (W : SW.Idx → EReal)
    (hX : ∀ i, ∃ r : ℝ, X i = (r : EReal)) (hW : ∀ i, ∃ r : ℝ, W i = (r : EReal))
    (b : Fin 2) (s : Fin 1024) (v : Fin 32000) : logit X W b s v ≠ ⊤ := by
  obtain ⟨r, hr⟩ := logit_real X W hX hW b s v
  rw [hr]
  exact EReal.coe_ne_top r

/-! ### One tile's update, field by field -/

theorem step_mx (σ : St) (L : Fin 640 → EReal) :
    (σ.step L).mx = max σ.mx (Finset.univ.fold max (⊥ : EReal) L) := rfl

theorem step_den (σ : St) (L : Fin 640 → EReal) :
    (σ.step L).den
      = Ideal.exp (σ.mx - max σ.mx (Finset.univ.fold max (⊥ : EReal) L)) * σ.den
        + ∑ c : Fin 640, Ideal.exp (L c - max σ.mx (Finset.univ.fold max (⊥ : EReal) L)) := rfl

theorem step_tot (σ : St) (L : Fin 640 → EReal) : (σ.step L).tot = σ.tot + ∑ c : Fin 640, L c := rfl

/-- The state after n + 1 tiles is one tile's update of the state after n tiles, for n < 50. -/
theorem walk_succ (X : SX.Idx → EReal) (W : SW.Idx → EReal) (b : Fin 2) (s : Fin 1024) (n : ℕ) (h : n < 50) :
    walk X W b s (n + 1) = (walk X W b s n).step (fun c => logit X W b s (vocabAt ⟨n, h⟩ c)) := by
  rw [walk]
  exact dif_pos h

/-! ### What the walk holds after n tiles -/

/-- After n tiles (n ≤ 50) the state is the supremum, the sum of exponentials shifted by that
    supremum, and the sum, of the logits met so far. -/
theorem walk_inv (X : SX.Idx → EReal) (W : SW.Idx → EReal) (b : Fin 2) (s : Fin 1024)
    (hne : ∀ v, logit X W b s v ≠ ⊤) (n : ℕ) (hn : n ≤ 50) :
    (walk X W b s n).mx = (seen n).sup (logit X W b s)
      ∧ (walk X W b s n).den
          = ∑ v ∈ seen n, Ideal.exp (logit X W b s v - (seen n).sup (logit X W b s))
      ∧ (walk X W b s n).tot = ∑ v ∈ seen n, logit X W b s v := by
  induction n with
  | zero =>
    rw [seen_zero]
    exact ⟨rfl, rfl, rfl⟩
  | succ n ih =>
    have h : n < 50 := hn
    obtain ⟨h1, h2, h3⟩ := ih (le_of_lt h)
    have hT : Finset.univ.fold max (⊥ : EReal) (fun c => logit X W b s (vocabAt ⟨n, h⟩ c))
        = (tile ⟨n, h⟩).sup (logit X W b s) := by
      rw [fold_max_eq_sup, sup_tile]
    have hU : max ((seen n).sup (logit X W b s)) ((tile ⟨n, h⟩).sup (logit X W b s))
        = (seen n ∪ tile ⟨n, h⟩).sup (logit X W b s) :=
      Lib.OnlineSoftmax.rowMax_union (seen n) (tile ⟨n, h⟩) (logit X W b s)
    rw [walk_succ X W b s n h, seen_succ n h]
    refine ⟨?_, ?_, ?_⟩
    · rw [step_mx, h1, hT, hU]
    · rw [step_den, h1, h2, hT, hU,
        ← sum_tile ⟨n, h⟩ (fun v => Ideal.exp (logit X W b s v - (seen n ∪ tile ⟨n, h⟩).sup (logit X W b s)))]
      exact Lib.OnlineSoftmax.merge_sum_union hne (seen_disjoint n h)
    · rw [step_tot, h3, Finset.sum_union (seen_disjoint n h), sum_tile]

/-! ### After the last tile -/

/-- After the 50 tiles the walk holds the row's maximum, its sum of exponentials shifted by the
    maximum, and its sum of logits. -/
theorem walk_final (X : SX.Idx → EReal) (W : SW.Idx → EReal)
    (hX : ∀ i, ∃ r : ℝ, X i = (r : EReal)) (hW : ∀ i, ∃ r : ℝ, W i = (r : EReal))
    (b : Fin 2) (s : Fin 1024) :
    (walk X W b s 50).mx = rowMax X W b s ∧ (walk X W b s 50).den = expSum X W b s
      ∧ (walk X W b s 50).tot = ∑ v : Fin 32000, logit X W b s v := by
  have h := walk_inv X W b s (logit_ne_top X W hX hW b s) 50 (le_refl 50)
  rw [seen_last] at h
  exact h

/-- The walk's final maximum and denominator give the row's largest log-softmax value. -/
theorem walk_seqlp (X : SX.Idx → EReal) (W : SW.Idx → EReal)
    (hX : ∀ i, ∃ r : ℝ, X i = (r : EReal)) (hW : ∀ i, ∃ r : ℝ, W i = (r : EReal))
    (b : Fin 2) (s : Fin 1024) :
    (walk X W b s 50).mx - ((walk X W b s 50).mx + Ideal.log (walk X W b s 50).den)
      = seqlp X W (ix2 b s) := by
  obtain ⟨h1, h2, _⟩ := walk_final X W hX hW b s
  rw [h1, h2]
  rfl

/-- The walk's final total is the row's sum of logits. -/
theorem walk_rowSum (X : SX.Idx → EReal) (W : SW.Idx → EReal)
    (hX : ∀ i, ∃ r : ℝ, X i = (r : EReal)) (hW : ∀ i, ∃ r : ℝ, W i = (r : EReal))
    (b : Fin 2) (s : Fin 1024) :
    (walk X W b s 50).tot = rowSum X W (ix2 b s) := by
  obtain ⟨_, _, h3⟩ := walk_final X W hX hW b s
  rw [h3]
  rfl

/-- The sum over all rows of the row sums is the sum of all the logits. -/
theorem total_eq (X : SX.Idx → EReal) (W : SW.Idx → EReal) :
    (∑ b : Fin 2, ∑ s : Fin 1024, rowSum X W (ix2 b s))
      = ∑ b : Fin 2, ∑ s : Fin 1024, ∑ v : Fin 32000, logit X W b s v :=
  Finset.sum_congr rfl (fun _ _ => Finset.sum_congr rfl (fun _ _ => rfl))

end Cert.Spec

end
-- ==== Proof.KI.Val0.lean ====
/-
  What the first kernel leaves in its two output arrays, as mathematics over the argument arrays.

  The kernel's activation array is the rounding to a narrower format of the argument X, which on
  extended reals is X itself, and its vocabulary matrix is the argument W unchanged.  So at grid
  point t the logits of row r of the tile are the logits of batch entry r / 512 at sequence position
  (t / 50) * 512 + r % 512 against vocabulary entries (t % 50) * 640 + c'.  By induction along the
  points of a row tile, after point n the three running columns hold at row r the state of the
  online-softmax walk of that row after n % 50 + 1 vocabulary tiles: the first tile starts from the
  reset columns, every other tile from what the point before left.  At the last tile the walk has
  met the whole vocabulary, so the output blocks hold the row's largest log-softmax value and its sum
  of logits; the write-backs at the last tiles tile the two output arrays, which therefore end
  holding those two functions of X and W.
-/
import proofs.«154765_j27539330302083_2_alg».proof.Proof.KI.Blocks0
import proofs.«154765_j27539330302083_2_alg».proof.Proof.KI.Pay0
import proofs.«154765_j27539330302083_2_alg».proof.Proof.Online
import proofs.«154765_j27539330302083_2_alg».proof.Proof.KI.Segs

set_option maxRecDepth 16384

noncomputable section

namespace Cert.KernelIdeal.Val

open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.Hand

variable {F : FTy → Type} [FloatOps F]

open scoped BigOperators

/-! ### States -/

/-- Two states with the same three fields are equal. -/
theorem St_ext {σ σ' : Cert.Spec.St} (h1 : σ.mx = σ'.mx) (h2 : σ.den = σ'.den) (h3 : σ.tot = σ'.tot) : σ = σ' := by
  cases σ; cases σ'
  simp only [Cert.Spec.St.mk.injEq]
  exact ⟨h1, h2, h3⟩

/-- The three stored columns after a tile hold, at row r, one step of the row's state on the tile's logits. -/
theorem rowSt_update (x0 : Vec Ideal S2x512x2048 .bf16) (x1 : Vec Ideal S640x2048 .f32)
    (mx den tot : Vec Ideal S1024x1 .f32) (r : Fin 1024) :
    rowSt (k0_pay2 (F := Ideal) (k0_pay9 (F := Ideal) x0 x1 mx)) (k0_pay10 (F := Ideal) x0 x1 mx mx den)
        (k0_pay1 (F := Ideal) (k0_pay11 (F := Ideal) x0 x1 tot)) r
      = (rowSt mx den tot r).step (tileLogit x0 x1 r) :=
  St_ext
    ((congrFun (pay2_eq _) _).trans (pay9_apply x0 x1 mx den tot r))
    (pay10_apply x0 x1 mx den tot r)
    ((congrFun (pay1_eq _) _).trans (pay11_apply x0 x1 mx den tot r))

/-- Equal triples of columns hold equal states at every row. -/
theorem rowSt_congr {A B : Vec Ideal S1024x1 .f32 × Vec Ideal S1024x1 .f32 × Vec Ideal S1024x1 .f32} (h : A = B)
    (r : Fin 1024) : rowSt A.1 A.2.1 A.2.2 r = rowSt B.1 B.2.1 B.2.2 r := by rw [h]

/-! ### Along the points of the grid -/

section Walk
variable (V : (c : Dev nD) → (b : Ref sig .tc) → Buf (Elt Ideal) ((c : Thread nD τ).loc b)) (c : Dev nD)
  (X : Cert.Spec.SX.Idx → EReal) (W : Cert.Spec.SW.Idx → EReal)
  (hV0 : ∀ i, (V c main_v1 : S2x1024x2048.Idx → EReal) i = X i)
  (hV1 : ∀ i, (V c main_arg1 : S32000x2048.Idx → EReal) i = W i)

include hV0 hV1 in
/-- The logits of row r of the tile at point t are the row's logits against vocabulary tile t % 50. -/
theorem tileLogit_blk0 (t : Fin cfg0.N) (r : Fin 1024) :
    tileLogit (iblk0 V c 0 t) (iblk0 V c 1 t) r
      = fun c' : Fin 640 => Cert.Spec.logit X W (⟨r.val / 512, by have := r.isLt; omega⟩ : Fin 2)
          (⟨t.val / 50 * 512 + r.val % 512, by have : t.val < 100 := lt_of_lt_of_eq t.isLt N_0; omega⟩ : Fin 1024)
          (Cert.Spec.vocabAt ⟨t.val % 50, Nat.mod_lt _ (by norm_num)⟩ c') := by
  funext c'
  unfold tileLogit Cert.Spec.logit
  refine Finset.sum_congr rfl fun h _ => ?_
  refine congrArg₂ (· * ·) ?_ ?_
  · exact (iblk0_0_apply V c t _ _ h
      (⟨t.val / 50 * 512 + r.val % 512, by have : t.val < 100 := lt_of_lt_of_eq t.isLt N_0; omega⟩ : Fin 1024) rfl).trans (hV0 _)
  · exact (iblk0_1_apply V c t c' h (Cert.Spec.vocabAt ⟨t.val % 50, Nat.mod_lt _ (by norm_num)⟩ c') rfl).trans (hV1 _)

include hV0 hV1 in
/-- After a point of the first vocabulary tile the columns hold the walk after one tile. -/
theorem cols0_first (t : Fin cfg0.N) (h0 : t.val % 50 = 0) (r : Fin 1024) :
    rowSt (outsAt0 V c t.val t.isLt).2.1 (outsAt0 V c t.val t.isLt).2.2.1 (outsAt0 V c t.val t.isLt).2.2.2 r
      = Cert.Spec.walk X W (⟨r.val / 512, by have := r.isLt; omega⟩ : Fin 2)
          (⟨t.val / 50 * 512 + r.val % 512, by have : t.val < 100 := lt_of_lt_of_eq t.isLt N_0; omega⟩ : Fin 1024)
          (t.val % 50 + 1) := by
  refine (rowSt_congr (outs0_first V c t h0) r).trans ?_
  refine (rowSt_update _ _ _ _ _ r).trans ?_
  rw [reset_rowSt r, tileLogit_blk0 V c X W hV0 hV1 t r,
    Cert.Spec.walk_succ X W _ _ (t.val % 50) (Nat.mod_lt _ (by norm_num))]
  have hw : Cert.Spec.walk X W (⟨r.val / 512, by have := r.isLt; omega⟩ : Fin 2)
      (⟨t.val / 50 * 512 + r.val % 512, by have : t.val < 100 := lt_of_lt_of_eq t.isLt N_0; omega⟩ : Fin 1024)
      (t.val % 50) = Cert.Spec.St.init := by rw [h0]; rfl
  rw [hw]

include hV0 hV1 in
/-- After any other point the columns hold the walk one tile further than the point before left it. -/
theorem cols0_next (t : Fin cfg0.N) (h0 : ¬t.val % 50 = 0) (r : Fin 1024)
    (ih : rowSt (outsAt0 V c (t.val - 1) (Nat.lt_of_le_of_lt (Nat.sub_le _ _) t.isLt)).2.1
        (outsAt0 V c (t.val - 1) (Nat.lt_of_le_of_lt (Nat.sub_le _ _) t.isLt)).2.2.1
        (outsAt0 V c (t.val - 1) (Nat.lt_of_le_of_lt (Nat.sub_le _ _) t.isLt)).2.2.2 r
      = Cert.Spec.walk X W (⟨r.val / 512, by have := r.isLt; omega⟩ : Fin 2)
          (⟨(t.val - 1) / 50 * 512 + r.val % 512, by have : t.val < 100 := lt_of_lt_of_eq t.isLt N_0; omega⟩ : Fin 1024)
          ((t.val - 1) % 50 + 1)) :
    rowSt (outsAt0 V c t.val t.isLt).2.1 (outsAt0 V c t.val t.isLt).2.2.1 (outsAt0 V c t.val t.isLt).2.2.2 r
      = Cert.Spec.walk X W (⟨r.val / 512, by have := r.isLt; omega⟩ : Fin 2)
          (⟨t.val / 50 * 512 + r.val % 512, by have : t.val < 100 := lt_of_lt_of_eq t.isLt N_0; omega⟩ : Fin 1024)
          (t.val % 50 + 1) := by
  have hs : (⟨(t.val - 1) / 50 * 512 + r.val % 512, by have : t.val < 100 := lt_of_lt_of_eq t.isLt N_0; omega⟩ : Fin 1024)
      = ⟨t.val / 50 * 512 + r.val % 512, by have : t.val < 100 := lt_of_lt_of_eq t.isLt N_0; omega⟩ :=
    Fin.ext (by show (t.val - 1) / 50 * 512 + r.val % 512 = t.val / 50 * 512 + r.val % 512; omega)
  have hk : (t.val - 1) % 50 + 1 = t.val % 50 := by omega
  rw [hs, hk] at ih
  refine (rowSt_congr (outs0_next V c t h0) r).trans ?_
  refine (rowSt_update _ _ _ _ _ r).trans ?_
  rw [ih, tileLogit_blk0 V c X W hV0 hV1 t r,
    Cert.Spec.walk_succ X W _ _ (t.val % 50) (Nat.mod_lt _ (by norm_num))]

include hV0 hV1 in
/-- After point n the columns hold, at row r, the walk of the row after n % 50 + 1 vocabulary tiles. -/
theorem cols0_inv (n : ℕ) (hn : n < cfg0.N) (r : Fin 1024) :
    rowSt (outsAt0 V c n hn).2.1 (outsAt0 V c n hn).2.2.1 (outsAt0 V c n hn).2.2.2 r
      = Cert.Spec.walk X W (⟨r.val / 512, by have := r.isLt; omega⟩ : Fin 2)
          (⟨n / 50 * 512 + r.val % 512, by have : n < 100 := lt_of_lt_of_eq hn N_0; omega⟩ : Fin 1024)
          (n % 50 + 1) := by
  induction n with
  | zero => exact cols0_first V c X W hV0 hV1 ⟨0, hn⟩ (Nat.zero_mod _) r
  | succ k ih =>
    by_cases h0 : (k + 1) % 50 = 0
    · exact cols0_first V c X W hV0 hV1 ⟨k + 1, hn⟩ h0 r
    · exact cols0_next V c X W hV0 hV1 ⟨k + 1, hn⟩ h0 r (ih (Nat.lt_of_succ_lt hn))

end Walk

/-! ### The output blocks at the last tile, and the output arrays -/

/-- The walk's state depends only on the values of its row and tile count. -/
theorem walk_congr (X : Cert.Spec.SX.Idx → EReal) (W : Cert.Spec.SW.Idx → EReal) {b b' : Fin 2} {s s' : Fin 1024} {n n' : ℕ}
    (hb : b = b') (hs : s = s') (hn : n = n') : Cert.Spec.walk X W b s n = Cert.Spec.walk X W b' s' n' := by
  subst hb hs hn; rfl

section Final
variable (V : (c : Dev nD) → (b : Ref sig .tc) → Buf (Elt Ideal) ((c : Thread nD τ).loc b)) (c : Dev nD)
  (X : Cert.Spec.SX.Idx → EReal) (W : Cert.Spec.SW.Idx → EReal)
  (hV0 : ∀ i, (V c main_v1 : S2x1024x2048.Idx → EReal) i = X i)
  (hV1 : ∀ i, (V c main_arg1 : S32000x2048.Idx → EReal) i = W i)
  (hX : ∀ i, ∃ r : ℝ, X i = (r : EReal)) (hW : ∀ i, ∃ r : ℝ, W i = (r : EReal))

include hV0 hV1 in
/-- At a last-tile point the columns hold, at row b * 512 + s', the finished walk of batch entry b at
    sequence position (t / 50) * 512 + s'. -/
theorem cols0_done (t : Fin cfg0.N) (h1 : t.val % 50 = 49) (b : Fin 2) (s' : Fin 512) :
    rowSt (outsAt0 V c t.val t.isLt).2.1 (outsAt0 V c t.val t.isLt).2.2.1 (outsAt0 V c t.val t.isLt).2.2.2
        (⟨b.val * 512 + s'.val, by have := b.isLt; have := s'.isLt; omega⟩ : Fin 1024)
      = Cert.Spec.walk X W b
          (⟨t.val / 50 * 512 + s'.val, by have : t.val < 100 := lt_of_lt_of_eq t.isLt N_0; have := s'.isLt; omega⟩ : Fin 1024) 50 :=
  (cols0_inv V c X W hV0 hV1 t.val t.isLt _).trans
    (walk_congr X W
      (Fin.ext (by show (b.val * 512 + s'.val) / 512 = b.val; have := s'.isLt; omega))
      (Fin.ext (by show t.val / 50 * 512 + (b.val * 512 + s'.val) % 512 = t.val / 50 * 512 + s'.val; have := s'.isLt; omega))
      (by omega))

include hV0 hV1 hX hW in
/-- The first output block at a last-tile point holds the rows' largest log-softmax values. -/
theorem out0_2_apply (t : Fin cfg0.N) (h1 : t.val % 50 = 49) (b : Fin 2) (s' : Fin 512) :
    ((outsAt0 V c t.val t.isLt).1.1 : Vec Ideal S2x512 .f32) (ix2 b s')
      = Cert.Spec.seqlp X W (ix2 b
          (⟨t.val / 50 * 512 + s'.val, by have : t.val < 100 := lt_of_lt_of_eq t.isLt N_0; have := s'.isLt; omega⟩ : Fin 1024)) := by
  have hd := cols0_done V c X W hV0 hV1 t h1 b s'
  have e1 : (outsAt0 V c t.val t.isLt).2.1 (ix2 (⟨b.val * 512 + s'.val, by have := b.isLt; have := s'.isLt; omega⟩ : Fin 1024) (0 : Fin 1))
      = (Cert.Spec.walk X W b
          (⟨t.val / 50 * 512 + s'.val, by have : t.val < 100 := lt_of_lt_of_eq t.isLt N_0; have := s'.isLt; omega⟩ : Fin 1024) 50).mx :=
    congrArg Cert.Spec.St.mx hd
  have e2 : (outsAt0 V c t.val t.isLt).2.2.1 (ix2 (⟨b.val * 512 + s'.val, by have := b.isLt; have := s'.isLt; omega⟩ : Fin 1024) (0 : Fin 1))
      = (Cert.Spec.walk X W b
          (⟨t.val / 50 * 512 + s'.val, by have : t.val < 100 := lt_of_lt_of_eq t.isLt N_0; have := s'.isLt; omega⟩ : Fin 1024) 50).den :=
    congrArg Cert.Spec.St.den hd
  have hl : (outsAt0 V c t.val t.isLt).1.1
      = k0_pay3 (F := Ideal) (outsAt0 V c t.val t.isLt).2.1 (outsAt0 V c t.val t.isLt).2.2.1 (outsAt0 V c t.val t.isLt).2.1 :=
    congrArg Prod.fst (outs0_last V c t h1)
  rw [hl, pay3_apply, e1, e2]
  exact Cert.Spec.walk_seqlp X W hX hW b _

include hV0 hV1 hX hW in
/-- The second output block at a last-tile point holds the rows' sums of logits. -/
theorem out0_3_apply (t : Fin cfg0.N) (h1 : t.val % 50 = 49) (b : Fin 2) (s' : Fin 512) :
    ((outsAt0 V c t.val t.isLt).1.2 : Vec Ideal S2x512 .f32) (ix2 b s')
      = Cert.Spec.rowSum X W (ix2 b
          (⟨t.val / 50 * 512 + s'.val, by have : t.val < 100 := lt_of_lt_of_eq t.isLt N_0; have := s'.isLt; omega⟩ : Fin 1024)) := by
  have hd := cols0_done V c X W hV0 hV1 t h1 b s'
  have e3 : (outsAt0 V c t.val t.isLt).2.2.2 (ix2 (⟨b.val * 512 + s'.val, by have := b.isLt; have := s'.isLt; omega⟩ : Fin 1024) (0 : Fin 1))
      = (Cert.Spec.walk X W b
          (⟨t.val / 50 * 512 + s'.val, by have : t.val < 100 := lt_of_lt_of_eq t.isLt N_0; have := s'.isLt; omega⟩ : Fin 1024) 50).tot :=
    congrArg Cert.Spec.St.tot hd
  have hl : (outsAt0 V c t.val t.isLt).1.2 = k0_pay4 (F := Ideal) (outsAt0 V c t.val t.isLt).2.2.2 :=
    congrArg Prod.snd (outs0_last V c t h1)
  rw [hl, pay4_apply, e3]
  exact Cert.Spec.walk_rowSum X W hX hW b _

include hV0 hV1 hX hW in
/-- What a write-back of the first output writes is the block of the largest log-softmax values. -/
theorem flushed0_2 (t : Fin cfg0.N) (hf : (cfg0.win 2).flush t = true) :
    (dat0 V c).flushed 2 t = ((cfg0.win 2).blk t).view.read (Elt Ideal) (Cert.Spec.seqlp X W) := by
  have h1 : t.val % 50 = 49 := (flush0_2 t).mp hf
  show (cfg0.win 2).cut (grid0.coords t) ((dat0 V c).after 2 t) = _
  rw [after0_2]
  show ((outsAt0 V c t.val t.isLt).1.1 : Vec Ideal S2x512 .f32)
    = (((cfg0.win 2).blk t).view.read (Elt Ideal) (Cert.Spec.seqlp X W) : Vec Ideal S2x512 .f32)
  funext y
  obtain ⟨b, s', rfl⟩ : ∃ (b : Fin 2) (s' : Fin 512), y = ix2 b s' := ⟨y 0, y 1, eq_ix2 y⟩
  rw [out0_2_apply V c X W hV0 hV1 hX hW t h1 b s']
  exact (blk0_2_read (F := Ideal) c t (Cert.Spec.seqlp X W) b s'
    (⟨t.val / 50 * 512 + s'.val, by have : t.val < 100 := lt_of_lt_of_eq t.isLt N_0; have := s'.isLt; omega⟩ : Fin 1024) rfl).symm

include hV0 hV1 hX hW in
/-- What a write-back of the second output writes is the block of the sums of logits. -/
theorem flushed0_3 (t : Fin cfg0.N) (hf : (cfg0.win 3).flush t = true) :
    (dat0 V c).flushed 3 t = ((cfg0.win 3).blk t).view.read (Elt Ideal) (Cert.Spec.rowSum X W) := by
  have h1 : t.val % 50 = 49 := (flush0_3 t).mp hf
  show (cfg0.win 3).cut (grid0.coords t) ((dat0 V c).after 3 t) = _
  rw [after0_3]
  show ((outsAt0 V c t.val t.isLt).1.2 : Vec Ideal S2x512 .f32)
    = (((cfg0.win 3).blk t).view.read (Elt Ideal) (Cert.Spec.rowSum X W) : Vec Ideal S2x512 .f32)
  funext y
  obtain ⟨b, s', rfl⟩ : ∃ (b : Fin 2) (s' : Fin 512), y = ix2 b s' := ⟨y 0, y 1, eq_ix2 y⟩
  rw [out0_3_apply V c X W hV0 hV1 hX hW t h1 b s']
  exact (blk0_3_read (F := Ideal) c t (Cert.Spec.rowSum X W) b s'
    (⟨t.val / 50 * 512 + s'.val, by have : t.val < 100 := lt_of_lt_of_eq t.isLt N_0; have := s'.isLt; omega⟩ : Fin 1024) rfl).symm

include hV0 hV1 hX hW in
/-- The first output array ends holding every row's largest log-softmax value. -/
theorem final0_2_of : (dat0 V c).arrAt 2 cfg0.N = Cert.Spec.seqlp X W :=
  (dat0 V c).arrAt_eq_of_cover 2 (Cert.Spec.seqlp X W) (flushed0_2 V c X W hV0 hV1 hX hW) (cover0_2 c)

include hV0 hV1 hX hW in
/-- The second output array ends holding every row's sum of logits. -/
theorem final0_3_of : (dat0 V c).arrAt 3 cfg0.N = Cert.Spec.rowSum X W :=
  (dat0 V c).arrAt_eq_of_cover 3 (Cert.Spec.rowSum X W) (flushed0_3 V c X W hV0 hV1 hX hW) (cover0_3 c)

end Final

/-! ### At the kernel's entry contents -/

section Entry
variable (m : (ℓ : Loc nD τ sig) → Buf (Elt Ideal) ℓ) (c : Dev nD)

/-- The kernel's activation array is the argument X rounded to a narrower format: on extended reals, X. -/
theorem V1_v1_apply (i : S2x1024x2048.Idx) :
    (Hand.V1 m c main_v1 : S2x1024x2048.Idx → EReal) i
      = (m ((c : Thread nD τ).loc main_arg0) : S2x1024x2048.Idx → EReal) i := by
  have e : @Eq (FVec Ideal S2x1024x2048 .bf16) (Hand.V1 m c main_v1)
      (truncf .bf16 (m ((c : Thread nD τ).loc main_arg0) : FVec Ideal S2x1024x2048 .f32) bitsLt_bf16_f32) := by
    dsimp only [Hand.V1, Hand.W1, hostOps0]
    after_results
  rw [e]
  rfl

/-- The kernel's vocabulary matrix is the argument W. -/
theorem V1_arg1_apply (i : S32000x2048.Idx) :
    (Hand.V1 m c main_arg1 : S32000x2048.Idx → EReal) i
      = (m ((c : Thread nD τ).loc main_arg1) : S32000x2048.Idx → EReal) i := by
  have e : Hand.V1 m c main_arg1 = m ((c : Thread nD τ).loc main_arg1) :=
    StableHlo.after_of_writes_sub hostOps0 _ hostOps0_writes (by decide)
  rw [e]

/-- THE FIRST OUTPUT of the first kernel: every row's largest log-softmax value. -/
theorem final0_2
    (hX : ∀ i, ∃ r : ℝ, (m ((c : Thread nD τ).loc main_arg0) : Cert.Spec.SX.Idx → EReal) i = (r : EReal))
    (hW : ∀ i, ∃ r : ℝ, (m ((c : Thread nD τ).loc main_arg1) : Cert.Spec.SW.Idx → EReal) i = (r : EReal)) :
    (dat0 (Hand.V1 m) c).arrAt 2 cfg0.N
      = Cert.Spec.seqlp (m ((c : Thread nD τ).loc main_arg0) : Cert.Spec.SX.Idx → EReal)
          (m ((c : Thread nD τ).loc main_arg1) : Cert.Spec.SW.Idx → EReal) :=
  final0_2_of (Hand.V1 m) c _ _ (V1_v1_apply m c) (V1_arg1_apply m c) hX hW

/-- THE SECOND OUTPUT of the first kernel: every row's sum of logits. -/
theorem final0_3
    (hX : ∀ i, ∃ r : ℝ, (m ((c : Thread nD τ).loc main_arg0) : Cert.Spec.SX.Idx → EReal) i = (r : EReal))
    (hW : ∀ i, ∃ r : ℝ, (m ((c : Thread nD τ).loc main_arg1) : Cert.Spec.SW.Idx → EReal) i = (r : EReal)) :
    (dat0 (Hand.V1 m) c).arrAt 3 cfg0.N
      = Cert.Spec.rowSum (m ((c : Thread nD τ).loc main_arg0) : Cert.Spec.SX.Idx → EReal)
          (m ((c : Thread nD τ).loc main_arg1) : Cert.Spec.SW.Idx → EReal) :=
  final0_3_of (Hand.V1 m) c _ _ (V1_v1_apply m c) (V1_arg1_apply m c) hX hW

end Entry

end Cert.KernelIdeal.Val

end
-- ==== Proof.KI.Pieces1.lean ====
/-
  Region 1: what each case leaves, as the body's arithmetic.  After a first-tile point the columns are the update
  of the reset columns by the tile; after any other point, the update of what the point before left; at a last-tile
  point the output block(s) are the finished columns laid out as [2, 512].  Each is read off the pieces the run found:
  every store covers its whole buffer, so a buffer ends at its last store's value and a load after a store reads it.
-/
import proofs.«154765_j27539330302083_2_alg».proof.Proof.KI.Body1
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

section Region
variable (V : (c : Dev nD) → (b : Ref sig .tc) → Buf (Elt F) ((c : Thread nD τ).loc b))

theorem hz2' : (![0, 0] : Fin 2 → Nat) = fun _ => 0 := by funext a; fin_cases a <;> rfl
theorem hz3' : (![0, 0, 0] : Fin 3 → Nat) = fun _ => 0 := by funext a; fin_cases a <;> rfl

theorem rdw1_0 (X : Vec F S1024x1 .f32) : View.read (Elt F) (View.whole cc1_scratch0) ((Memref.isWhole_whole cc1_scratch0 : (Memref.whole cc1_scratch0 : Memref sig .tc .vmem S1024x1 .f32).IsWhole).unread X) = X :=
  (Memref.isWhole_whole cc1_scratch0 : (Memref.whole cc1_scratch0 : Memref sig .tc .vmem S1024x1 .f32).IsWhole).read_unread X
theorem rdw1_1 (X : Vec F S1024x1 .f32) : View.read (Elt F) (View.whole cc1_scratch1) ((Memref.isWhole_whole cc1_scratch1 : (Memref.whole cc1_scratch1 : Memref sig .tc .vmem S1024x1 .f32).IsWhole).unread X) = X :=
  (Memref.isWhole_whole cc1_scratch1 : (Memref.whole cc1_scratch1 : Memref sig .tc .vmem S1024x1 .f32).IsWhole).read_unread X

set_option maxHeartbeats 2000000 in
theorem resA1_scr (c : Dev nD) (t : Fin cfg1.N) (h0 : t.val % 50 = 0) (h1 : ¬t.val % 50 = 49) :
    (resA1 V c t h0 h1).2 = (k1_pay7 (iblk1 V c 0 t) (iblk1 V c 1 t) (k1_pay2 (F := F)), k1_pay6 (iblk1 V c 0 t) (iblk1 V c 1 t) (k1_pay2 (F := F)) (k1_pay2 (F := F)) (k1_pay3 (F := F))) := by
  refine Prod.ext ?_ ?_
  · unfold resA1; dsimp only
    rw [View.read_writes_eq_canon _ _ _ (scoverA1_0 V c t h0 h1)]
    unfold kernelRun1_A; dsimp only; sl_unfold_words
    rw [View.canon_cons_unit_zero hz2']
    simp only [View.readAt_eq_ld, Memref.IsWhole.read_unread, View.ld_unit_zero (S := S2x512x2048) hz3', View.ld_unit_zero (S := S640x2048) hz2', View.ld_unit_zero (S := S1024x1) hz2', View.readCov_unit_zero (S := S1024x1) _ hz2', rdw1_0, rdw1_1]
  · unfold resA1; dsimp only
    rw [View.read_writes_eq_canon _ _ _ (scoverA1_1 V c t h0 h1)]
    unfold kernelRun1_A; dsimp only; sl_unfold_words
    rw [View.canon_cons_unit_zero hz2']
    simp only [View.readAt_eq_ld, Memref.IsWhole.read_unread, View.ld_unit_zero (S := S2x512x2048) hz3', View.ld_unit_zero (S := S640x2048) hz2', View.ld_unit_zero (S := S1024x1) hz2', View.readCov_unit_zero (S := S1024x1) _ hz2', rdw1_0, rdw1_1]

set_option maxHeartbeats 2000000 in
theorem resB1_scr (c : Dev nD) (t : Fin cfg1.N) (h0 : ¬t.val % 50 = 0) (h1 : ¬t.val % 50 = 49) (prev : (Vec F S1024x1 .f32 × Vec F S1024x1 .f32)) :
    (resB1 V c t h0 h1 prev).2 = (k1_pay7 (iblk1 V c 0 t) (iblk1 V c 1 t) prev.1, k1_pay6 (iblk1 V c 0 t) (iblk1 V c 1 t) prev.1 prev.1 prev.2) := by
  refine Prod.ext ?_ ?_
  · unfold resB1; dsimp only
    rw [View.read_writes_eq_canon _ _ _ (scoverB1_0 V c t h0 h1 prev)]
    unfold kernelRun1_B; dsimp only; sl_unfold_words
    rw [View.canon_cons_unit_zero hz2']
    simp only [View.readAt_eq_ld, Memref.IsWhole.read_unread, View.ld_unit_zero (S := S2x512x2048) hz3', View.ld_unit_zero (S := S640x2048) hz2', View.ld_unit_zero (S := S1024x1) hz2', View.readCov_unit_zero (S := S1024x1) _ hz2', rdw1_0, rdw1_1]
  · unfold resB1; dsimp only
    rw [View.read_writes_eq_canon _ _ _ (scoverB1_1 V c t h0 h1 prev)]
    unfold kernelRun1_B; dsimp only; sl_unfold_words
    rw [View.canon_cons_unit_zero hz2']
    simp only [View.readAt_eq_ld, Memref.IsWhole.read_unread, View.ld_unit_zero (S := S2x512x2048) hz3', View.ld_unit_zero (S := S640x2048) hz2', View.ld_unit_zero (S := S1024x1) hz2', View.readCov_unit_zero (S := S1024x1) _ hz2', rdw1_0, rdw1_1]

set_option maxHeartbeats 2000000 in
theorem resC1_scr (c : Dev nD) (t : Fin cfg1.N) (h0 : ¬t.val % 50 = 0) (h1 : t.val % 50 = 49) (prev : (Vec F S1024x1 .f32 × Vec F S1024x1 .f32)) :
    (resC1 V c t h0 h1 prev).2 = (k1_pay7 (iblk1 V c 0 t) (iblk1 V c 1 t) prev.1, k1_pay6 (iblk1 V c 0 t) (iblk1 V c 1 t) prev.1 prev.1 prev.2) := by
  refine Prod.ext ?_ ?_
  · unfold resC1; dsimp only
    rw [View.read_writes_eq_canon _ _ _ (scoverC1_0 V c t h0 h1 prev)]
    unfold kernelRun1_C; dsimp only; sl_unfold_words
    rw [View.canon_cons_unit_zero hz2']
    simp only [View.readAt_eq_ld, Memref.IsWhole.read_unread, View.ld_unit_zero (S := S2x512x2048) hz3', View.ld_unit_zero (S := S640x2048) hz2', View.ld_unit_zero (S := S1024x1) hz2', View.readCov_unit_zero (S := S1024x1) _ hz2', rdw1_0, rdw1_1]
  · unfold resC1; dsimp only
    rw [View.read_writes_eq_canon _ _ _ (scoverC1_1 V c t h0 h1 prev)]
    unfold kernelRun1_C; dsimp only; sl_unfold_words
    rw [View.canon_cons_unit_zero hz2']
    simp only [View.readAt_eq_ld, Memref.IsWhole.read_unread, View.ld_unit_zero (S := S2x512x2048) hz3', View.ld_unit_zero (S := S640x2048) hz2', View.ld_unit_zero (S := S1024x1) hz2', View.readCov_unit_zero (S := S1024x1) _ hz2', rdw1_0, rdw1_1]

set_option maxHeartbeats 2000000 in
theorem resC1_out (c : Dev nD) (t : Fin cfg1.N) (h0 : ¬t.val % 50 = 0) (h1 : t.val % 50 = 49) (prev : (Vec F S1024x1 .f32 × Vec F S1024x1 .f32)) :
    (resC1 V c t h0 h1 prev).1 = k1_pay1 (k1_pay7 (iblk1 V c 0 t) (iblk1 V c 1 t) prev.1) (k1_pay6 (iblk1 V c 0 t) (iblk1 V c 1 t) prev.1 prev.1 prev.2) (k1_pay7 (iblk1 V c 0 t) (iblk1 V c 1 t) prev.1) := by
  unfold resC1; dsimp only
  rw [View.read_writes_eq_canon _ _ _ (coverC1_2 V c t h0 h1 prev)]
  unfold kernelRun1_C; dsimp only; sl_unfold_words
  rw [View.canon_cons_unit_zero hz2']
  simp only [View.readAt_eq_ld, Memref.IsWhole.read_unread, View.ld_unit_zero (S := S2x512x2048) hz3', View.ld_unit_zero (S := S640x2048) hz2', View.ld_unit_zero (S := S1024x1) hz2', View.readCov_unit_zero (S := S1024x1) _ hz2', rdw1_0, rdw1_1]

end Region

end Cert.KernelIdeal.Hand

end
-- ==== Proof.KI.Blocks1.lean ====
/-
  Region 1 of the grid, block by block.

  The second kernel walks the same grid of 100 points as the first: point t works on row tile
  t / 50 and vocabulary tile t % 50.  Its activation block is the (second) activations at rows
  (t / 50) * 512 + s', its vocabulary block is rows (t % 50) * 640 + c' of the (second) vocabulary
  matrix, and its output block is columns (t / 50) * 512 + s' of the [2, 1024] output, written back
  at the last vocabulary tile of each row tile; those two write-backs tile the output array.  After
  a point of the first vocabulary tile the two running columns are the update of the reset columns
  by the tile, after any other point the update of what the point before left, and at a last-tile
  point the output block is the finished columns laid out as [2, 512].
-/
import proofs.«154765_j27539330302083_2_alg».proof.Proof.KI.Pieces1
import proofs.«154765_j27539330302083_2_alg».proof.Proof.KI.PayCommon
import Idealize.ShloMosaic.Lib.Pipeline.Value

set_option maxRecDepth 16384

noncomputable section

namespace Cert.KernelIdeal.Val

open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.Hand

variable {F : FTy → Type} [FloatOps F]

/-! ### Where each window's block sits at a grid point -/

/-- At point t the activation block is row tile t / 50, the vocabulary block is tile t % 50, and the
    output block is row tile t / 50 of its array. -/
theorem idx1 : ∀ t : Fin cfg1.N, (win1_0.index t 0 = 0 ∧ win1_0.index t 1 = t.val / 50 ∧ win1_0.index t 2 = 0)
    ∧ (win1_1.index t 0 = t.val % 50 ∧ win1_1.index t 1 = 0)
    ∧ (win1_2.index t 0 = 0 ∧ win1_2.index t 1 = t.val / 50) :=
  (by decide +kernel : ∀ t : Fin grid1.N, (win1_0.index t 0 = 0 ∧ win1_0.index t 1 = t.val / 50 ∧ win1_0.index t 2 = 0)
    ∧ (win1_1.index t 0 = t.val % 50 ∧ win1_1.index t 1 = 0)
    ∧ (win1_2.index t 0 = 0 ∧ win1_2.index t 1 = t.val / 50))

section Blocks
variable (V : (c : Dev nD) → (b : Ref sig .tc) → Buf (Elt F) ((c : Thread nD τ).loc b))

/-- The activation block at point t: entry (b, s', h) is the activations at (b, (t / 50) * 512 + s', h). -/
theorem iblk1_0_apply (c : Dev nD) (t : Fin cfg1.N) (b : Fin 2) (s' : Fin 512) (h : Fin 2048) (q : Fin 1024)
    (hq : q.val = t.val / 50 * 512 + s'.val) :
    (iblk1 V c 0 t : Vec F S2x512x2048 .bf16) (ix3 b s' h) = (V c main_v3 : S2x1024x2048.Idx → Elt F .bf16) (ix3 b q h) := by
  have hi := (idx1 t).1
  unfold iblk1
  rw [View.read_apply]
  show V c main_v3 _ = V c main_v3 _
  congr 1
  funext a
  apply Fin.ext
  match a with
  | ⟨0, _⟩ => show win1_0.index t 0 * 2 + 1 * b.val = b.val; rw [hi.1]; omega
  | ⟨1, _⟩ => show win1_0.index t 1 * 512 + 1 * s'.val = q.val; rw [hi.2.1, hq]; omega
  | ⟨2, _⟩ => show win1_0.index t 2 * 2048 + 1 * h.val = h.val; rw [hi.2.2]; omega

/-- The vocabulary block at point t: entry (c', h) is the vocabulary matrix at ((t % 50) * 640 + c', h). -/
theorem iblk1_1_apply (c : Dev nD) (t : Fin cfg1.N) (c' : Fin 640) (h : Fin 2048) (v : Fin 32000)
    (hv : v.val = t.val % 50 * 640 + c'.val) :
    (iblk1 V c 1 t : Vec F S640x2048 .f32) (ix2 c' h) = (V c main_arg5 : S32000x2048.Idx → Elt F .f32) (ix2 v h) := by
  have hi := (idx1 t).2.1
  unfold iblk1
  rw [View.read_apply]
  show V c main_arg5 _ = V c main_arg5 _
  congr 1
  funext a
  apply Fin.ext
  match a with
  | ⟨0, _⟩ => show win1_1.index t 0 * 640 + 1 * c'.val = v.val; rw [hi.1, hv]; omega
  | ⟨1, _⟩ => show win1_1.index t 1 * 2048 + 1 * h.val = h.val; rw [hi.2]; omega

/-- The output's block at point t, read off an array G: entry (b, s') is G at (b, (t / 50) * 512 + s'). -/
theorem blk1_2_read (c : Dev nD) (t : Fin cfg1.N) (G : Buf (Elt F) ((c : Thread nD τ).loc main_v4)) (b : Fin 2) (s' : Fin 512)
    (q : Fin 1024) (hq : q.val = t.val / 50 * 512 + s'.val) :
    (((cfg1.win 2).blk t).view.read (Elt F) G : Vec F S2x512 .f32) (ix2 b s') = (G : S2x1024.Idx → Elt F .f32) (ix2 b q) := by
  have hi := (idx1 t).2.2
  rw [View.read_apply]
  show G _ = G _
  congr 1
  funext a
  apply Fin.ext
  match a with
  | ⟨0, _⟩ => show win1_2.index t 0 * 2 + 1 * b.val = b.val; rw [hi.1]; omega
  | ⟨1, _⟩ => show win1_2.index t 1 * 512 + 1 * s'.val = q.val; rw [hi.2, hq]; omega

end Blocks

/-! ### The output blocks tile the array -/

/-- The output window is not cut: its block is a whole [2, 512] block at every point. -/
theorem xsize1 : ∀ t : Fin cfg1.N, win1_2.xsize (grid1.coords t) 0 = 2 ∧ win1_2.xsize (grid1.coords t) 1 = 512 :=
  (by decide +kernel : ∀ t : Fin grid1.N, win1_2.xsize (grid1.coords t) 0 = 2 ∧ win1_2.xsize (grid1.coords t) 1 = 512)

/-- Every entry (b, s) of the output array lies in the block written back at the last tile of row tile s / 512. -/
theorem cover1_2 (c : Dev nD) (i : S2x1024.Idx) :
    ∃ t : Fin cfg1.N, (cfg1.win 2).flush t = true ∧ i ∈ ((cfg1.win 2).blk t).view.set := by
  have h0 : (i 0).val < 2 := idx2_lt0 i
  have h1 : (i 1).val < 1024 := idx2_lt1 i
  have hN : cfg1.N = 100 := N_1
  have hlt : (i 1).val / 512 * 50 + 49 < cfg1.N := by rw [hN]; omega
  refine ⟨⟨(i 1).val / 512 * 50 + 49, hlt⟩, (flush1_2 _).mpr (by show ((i 1).val / 512 * 50 + 49) % 50 = 49; omega), ?_⟩
  have hi := (idx1 ⟨(i 1).val / 512 * 50 + 49, hlt⟩).2.2
  have hx := xsize1 ⟨(i 1).val / 512 * 50 + 49, hlt⟩
  show i ∈ ((View.whole main_v4).slice (win1_2.rect ⟨(i 1).val / 512 * 50 + 49, hlt⟩)).set
  rw [View.set_slice_whole, Rect.mem_set_unit]
  intro a
  match a with
  | ⟨0, _⟩ =>
    show win1_2.index ⟨(i 1).val / 512 * 50 + 49, hlt⟩ 0 * 2 ≤ (i 0).val
      ∧ (i 0).val < win1_2.index ⟨(i 1).val / 512 * 50 + 49, hlt⟩ 0 * 2 + win1_2.xsize (grid1.coords ⟨(i 1).val / 512 * 50 + 49, hlt⟩) 0
    rw [hi.1, hx.1]; omega
  | ⟨1, _⟩ =>
    show win1_2.index ⟨(i 1).val / 512 * 50 + 49, hlt⟩ 1 * 512 ≤ (i 1).val
      ∧ (i 1).val < win1_2.index ⟨(i 1).val / 512 * 50 + 49, hlt⟩ 1 * 512 + win1_2.xsize (grid1.coords ⟨(i 1).val / 512 * 50 + 49, hlt⟩) 1
    rw [hi.2, hx.2]
    show ((i 1).val / 512 * 50 + 49) / 50 * 512 ≤ (i 1).val ∧ (i 1).val < ((i 1).val / 512 * 50 + 49) / 50 * 512 + 512
    omega

/-! ### The columns and the output block after a point, as the body's arithmetic -/

section Outs
variable (V : (c : Dev nD) → (b : Ref sig .tc) → Buf (Elt F) ((c : Thread nD τ).loc b))

/-- After a point of the first tile the columns are the update, by the tile, of the reset columns. -/
theorem outs1_first (c : Dev nD) (t : Fin cfg1.N) (h0 : t.val % 50 = 0) :
    (outsAt1 V c t.val t.isLt).2
      = (k1_pay7 (iblk1 V c 0 t) (iblk1 V c 1 t) (k1_pay2 (F := F)),
         k1_pay6 (iblk1 V c 0 t) (iblk1 V c 1 t) (k1_pay2 (F := F)) (k1_pay2 (F := F)) (k1_pay3 (F := F))) := by
  have h1 : ¬t.val % 50 = 49 := by omega
  rw [outsAt1_A V c t h0 h1]
  exact resA1_scr V c t h0 h1

/-- After any other point the columns are the update, by the tile, of what the point before left. -/
theorem outs1_next (c : Dev nD) (t : Fin cfg1.N) (h0 : ¬t.val % 50 = 0) :
    (outsAt1 V c t.val t.isLt).2
      = (k1_pay7 (iblk1 V c 0 t) (iblk1 V c 1 t) (outsAt1 V c (t.val - 1) (Nat.lt_of_le_of_lt (Nat.sub_le _ _) t.isLt)).2.1,
         k1_pay6 (iblk1 V c 0 t) (iblk1 V c 1 t) (outsAt1 V c (t.val - 1) (Nat.lt_of_le_of_lt (Nat.sub_le _ _) t.isLt)).2.1
           (outsAt1 V c (t.val - 1) (Nat.lt_of_le_of_lt (Nat.sub_le _ _) t.isLt)).2.1
           (outsAt1 V c (t.val - 1) (Nat.lt_of_le_of_lt (Nat.sub_le _ _) t.isLt)).2.2) := by
  by_cases h1 : t.val % 50 = 49
  · rw [outsAt1_C V c t h0 h1]
    exact resC1_scr V c t h0 h1 _
  · rw [outsAt1_B V c t h0 h1]
    exact resB1_scr V c t h0 h1 _

/-- After a point of the last tile the output block is the finished columns laid out as [2, 512]. -/
theorem outs1_last (c : Dev nD) (t : Fin cfg1.N) (h1 : t.val % 50 = 49) :
    (outsAt1 V c t.val t.isLt).1
      = k1_pay1 (outsAt1 V c t.val t.isLt).2.1 (outsAt1 V c t.val t.isLt).2.2 (outsAt1 V c t.val t.isLt).2.1 := by
  have h0 : ¬t.val % 50 = 0 := by omega
  rw [outsAt1_C V c t h0 h1, resC1_scr, resC1_out]

end Outs

end Cert.KernelIdeal.Val

end
-- ==== Proof.KI.Pay1.lean ====
/-
  The values stored by the second kernel's body, read at an index, over the extended reals.

  The second kernel is the first without the running total: it computes the logits of its 1024 rows
  against the 640 entries of the current vocabulary tile and updates two columns, the running
  maximum and denominator, which at row r are the maximum and denominator fields of one step of the
  row's running state on the tile's logits (whatever total the state carries: the step's maximum and
  denominator do not depend on it).  At the first tile the two columns are reset to minus infinity
  and zero.  After the last tile the reported value at batch entry b and position s is read off row
  b * 512 + s of the columns: m - (m + log d).
-/
import proofs.«154765_j27539330302083_2_alg».proof.Proof.KI.PayCommon

noncomputable section

namespace Cert.KernelIdeal.Val

open Idealize.ShloMosaic Idealize.ShloMosaic.ValueIdx
open Cert.KernelIdeal Cert.KernelIdeal.Gen
open scoped BigOperators

/-- The product of the body at (r, c) is the logit of row r against entry c of the tile. -/
theorem k1_pay4_apply (x0 : Vec Ideal S2x512x2048 .bf16) (x1 : Vec Ideal S640x2048 .f32) (r : Fin 1024) (c : Fin 640) :
    k1_pay4 (F := Ideal) x0 x1 (ix2 r c) = tileLogit x0 x1 r c := by
  unfold k1_pay4
  exact logits_form x0 x1 _ _ _ r c

/-- Row r of the product is the tile's logits of row r. -/
theorem k1_pay4_row (x0 : Vec Ideal S2x512x2048 .bf16) (x1 : Vec Ideal S640x2048 .f32) (r : Fin 1024) :
    (fun c : Fin 640 => k1_pay4 (F := Ideal) x0 x1 (ix2 r c)) = tileLogit x0 x1 r :=
  funext (k1_pay4_apply x0 x1 r)

/-- The new maximum column at row r is the maximum field of the row's step. -/
theorem k1_pay5_apply (x0 : Vec Ideal S2x512x2048 .bf16) (x1 : Vec Ideal S640x2048 .f32)
    (mx den tot : Vec Ideal S1024x1 .f32) (r : Fin 1024) :
    k1_pay5 (F := Ideal) x0 x1 mx (ix2 r (0 : Fin 1)) = ((rowSt mx den tot r).step (tileLogit x0 x1 r)).mx := by
  unfold k1_pay5
  refine (newMax_form (k1_pay4 (F := Ideal) x0 x1) mx _ _ r).trans ?_
  exact congrArg (fun f => max (mx (ix2 r (0 : Fin 1))) (Finset.univ.fold max (⊥ : EReal) f)) (k1_pay4_row x0 x1 r)

/-- The new denominator column at row r is the denominator field of the row's step. -/
theorem k1_pay6_apply (x0 : Vec Ideal S2x512x2048 .bf16) (x1 : Vec Ideal S640x2048 .f32)
    (mx den tot : Vec Ideal S1024x1 .f32) (r : Fin 1024) :
    k1_pay6 (F := Ideal) x0 x1 mx mx den (ix2 r (0 : Fin 1)) = ((rowSt mx den tot r).step (tileLogit x0 x1 r)).den := by
  unfold k1_pay6
  refine (newDen_form (k1_pay4 (F := Ideal) x0 x1) (k1_pay5 (F := Ideal) x0 x1 mx) mx den _ _ _ _ r).trans ?_
  rw [k1_pay5_apply x0 x1 mx den tot r]
  simp only [k1_pay4_apply]
  rfl

/-- The stored maximum column is the new maximum column: a reshape of a column to its own shape changes nothing. -/
theorem k1_pay7_eq (x0 : Vec Ideal S2x512x2048 .bf16) (x1 : Vec Ideal S640x2048 .f32) (mx : Vec Ideal S1024x1 .f32) :
    k1_pay7 (F := Ideal) x0 x1 mx = k1_pay5 (F := Ideal) x0 x1 mx := by
  unfold k1_pay7
  exact shapeCast_self _ _

/-- The stored maximum column at row r is the maximum field of the row's step. -/
theorem k1_pay7_apply (x0 : Vec Ideal S2x512x2048 .bf16) (x1 : Vec Ideal S640x2048 .f32)
    (mx den tot : Vec Ideal S1024x1 .f32) (r : Fin 1024) :
    k1_pay7 (F := Ideal) x0 x1 mx (ix2 r (0 : Fin 1)) = ((rowSt mx den tot r).step (tileLogit x0 x1 r)).mx :=
  (congrFun (k1_pay7_eq x0 x1 mx) _).trans (k1_pay5_apply x0 x1 mx den tot r)

/-- The reset maximum column is minus infinity everywhere. -/
theorem k1_pay2_apply (r : Fin 1024) : k1_pay2 (F := Ideal) (ix2 r (0 : Fin 1)) = ⊥ := by
  unfold k1_pay2
  exact (congrFun (shapeCast_self _ shapeCasts_S1024x1_S1024x1) (ix2 r (0 : Fin 1))).trans ofBits_neg_inf

/-- The reset denominator column is zero everywhere. -/
theorem k1_pay3_apply (r : Fin 1024) : k1_pay3 (F := Ideal) (ix2 r (0 : Fin 1)) = 0 := by
  unfold k1_pay3
  exact (congrFun (shapeCast_self _ shapeCasts_S1024x1_S1024x1) (ix2 r (0 : Fin 1))).trans Ideal.ofBits_zero_f32

/-- The two reset columns, with any total column that is zero at row r, hold at row r the state before any tile. -/
theorem k1_reset_rowSt (tot : Vec Ideal S1024x1 .f32) (r : Fin 1024) (htot : tot (ix2 r (0 : Fin 1)) = 0) :
    rowSt (k1_pay2 (F := Ideal)) (k1_pay3 (F := Ideal)) tot r = Cert.Spec.St.init := by
  unfold rowSt Cert.Spec.St.init
  rw [k1_pay2_apply, k1_pay3_apply, htot]

/-- The reported log-softmax value at batch entry b, position s, from row b * 512 + s of the columns. -/
theorem k1_pay1_apply (v33 v34 v37 : Vec Ideal S1024x1 .f32) (b : Fin 2) (s : Fin 512) :
    k1_pay1 (F := Ideal) v33 v34 v37 (ix2 b s)
      = v37 (ix2 (⟨b.val * 512 + s.val, by have := b.isLt; have := s.isLt; omega⟩ : Fin 1024) (0 : Fin 1))
        - (v33 (ix2 (⟨b.val * 512 + s.val, by have := b.isLt; have := s.isLt; omega⟩ : Fin 1024) (0 : Fin 1))
          + Ideal.log (v34 (ix2 (⟨b.val * 512 + s.val, by have := b.isLt; have := s.isLt; omega⟩ : Fin 1024) (0 : Fin 1)))) := by
  unfold k1_pay1
  exact out_form v33 v34 v37 _ b s

end Cert.KernelIdeal.Val

end
-- ==== Proof.KI.Val1.lean ====
/-
  What the second kernel leaves in its output array, as mathematics over the argument arrays.

  The second kernel is the first without the running total, on the second pair of arguments: its
  activation array is the argument X' rounded to a narrower format, which on extended reals is X'
  itself, and its vocabulary matrix is the argument W' unchanged (neither is touched by the first
  kernel or by the host operations before it).  At grid point t the logits of row r of the tile are
  the logits of batch entry r / 512 at sequence position (t / 50) * 512 + r % 512 against vocabulary
  entries (t % 50) * 640 + c'.  By induction along the points of a row tile, after point n the two
  running columns hold at row r the maximum and the denominator of the online-softmax walk of that
  row after n % 50 + 1 vocabulary tiles (one step's maximum and denominator depend on the state's
  maximum and denominator only).  At the last tile the walk has met the whole vocabulary, so the
  output block holds the row's largest log-softmax value; the write-backs at the last tiles tile the
  output array, which therefore ends holding that function of X' and W'.
-/
import proofs.«154765_j27539330302083_2_alg».proof.Proof.KI.Blocks1
import proofs.«154765_j27539330302083_2_alg».proof.Proof.KI.Pay1
import proofs.«154765_j27539330302083_2_alg».proof.Proof.Online
import proofs.«154765_j27539330302083_2_alg».proof.Proof.KI.Segs

set_option maxRecDepth 16384

noncomputable section

namespace Cert.KernelIdeal.Val

open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.Hand

variable {F : FTy → Type} [FloatOps F]

open scoped BigOperators

/-! ### States -/

/-- The two columns hold, at row r, the maximum and the denominator of the state σ. -/
def Holds1 (cols : Vec Ideal S1024x1 .f32 × Vec Ideal S1024x1 .f32) (σ : Cert.Spec.St) (r : Fin 1024) : Prop :=
  cols.1 (ix2 r (0 : Fin 1)) = σ.mx ∧ cols.2 (ix2 r (0 : Fin 1)) = σ.den

/-- The two stored columns after a tile hold, at row r, the maximum and the denominator of one step,
    on the tile's logits, of any state whose maximum and denominator the columns held before. -/
theorem cols1_update (x0 : Vec Ideal S2x512x2048 .bf16) (x1 : Vec Ideal S640x2048 .f32)
    (mx den : Vec Ideal S1024x1 .f32) (σ : Cert.Spec.St) (r : Fin 1024) (h : Holds1 (mx, den) σ r) :
    Holds1 (k1_pay7 (F := Ideal) x0 x1 mx, k1_pay6 (F := Ideal) x0 x1 mx mx den) (σ.step (tileLogit x0 x1 r)) r := by
  have hm : mx (ix2 r (0 : Fin 1)) = σ.mx := h.1
  have hd : den (ix2 r (0 : Fin 1)) = σ.den := h.2
  have e : rowSt mx den den r = ⟨σ.mx, σ.den, σ.den⟩ := by
    unfold rowSt
    rw [hm, hd]
  refine ⟨(k1_pay7_apply x0 x1 mx den den r).trans ?_, (k1_pay6_apply x0 x1 mx den den r).trans ?_⟩
  · rw [e]; rfl
  · rw [e]; rfl

/-- Equal states are held by the same columns. -/
theorem Holds1_congr {cols : Vec Ideal S1024x1 .f32 × Vec Ideal S1024x1 .f32} {σ σ' : Cert.Spec.St} {r : Fin 1024}
    (h : Holds1 cols σ r) (e : σ = σ') : Holds1 cols σ' r := e ▸ h

/-- The walk's state depends only on the values of its row and tile count. -/
theorem walk_congr' (X : Cert.Spec.SX.Idx → EReal) (W : Cert.Spec.SW.Idx → EReal) {b b' : Fin 2} {s s' : Fin 1024} {n n' : ℕ}
    (hb : b = b') (hs : s = s') (hn : n = n') : Cert.Spec.walk X W b s n = Cert.Spec.walk X W b' s' n' := by
  subst hb hs hn; rfl

/-! ### Along the points of the grid -/

section Walk
variable (V : (c : Dev nD) → (b : Ref sig .tc) → Buf (Elt Ideal) ((c : Thread nD τ).loc b)) (c : Dev nD)
  (X : Cert.Spec.SX.Idx → EReal) (W : Cert.Spec.SW.Idx → EReal)
  (hV0 : ∀ i, (V c main_v3 : S2x1024x2048.Idx → EReal) i = X i)
  (hV1 : ∀ i, (V c main_arg5 : S32000x2048.Idx → EReal) i = W i)

include hV0 hV1 in
/-- The logits of row r of the tile at point t are the row's logits against vocabulary tile t % 50. -/
theorem tileLogit_blk1 (t : Fin cfg1.N) (r : Fin 1024) :
    tileLogit (iblk1 V c 0 t) (iblk1 V c 1 t) r
      = fun c' : Fin 640 => Cert.Spec.logit X W (⟨r.val / 512, by have := r.isLt; omega⟩ : Fin 2)
          (⟨t.val / 50 * 512 + r.val % 512, by have : t.val < 100 := lt_of_lt_of_eq t.isLt N_1; omega⟩ : Fin 1024)
          (Cert.Spec.vocabAt ⟨t.val % 50, Nat.mod_lt _ (by norm_num)⟩ c') := by
  funext c'
  unfold tileLogit Cert.Spec.logit
  refine Finset.sum_congr rfl fun h _ => ?_
  refine congrArg₂ (· * ·) ?_ ?_
  · exact (iblk1_0_apply V c t _ _ h
      (⟨t.val / 50 * 512 + r.val % 512, by have : t.val < 100 := lt_of_lt_of_eq t.isLt N_1; omega⟩ : Fin 1024) rfl).trans (hV0 _)
  · exact (iblk1_1_apply V c t c' h (Cert.Spec.vocabAt ⟨t.val % 50, Nat.mod_lt _ (by norm_num)⟩ c') rfl).trans (hV1 _)

include hV0 hV1 in
/-- After a point of the first vocabulary tile the columns hold the walk after one tile. -/
theorem cols1_first (t : Fin cfg1.N) (h0 : t.val % 50 = 0) (r : Fin 1024) :
    Holds1 (outsAt1 V c t.val t.isLt).2
      (Cert.Spec.walk X W (⟨r.val / 512, by have := r.isLt; omega⟩ : Fin 2)
          (⟨t.val / 50 * 512 + r.val % 512, by have : t.val < 100 := lt_of_lt_of_eq t.isLt N_1; omega⟩ : Fin 1024)
          (t.val % 50 + 1)) r := by
  have hw : Cert.Spec.walk X W (⟨r.val / 512, by have := r.isLt; omega⟩ : Fin 2)
      (⟨t.val / 50 * 512 + r.val % 512, by have : t.val < 100 := lt_of_lt_of_eq t.isLt N_1; omega⟩ : Fin 1024)
      (t.val % 50) = Cert.Spec.St.init := by rw [h0]; rfl
  rw [outs1_first V c t h0, Cert.Spec.walk_succ X W _ _ (t.val % 50) (Nat.mod_lt _ (by norm_num)), hw,
    ← tileLogit_blk1 V c X W hV0 hV1 t r]
  exact cols1_update _ _ _ _ Cert.Spec.St.init r ⟨k1_pay2_apply r, k1_pay3_apply r⟩

include hV0 hV1 in
/-- After any other point the columns hold the walk one tile further than the point before left it. -/
theorem cols1_next (t : Fin cfg1.N) (h0 : ¬t.val % 50 = 0) (r : Fin 1024)
    (ih : Holds1 (outsAt1 V c (t.val - 1) (Nat.lt_of_le_of_lt (Nat.sub_le _ _) t.isLt)).2
      (Cert.Spec.walk X W (⟨r.val / 512, by have := r.isLt; omega⟩ : Fin 2)
          (⟨(t.val - 1) / 50 * 512 + r.val % 512, by have : t.val < 100 := lt_of_lt_of_eq t.isLt N_1; omega⟩ : Fin 1024)
          ((t.val - 1) % 50 + 1)) r) :
    Holds1 (outsAt1 V c t.val t.isLt).2
      (Cert.Spec.walk X W (⟨r.val / 512, by have := r.isLt; omega⟩ : Fin 2)
          (⟨t.val / 50 * 512 + r.val % 512, by have : t.val < 100 := lt_of_lt_of_eq t.isLt N_1; omega⟩ : Fin 1024)
          (t.val % 50 + 1)) r := by
  have hs : (⟨(t.val - 1) / 50 * 512 + r.val % 512, by have : t.val < 100 := lt_of_lt_of_eq t.isLt N_1; omega⟩ : Fin 1024)
      = ⟨t.val / 50 * 512 + r.val % 512, by have : t.val < 100 := lt_of_lt_of_eq t.isLt N_1; omega⟩ :=
    Fin.ext (by show (t.val - 1) / 50 * 512 + r.val % 512 = t.val / 50 * 512 + r.val % 512; omega)
  have hk : (t.val - 1) % 50 + 1 = t.val % 50 := by omega
  rw [hs, hk] at ih
  rw [outs1_next V c t h0, Cert.Spec.walk_succ X W _ _ (t.val % 50) (Nat.mod_lt _ (by norm_num)),
    ← tileLogit_blk1 V c X W hV0 hV1 t r]
  exact cols1_update _ _ _ _ _ r ih

include hV0 hV1 in
/-- After point n the columns hold, at row r, the walk of the row after n % 50 + 1 vocabulary tiles. -/
theorem cols1_inv (n : ℕ) (hn : n < cfg1.N) (r : Fin 1024) :
    Holds1 (outsAt1 V c n hn).2
      (Cert.Spec.walk X W (⟨r.val / 512, by have := r.isLt; omega⟩ : Fin 2)
          (⟨n / 50 * 512 + r.val % 512, by have : n < 100 := lt_of_lt_of_eq hn N_1; omega⟩ : Fin 1024)
          (n % 50 + 1)) r := by
  induction n with
  | zero => exact cols1_first V c X W hV0 hV1 ⟨0, hn⟩ (Nat.zero_mod _) r
  | succ k ih =>
    by_cases h0 : (k + 1) % 50 = 0
    · exact cols1_first V c X W hV0 hV1 ⟨k + 1, hn⟩ h0 r
    · exact cols1_next V c X W hV0 hV1 ⟨k + 1, hn⟩ h0 r (ih (Nat.lt_of_succ_lt hn))

end Walk

/-! ### The output block at the last tile, and the output array -/

section Final
variable (V : (c : Dev nD) → (b : Ref sig .tc) → Buf (Elt Ideal) ((c : Thread nD τ).loc b)) (c : Dev nD)
  (X : Cert.Spec.SX.Idx → EReal) (W : Cert.Spec.SW.Idx → EReal)
  (hV0 : ∀ i, (V c main_v3 : S2x1024x2048.Idx → EReal) i = X i)
  (hV1 : ∀ i, (V c main_arg5 : S32000x2048.Idx → EReal) i = W i)
  (hX : ∀ i, ∃ r : ℝ, X i = (r : EReal)) (hW : ∀ i, ∃ r : ℝ, W i = (r : EReal))

include hV0 hV1 in
/-- At a last-tile point the columns hold, at row b * 512 + s', the finished walk of batch entry b at
    sequence position (t / 50) * 512 + s'. -/
theorem cols1_done (t : Fin cfg1.N) (h1 : t.val % 50 = 49) (b : Fin 2) (s' : Fin 512) :
    Holds1 (outsAt1 V c t.val t.isLt).2
      (Cert.Spec.walk X W b
          (⟨t.val / 50 * 512 + s'.val, by have : t.val < 100 := lt_of_lt_of_eq t.isLt N_1; have := s'.isLt; omega⟩ : Fin 1024) 50)
      (⟨b.val * 512 + s'.val, by have := b.isLt; have := s'.isLt; omega⟩ : Fin 1024) := by
  exact Holds1_congr
    (cols1_inv V c X W hV0 hV1 t.val t.isLt (⟨b.val * 512 + s'.val, by have := b.isLt; have := s'.isLt; omega⟩ : Fin 1024))
    (walk_congr' X W
      (Fin.ext (by show (b.val * 512 + s'.val) / 512 = b.val; have := s'.isLt; omega))
      (Fin.ext (by show t.val / 50 * 512 + (b.val * 512 + s'.val) % 512 = t.val / 50 * 512 + s'.val; have := s'.isLt; omega))
      (by omega))

include hV0 hV1 hX hW in
/-- The output block at a last-tile point holds the rows' largest log-softmax values. -/
theorem out1_2_apply (t : Fin cfg1.N) (h1 : t.val % 50 = 49) (b : Fin 2) (s' : Fin 512) :
    ((outsAt1 V c t.val t.isLt).1 : Vec Ideal S2x512 .f32) (ix2 b s')
      = Cert.Spec.seqlp X W (ix2 b
          (⟨t.val / 50 * 512 + s'.val, by have : t.val < 100 := lt_of_lt_of_eq t.isLt N_1; have := s'.isLt; omega⟩ : Fin 1024)) := by
  have hd := cols1_done V c X W hV0 hV1 t h1 b s'
  have e1 : (outsAt1 V c t.val t.isLt).2.1 (ix2 (⟨b.val * 512 + s'.val, by have := b.isLt; have := s'.isLt; omega⟩ : Fin 1024) (0 : Fin 1))
      = (Cert.Spec.walk X W b
          (⟨t.val / 50 * 512 + s'.val, by have : t.val < 100 := lt_of_lt_of_eq t.isLt N_1; have := s'.isLt; omega⟩ : Fin 1024) 50).mx := hd.1
  have e2 : (outsAt1 V c t.val t.isLt).2.2 (ix2 (⟨b.val * 512 + s'.val, by have := b.isLt; have := s'.isLt; omega⟩ : Fin 1024) (0 : Fin 1))
      = (Cert.Spec.walk X W b
          (⟨t.val / 50 * 512 + s'.val, by have : t.val < 100 := lt_of_lt_of_eq t.isLt N_1; have := s'.isLt; omega⟩ : Fin 1024) 50).den := hd.2
  rw [outs1_last V c t h1, k1_pay1_apply, e1, e2]
  exact Cert.Spec.walk_seqlp X W hX hW b _

include hV0 hV1 hX hW in
/-- What a write-back of the output writes is the block of the largest log-softmax values. -/
theorem flushed1_2 (t : Fin cfg1.N) (hf : (cfg1.win 2).flush t = true) :
    (dat1 V c).flushed 2 t = ((cfg1.win 2).blk t).view.read (Elt Ideal) (Cert.Spec.seqlp X W) := by
  have h1 : t.val % 50 = 49 := (flush1_2 t).mp hf
  show (cfg1.win 2).cut (grid1.coords t) ((dat1 V c).after 2 t) = _
  rw [after1_2]
  show ((outsAt1 V c t.val t.isLt).1 : Vec Ideal S2x512 .f32)
    = (((cfg1.win 2).blk t).view.read (Elt Ideal) (Cert.Spec.seqlp X W) : Vec Ideal S2x512 .f32)
  funext y
  obtain ⟨b, s', rfl⟩ : ∃ (b : Fin 2) (s' : Fin 512), y = ix2 b s' := ⟨y 0, y 1, eq_ix2 y⟩
  rw [out1_2_apply V c X W hV0 hV1 hX hW t h1 b s']
  exact (blk1_2_read (F := Ideal) c t (Cert.Spec.seqlp X W) b s'
    (⟨t.val / 50 * 512 + s'.val, by have : t.val < 100 := lt_of_lt_of_eq t.isLt N_1; have := s'.isLt; omega⟩ : Fin 1024) rfl).symm

include hV0 hV1 hX hW in
/-- The output array ends holding every row's largest log-softmax value. -/
theorem final1_2_of : (dat1 V c).arrAt 2 cfg1.N = Cert.Spec.seqlp X W :=
  (dat1 V c).arrAt_eq_of_cover 2 (Cert.Spec.seqlp X W) (flushed1_2 V c X W hV0 hV1 hX hW) (cover1_2 c)

end Final

/-! ### At the kernel's entry contents -/

section Entry
variable (m : (ℓ : Loc nD τ sig) → Buf (Elt Ideal) ℓ) (c : Dev nD)

/-- Neither the host operations before the first kernel nor the first kernel touch the second pair of arguments. -/
theorem W2_arg4 : Hand.W2 m c (Proc.devRef .tc main_arg4) = m ((c : Thread nD τ).loc main_arg4) :=
  (Hand.W2_of_ne m c main_arg4 (by decide)).trans
    (StableHlo.after_of_writes_sub hostOps0 _ hostOps0_writes (by decide))

theorem W2_arg5 : Hand.W2 m c (Proc.devRef .tc main_arg5) = m ((c : Thread nD τ).loc main_arg5) :=
  (Hand.W2_of_ne m c main_arg5 (by decide)).trans
    (StableHlo.after_of_writes_sub hostOps0 _ hostOps0_writes (by decide))

/-- The kernel's activation array is the argument X' rounded to a narrower format: on extended reals, X'. -/
theorem V3_v3_apply (i : S2x1024x2048.Idx) :
    (Hand.V3 m c main_v3 : S2x1024x2048.Idx → EReal) i
      = (m ((c : Thread nD τ).loc main_arg4) : S2x1024x2048.Idx → EReal) i := by
  have e : @Eq (FVec Ideal S2x1024x2048 .bf16) (Hand.V3 m c main_v3)
      (truncf .bf16 (Hand.W2 m c (Proc.devRef .tc main_arg4) : FVec Ideal S2x1024x2048 .f32) bitsLt_bf16_f32) := by
    dsimp only [Hand.V3, Hand.W3, hostOps1]
    after_results
  rw [e, W2_arg4]
  rfl

/-- The kernel's vocabulary matrix is the argument W'. -/
theorem V3_arg5_apply (i : S32000x2048.Idx) :
    (Hand.V3 m c main_arg5 : S32000x2048.Idx → EReal) i
      = (m ((c : Thread nD τ).loc main_arg5) : S32000x2048.Idx → EReal) i := by
  have e : Hand.V3 m c main_arg5 = m ((c : Thread nD τ).loc main_arg5) :=
    (StableHlo.after_of_writes_sub hostOps1 _ hostOps1_writes (by decide)).trans (W2_arg5 m c)
  rw [e]

/-- THE OUTPUT of the second kernel: every row's largest log-softmax value. -/
theorem final1_2
    (hX : ∀ i, ∃ r : ℝ, (m ((c : Thread nD τ).loc main_arg4) : Cert.Spec.SX.Idx → EReal) i = (r : EReal))
    (hW : ∀ i, ∃ r : ℝ, (m ((c : Thread nD τ).loc main_arg5) : Cert.Spec.SW.Idx → EReal) i = (r : EReal)) :
    (dat1 (Hand.V3 m) c).arrAt 2 cfg1.N
      = Cert.Spec.seqlp (m ((c : Thread nD τ).loc main_arg4) : Cert.Spec.SX.Idx → EReal)
          (m ((c : Thread nD τ).loc main_arg5) : Cert.Spec.SW.Idx → EReal) :=
  final1_2_of (Hand.V3 m) c _ _ (V3_v3_apply m c) (V3_arg5_apply m c) hX hW

end Entry

end Cert.KernelIdeal.Val

end
-- ==== Proof.KI.Results.lean ====
/-
  The kernel program's five results as the specification's closing function of the argument arrays: the first
  kernel's two output arrays are the per-row values and row sums of the policy's logits, the second kernel's output
  array the per-row values of the reference model's, and the host sum of the row sums over both axes is the sum of
  all the policy's logits.
-/
import proofs.«154765_j27539330302083_2_alg».proof.Proof.KI.TailVal
import proofs.«154765_j27539330302083_2_alg».proof.Proof.KI.Val0
import proofs.«154765_j27539330302083_2_alg».proof.Proof.KI.Val1
import proofs.«154765_j27539330302083_2_alg».proof.Proof.Online
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable (m : (ℓ : Loc nD τ sig) → Buf (Elt Ideal) ℓ)

/-- The host sum of a [2, 1024] array over both axes from the zero word is the double sum of its entries. -/
theorem sumAll_eq (A : FVec Ideal S2x1024 .f32) :
    Host.reduceAdd (F := Ideal) A (constant (F := Ideal) S_ .f32 0x00000000#32) reducesTo_S2x1024_S_d0_1 h_S_
      = fun _ => ∑ b : Fin 2, ∑ s : Fin 1024, A (ix2 b s) := by
  funext j
  show Ideal.hostReduceAdd reducesTo_S2x1024_S_d0_1 A (Ideal.ofBits .f32 0x00000000#32) j = _
  rw [Ideal.hostReduceAdd_total reducesTo_S2x1024_S_d0_1 (fun b => b.elim0) A _ j, Ideal.ofBits_zero_f32, zero_add]
  exact sum_idx2 A

theorem V4_v2_0 (c : Dev nD) : V4 m c main_v2_0 = (dat0 (V1 m) c).arrAt 2 cfg0.N :=
  (W4_of_ne m c main_v2_0 (by decide)).trans
    ((StableHlo.after_of_writes_sub hostOps1 (W2 m c) hostOps1_writes (by decide) : W3 m c (Proc.devRef .tc main_v2_0) = W2 m c (Proc.devRef .tc main_v2_0)).trans (W2_arr m c 2))
theorem V4_v2_1 (c : Dev nD) : V4 m c main_v2_1 = (dat0 (V1 m) c).arrAt 3 cfg0.N :=
  (W4_of_ne m c main_v2_1 (by decide)).trans
    ((StableHlo.after_of_writes_sub hostOps1 (W2 m c) hostOps1_writes (by decide) : W3 m c (Proc.devRef .tc main_v2_1) = W2 m c (Proc.devRef .tc main_v2_1)).trans (W2_arr m c 3))
theorem V4_v4 (c : Dev nD) : V4 m c main_v4 = (dat1 (V3 m) c).arrAt 2 cfg1.N := W4_arr m c 2

/-- The five results as the closing function of the specification's per-row arrays. -/
abbrev vals (c : Dev nD) : Fin 5 → FVec Ideal Cert.Spec.SZ .f32 :=
  Cert.Spec.tail (Cert.Spec.seqlp (m ((c : Thread nD τ).loc main_arg0)) (m ((c : Thread nD τ).loc main_arg1)))
    (Cert.Spec.seqlp (m ((c : Thread nD τ).loc main_arg4)) (m ((c : Thread nD τ).loc main_arg5)))
    (m ((c : Thread nD τ).loc main_arg2)) (m ((c : Thread nD τ).loc main_arg3))
    (fun _ => ∑ b : Fin 2, ∑ s : Fin 1024, ∑ v : Fin 32000, Cert.Spec.logit (m ((c : Thread nD τ).loc main_arg0)) (m ((c : Thread nD τ).loc main_arg1)) b s v)

theorem closing_eq (c : Dev nD)
    (hX : ∀ i, ∃ r : ℝ, (m ((c : Thread nD τ).loc main_arg0) : Cert.Spec.SX.Idx → EReal) i = (r : EReal))
    (hW : ∀ i, ∃ r : ℝ, (m ((c : Thread nD τ).loc main_arg1) : Cert.Spec.SW.Idx → EReal) i = (r : EReal))
    (hX' : ∀ i, ∃ r : ℝ, (m ((c : Thread nD τ).loc main_arg4) : Cert.Spec.SX.Idx → EReal) i = (r : EReal))
    (hW' : ∀ i, ∃ r : ℝ, (m ((c : Thread nD τ).loc main_arg5) : Cert.Spec.SW.Idx → EReal) i = (r : EReal)) :
    closing m c = vals m c := by
  show Cert.Spec.tail _ _ _ _ _ = Cert.Spec.tail _ _ _ _ _
  rw [V4_v2_0 m c, V4_v2_1 m c, V4_v4 m c, Cert.KernelIdeal.Val.final0_2 m c hX hW, Cert.KernelIdeal.Val.final0_3 m c hX hW,
    Cert.KernelIdeal.Val.final1_2 m c hX' hW', sumAll_eq, Cert.Spec.total_eq]

end Cert.KernelIdeal.Hand

end
-- ==== Proof.RefOps.lean ====
/-
  The reference program as a straight line.  Its @main is two windows of host operations with four
  calls to outlined functions (the standard deviation, twice, and two selections); a call runs the
  callee's operations on the caller's buffers, so with each callee's operations written at its call
  site over the call's buffer record @main is one list of 114 operations (81 in the first window,
  33 in the second).  The run of such a line from any memory with zero counters terminates with
  every buffer at the fold of the operations' results over the launch contents.
-/
import proofs.«154765_j27539330302083_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The first window's operations, the calls unfolded: the two per-row arrays and their masked row
    sums, the centred rewards, the rewards' standard deviation (the variance's twenty operations,
    then the root), the two comparisons and selections, and the loss up to its mean. -/
abbrev ops_part0 : List (HloOp τ sig (Elt F)) :=
  [ unary main_arg2 main_v0 (sitofp .f32 : (⟨S2x1024, .i32⟩ : BufTy).Contents (Elt F) → (⟨S2x1024, .f32⟩ : BufTy).Contents (Elt F)),
    binary main_arg0 main_arg1 main_v1 ((fun l r => Host.dotGeneral dot_S2x1024x2048_S32000x2048_S2x1024x32000_2_1_01_0_n_n none l r) : (⟨S2x1024x2048, .f32⟩ : BufTy).Contents (Elt F) → (⟨S32000x2048, .f32⟩ : BufTy).Contents (Elt F) → (⟨S2x1024x32000, .f32⟩ : BufTy).Contents (Elt F)),
    nullary main_cst (constant S_ .f32 0xFF800000#32),
    binary main_v1 main_cst main_v2 ((fun x v => Host.reduce FloatOps.maximumf x v reducesTo_S2x1024x32000_S2x1024_d2 h_S_) : (⟨S2x1024x32000, .f32⟩ : BufTy).Contents (Elt F) → (⟨S_, .f32⟩ : BufTy).Contents (Elt F) → (⟨S2x1024, .f32⟩ : BufTy).Contents (Elt F)),
    unary main_v2 main_v3 (broadcastInDim S2x1024x1 ![0, 1] bcast_S2x1024_S2x1024x1_0_1 : (⟨S2x1024, .f32⟩ : BufTy).Contents (Elt F) → (⟨S2x1024x1, .f32⟩ : BufTy).Contents (Elt F)),
    unary main_v3 main_v4 (broadcastInDim S2x1024x32000 ![0, 1, 2] bcast_S2x1024x1_S2x1024x32000_0_1_2 : (⟨S2x1024x1, .f32⟩ : BufTy).Contents (Elt F) → (⟨S2x1024x32000, .f32⟩ : BufTy).Contents (Elt F)),
    binary main_v1 main_v4 main_v5 (subf : (⟨S2x1024x32000, .f32⟩ : BufTy).Contents (Elt F) → (⟨S2x1024x32000, .f32⟩ : BufTy).Contents (Elt F) → (⟨S2x1024x32000, .f32⟩ : BufTy).Contents (Elt F)),
    unary main_v5 main_v6 (Host.exp : (⟨S2x1024x32000, .f32⟩ : BufTy).Contents (Elt F) → (⟨S2x1024x32000, .f32⟩ : BufTy).Contents (Elt F)),
    nullary main_cst_0 (constant S_ .f32 0x00000000#32),
    binary main_v6 main_cst_0 main_v7 ((fun x v => Host.reduceAdd x v reducesTo_S2x1024x32000_S2x1024_d2 h_S_) : (⟨S2x1024x32000, .f32⟩ : BufTy).Contents (Elt F) → (⟨S_, .f32⟩ : BufTy).Contents (Elt F) → (⟨S2x1024, .f32⟩ : BufTy).Contents (Elt F)),
    unary main_v7 main_v8 (Host.log : (⟨S2x1024, .f32⟩ : BufTy).Contents (Elt F) → (⟨S2x1024, .f32⟩ : BufTy).Contents (Elt F)),
    binary main_v2 main_v8 main_v9 (addf : (⟨S2x1024, .f32⟩ : BufTy).Contents (Elt F) → (⟨S2x1024, .f32⟩ : BufTy).Contents (Elt F) → (⟨S2x1024, .f32⟩ : BufTy).Contents (Elt F)),
    binary main_v2 main_v9 main_v10 (subf : (⟨S2x1024, .f32⟩ : BufTy).Contents (Elt F) → (⟨S2x1024, .f32⟩ : BufTy).Contents (Elt F) → (⟨S2x1024, .f32⟩ : BufTy).Contents (Elt F)),
    binary main_v10 main_v0 main_v11 (mulf : (⟨S2x1024, .f32⟩ : BufTy).Contents (Elt F) → (⟨S2x1024, .f32⟩ : BufTy).Contents (Elt F) → (⟨S2x1024, .f32⟩ : BufTy).Contents (Elt F)),
    nullary main_cst_1 (constant S_ .f32 0x00000000#32),
    binary main_v11 main_cst_1 main_v12 ((fun x v => Host.reduceAdd x v reducesTo_S2x1024_S2_d1 h_S_) : (⟨S2x1024, .f32⟩ : BufTy).Contents (Elt F) → (⟨S_, .f32⟩ : BufTy).Contents (Elt F) → (⟨S2, .f32⟩ : BufTy).Contents (Elt F)),
    binary main_arg4 main_arg5 main_v13 ((fun l r => Host.dotGeneral dot_S2x1024x2048_S32000x2048_S2x1024x32000_2_1_01_0_n_n none l r) : (⟨S2x1024x2048, .f32⟩ : BufTy).Contents (Elt F) → (⟨S32000x2048, .f32⟩ : BufTy).Contents (Elt F) → (⟨S2x1024x32000, .f32⟩ : BufTy).Contents (Elt F)),
    nullary main_cst_2 (constant S_ .f32 0xFF800000#32),
    binary main_v13 main_cst_2 main_v14 ((fun x v => Host.reduce FloatOps.maximumf x v reducesTo_S2x1024x32000_S2x1024_d2 h_S_) : (⟨S2x1024x32000, .f32⟩ : BufTy).Contents (Elt F) → (⟨S_, .f32⟩ : BufTy).Contents (Elt F) → (⟨S2x1024, .f32⟩ : BufTy).Contents (Elt F)),
    unary main_v14 main_v15 (broadcastInDim S2x1024x1 ![0, 1] bcast_S2x1024_S2x1024x1_0_1 : (⟨S2x1024, .f32⟩ : BufTy).Contents (Elt F) → (⟨S2x1024x1, .f32⟩ : BufTy).Contents (Elt F)),
    unary main_v15 main_v16 (broadcastInDim S2x1024x32000 ![0, 1, 2] bcast_S2x1024x1_S2x1024x32000_0_1_2 : (⟨S2x1024x1, .f32⟩ : BufTy).Contents (Elt F) → (⟨S2x1024x32000, .f32⟩ : BufTy).Contents (Elt F)),
    binary main_v13 main_v16 main_v17 (subf : (⟨S2x1024x32000, .f32⟩ : BufTy).Contents (Elt F) → (⟨S2x1024x32000, .f32⟩ : BufTy).Contents (Elt F) → (⟨S2x1024x32000, .f32⟩ : BufTy).Contents (Elt F)),
    unary main_v17 main_v18 (Host.exp : (⟨S2x1024x32000, .f32⟩ : BufTy).Contents (Elt F) → (⟨S2x1024x32000, .f32⟩ : BufTy).Contents (Elt F)),
    nullary main_cst_3 (constant S_ .f32 0x00000000#32),
    binary main_v18 main_cst_3 main_v19 ((fun x v => Host.reduceAdd x v reducesTo_S2x1024x32000_S2x1024_d2 h_S_) : (⟨S2x1024x32000, .f32⟩ : BufTy).Contents (Elt F) → (⟨S_, .f32⟩ : BufTy).Contents (Elt F) → (⟨S2x1024, .f32⟩ : BufTy).Contents (Elt F)),
    unary main_v19 main_v20 (Host.log : (⟨S2x1024, .f32⟩ : BufTy).Contents (Elt F) → (⟨S2x1024, .f32⟩ : BufTy).Contents (Elt F)),
    binary main_v14 main_v20 main_v21 (addf : (⟨S2x1024, .f32⟩ : BufTy).Contents (Elt F) → (⟨S2x1024, .f32⟩ : BufTy).Contents (Elt F) → (⟨S2x1024, .f32⟩ : BufTy).Contents (Elt F)),
    binary main_v14 main_v21 main_v22 (subf : (⟨S2x1024, .f32⟩ : BufTy).Contents (Elt F) → (⟨S2x1024, .f32⟩ : BufTy).Contents (Elt F) → (⟨S2x1024, .f32⟩ : BufTy).Contents (Elt F)),
    binary main_v22 main_v0 main_v23 (mulf : (⟨S2x1024, .f32⟩ : BufTy).Contents (Elt F) → (⟨S2x1024, .f32⟩ : BufTy).Contents (Elt F) → (⟨S2x1024, .f32⟩ : BufTy).Contents (Elt F)),
    nullary main_cst_4 (constant S_ .f32 0x00000000#32),
    binary main_v23 main_cst_4 main_v24 ((fun x v => Host.reduceAdd x v reducesTo_S2x1024_S2_d1 h_S_) : (⟨S2x1024, .f32⟩ : BufTy).Contents (Elt F) → (⟨S_, .f32⟩ : BufTy).Contents (Elt F) → (⟨S2, .f32⟩ : BufTy).Contents (Elt F)),
    nullary main_cst_5 (constant S_ .f32 0x00000000#32),
    binary main_arg3 main_cst_5 main_v25 ((fun x v => Host.reduceAdd x v reducesTo_S2_S_d0 h_S_) : (⟨S2, .f32⟩ : BufTy).Contents (Elt F) → (⟨S_, .f32⟩ : BufTy).Contents (Elt F) → (⟨S_, .f32⟩ : BufTy).Contents (Elt F)),
    nullary main_cst_6 (constant S_ .f32 0x40000000#32),
    binary main_v25 main_cst_6 main_v26 (Host.divf : (⟨S_, .f32⟩ : BufTy).Contents (Elt F) → (⟨S_, .f32⟩ : BufTy).Contents (Elt F) → (⟨S_, .f32⟩ : BufTy).Contents (Elt F)),
    unary main_v26 main_v27 (broadcastInDim S2 ![] bcast_S_S2 : (⟨S_, .f32⟩ : BufTy).Contents (Elt F) → (⟨S2, .f32⟩ : BufTy).Contents (Elt F)),
    binary main_arg3 main_v27 main_v28 (subf : (⟨S2, .f32⟩ : BufTy).Contents (Elt F) → (⟨S2, .f32⟩ : BufTy).Contents (Elt F) → (⟨S2, .f32⟩ : BufTy).Contents (Elt F)),
    nullary main_c (constantI S_ 32 1#32),
    TRef.nullary main_call0.call0.cst (constant S_ .f32 0x00000000#32),
    TRef.binary (.of main_arg3) main_call0.call0.cst main_call0.call0.v0 (fun x v => Host.reduceAdd x v reducesTo_S2_S_d0 h_S_),
    TRef.unary main_call0.call0.v0 main_call0.call0.v1 (broadcastInDim S1 ![] bcast_S_S1),
    TRef.nullary main_call0.call0.cst_0 (constant S_ .f32 0x40000000#32),
    TRef.unary main_call0.call0.cst_0 main_call0.call0.v2 (broadcastInDim S1 ![] bcast_S_S1),
    TRef.binary main_call0.call0.v1 main_call0.call0.v2 main_call0.call0.v3 Host.divf,
    TRef.unary main_call0.call0.v3 main_call0.call0.v4 (broadcastInDim S2 ![0] bcast_S1_S2_0),
    TRef.binary (.of main_arg3) main_call0.call0.v4 main_call0.call0.v5 subf,
    TRef.binary main_call0.call0.v5 main_call0.call0.v5 main_call0.call0.v6 mulf,
    TRef.unary (.of main_c) main_call0.call0.v7 (sitofp .f32),
    TRef.nullary main_call0.call0.cst_1 (constant S_ .f32 0x40000000#32),
    TRef.binary main_call0.call0.cst_1 main_call0.call0.v7 main_call0.call0.v8 subf,
    TRef.nullary main_call0.call0.cst_2 (constant S_ .f32 0x00000000#32),
    TRef.binary main_call0.call0.v6 main_call0.call0.cst_2 main_call0.call0.v9 (fun x v => Host.reduceAdd x v reducesTo_S2_S_d0 h_S_),
    TRef.binary main_call0.call0.v9 main_call0.call0.v8 main_call0.call0.v10 Host.divf,
    TRef.nullary main_call0.call0.cst_3 (constant S_ .f32 0x00000000#32),
    TRef.binary main_call0.call0.v8 main_call0.call0.cst_3 main_call0.call0.v11 (cmpf .ogt),
    TRef.nullary main_call0.call0.cst_4 (constant S_ .f32 0x7FC00000#32),
    TRef.unary main_call0.call0.cst_4 main_call0.call0.call0.v0 id,
    TRef.ternary main_call0.call0.v11 main_call0.call0.v10 main_call0.call0.call0.v0 main_call0.call0.call0.v1 select,
    TRef.unary main_call0.call0.call0.v1 main_call0.v1 Host.sqrt,
    nullary main_cst_7 (constant S_ .f32 0x00000000#32),
    binary main_v29 main_cst_7 main_v30 (cmpf .ogt : (⟨S_, .f32⟩ : BufTy).Contents (Elt F) → (⟨S_, .f32⟩ : BufTy).Contents (Elt F) → (⟨S_, .i1⟩ : BufTy).Contents (Elt F)),
    nullary main_cst_8 (constant S_ .f32 0x00000000#32),
    binary main_v29 main_cst_8 main_v31 (cmpf .ogt : (⟨S_, .f32⟩ : BufTy).Contents (Elt F) → (⟨S_, .f32⟩ : BufTy).Contents (Elt F) → (⟨S_, .i1⟩ : BufTy).Contents (Elt F)),
    nullary main_cst_9 (constant S_ .f32 0x3F800000#32),
    TRef.unary (.of main_cst_9) main_call1.v0 id,
    TRef.ternary (.of main_v31) (.of main_v29) main_call1.v0 main_call1.v1 select,
    unary main_v32 main_v33 (broadcastInDim S2 ![] bcast_S_S2 : (⟨S_, .f32⟩ : BufTy).Contents (Elt F) → (⟨S2, .f32⟩ : BufTy).Contents (Elt F)),
    binary main_v28 main_v33 main_v34 (Host.divf : (⟨S2, .f32⟩ : BufTy).Contents (Elt F) → (⟨S2, .f32⟩ : BufTy).Contents (Elt F) → (⟨S2, .f32⟩ : BufTy).Contents (Elt F)),
    TRef.ternary (.of main_v30) (.of main_v34) (.of main_v28) main_call2.v0 (fun p a b => select (broadcastInDim S2 ![] bcast_S_S2 p) a b),
    binary main_v35 main_v12 main_v36 (mulf : (⟨S2, .f32⟩ : BufTy).Contents (Elt F) → (⟨S2, .f32⟩ : BufTy).Contents (Elt F) → (⟨S2, .f32⟩ : BufTy).Contents (Elt F)),
    unary main_v36 main_v37 (Host.negf : (⟨S2, .f32⟩ : BufTy).Contents (Elt F) → (⟨S2, .f32⟩ : BufTy).Contents (Elt F)),
    binary main_v12 main_v24 main_v38 (subf : (⟨S2, .f32⟩ : BufTy).Contents (Elt F) → (⟨S2, .f32⟩ : BufTy).Contents (Elt F) → (⟨S2, .f32⟩ : BufTy).Contents (Elt F)),
    nullary main_cst_10 (constant S_ .f32 0x3DCCCCCD#32),
    unary main_cst_10 main_v39 (broadcastInDim S2 ![] bcast_S_S2 : (⟨S_, .f32⟩ : BufTy).Contents (Elt F) → (⟨S2, .f32⟩ : BufTy).Contents (Elt F)),
    binary main_v39 main_v38 main_v40 (mulf : (⟨S2, .f32⟩ : BufTy).Contents (Elt F) → (⟨S2, .f32⟩ : BufTy).Contents (Elt F) → (⟨S2, .f32⟩ : BufTy).Contents (Elt F)),
    binary main_v37 main_v40 main_v41 (addf : (⟨S2, .f32⟩ : BufTy).Contents (Elt F) → (⟨S2, .f32⟩ : BufTy).Contents (Elt F) → (⟨S2, .f32⟩ : BufTy).Contents (Elt F)),
    nullary main_cst_11 (constant S_ .f32 0x00000000#32),
    binary main_v41 main_cst_11 main_v42 ((fun x v => Host.reduceAdd x v reducesTo_S2_S_d0 h_S_) : (⟨S2, .f32⟩ : BufTy).Contents (Elt F) → (⟨S_, .f32⟩ : BufTy).Contents (Elt F) → (⟨S_, .f32⟩ : BufTy).Contents (Elt F)),
    nullary main_cst_12 (constant S_ .f32 0x40000000#32),
    binary main_v42 main_cst_12 main_v43 (Host.divf : (⟨S_, .f32⟩ : BufTy).Contents (Elt F) → (⟨S_, .f32⟩ : BufTy).Contents (Elt F) → (⟨S_, .f32⟩ : BufTy).Contents (Elt F)),
    nullary main_cst_13 (constant S_ .f32 0x00000000#32) ]

/-- The second window's operations: the mean of the policy's row sums, their standard deviation
    (the same twenty-one operations over the row sums), the mean logit and the mean difference. -/
abbrev ops_part1 : List (HloOp τ sig (Elt F)) :=
  [ binary main_v12 main_cst_13 main_v44 ((fun x v => Host.reduceAdd x v reducesTo_S2_S_d0 h_S_) : (⟨S2, .f32⟩ : BufTy).Contents (Elt F) → (⟨S_, .f32⟩ : BufTy).Contents (Elt F) → (⟨S_, .f32⟩ : BufTy).Contents (Elt F)),
    nullary main_cst_14 (constant S_ .f32 0x40000000#32),
    binary main_v44 main_cst_14 main_v45 (Host.divf : (⟨S_, .f32⟩ : BufTy).Contents (Elt F) → (⟨S_, .f32⟩ : BufTy).Contents (Elt F) → (⟨S_, .f32⟩ : BufTy).Contents (Elt F)),
    nullary main_c_15 (constantI S_ 32 1#32),
    TRef.nullary main_call3.call0.cst (constant S_ .f32 0x00000000#32),
    TRef.binary (.of main_v12) main_call3.call0.cst main_call3.call0.v0 (fun x v => Host.reduceAdd x v reducesTo_S2_S_d0 h_S_),
    TRef.unary main_call3.call0.v0 main_call3.call0.v1 (broadcastInDim S1 ![] bcast_S_S1),
    TRef.nullary main_call3.call0.cst_0 (constant S_ .f32 0x40000000#32),
    TRef.unary main_call3.call0.cst_0 main_call3.call0.v2 (broadcastInDim S1 ![] bcast_S_S1),
    TRef.binary main_call3.call0.v1 main_call3.call0.v2 main_call3.call0.v3 Host.divf,
    TRef.unary main_call3.call0.v3 main_call3.call0.v4 (broadcastInDim S2 ![0] bcast_S1_S2_0),
    TRef.binary (.of main_v12) main_call3.call0.v4 main_call3.call0.v5 subf,
    TRef.binary main_call3.call0.v5 main_call3.call0.v5 main_call3.call0.v6 mulf,
    TRef.unary (.of main_c_15) main_call3.call0.v7 (sitofp .f32),
    TRef.nullary main_call3.call0.cst_1 (constant S_ .f32 0x40000000#32),
    TRef.binary main_call3.call0.cst_1 main_call3.call0.v7 main_call3.call0.v8 subf,
    TRef.nullary main_call3.call0.cst_2 (constant S_ .f32 0x00000000#32),
    TRef.binary main_call3.call0.v6 main_call3.call0.cst_2 main_call3.call0.v9 (fun x v => Host.reduceAdd x v reducesTo_S2_S_d0 h_S_),
    TRef.binary main_call3.call0.v9 main_call3.call0.v8 main_call3.call0.v10 Host.divf,
    TRef.nullary main_call3.call0.cst_3 (constant S_ .f32 0x00000000#32),
    TRef.binary main_call3.call0.v8 main_call3.call0.cst_3 main_call3.call0.v11 (cmpf .ogt),
    TRef.nullary main_call3.call0.cst_4 (constant S_ .f32 0x7FC00000#32),
    TRef.unary main_call3.call0.cst_4 main_call3.call0.call0.v0 id,
    TRef.ternary main_call3.call0.v11 main_call3.call0.v10 main_call3.call0.call0.v0 main_call3.call0.call0.v1 select,
    TRef.unary main_call3.call0.call0.v1 main_call3.v1 Host.sqrt,
    nullary main_cst_16 (constant S_ .f32 0x00000000#32),
    binary main_v1 main_cst_16 main_v47 ((fun x v => Host.reduceAdd x v reducesTo_S2x1024x32000_S_d0_1_2 h_S_) : (⟨S2x1024x32000, .f32⟩ : BufTy).Contents (Elt F) → (⟨S_, .f32⟩ : BufTy).Contents (Elt F) → (⟨S_, .f32⟩ : BufTy).Contents (Elt F)),
    nullary main_cst_17 (constant S_ .f32 0x4C7A0000#32),
    binary main_v47 main_cst_17 main_v48 (Host.divf : (⟨S_, .f32⟩ : BufTy).Contents (Elt F) → (⟨S_, .f32⟩ : BufTy).Contents (Elt F) → (⟨S_, .f32⟩ : BufTy).Contents (Elt F)),
    nullary main_cst_18 (constant S_ .f32 0x00000000#32),
    binary main_v38 main_cst_18 main_v49 ((fun x v => Host.reduceAdd x v reducesTo_S2_S_d0 h_S_) : (⟨S2, .f32⟩ : BufTy).Contents (Elt F) → (⟨S_, .f32⟩ : BufTy).Contents (Elt F) → (⟨S_, .f32⟩ : BufTy).Contents (Elt F)),
    nullary main_cst_19 (constant S_ .f32 0x40000000#32),
    binary main_v49 main_cst_19 main_v50 (Host.divf : (⟨S_, .f32⟩ : BufTy).Contents (Elt F) → (⟨S_, .f32⟩ : BufTy).Contents (Elt F) → (⟨S_, .f32⟩ : BufTy).Contents (Elt F)) ]

/-- @main's 114 operations, in order. -/
abbrev ops : List (HloOp τ sig (Elt F)) :=
  ops_part0 ++ ops_part1

set_option maxRecDepth 8192 in
/-- The first window is that line, by computation: a call is its callee's body on the call's
    buffers, and sequencing a line with what follows it is the longer line. -/
theorem main_part0_eq (c : Dev nD) : main_part0 (F := F) c = seq ops_part0 := rfl
set_option maxRecDepth 8192 in
theorem main_part1_eq (c : Dev nD) : main_part1 (F := F) c = seq ops_part1 := by
  simp only [main_part1, fn_std_1.body, fn_var_2.body, fn_where.body, seq, bind_assoc, pure_bind]
set_option maxRecDepth 8192 in
theorem main_eq (c : Dev nD) : main (F := F) c = seq ops := by
  simp only [ops, seq_append, ← main_part0_eq c, ← main_part1_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_sub : (ops_part0 : List (HloOp τ sig (Elt F))).Forall fun op => op.bufs ⊆ tcRefs τ sig :=
  ⟨unary_bufs_sub .., binary_bufs_sub .., nullary_bufs_sub .., binary_bufs_sub .., unary_bufs_sub .., unary_bufs_sub .., binary_bufs_sub .., unary_bufs_sub .., nullary_bufs_sub .., binary_bufs_sub .., unary_bufs_sub .., binary_bufs_sub .., binary_bufs_sub .., binary_bufs_sub .., nullary_bufs_sub .., binary_bufs_sub .., binary_bufs_sub .., nullary_bufs_sub .., binary_bufs_sub .., unary_bufs_sub .., unary_bufs_sub .., binary_bufs_sub .., unary_bufs_sub .., nullary_bufs_sub .., binary_bufs_sub .., unary_bufs_sub .., binary_bufs_sub .., binary_bufs_sub .., binary_bufs_sub .., nullary_bufs_sub .., binary_bufs_sub .., nullary_bufs_sub .., binary_bufs_sub .., nullary_bufs_sub .., binary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., binary_bufs_sub .., nullary_bufs_sub .., binary_bufs_sub .., nullary_bufs_sub .., unary_bufs_sub .., ternary_bufs_sub .., unary_bufs_sub .., nullary_bufs_sub .., binary_bufs_sub .., nullary_bufs_sub .., binary_bufs_sub .., nullary_bufs_sub .., unary_bufs_sub .., ternary_bufs_sub .., unary_bufs_sub .., binary_bufs_sub .., ternary_bufs_sub .., binary_bufs_sub .., unary_bufs_sub .., binary_bufs_sub .., nullary_bufs_sub .., unary_bufs_sub .., binary_bufs_sub .., binary_bufs_sub .., nullary_bufs_sub .., binary_bufs_sub .., nullary_bufs_sub .., binary_bufs_sub .., nullary_bufs_sub ..⟩
set_option maxRecDepth 8192 in
theorem ops_part1_sub : (ops_part1 : List (HloOp τ sig (Elt F))).Forall fun op => op.bufs ⊆ tcRefs τ sig :=
  ⟨binary_bufs_sub .., nullary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., binary_bufs_sub .., nullary_bufs_sub .., binary_bufs_sub .., nullary_bufs_sub .., unary_bufs_sub .., ternary_bufs_sub .., unary_bufs_sub .., nullary_bufs_sub .., binary_bufs_sub .., nullary_bufs_sub .., binary_bufs_sub .., nullary_bufs_sub .., binary_bufs_sub .., nullary_bufs_sub .., binary_bufs_sub ..⟩
theorem ops_sub : (ops : List (HloOp τ sig (Elt F))).Forall fun op => op.bufs ⊆ tcRefs τ sig :=
  List.forall_iff_forall_mem.mpr fun op h => by
    simp only [ops, List.mem_append] at h
    rcases h with h | h
    exacts [List.forall_iff_forall_mem.mp ops_part0_sub op h, List.forall_iff_forall_mem.mp ops_part1_sub op h]

set_option maxRecDepth 8192 in
/-- On every device, for any float values, from any memory with zero counters: every weakly fair
    execution of @main terminates, and every final state has each buffer at the fold of the
    operations' results over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefValue

end
-- ==== Proof.RefWin.lean ====
/-
  The reference's line cut in three stretches: the 31 operations that form the two per-row arrays and
  their masked row sums; the 50 scalar operations up to the loss's mean; the last 33.  Running the
  line is running the stretches in turn, and a buffer a stretch does not write keeps its contents
  through it: in particular the six argument arrays, which no operation writes.
-/
import proofs.«154765_j27539330302083_2_alg».proof.Proof.RefOps
import Idealize.ShloMosaic.PureOps.Ideal

set_option Elab.async false

noncomputable section

namespace Cert.ReferenceIdeal.RefValue

open Cert.ReferenceIdeal Cert.ReferenceIdeal.Gen Idealize.ShloMosaic Idealize.ShloMosaic.TcCoe Idealize.SL.Sem Idealize.ShloMosaic.StableHlo

/-- Running two lines one after the other is running their concatenation. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih _

section Lists
variable {F : FTy → Type} [FloatOps F]

/-- The first stretch: both per-row arrays and their masked row sums. -/
abbrev opsW1 : List (HloOp τ sig (Elt F)) :=
  [ unary main_arg2 main_v0 (sitofp .f32 : (⟨S2x1024, .i32⟩ : BufTy).Contents (Elt F) → (⟨S2x1024, .f32⟩ : BufTy).Contents (Elt F)),
    binary main_arg0 main_arg1 main_v1 ((fun l r => Host.dotGeneral dot_S2x1024x2048_S32000x2048_S2x1024x32000_2_1_01_0_n_n none l r) : (⟨S2x1024x2048, .f32⟩ : BufTy).Contents (Elt F) → (⟨S32000x2048, .f32⟩ : BufTy).Contents (Elt F) → (⟨S2x1024x32000, .f32⟩ : BufTy).Contents (Elt F)),
    nullary main_cst (constant S_ .f32 0xFF800000#32),
    binary main_v1 main_cst main_v2 ((fun x v => Host.reduce FloatOps.maximumf x v reducesTo_S2x1024x32000_S2x1024_d2 h_S_) : (⟨S2x1024x32000, .f32⟩ : BufTy).Contents (Elt F) → (⟨S_, .f32⟩ : BufTy).Contents (Elt F) → (⟨S2x1024, .f32⟩ : BufTy).Contents (Elt F)),
    unary main_v2 main_v3 (broadcastInDim S2x1024x1 ![0, 1] bcast_S2x1024_S2x1024x1_0_1 : (⟨S2x1024, .f32⟩ : BufTy).Contents (Elt F) → (⟨S2x1024x1, .f32⟩ : BufTy).Contents (Elt F)),
    unary main_v3 main_v4 (broadcastInDim S2x1024x32000 ![0, 1, 2] bcast_S2x1024x1_S2x1024x32000_0_1_2 : (⟨S2x1024x1, .f32⟩ : BufTy).Contents (Elt F) → (⟨S2x1024x32000, .f32⟩ : BufTy).Contents (Elt F)),
    binary main_v1 main_v4 main_v5 (subf : (⟨S2x1024x32000, .f32⟩ : BufTy).Contents (Elt F) → (⟨S2x1024x32000, .f32⟩ : BufTy).Contents (Elt F) → (⟨S2x1024x32000, .f32⟩ : BufTy).Contents (Elt F)),
    unary main_v5 main_v6 (Host.exp : (⟨S2x1024x32000, .f32⟩ : BufTy).Contents (Elt F) → (⟨S2x1024x32000, .f32⟩ : BufTy).Contents (Elt F)),
    nullary main_cst_0 (constant S_ .f32 0x00000000#32),
    binary main_v6 main_cst_0 main_v7 ((fun x v => Host.reduceAdd x v reducesTo_S2x1024x32000_S2x1024_d2 h_S_) : (⟨S2x1024x32000, .f32⟩ : BufTy).Contents (Elt F) → (⟨S_, .f32⟩ : BufTy).Contents (Elt F) → (⟨S2x1024, .f32⟩ : BufTy).Contents (Elt F)),
    unary main_v7 main_v8 (Host.log : (⟨S2x1024, .f32⟩ : BufTy).Contents (Elt F) → (⟨S2x1024, .f32⟩ : BufTy).Contents (Elt F)),
    binary main_v2 main_v8 main_v9 (addf : (⟨S2x1024, .f32⟩ : BufTy).Contents (Elt F) → (⟨S2x1024, .f32⟩ : BufTy).Contents (Elt F) → (⟨S2x1024, .f32⟩ : BufTy).Contents (Elt F)),
    binary main_v2 main_v9 main_v10 (subf : (⟨S2x1024, .f32⟩ : BufTy).Contents (Elt F) → (⟨S2x1024, .f32⟩ : BufTy).Contents (Elt F) → (⟨S2x1024, .f32⟩ : BufTy).Contents (Elt F)),
    binary main_v10 main_v0 main_v11 (mulf : (⟨S2x1024, .f32⟩ : BufTy).Contents (Elt F) → (⟨S2x1024, .f32⟩ : BufTy).Contents (Elt F) → (⟨S2x1024, .f32⟩ : BufTy).Contents (Elt F)),
    nullary main_cst_1 (constant S_ .f32 0x00000000#32),
    binary main_v11 main_cst_1 main_v12 ((fun x v => Host.reduceAdd x v reducesTo_S2x1024_S2_d1 h_S_) : (⟨S2x1024, .f32⟩ : BufTy).Contents (Elt F) → (⟨S_, .f32⟩ : BufTy).Contents (Elt F) → (⟨S2, .f32⟩ : BufTy).Contents (Elt F)),
    binary main_arg4 main_arg5 main_v13 ((fun l r => Host.dotGeneral dot_S2x1024x2048_S32000x2048_S2x1024x32000_2_1_01_0_n_n none l r) : (⟨S2x1024x2048, .f32⟩ : BufTy).Contents (Elt F) → (⟨S32000x2048, .f32⟩ : BufTy).Contents (Elt F) → (⟨S2x1024x32000, .f32⟩ : BufTy).Contents (Elt F)),
    nullary main_cst_2 (constant S_ .f32 0xFF800000#32),
    binary main_v13 main_cst_2 main_v14 ((fun x v => Host.reduce FloatOps.maximumf x v reducesTo_S2x1024x32000_S2x1024_d2 h_S_) : (⟨S2x1024x32000, .f32⟩ : BufTy).Contents (Elt F) → (⟨S_, .f32⟩ : BufTy).Contents (Elt F) → (⟨S2x1024, .f32⟩ : BufTy).Contents (Elt F)),
    unary main_v14 main_v15 (broadcastInDim S2x1024x1 ![0, 1] bcast_S2x1024_S2x1024x1_0_1 : (⟨S2x1024, .f32⟩ : BufTy).Contents (Elt F) → (⟨S2x1024x1, .f32⟩ : BufTy).Contents (Elt F)),
    unary main_v15 main_v16 (broadcastInDim S2x1024x32000 ![0, 1, 2] bcast_S2x1024x1_S2x1024x32000_0_1_2 : (⟨S2x1024x1, .f32⟩ : BufTy).Contents (Elt F) → (⟨S2x1024x32000, .f32⟩ : BufTy).Contents (Elt F)),
    binary main_v13 main_v16 main_v17 (subf : (⟨S2x1024x32000, .f32⟩ : BufTy).Contents (Elt F) → (⟨S2x1024x32000, .f32⟩ : BufTy).Contents (Elt F) → (⟨S2x1024x32000, .f32⟩ : BufTy).Contents (Elt F)),
    unary main_v17 main_v18 (Host.exp : (⟨S2x1024x32000, .f32⟩ : BufTy).Contents (Elt F) → (⟨S2x1024x32000, .f32⟩ : BufTy).Contents (Elt F)),
    nullary main_cst_3 (constant S_ .f32 0x00000000#32),
    binary main_v18 main_cst_3 main_v19 ((fun x v => Host.reduceAdd x v reducesTo_S2x1024x32000_S2x1024_d2 h_S_) : (⟨S2x1024x32000, .f32⟩ : BufTy).Contents (Elt F) → (⟨S_, .f32⟩ : BufTy).Contents (Elt F) → (⟨S2x1024, .f32⟩ : BufTy).Contents (Elt F)),
    unary main_v19 main_v20 (Host.log : (⟨S2x1024, .f32⟩ : BufTy).Contents (Elt F) → (⟨S2x1024, .f32⟩ : BufTy).Contents (Elt F)),
    binary main_v14 main_v20 main_v21 (addf : (⟨S2x1024, .f32⟩ : BufTy).Contents (Elt F) → (⟨S2x1024, .f32⟩ : BufTy).Contents (Elt F) → (⟨S2x1024, .f32⟩ : BufTy).Contents (Elt F)),
    binary main_v14 main_v21 main_v22 (subf : (⟨S2x1024, .f32⟩ : BufTy).Contents (Elt F) → (⟨S2x1024, .f32⟩ : BufTy).Contents (Elt F) → (⟨S2x1024, .f32⟩ : BufTy).Contents (Elt F)),
    binary main_v22 main_v0 main_v23 (mulf : (⟨S2x1024, .f32⟩ : BufTy).Contents (Elt F) → (⟨S2x1024, .f32⟩ : BufTy).Contents (Elt F) → (⟨S2x1024, .f32⟩ : BufTy).Contents (Elt F)),
    nullary main_cst_4 (constant S_ .f32 0x00000000#32),
    binary main_v23 main_cst_4 main_v24 ((fun x v => Host.reduceAdd x v reducesTo_S2x1024_S2_d1 h_S_) : (⟨S2x1024, .f32⟩ : BufTy).Contents (Elt F) → (⟨S_, .f32⟩ : BufTy).Contents (Elt F) → (⟨S2, .f32⟩ : BufTy).Contents (Elt F)) ]

/-- The second stretch: the centred rewards, their standard deviation, the selections and the loss up to its mean. -/
abbrev opsW2 : List (HloOp τ sig (Elt F)) :=
  [ nullary main_cst_5 (constant S_ .f32 0x00000000#32),
    binary main_arg3 main_cst_5 main_v25 ((fun x v => Host.reduceAdd x v reducesTo_S2_S_d0 h_S_) : (⟨S2, .f32⟩ : BufTy).Contents (Elt F) → (⟨S_, .f32⟩ : BufTy).Contents (Elt F) → (⟨S_, .f32⟩ : BufTy).Contents (Elt F)),
    nullary main_cst_6 (constant S_ .f32 0x40000000#32),
    binary main_v25 main_cst_6 main_v26 (Host.divf : (⟨S_, .f32⟩ : BufTy).Contents (Elt F) → (⟨S_, .f32⟩ : BufTy).Contents (Elt F) → (⟨S_, .f32⟩ : BufTy).Contents (Elt F)),
    unary main_v26 main_v27 (broadcastInDim S2 ![] bcast_S_S2 : (⟨S_, .f32⟩ : BufTy).Contents (Elt F) → (⟨S2, .f32⟩ : BufTy).Contents (Elt F)),
    binary main_arg3 main_v27 main_v28 (subf : (⟨S2, .f32⟩ : BufTy).Contents (Elt F) → (⟨S2, .f32⟩ : BufTy).Contents (Elt F) → (⟨S2, .f32⟩ : BufTy).Contents (Elt F)),
    nullary main_c (constantI S_ 32 1#32),
    TRef.nullary main_call0.call0.cst (constant S_ .f32 0x00000000#32),
    TRef.binary (.of main_arg3) main_call0.call0.cst main_call0.call0.v0 (fun x v => Host.reduceAdd x v reducesTo_S2_S_d0 h_S_),
    TRef.unary main_call0.call0.v0 main_call0.call0.v1 (broadcastInDim S1 ![] bcast_S_S1),
    TRef.nullary main_call0.call0.cst_0 (constant S_ .f32 0x40000000#32),
    TRef.unary main_call0.call0.cst_0 main_call0.call0.v2 (broadcastInDim S1 ![] bcast_S_S1),
    TRef.binary main_call0.call0.v1 main_call0.call0.v2 main_call0.call0.v3 Host.divf,
    TRef.unary main_call0.call0.v3 main_call0.call0.v4 (broadcastInDim S2 ![0] bcast_S1_S2_0),
    TRef.binary (.of main_arg3) main_call0.call0.v4 main_call0.call0.v5 subf,
    TRef.binary main_call0.call0.v5 main_call0.call0.v5 main_call0.call0.v6 mulf,
    TRef.unary (.of main_c) main_call0.call0.v7 (sitofp .f32),
    TRef.nullary main_call0.call0.cst_1 (constant S_ .f32 0x40000000#32),
    TRef.binary main_call0.call0.cst_1 main_call0.call0.v7 main_call0.call0.v8 subf,
    TRef.nullary main_call0.call0.cst_2 (constant S_ .f32 0x00000000#32),
    TRef.binary main_call0.call0.v6 main_call0.call0.cst_2 main_call0.call0.v9 (fun x v => Host.reduceAdd x v reducesTo_S2_S_d0 h_S_),
    TRef.binary main_call0.call0.v9 main_call0.call0.v8 main_call0.call0.v10 Host.divf,
    TRef.nullary main_call0.call0.cst_3 (constant S_ .f32 0x00000000#32),
    TRef.binary main_call0.call0.v8 main_call0.call0.cst_3 main_call0.call0.v11 (cmpf .ogt),
    TRef.nullary main_call0.call0.cst_4 (constant S_ .f32 0x7FC00000#32),
    TRef.unary main_call0.call0.cst_4 main_call0.call0.call0.v0 id,
    TRef.ternary main_call0.call0.v11 main_call0.call0.v10 main_call0.call0.call0.v0 main_call0.call0.call0.v1 select,
    TRef.unary main_call0.call0.call0.v1 main_call0.v1 Host.sqrt,
    nullary main_cst_7 (constant S_ .f32 0x00000000#32),
    binary main_v29 main_cst_7 main_v30 (cmpf .ogt : (⟨S_, .f32⟩ : BufTy).Contents (Elt F) → (⟨S_, .f32⟩ : BufTy).Contents (Elt F) → (⟨S_, .i1⟩ : BufTy).Contents (Elt F)),
    nullary main_cst_8 (constant S_ .f32 0x00000000#32),
    binary main_v29 main_cst_8 main_v31 (cmpf .ogt : (⟨S_, .f32⟩ : BufTy).Contents (Elt F) → (⟨S_, .f32⟩ : BufTy).Contents (Elt F) → (⟨S_, .i1⟩ : BufTy).Contents (Elt F)),
    nullary main_cst_9 (constant S_ .f32 0x3F800000#32),
    TRef.unary (.of main_cst_9) main_call1.v0 id,
    TRef.ternary (.of main_v31) (.of main_v29) main_call1.v0 main_call1.v1 select,
    unary main_v32 main_v33 (broadcastInDim S2 ![] bcast_S_S2 : (⟨S_, .f32⟩ : BufTy).Contents (Elt F) → (⟨S2, .f32⟩ : BufTy).Contents (Elt F)),
    binary main_v28 main_v33 main_v34 (Host.divf : (⟨S2, .f32⟩ : BufTy).Contents (Elt F) → (⟨S2, .f32⟩ : BufTy).Contents (Elt F) → (⟨S2, .f32⟩ : BufTy).Contents (Elt F)),
    TRef.ternary (.of main_v30) (.of main_v34) (.of main_v28) main_call2.v0 (fun p a b => select (broadcastInDim S2 ![] bcast_S_S2 p) a b),
    binary main_v35 main_v12 main_v36 (mulf : (⟨S2, .f32⟩ : BufTy).Contents (Elt F) → (⟨S2, .f32⟩ : BufTy).Contents (Elt F) → (⟨S2, .f32⟩ : BufTy).Contents (Elt F)),
    unary main_v36 main_v37 (Host.negf : (⟨S2, .f32⟩ : BufTy).Contents (Elt F) → (⟨S2, .f32⟩ : BufTy).Contents (Elt F)),
    binary main_v12 main_v24 main_v38 (subf : (⟨S2, .f32⟩ : BufTy).Contents (Elt F) → (⟨S2, .f32⟩ : BufTy).Contents (Elt F) → (⟨S2, .f32⟩ : BufTy).Contents (Elt F)),
    nullary main_cst_10 (constant S_ .f32 0x3DCCCCCD#32),
    unary main_cst_10 main_v39 (broadcastInDim S2 ![] bcast_S_S2 : (⟨S_, .f32⟩ : BufTy).Contents (Elt F) → (⟨S2, .f32⟩ : BufTy).Contents (Elt F)),
    binary main_v39 main_v38 main_v40 (mulf : (⟨S2, .f32⟩ : BufTy).Contents (Elt F) → (⟨S2, .f32⟩ : BufTy).Contents (Elt F) → (⟨S2, .f32⟩ : BufTy).Contents (Elt F)),
    binary main_v37 main_v40 main_v41 (addf : (⟨S2, .f32⟩ : BufTy).Contents (Elt F) → (⟨S2, .f32⟩ : BufTy).Contents (Elt F) → (⟨S2, .f32⟩ : BufTy).Contents (Elt F)),
    nullary main_cst_11 (constant S_ .f32 0x00000000#32),
    binary main_v41 main_cst_11 main_v42 ((fun x v => Host.reduceAdd x v reducesTo_S2_S_d0 h_S_) : (⟨S2, .f32⟩ : BufTy).Contents (Elt F) → (⟨S_, .f32⟩ : BufTy).Contents (Elt F) → (⟨S_, .f32⟩ : BufTy).Contents (Elt F)),
    nullary main_cst_12 (constant S_ .f32 0x40000000#32),
    binary main_v42 main_cst_12 main_v43 (Host.divf : (⟨S_, .f32⟩ : BufTy).Contents (Elt F) → (⟨S_, .f32⟩ : BufTy).Contents (Elt F) → (⟨S_, .f32⟩ : BufTy).Contents (Elt F)),
    nullary main_cst_13 (constant S_ .f32 0x00000000#32) ]

set_option maxRecDepth 8192 in
theorem part0_split : (ops_part0 : List (HloOp τ sig (Elt F))) = opsW1 ++ opsW2 := rfl

/-- The buffers the first stretch writes. -/
abbrev opsW1_W : List (Ref sig .tc) := [main_v0, main_v1, main_cst, main_v2, main_v3, main_v4, main_v5, main_v6, main_cst_0, main_v7, main_v8, main_v9, main_v10, main_v11, main_cst_1, main_v12, main_v13, main_cst_2, main_v14, main_v15, main_v16, main_v17, main_v18, main_cst_3, main_v19, main_v20, main_v21, main_v22, main_v23, main_cst_4, main_v24]
/-- The buffers the second stretch writes. -/
abbrev opsW2_W : List (Ref sig .tc) := [main_cst_5, main_v25, main_cst_6, main_v26, main_v27, main_v28, main_c, main_call0.call0.cst.ref, main_call0.call0.v0.ref, main_call0.call0.v1.ref, main_call0.call0.cst_0.ref, main_call0.call0.v2.ref, main_call0.call0.v3.ref, main_call0.call0.v4.ref, main_call0.call0.v5.ref, main_call0.call0.v6.ref, main_call0.call0.v7.ref, main_call0.call0.cst_1.ref, main_call0.call0.v8.ref, main_call0.call0.cst_2.ref, main_call0.call0.v9.ref, main_call0.call0.v10.ref, main_call0.call0.cst_3.ref, main_call0.call0.v11.ref, main_call0.call0.cst_4.ref, main_call0.call0.call0.v0.ref, main_call0.call0.call0.v1.ref, main_call0.v1.ref, main_cst_7, main_v30, main_cst_8, main_v31, main_cst_9, main_call1.v0.ref, main_call1.v1.ref, main_v33, main_v34, main_call2.v0.ref, main_v36, main_v37, main_v38, main_cst_10, main_v39, main_v40, main_v41, main_cst_11, main_v42, main_cst_12, main_v43, main_cst_13]
/-- The buffers the last stretch (the second window of @main) writes. -/
abbrev ops_part1_W : List (Ref sig .tc) := [main_v44, main_cst_14, main_v45, main_c_15, main_call3.call0.cst.ref, main_call3.call0.v0.ref, main_call3.call0.v1.ref, main_call3.call0.cst_0.ref, main_call3.call0.v2.ref, main_call3.call0.v3.ref, main_call3.call0.v4.ref, main_call3.call0.v5.ref, main_call3.call0.v6.ref, main_call3.call0.v7.ref, main_call3.call0.cst_1.ref, main_call3.call0.v8.ref, main_call3.call0.cst_2.ref, main_call3.call0.v9.ref, main_call3.call0.v10.ref, main_call3.call0.cst_3.ref, main_call3.call0.v11.ref, main_call3.call0.cst_4.ref, main_call3.call0.call0.v0.ref, main_call3.call0.call0.v1.ref, main_call3.v1.ref, main_cst_16, main_v47, main_cst_17, main_v48, main_cst_18, main_v49, main_cst_19, main_v50]

set_option maxRecDepth 8192 in
theorem opsW1_writes : (opsW1 : List (HloOp τ sig (Elt F))).Forall fun op =>
    op.writes ⊆ (opsW1_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
set_option maxRecDepth 8192 in
theorem opsW2_writes : (opsW2 : List (HloOp τ sig (Elt F))).Forall fun op =>
    op.writes ⊆ (opsW2_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
set_option maxRecDepth 8192 in
theorem ops_part1_writes : (ops_part1 : List (HloOp τ sig (Elt F))).Forall fun op =>
    op.writes ⊆ (ops_part1_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

end Lists

/-- The buffer contents after the first stretch, after the first two, and after all three. -/
def val1 (V : Valuation τ sig (Elt Ideal)) : Valuation τ sig (Elt Ideal) := after (opsW1 (F := Ideal)) V
def val2 (V : Valuation τ sig (Elt Ideal)) : Valuation τ sig (Elt Ideal) := after (opsW2 (F := Ideal)) (val1 V)
def val3 (V : Valuation τ sig (Elt Ideal)) : Valuation τ sig (Elt Ideal) := after (ops_part1 (F := Ideal)) (val2 V)

/-- The whole line is the three stretches in turn. -/
theorem after_ops (V : Valuation τ sig (Elt Ideal)) : after (ops (F := Ideal)) V = val3 V := by
  show after (ops_part0 (F := Ideal) ++ ops_part1 (F := Ideal)) V = _
  rw [after_append, part0_split, after_append]
  rfl

theorem val1_keep (V : Valuation τ sig (Elt Ideal)) (r : Ref sig .tc) (h : r ∉ opsW1_W) :
    val1 V (Proc.devRef .tc r) = V (Proc.devRef .tc r) := after_of_writes_sub (opsW1 (F := Ideal)) _ opsW1_writes h
theorem val2_keep (V : Valuation τ sig (Elt Ideal)) (r : Ref sig .tc) (h : r ∉ opsW2_W) :
    val2 V (Proc.devRef .tc r) = val1 V (Proc.devRef .tc r) := after_of_writes_sub (opsW2 (F := Ideal)) _ opsW2_writes h
theorem val3_keep (V : Valuation τ sig (Elt Ideal)) (r : Ref sig .tc) (h : r ∉ ops_part1_W) :
    val3 V (Proc.devRef .tc r) = val2 V (Proc.devRef .tc r) := after_of_writes_sub (ops_part1 (F := Ideal)) _ ops_part1_writes h

/-! ## The arguments through the stretches -/

theorem val1_arg0 (V : Valuation τ sig (Elt Ideal)) : val1 V (no_index (Proc.devRef .tc main_arg0)) = V (Proc.devRef .tc main_arg0) :=
  val1_keep V main_arg0 (by decide)
theorem val1_arg1 (V : Valuation τ sig (Elt Ideal)) : val1 V (no_index (Proc.devRef .tc main_arg1)) = V (Proc.devRef .tc main_arg1) :=
  val1_keep V main_arg1 (by decide)
theorem val1_arg2 (V : Valuation τ sig (Elt Ideal)) : val1 V (no_index (Proc.devRef .tc main_arg2)) = V (Proc.devRef .tc main_arg2) :=
  val1_keep V main_arg2 (by decide)
theorem val1_arg3 (V : Valuation τ sig (Elt Ideal)) : val1 V (no_index (Proc.devRef .tc main_arg3)) = V (Proc.devRef .tc main_arg3) :=
  val1_keep V main_arg3 (by decide)
theorem val1_arg4 (V : Valuation τ sig (Elt Ideal)) : val1 V (no_index (Proc.devRef .tc main_arg4)) = V (Proc.devRef .tc main_arg4) :=
  val1_keep V main_arg4 (by decide)
theorem val1_arg5 (V : Valuation τ sig (Elt Ideal)) : val1 V (no_index (Proc.devRef .tc main_arg5)) = V (Proc.devRef .tc main_arg5) :=
  val1_keep V main_arg5 (by decide)
theorem val2_arg0 (V : Valuation τ sig (Elt Ideal)) : val2 V (no_index (Proc.devRef .tc main_arg0)) = V (Proc.devRef .tc main_arg0) :=
  (val2_keep V main_arg0 (by decide)).trans (val1_arg0 V)
theorem val2_arg1 (V : Valuation τ sig (Elt Ideal)) : val2 V (no_index (Proc.devRef .tc main_arg1)) = V (Proc.devRef .tc main_arg1) :=
  (val2_keep V main_arg1 (by decide)).trans (val1_arg1 V)
theorem val2_arg2 (V : Valuation τ sig (Elt Ideal)) : val2 V (no_index (Proc.devRef .tc main_arg2)) = V (Proc.devRef .tc main_arg2) :=
  (val2_keep V main_arg2 (by decide)).trans (val1_arg2 V)
theorem val2_arg3 (V : Valuation τ sig (Elt Ideal)) : val2 V (no_index (Proc.devRef .tc main_arg3)) = V (Proc.devRef .tc main_arg3) :=
  (val2_keep V main_arg3 (by decide)).trans (val1_arg3 V)
theorem val2_arg4 (V : Valuation τ sig (Elt Ideal)) : val2 V (no_index (Proc.devRef .tc main_arg4)) = V (Proc.devRef .tc main_arg4) :=
  (val2_keep V main_arg4 (by decide)).trans (val1_arg4 V)
theorem val2_arg5 (V : Valuation τ sig (Elt Ideal)) : val2 V (no_index (Proc.devRef .tc main_arg5)) = V (Proc.devRef .tc main_arg5) :=
  (val2_keep V main_arg5 (by decide)).trans (val1_arg5 V)
theorem val3_arg0 (V : Valuation τ sig (Elt Ideal)) : val3 V (no_index (Proc.devRef .tc main_arg0)) = V (Proc.devRef .tc main_arg0) :=
  (val3_keep V main_arg0 (by decide)).trans (val2_arg0 V)
theorem val3_arg1 (V : Valuation τ sig (Elt Ideal)) : val3 V (no_index (Proc.devRef .tc main_arg1)) = V (Proc.devRef .tc main_arg1) :=
  (val3_keep V main_arg1 (by decide)).trans (val2_arg1 V)
theorem val3_arg2 (V : Valuation τ sig (Elt Ideal)) : val3 V (no_index (Proc.devRef .tc main_arg2)) = V (Proc.devRef .tc main_arg2) :=
  (val3_keep V main_arg2 (by decide)).trans (val2_arg2 V)
theorem val3_arg3 (V : Valuation τ sig (Elt Ideal)) : val3 V (no_index (Proc.devRef .tc main_arg3)) = V (Proc.devRef .tc main_arg3) :=
  (val3_keep V main_arg3 (by decide)).trans (val2_arg3 V)
theorem val3_arg4 (V : Valuation τ sig (Elt Ideal)) : val3 V (no_index (Proc.devRef .tc main_arg4)) = V (Proc.devRef .tc main_arg4) :=
  (val3_keep V main_arg4 (by decide)).trans (val2_arg4 V)
theorem val3_arg5 (V : Valuation τ sig (Elt Ideal)) : val3 V (no_index (Proc.devRef .tc main_arg5)) = V (Proc.devRef .tc main_arg5) :=
  (val3_keep V main_arg5 (by decide)).trans (val2_arg5 V)

end Cert.ReferenceIdeal.RefValue

end
-- ==== Proof.RefTerms.lean ====
/-
  The reference's three large values, named: from an activation array X and a vocabulary matrix W
  the program forms the logits (the contraction of X and W over their last axes), each row's
  greatest logit, and from them each row's value

      M - (M + log (sum over the row of exp (logit - M)))

  (the maximum broadcast back along the row in two steps, as the program writes it), and separately
  the sum of all the logits.  The same four definitions serve the policy's pair of arrays and the
  reference model's.  They are the program's host operations composed, with its literal words.
-/
import proofs.«154765_j27539330302083_2_alg».proof.Proof.Gen.ReferenceIdeal
import Idealize.ShloMosaic.PureOps.Ideal

noncomputable section

namespace Cert.ReferenceIdeal.RefValue

open Cert.ReferenceIdeal Cert.ReferenceIdeal.Gen Idealize.ShloMosaic

/-- The logits: the host contraction of X [b, s, h] with W [v, h] over h. -/
def refLogits (X : FVec Ideal S2x1024x2048 .f32) (W : FVec Ideal S32000x2048 .f32) : FVec Ideal S2x1024x32000 .f32 :=
  Host.dotGeneral (F := Ideal) dot_S2x1024x2048_S32000x2048_S2x1024x32000_2_1_01_0_n_n none X W

/-- Each row's greatest logit: the host maximum along the last axis from minus infinity. -/
def refMax (X : FVec Ideal S2x1024x2048 .f32) (W : FVec Ideal S32000x2048 .f32) : FVec Ideal S2x1024 .f32 :=
  Host.reduce (FloatOps.maximumf (F := Ideal) (φ := .f32)) (refLogits X W) (constant (F := Ideal) S_ .f32 0xFF800000#32)
    reducesTo_S2x1024x32000_S2x1024_d2 h_S_

/-- Each row's value: the greatest logit less (the greatest logit plus the logarithm of the row's sum
    of exponentials of the logits shifted by it). -/
def refP (X : FVec Ideal S2x1024x2048 .f32) (W : FVec Ideal S32000x2048 .f32) : FVec Ideal S2x1024 .f32 :=
  subf (F := Ideal) (refMax X W)
    (addf (F := Ideal) (refMax X W)
      (Host.log (F := Ideal)
        (Host.reduceAdd (F := Ideal)
          (Host.exp (F := Ideal)
            (subf (F := Ideal) (refLogits X W)
              (broadcastInDim S2x1024x32000 ![0, 1, 2] bcast_S2x1024x1_S2x1024x32000_0_1_2
                (broadcastInDim S2x1024x1 ![0, 1] bcast_S2x1024_S2x1024x1_0_1 (refMax X W)))))
          (constant (F := Ideal) S_ .f32 0x00000000#32) reducesTo_S2x1024x32000_S2x1024_d2 h_S_)))

/-- The sum of all the logits: the host sum over all three axes. -/
def refTot (X : FVec Ideal S2x1024x2048 .f32) (W : FVec Ideal S32000x2048 .f32) : FVec Ideal S_ .f32 :=
  Host.reduceAdd (F := Ideal) (refLogits X W) (constant (F := Ideal) S_ .f32 0x00000000#32)
    reducesTo_S2x1024x32000_S_d0_1_2 h_S_

end Cert.ReferenceIdeal.RefValue

end
-- ==== Proof.RefWin1.lean ====
/-
  After the first stretch: the logits are the contraction of the policy's activations with its
  vocabulary matrix, and each array's masked row sums are the host sum along the rows of its per-row
  value times the mask as floats.  Read off the fold of the stretch's 31 operations.
-/
import proofs.«154765_j27539330302083_2_alg».proof.Proof.RefWin
import proofs.«154765_j27539330302083_2_alg».proof.Proof.RefTerms

set_option Elab.async false

noncomputable section

namespace Cert.ReferenceIdeal.RefValue

open Cert.ReferenceIdeal Cert.ReferenceIdeal.Gen Idealize.ShloMosaic Idealize.ShloMosaic.TcCoe Idealize.SL.Sem Idealize.ShloMosaic.StableHlo

set_option maxRecDepth 8192 in
set_option maxHeartbeats 2000000 in
/-- The logits. -/
theorem val1_v1 (V : Valuation τ sig (Elt Ideal)) : val1 V (no_index (Proc.devRef .tc main_v1)) = refLogits (V (Proc.devRef .tc main_arg0)) (V (Proc.devRef .tc main_arg1)) := by
  unfold val1
  simp only [opsW1]
  after_results_simp
  rfl

set_option maxRecDepth 8192 in
set_option maxHeartbeats 2000000 in
/-- The policy's masked row sums. -/
theorem val1_v12 (V : Valuation τ sig (Elt Ideal)) : val1 V (no_index (Proc.devRef .tc main_v12)) = Host.reduceAdd (F := Ideal) (mulf (F := Ideal) (refP (V (Proc.devRef .tc main_arg0)) (V (Proc.devRef .tc main_arg1))) (sitofp (F := Ideal) .f32 (V (Proc.devRef .tc main_arg2)))) (constant (F := Ideal) S_ .f32 0x00000000#32) reducesTo_S2x1024_S2_d1 h_S_ := by
  unfold val1
  simp only [opsW1]
  after_results_simp
  rfl

set_option maxRecDepth 8192 in
set_option maxHeartbeats 2000000 in
/-- The reference model's masked row sums. -/
theorem val1_v24 (V : Valuation τ sig (Elt Ideal)) : val1 V (no_index (Proc.devRef .tc main_v24)) = Host.reduceAdd (F := Ideal) (mulf (F := Ideal) (refP (V (Proc.devRef .tc main_arg4)) (V (Proc.devRef .tc main_arg5))) (sitofp (F := Ideal) .f32 (V (Proc.devRef .tc main_arg2)))) (constant (F := Ideal) S_ .f32 0x00000000#32) reducesTo_S2x1024_S2_d1 h_S_ := by
  unfold val1
  simp only [opsW1]
  after_results_simp
  rfl

end Cert.ReferenceIdeal.RefValue

end
-- ==== Proof.RefWin2.lean ====
/-
  After the second stretch: the first result is the closing function's component 0 (the 50 scalar
  operations are that function's, in its order, over the masked row sums and the rewards), and the
  difference of the two arrays' masked row sums is formed.
-/
import proofs.«154765_j27539330302083_2_alg».proof.Proof.RefWin1
import proofs.«154765_j27539330302083_2_alg».proof.Proof.Tail

set_option Elab.async false

noncomputable section

namespace Cert.ReferenceIdeal.RefValue

open Cert.ReferenceIdeal Cert.ReferenceIdeal.Gen Idealize.ShloMosaic Idealize.ShloMosaic.TcCoe Idealize.SL.Sem Idealize.ShloMosaic.StableHlo

theorem val2_v1 (V : Valuation τ sig (Elt Ideal)) : val2 V (no_index (Proc.devRef .tc main_v1)) = refLogits (V (Proc.devRef .tc main_arg0)) (V (Proc.devRef .tc main_arg1)) :=
  (val2_keep V main_v1 (by decide)).trans (val1_v1 V)
theorem val2_v12 (V : Valuation τ sig (Elt Ideal)) : val2 V (no_index (Proc.devRef .tc main_v12)) = Host.reduceAdd (F := Ideal) (mulf (F := Ideal) (refP (V (Proc.devRef .tc main_arg0)) (V (Proc.devRef .tc main_arg1))) (sitofp (F := Ideal) .f32 (V (Proc.devRef .tc main_arg2)))) (constant (F := Ideal) S_ .f32 0x00000000#32) reducesTo_S2x1024_S2_d1 h_S_ :=
  (val2_keep V main_v12 (by decide)).trans (val1_v12 V)

set_option maxRecDepth 8192 in
set_option maxHeartbeats 4000000 in
/-- The first result: the loss. -/
theorem val2_v43 (V : Valuation τ sig (Elt Ideal)) : val2 V (no_index (Proc.devRef .tc main_v43)) = Cert.Spec.tail (refP (V (Proc.devRef .tc main_arg0)) (V (Proc.devRef .tc main_arg1))) (refP (V (Proc.devRef .tc main_arg4)) (V (Proc.devRef .tc main_arg5))) (V (Proc.devRef .tc main_arg2)) (V (Proc.devRef .tc main_arg3)) (refTot (V (Proc.devRef .tc main_arg0)) (V (Proc.devRef .tc main_arg1))) 0 := by
  unfold val2
  simp only [opsW2]
  after_results_simp
  simp only [val1_v12, val1_v24, val1_arg3]
  rfl

set_option maxRecDepth 8192 in
set_option maxHeartbeats 4000000 in
/-- The difference of the two arrays' masked row sums. -/
theorem val2_v38 (V : Valuation τ sig (Elt Ideal)) : val2 V (no_index (Proc.devRef .tc main_v38)) =
    subf (F := Ideal) (Host.reduceAdd (F := Ideal) (mulf (F := Ideal) (refP (V (Proc.devRef .tc main_arg0)) (V (Proc.devRef .tc main_arg1))) (sitofp (F := Ideal) .f32 (V (Proc.devRef .tc main_arg2)))) (constant (F := Ideal) S_ .f32 0x00000000#32) reducesTo_S2x1024_S2_d1 h_S_) (Host.reduceAdd (F := Ideal) (mulf (F := Ideal) (refP (V (Proc.devRef .tc main_arg4)) (V (Proc.devRef .tc main_arg5))) (sitofp (F := Ideal) .f32 (V (Proc.devRef .tc main_arg2)))) (constant (F := Ideal) S_ .f32 0x00000000#32) reducesTo_S2x1024_S2_d1 h_S_) := by
  unfold val2
  simp only [opsW2]
  after_results_simp
  simp only [val1_v12, val1_v24]
  all_goals rfl

set_option maxRecDepth 8192 in
set_option maxHeartbeats 4000000 in
/-- The zero the last stretch's first sum starts from is formed at the end of this one. -/
theorem val2_cst13 (V : Valuation τ sig (Elt Ideal)) : val2 V (no_index (Proc.devRef .tc main_cst_13)) =
    constant (F := Ideal) S_ .f32 0x00000000#32 := by
  unfold val2
  simp only [opsW2]
  after_results_simp
  all_goals rfl

end Cert.ReferenceIdeal.RefValue

end
-- ==== Proof.TailParts.lean ====
/-
  The five reported numbers, one by one, over named parts.

  The closing arithmetic uses a few quantities more than once: the masked row sums of a per-row
  array, the mean of a pair (its sum divided by 2), and the standard deviation of a pair (the root
  of the variance with one degree of freedom removed, guarded as the program guards it).  Naming
  them, the five numbers are: the mean over the two sequences of minus the normalised advantage
  times the policy's row sum plus a tenth of the difference of the row sums; the mean of the
  policy's row sums; their standard deviation; the sum of all logits divided by 65536000; and the
  mean of the difference of the row sums.  Each equation holds by unfolding the definitions.
-/
import proofs.«154765_j27539330302083_2_alg».proof.Proof.Tail

noncomputable section

namespace Cert.Spec

open Idealize.ShloMosaic

/-- The masked row sums of a per-row array: the sum over s of P[b, s] * float(mask[b, s]). -/
def lp (P : FVec Ideal SM .f32) (mask : (⟨SM, .i32⟩ : BufTy).Contents (Elt Ideal)) : FVec Ideal SR .f32 :=
  Host.reduceAdd (F := Ideal) (mulf (F := Ideal) P (sitofp (F := Ideal) .f32 mask))
    (constant (F := Ideal) SZ .f32 0x00000000#32) tail_rows tail_one

/-- The mean of a pair: its sum divided by 2. -/
def meanOf (x : FVec Ideal SR .f32) : FVec Ideal SZ .f32 :=
  Host.divf (F := Ideal) (Host.reduceAdd (F := Ideal) x (constant (F := Ideal) SZ .f32 0x00000000#32) tail_all tail_one)
    (constant (F := Ideal) SZ .f32 0x40000000#32)

/-- The standard deviation of a pair, as the program forms it: the mean through a length-one vector,
    the squared deviations summed and divided by 2 - float(1), the quiet-NaN word unless that divisor
    is positive, then the root. -/
def stdOf (x : FVec Ideal SR .f32) : FVec Ideal SZ .f32 :=
  let c : IVec SZ 32 := constantI SZ 32 1#32
  let a0 : FVec Ideal SZ .f32 := Host.reduceAdd (F := Ideal) x (constant (F := Ideal) SZ .f32 0x00000000#32) tail_all tail_one
  let a1 : FVec Ideal SU .f32 := broadcastInDim SU ![] tail_bc_ZU a0
  let a2 : FVec Ideal SU .f32 := broadcastInDim SU ![] tail_bc_ZU (constant (F := Ideal) SZ .f32 0x40000000#32)
  let a3 : FVec Ideal SU .f32 := Host.divf (F := Ideal) a1 a2
  let a4 : FVec Ideal SR .f32 := broadcastInDim SR ![0] tail_bc_UR a3
  let a5 : FVec Ideal SR .f32 := subf (F := Ideal) x a4
  let a6 : FVec Ideal SR .f32 := mulf (F := Ideal) a5 a5
  let a7 : FVec Ideal SZ .f32 := sitofp (F := Ideal) .f32 c
  let a8 : FVec Ideal SZ .f32 := subf (F := Ideal) (constant (F := Ideal) SZ .f32 0x40000000#32) a7
  let a9 : FVec Ideal SZ .f32 := Host.reduceAdd (F := Ideal) a6 (constant (F := Ideal) SZ .f32 0x00000000#32) tail_all tail_one
  let a10 : FVec Ideal SZ .f32 := Host.divf (F := Ideal) a9 a8
  let a11 : IVec SZ 1 := cmpf (F := Ideal) .ogt a8 (constant (F := Ideal) SZ .f32 0x00000000#32)
  let a12 : FVec Ideal SZ .f32 := select a11 a10 (id (constant (F := Ideal) SZ .f32 0x7FC00000#32))
  Host.sqrt (F := Ideal) a12

/-- The advantages: the rewards less their mean. -/
def advOf (R : FVec Ideal SR .f32) : FVec Ideal SR .f32 :=
  subf (F := Ideal) R (broadcastInDim SR ![] tail_bc_ZR (meanOf R))

/-- The normalised advantages: divided by the rewards' standard deviation where it is positive (by 1
    inside the quotient where it is not, and then the quotient is not selected). -/
def nadvOf (R : FVec Ideal SR .f32) : FVec Ideal SR .f32 :=
  let v29 : FVec Ideal SZ .f32 := stdOf R
  let v30 : IVec SZ 1 := cmpf (F := Ideal) .ogt v29 (constant (F := Ideal) SZ .f32 0x00000000#32)
  let v31 : IVec SZ 1 := cmpf (F := Ideal) .ogt v29 (constant (F := Ideal) SZ .f32 0x00000000#32)
  let v32 : FVec Ideal SZ .f32 := select v31 v29 (id (constant (F := Ideal) SZ .f32 0x3F800000#32))
  let v33 : FVec Ideal SR .f32 := broadcastInDim SR ![] tail_bc_ZR v32
  let v34 : FVec Ideal SR .f32 := Host.divf (F := Ideal) (advOf R) v33
  select (broadcastInDim SR ![] tail_bc_ZR v30) v34 (advOf R)

/-- The loss: the mean over the two sequences of -(nadv * lp) + 0.1 * (lp - lq). -/
def lossOf (x y R : FVec Ideal SR .f32) : FVec Ideal SZ .f32 :=
  meanOf (addf (F := Ideal) (Host.negf (F := Ideal) (mulf (F := Ideal) (nadvOf R) x))
    (mulf (F := Ideal) (broadcastInDim SR ![] tail_bc_ZR (constant (F := Ideal) SZ .f32 0x3DCCCCCD#32)) (subf (F := Ideal) x y)))

section
variable (P Q : FVec Ideal SM .f32) (mask : (⟨SM, .i32⟩ : BufTy).Contents (Elt Ideal))
  (R : FVec Ideal ⟨1, ![2]⟩ .f32) (tot : FVec Ideal ⟨0, ![]⟩ .f32)

/-- The first number: the loss of the two row-sum pairs and the rewards. -/
theorem tail_0 : tail P Q mask R tot 0 = lossOf (lp P mask) (lp Q mask) R := rfl

/-- The second number: the mean of the policy's masked row sums. -/
theorem tail_1 : tail P Q mask R tot 1 = meanOf (lp P mask) := rfl

/-- The third number: the standard deviation of the policy's masked row sums. -/
theorem tail_2 : tail P Q mask R tot 2 = stdOf (lp P mask) := rfl

/-- The fourth number: the sum of all the policy's logits divided by 65536000. -/
theorem tail_3 : tail P Q mask R tot 3 = Host.divf (F := Ideal) tot (constant (F := Ideal) SZ .f32 0x4C7A0000#32) := rfl

/-- The fifth number: the mean of the difference of the two pairs of masked row sums. -/
theorem tail_4 : tail P Q mask R tot 4 = meanOf (subf (F := Ideal) (lp P mask) (lp Q mask)) := rfl

end

end Cert.Spec

end
-- ==== Proof.RefWin3.lean ====
/-
  After the last stretch: the other four results are the closing function's components 1 to 4 (the
  mean of the policy's masked row sums, their standard deviation, the mean logit, the mean
  difference), and the first result is kept.
-/
import proofs.«154765_j27539330302083_2_alg».proof.Proof.RefWin2
import proofs.«154765_j27539330302083_2_alg».proof.Proof.TailParts

set_option Elab.async false

noncomputable section

namespace Cert.ReferenceIdeal.RefValue

open Cert.ReferenceIdeal Cert.ReferenceIdeal.Gen Idealize.ShloMosaic Idealize.ShloMosaic.TcCoe Idealize.SL.Sem Idealize.ShloMosaic.StableHlo

theorem val3_v43 (V : Valuation τ sig (Elt Ideal)) : val3 V (no_index (Proc.devRef .tc main_v43)) = Cert.Spec.tail (refP (V (Proc.devRef .tc main_arg0)) (V (Proc.devRef .tc main_arg1))) (refP (V (Proc.devRef .tc main_arg4)) (V (Proc.devRef .tc main_arg5))) (V (Proc.devRef .tc main_arg2)) (V (Proc.devRef .tc main_arg3)) (refTot (V (Proc.devRef .tc main_arg0)) (V (Proc.devRef .tc main_arg1))) 0 :=
  (val3_keep V main_v43 (by decide)).trans (val2_v43 V)

set_option maxRecDepth 8192 in
set_option maxHeartbeats 4000000 in
theorem val3_v45 (V : Valuation τ sig (Elt Ideal)) : val3 V (no_index (Proc.devRef .tc main_v45)) = Cert.Spec.tail (refP (V (Proc.devRef .tc main_arg0)) (V (Proc.devRef .tc main_arg1))) (refP (V (Proc.devRef .tc main_arg4)) (V (Proc.devRef .tc main_arg5))) (V (Proc.devRef .tc main_arg2)) (V (Proc.devRef .tc main_arg3)) (refTot (V (Proc.devRef .tc main_arg0)) (V (Proc.devRef .tc main_arg1))) 1 := by
  unfold val3
  simp only [ops_part1]
  after_results_simp
  simp only [val2_v12, val2_v1, val2_v38, val2_cst13]
  -- the full-size terms named, so that the last step compares small terms only
  unfold refTot
  generalize refP (V (Proc.devRef .tc main_arg0)) (V (Proc.devRef .tc main_arg1)) = P
  generalize refP (V (Proc.devRef .tc main_arg4)) (V (Proc.devRef .tc main_arg5)) = Q
  generalize refLogits (V (Proc.devRef .tc main_arg0)) (V (Proc.devRef .tc main_arg1)) = L
  generalize V (Proc.devRef .tc main_arg2) = mask
  generalize V (Proc.devRef .tc main_arg3) = R
  rfl

set_option maxRecDepth 8192 in
set_option maxHeartbeats 4000000 in
/-- Over ANY contents W, the last stretch leaves at main_v46 the standard deviation of what W holds
    at main_v12: the twenty-one operations of the outlined function, read off the fold. -/
theorem std1_chain (W : Valuation τ sig (Elt Ideal)) :
    after (ops_part1 (F := Ideal)) W (no_index (Proc.devRef .tc main_v46)) = Cert.Spec.stdOf (W (Proc.devRef .tc main_v12)) := by
  simp only [ops_part1]
  after_results_simp
  rfl

/-- The third result: the standard deviation of the policy's masked row sums. -/
theorem val3_v46 (V : Valuation τ sig (Elt Ideal)) : val3 V (no_index (Proc.devRef .tc main_v46)) = Cert.Spec.tail (refP (V (Proc.devRef .tc main_arg0)) (V (Proc.devRef .tc main_arg1))) (refP (V (Proc.devRef .tc main_arg4)) (V (Proc.devRef .tc main_arg5))) (V (Proc.devRef .tc main_arg2)) (V (Proc.devRef .tc main_arg3)) (refTot (V (Proc.devRef .tc main_arg0)) (V (Proc.devRef .tc main_arg1))) 2 := by
  unfold val3
  rw [std1_chain, val2_v12, Cert.Spec.tail_2]
  exact congrArg Cert.Spec.stdOf rfl

set_option maxRecDepth 8192 in
set_option maxHeartbeats 4000000 in
theorem val3_v48 (V : Valuation τ sig (Elt Ideal)) : val3 V (no_index (Proc.devRef .tc main_v48)) = Cert.Spec.tail (refP (V (Proc.devRef .tc main_arg0)) (V (Proc.devRef .tc main_arg1))) (refP (V (Proc.devRef .tc main_arg4)) (V (Proc.devRef .tc main_arg5))) (V (Proc.devRef .tc main_arg2)) (V (Proc.devRef .tc main_arg3)) (refTot (V (Proc.devRef .tc main_arg0)) (V (Proc.devRef .tc main_arg1))) 3 := by
  unfold val3
  simp only [ops_part1]
  after_results_simp
  simp only [val2_v12, val2_v1, val2_v38, val2_cst13]
  -- the full-size terms named, so that the last step compares small terms only
  unfold refTot
  generalize refP (V (Proc.devRef .tc main_arg0)) (V (Proc.devRef .tc main_arg1)) = P
  generalize refP (V (Proc.devRef .tc main_arg4)) (V (Proc.devRef .tc main_arg5)) = Q
  generalize refLogits (V (Proc.devRef .tc main_arg0)) (V (Proc.devRef .tc main_arg1)) = L
  generalize V (Proc.devRef .tc main_arg2) = mask
  generalize V (Proc.devRef .tc main_arg3) = R
  rfl

set_option maxRecDepth 8192 in
set_option maxHeartbeats 4000000 in
theorem val3_v50 (V : Valuation τ sig (Elt Ideal)) : val3 V (no_index (Proc.devRef .tc main_v50)) = Cert.Spec.tail (refP (V (Proc.devRef .tc main_arg0)) (V (Proc.devRef .tc main_arg1))) (refP (V (Proc.devRef .tc main_arg4)) (V (Proc.devRef .tc main_arg5))) (V (Proc.devRef .tc main_arg2)) (V (Proc.devRef .tc main_arg3)) (refTot (V (Proc.devRef .tc main_arg0)) (V (Proc.devRef .tc main_arg1))) 4 := by
  unfold val3
  simp only [ops_part1]
  after_results_simp
  simp only [val2_v12, val2_v1, val2_v38, val2_cst13]
  -- the full-size terms named, so that the last step compares small terms only
  unfold refTot
  generalize refP (V (Proc.devRef .tc main_arg0)) (V (Proc.devRef .tc main_arg1)) = P
  generalize refP (V (Proc.devRef .tc main_arg4)) (V (Proc.devRef .tc main_arg5)) = Q
  generalize refLogits (V (Proc.devRef .tc main_arg0)) (V (Proc.devRef .tc main_arg1)) = L
  generalize V (Proc.devRef .tc main_arg2) = mask
  generalize V (Proc.devRef .tc main_arg3) = R
  rfl

end Cert.ReferenceIdeal.RefValue

end
-- ==== Proof.RefRun.lean ====
/-
  The reference's run.  From any memory with zero counters every weakly fair execution of @main
  terminates; its five results are the shared closing function of the two per-row arrays (the
  program's composed terms of the activations and vocabulary matrices), the mask, the rewards and
  the sum of the policy's logits, at components 0 to 4; the six argument arrays are unchanged.
-/
import proofs.«154765_j27539330302083_2_alg».proof.Proof.RefWin3

noncomputable section

namespace Cert.ReferenceIdeal.RefValue

open Cert.ReferenceIdeal Cert.ReferenceIdeal.Gen Idealize.ShloMosaic Idealize.ShloMosaic.TcCoe Idealize.SL.Sem Idealize.ShloMosaic.StableHlo

/-! The line's fold at each result and at each argument. -/

theorem res_v43 (V : Valuation τ sig (Elt Ideal)) :
    after (ops (F := Ideal)) V (Proc.devRef .tc main_v43) = Cert.Spec.tail (refP (V (Proc.devRef .tc main_arg0)) (V (Proc.devRef .tc main_arg1))) (refP (V (Proc.devRef .tc main_arg4)) (V (Proc.devRef .tc main_arg5))) (V (Proc.devRef .tc main_arg2)) (V (Proc.devRef .tc main_arg3)) (refTot (V (Proc.devRef .tc main_arg0)) (V (Proc.devRef .tc main_arg1))) 0 := by
  rw [after_ops]; exact val3_v43 V
theorem res_v45 (V : Valuation τ sig (Elt Ideal)) :
    after (ops (F := Ideal)) V (Proc.devRef .tc main_v45) = Cert.Spec.tail (refP (V (Proc.devRef .tc main_arg0)) (V (Proc.devRef .tc main_arg1))) (refP (V (Proc.devRef .tc main_arg4)) (V (Proc.devRef .tc main_arg5))) (V (Proc.devRef .tc main_arg2)) (V (Proc.devRef .tc main_arg3)) (refTot (V (Proc.devRef .tc main_arg0)) (V (Proc.devRef .tc main_arg1))) 1 := by
  rw [after_ops]; exact val3_v45 V
theorem res_v46 (V : Valuation τ sig (Elt Ideal)) :
    after (ops (F := Ideal)) V (Proc.devRef .tc main_v46) = Cert.Spec.tail (refP (V (Proc.devRef .tc main_arg0)) (V (Proc.devRef .tc main_arg1))) (refP (V (Proc.devRef .tc main_arg4)) (V (Proc.devRef .tc main_arg5))) (V (Proc.devRef .tc main_arg2)) (V (Proc.devRef .tc main_arg3)) (refTot (V (Proc.devRef .tc main_arg0)) (V (Proc.devRef .tc main_arg1))) 2 := by
  rw [after_ops]; exact val3_v46 V
theorem res_v48 (V : Valuation τ sig (Elt Ideal)) :
    after (ops (F := Ideal)) V (Proc.devRef .tc main_v48) = Cert.Spec.tail (refP (V (Proc.devRef .tc main_arg0)) (V (Proc.devRef .tc main_arg1))) (refP (V (Proc.devRef .tc main_arg4)) (V (Proc.devRef .tc main_arg5))) (V (Proc.devRef .tc main_arg2)) (V (Proc.devRef .tc main_arg3)) (refTot (V (Proc.devRef .tc main_arg0)) (V (Proc.devRef .tc main_arg1))) 3 := by
  rw [after_ops]; exact val3_v48 V
theorem res_v50 (V : Valuation τ sig (Elt Ideal)) :
    after (ops (F := Ideal)) V (Proc.devRef .tc main_v50) = Cert.Spec.tail (refP (V (Proc.devRef .tc main_arg0)) (V (Proc.devRef .tc main_arg1))) (refP (V (Proc.devRef .tc main_arg4)) (V (Proc.devRef .tc main_arg5))) (V (Proc.devRef .tc main_arg2)) (V (Proc.devRef .tc main_arg3)) (refTot (V (Proc.devRef .tc main_arg0)) (V (Proc.devRef .tc main_arg1))) 4 := by
  rw [after_ops]; exact val3_v50 V
theorem res_arg0 (V : Valuation τ sig (Elt Ideal)) :
    after (ops (F := Ideal)) V (Proc.devRef .tc main_arg0) = V (Proc.devRef .tc main_arg0) := by
  rw [after_ops]; exact val3_arg0 V
theorem res_arg1 (V : Valuation τ sig (Elt Ideal)) :
    after (ops (F := Ideal)) V (Proc.devRef .tc main_arg1) = V (Proc.devRef .tc main_arg1) := by
  rw [after_ops]; exact val3_arg1 V
theorem res_arg2 (V : Valuation τ sig (Elt Ideal)) :
    after (ops (F := Ideal)) V (Proc.devRef .tc main_arg2) = V (Proc.devRef .tc main_arg2) := by
  rw [after_ops]; exact val3_arg2 V
theorem res_arg3 (V : Valuation τ sig (Elt Ideal)) :
    after (ops (F := Ideal)) V (Proc.devRef .tc main_arg3) = V (Proc.devRef .tc main_arg3) := by
  rw [after_ops]; exact val3_arg3 V
theorem res_arg4 (V : Valuation τ sig (Elt Ideal)) :
    after (ops (F := Ideal)) V (Proc.devRef .tc main_arg4) = V (Proc.devRef .tc main_arg4) := by
  rw [after_ops]; exact val3_arg4 V
theorem res_arg5 (V : Valuation τ sig (Elt Ideal)) :
    after (ops (F := Ideal)) V (Proc.devRef .tc main_arg5) = V (Proc.devRef .tc main_arg5) := by
  rw [after_ops]; exact val3_arg5 V

/-- On every device, from any memory with zero counters: every weakly fair execution of @main
    terminates with each result at the closing function of the arguments' composed terms and the
    arguments unchanged. -/
theorem run (m' : (ℓ : Loc nD τ sig) → Buf (Elt Ideal) ℓ) (g' : Dev nD → PrngReg) :
    θ_run (defs (F := Ideal)) (onTc (τ := τ) (main (F := Ideal))) ⟨m', fun _ => 0, g'⟩ fun r => ∀ c : Dev nD,
      r.2.mem ((c.tc : Thread nD τ).loc main_v43) = Cert.Spec.tail (refP (m' ((c.tc : Thread nD τ).loc main_arg0)) (m' ((c.tc : Thread nD τ).loc main_arg1))) (refP (m' ((c.tc : Thread nD τ).loc main_arg4)) (m' ((c.tc : Thread nD τ).loc main_arg5))) (m' ((c.tc : Thread nD τ).loc main_arg2)) (m' ((c.tc : Thread nD τ).loc main_arg3)) (refTot (m' ((c.tc : Thread nD τ).loc main_arg0)) (m' ((c.tc : Thread nD τ).loc main_arg1))) 0
      ∧ r.2.mem ((c.tc : Thread nD τ).loc main_v45) = Cert.Spec.tail (refP (m' ((c.tc : Thread nD τ).loc main_arg0)) (m' ((c.tc : Thread nD τ).loc main_arg1))) (refP (m' ((c.tc : Thread nD τ).loc main_arg4)) (m' ((c.tc : Thread nD τ).loc main_arg5))) (m' ((c.tc : Thread nD τ).loc main_arg2)) (m' ((c.tc : Thread nD τ).loc main_arg3)) (refTot (m' ((c.tc : Thread nD τ).loc main_arg0)) (m' ((c.tc : Thread nD τ).loc main_arg1))) 1
      ∧ r.2.mem ((c.tc : Thread nD τ).loc main_v46) = Cert.Spec.tail (refP (m' ((c.tc : Thread nD τ).loc main_arg0)) (m' ((c.tc : Thread nD τ).loc main_arg1))) (refP (m' ((c.tc : Thread nD τ).loc main_arg4)) (m' ((c.tc : Thread nD τ).loc main_arg5))) (m' ((c.tc : Thread nD τ).loc main_arg2)) (m' ((c.tc : Thread nD τ).loc main_arg3)) (refTot (m' ((c.tc : Thread nD τ).loc main_arg0)) (m' ((c.tc : Thread nD τ).loc main_arg1))) 2
      ∧ r.2.mem ((c.tc : Thread nD τ).loc main_v48) = Cert.Spec.tail (refP (m' ((c.tc : Thread nD τ).loc main_arg0)) (m' ((c.tc : Thread nD τ).loc main_arg1))) (refP (m' ((c.tc : Thread nD τ).loc main_arg4)) (m' ((c.tc : Thread nD τ).loc main_arg5))) (m' ((c.tc : Thread nD τ).loc main_arg2)) (m' ((c.tc : Thread nD τ).loc main_arg3)) (refTot (m' ((c.tc : Thread nD τ).loc main_arg0)) (m' ((c.tc : Thread nD τ).loc main_arg1))) 3
      ∧ r.2.mem ((c.tc : Thread nD τ).loc main_v50) = Cert.Spec.tail (refP (m' ((c.tc : Thread nD τ).loc main_arg0)) (m' ((c.tc : Thread nD τ).loc main_arg1))) (refP (m' ((c.tc : Thread nD τ).loc main_arg4)) (m' ((c.tc : Thread nD τ).loc main_arg5))) (m' ((c.tc : Thread nD τ).loc main_arg2)) (m' ((c.tc : Thread nD τ).loc main_arg3)) (refTot (m' ((c.tc : Thread nD τ).loc main_arg0)) (m' ((c.tc : Thread nD τ).loc main_arg1))) 4
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5) :=
  (θ_run defs _ _).mono (fun _ h c => ⟨(h c main_v43).trans (res_v43 _), (h c main_v45).trans (res_v45 _), (h c main_v46).trans (res_v46 _), (h c main_v48).trans (res_v48 _), (h c main_v50).trans (res_v50 _),
      (h c main_arg0).trans (res_arg0 _), (h c main_arg1).trans (res_arg1 _), (h c main_arg2).trans (res_arg2 _), (h c main_arg3).trans (res_arg3 _), (h c main_arg4).trans (res_arg4 _), (h c main_arg5).trans (res_arg5 _)⟩)
    (run_main m' g')

end Cert.ReferenceIdeal.RefValue

end
-- ==== Proof.LibLastAxis.lean ====
/-
  Host reductions of a stack of matrices along the last axis, read at an index.

  Reducing an array `[a, b, c]` along its last axis gives a matrix `[a, b]` whose entry `(i, j)` depends on the fibre
  `(i, j, ·)` alone: for a maximum it is the fold of `max` over the fibre from the initial value, for a disjunction of
  bits the fold of `or`. The index of the array that reduces to `(i, j)` and has `k` on the last axis is `(i, j, k)`.
-/
import Idealize.ShloMosaic.PureOps.Ideal.Laws
import Idealize.ShloMosaic.PureOps.Reduce
import Idealize.ShloMosaic.Lib.Pipeline.Value
import Idealize.ShloMosaic.Lib.ValueIdx

noncomputable section

namespace Cert.LastAxis

open Idealize.ShloMosaic Idealize.ShloMosaic.ValueIdx

/-- The index that reduces to `(i, j)` along the last axis and has `k` there is `(i, j, k)`. -/
theorem lift_last {a b c : ℕ} (h : (⟨3, ![a, b, c]⟩ : Shape).Reduces [2] ⟨2, ![a, b]⟩) (i : Fin a) (j : Fin b)
    (k : Fin ((⟨3, ![a, b, c]⟩ : Shape).size 2)) : h.lift (ix2 i j) k = ix3 i j (⟨k.val, k.isLt⟩ : Fin c) := by
  funext d; apply Fin.ext
  match d with
  | ⟨0, _⟩ => rfl
  | ⟨1, _⟩ => rfl
  | ⟨2, _⟩ => rfl

/-- A host maximum along the last axis, at `(i, j)`: the fold of `max` over the fibre from the initial value. -/
theorem reduceMax_last {a b c : ℕ} {u : Shape} (x : FVec Ideal ⟨3, ![a, b, c]⟩ .f32) (init : u.Idx → Ideal .f32)
    (h' : (⟨3, ![a, b, c]⟩ : Shape).ReducesTo [2] ⟨2, ![a, b]⟩) (h : (⟨3, ![a, b, c]⟩ : Shape).Reduces [2] ⟨2, ![a, b]⟩)
    (hu : 0 < u.numel) (i : Fin a) (j : Fin b) :
    Host.reduce (FloatOps.maximumf (F := Ideal) (φ := .f32)) x init h' hu (ix2 i j)
      = (Finset.univ : Finset (Fin c)).fold max (init (Shape.Idx.first hu)) (fun k => x (ix3 i j k)) := by
  have hf : (FloatOps.maximumf (F := Ideal) (φ := .f32)) = (max : EReal → EReal → EReal) := rfl
  rw [hf, Host.reduce_eq_fold_single (max : EReal → EReal → EReal) x _ h' h hu (ix2 i j)]
  exact congrArg (fun f => Finset.fold max (init (Shape.Idx.first hu)) f (Finset.univ : Finset (Fin c)))
    (funext fun k => congrArg x (lift_last h i j k))

/-- A host disjunction of bits along the last axis, at `(i, j)`: the fold of `or` over the fibre. -/
theorem reduceOr_last {a b c : ℕ} {u : Shape} (p : IVec ⟨3, ![a, b, c]⟩ 1) (init : u.Idx → BitVec 1)
    (h' : (⟨3, ![a, b, c]⟩ : Shape).ReducesTo [2] ⟨2, ![a, b]⟩) (h : (⟨3, ![a, b, c]⟩ : Shape).Reduces [2] ⟨2, ![a, b]⟩)
    (hu : 0 < u.numel) (i : Fin a) (j : Fin b) :
    Host.reduce (IntOp.ori (w := 1)) p init h' hu (ix2 i j)
      = (Finset.univ : Finset (Fin c)).fold IntOp.ori (init (Shape.Idx.first hu)) (fun k => p (ix3 i j k)) := by
  rw [Host.reduce_eq_fold_single (IntOp.ori (w := 1)) p _ h' h hu (ix2 i j)]
  exact congrArg (fun f => Finset.fold IntOp.ori (init (Shape.Idx.first hu)) f (Finset.univ : Finset (Fin c)))
    (funext fun k => congrArg p (lift_last h i j k))

end Cert.LastAxis

end
-- ==== Proof.RefMath.lean ====
/-
  The reference's large values as mathematics.

  With logit (b, s, v) = sum over h of X[b, s, h] * W[v, h]:

    * the host contraction of X and W over their last axes, at (b, s, v), is logit (b, s, v): the
      contraction index of a one-axis contraction is that axis's coordinate;
    * the host maximum along the last axis from the word of minus infinity, at (b, s), is the fold of
      max from minus infinity over the row's logits;
    * broadcasting a [2, 1024] array to [2, 1024, 1] and then to [2, 1024, 32000] reads, at (b, s, v),
      the array at (b, s);
    * the host sum along the last axis from the zero word, at (b, s), is the sum over v of the
      operand at (b, s, v); over all three axes it is the triple sum.

  So the program's per-row value M - (M + log (sum of exp (logit - M))) is the specification's,
  and its sum of all logits is the specification's triple sum.  These are identities of
  extended-real terms: nothing is asked of the inputs.
-/
import proofs.«154765_j27539330302083_2_alg».proof.Proof.RefTerms
import proofs.«154765_j27539330302083_2_alg».proof.Proof.Spec
import proofs.«154765_j27539330302083_2_alg».proof.Proof.LibLastAxis
import Idealize.ShloMosaic.PureOps.Ideal.Laws
import Idealize.ShloMosaic.Lib.ValueIdx

noncomputable section

namespace Cert.ReferenceIdeal.RefValue

open Cert.ReferenceIdeal Cert.ReferenceIdeal.Gen Idealize.ShloMosaic Idealize.ShloMosaic.ValueIdx
open scoped BigOperators

/-! ## Small facts at an index -/

/-- The host exponential at an index is the exponential of the element. -/
theorem hostExp_apply {s : Shape} {φ : FTy} (x : FVec Ideal s φ) (i : s.Idx) : Host.exp (F := Ideal) x i = Ideal.exp (x i) := rfl
/-- The host logarithm at an index is the logarithm of the element. -/
theorem hostLog_apply {s : Shape} {φ : FTy} (x : FVec Ideal s φ) (i : s.Idx) : Host.log (F := Ideal) x i = Ideal.log (x i) := rfl

/-- The word of minus infinity. -/
theorem ofBits_neg_inf : Ideal.ofBits .f32 0xFF800000#32 = (⊥ : EReal) := by simp [Ideal.ofBits, Ideal.ieee]

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl
/-- … so a sum over it is the triple sum over the coordinates. -/
theorem sum_idx3 {A : Type*} [AddCommMonoid A] {n0 n1 n2 : Nat} (f : (⟨3, ![n0, n1, n2]⟩ : Shape).Idx → A) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A host sum along the last axis, at (i, j): the initial value plus the sum over the fibre. -/
theorem reduceAdd_last {a b c : ℕ} {u : Shape} (x : FVec Ideal ⟨3, ![a, b, c]⟩ .f32) (init : u.Idx → Ideal .f32)
    (h' : (⟨3, ![a, b, c]⟩ : Shape).ReducesTo [2] ⟨2, ![a, b]⟩) (h : (⟨3, ![a, b, c]⟩ : Shape).Reduces [2] ⟨2, ![a, b]⟩)
    (hu : 0 < u.numel) (i : Fin a) (j : Fin b) :
    Host.reduceAdd (F := Ideal) x init h' hu (ix2 i j) = init (Shape.Idx.first hu) + ∑ k : Fin c, x (ix3 i j k) := by
  show Ideal.hostReduceAdd h' x (init (Shape.Idx.first hu)) (ix2 i j) = _
  rw [Ideal.hostReduceAdd_single h' h]
  exact congrArg (fun f : Fin c → EReal => init (Shape.Idx.first hu) + ∑ k : Fin c, f k)
    (funext fun k => congrArg x (Cert.LastAxis.lift_last h i j k))

/-- Broadcasting a [a, b] array to [a, b, 1] and on to [a, b, c] reads it, at (i, j, k), at (i, j). -/
theorem bcast_row {α : Type} (x : S2x1024.Idx → α) (i : Fin 2) (j : Fin 1024) (k : Fin 32000) :
    broadcastInDim S2x1024x32000 ![0, 1, 2] bcast_S2x1024x1_S2x1024x32000_0_1_2
      (broadcastInDim S2x1024x1 ![0, 1] bcast_S2x1024_S2x1024x1_0_1 x) (ix3 i j k) = x (ix2 i j) := by
  show x _ = x _
  refine congrArg x (funext fun d => Fin.ext ?_)
  match d with
  | ⟨0, _⟩ => rfl
  | ⟨1, _⟩ => rfl

/-! ## The logits, the row maximum, the row value and the total -/

/-- The contraction at (b, s, v) is the logit: the sum over h of X[b, s, h] * W[v, h]. -/
theorem refLogits_apply (X : FVec Ideal S2x1024x2048 .f32) (W : FVec Ideal S32000x2048 .f32) (b : Fin 2) (s : Fin 1024)
    (v : Fin 32000) : refLogits X W (ix3 b s v) = Cert.Spec.logit X W b s v := by
  unfold refLogits Cert.Spec.logit
  refine (Ideal.dotGeneral_apply dot_S2x1024x2048_S32000x2048_S2x1024x32000_2_1_01_0_n_n none .single X W (ix3 b s v)).trans ?_
  refine (Equiv.sum_comp (contrEquiv1 dot_S2x1024x2048_S32000x2048_S2x1024x32000_2_1_01_0_n_n 2048 rfl rfl).symm _).symm.trans ?_
  refine Finset.sum_congr rfl fun h _ => ?_
  have hl : dot_S2x1024x2048_S32000x2048_S2x1024x32000_2_1_01_0_n_n.lhsIdx (ix3 b s v)
      ((contrEquiv1 dot_S2x1024x2048_S32000x2048_S2x1024x32000_2_1_01_0_n_n 2048 rfl rfl).symm h) = ix3 b s h := by
    funext d; apply Fin.ext
    match d with
    | ⟨0, _⟩ => rfl
    | ⟨1, _⟩ => rfl
    | ⟨2, _⟩ => rfl
  have hr : dot_S2x1024x2048_S32000x2048_S2x1024x32000_2_1_01_0_n_n.rhsIdx (ix3 b s v)
      ((contrEquiv1 dot_S2x1024x2048_S32000x2048_S2x1024x32000_2_1_01_0_n_n 2048 rfl rfl).symm h) = ix2 v h := by
    funext d; apply Fin.ext
    match d with
    | ⟨0, _⟩ => rfl
    | ⟨1, _⟩ => rfl
  rw [hl, hr]

/-- The host maximum along the last axis at (b, s) is the row's greatest logit. -/
theorem refMax_apply (X : FVec Ideal S2x1024x2048 .f32) (W : FVec Ideal S32000x2048 .f32) (b : Fin 2) (s : Fin 1024) :
    refMax X W (ix2 b s) = Cert.Spec.rowMax X W b s := by
  unfold refMax Cert.Spec.rowMax
  refine (Cert.LastAxis.reduceMax_last (a := 2) (b := 1024) (c := 32000) (refLogits X W) _
    reducesTo_S2x1024x32000_S2x1024_d2 (by decide) h_S_ b s).trans ?_
  have h0 : constant (F := Ideal) S_ .f32 0xFF800000#32 (Shape.Idx.first h_S_) = (⊥ : EReal) := ofBits_neg_inf
  rw [h0]
  exact congrArg (fun f : Fin 32000 → EReal => Finset.fold max (⊥ : EReal) f (Finset.univ : Finset (Fin 32000)))
    (funext fun v => refLogits_apply X W b s v)

/-- The row value over ANY logits L and row maxima Mx, at (b, s): the operations read at the index. -/
theorem rowValue_apply (L : FVec Ideal S2x1024x32000 .f32) (Mx : FVec Ideal S2x1024 .f32) (b : Fin 2) (s : Fin 1024) :
    subf (F := Ideal) Mx
      (addf (F := Ideal) Mx
        (Host.log (F := Ideal)
          (Host.reduceAdd (F := Ideal)
            (Host.exp (F := Ideal)
              (subf (F := Ideal) L
                (broadcastInDim S2x1024x32000 ![0, 1, 2] bcast_S2x1024x1_S2x1024x32000_0_1_2
                  (broadcastInDim S2x1024x1 ![0, 1] bcast_S2x1024_S2x1024x1_0_1 Mx))))
            (constant (F := Ideal) S_ .f32 0x00000000#32) reducesTo_S2x1024x32000_S2x1024_d2 h_S_))) (ix2 b s)
      = Mx (ix2 b s) - (Mx (ix2 b s) + Ideal.log (∑ v : Fin 32000, Ideal.exp (L (ix3 b s v) - Mx (ix2 b s)))) := by
  rw [subf_apply, addf_apply, hostLog_apply,
    reduceAdd_last (a := 2) (b := 1024) (c := 32000) _ _ reducesTo_S2x1024x32000_S2x1024_d2 (by decide) h_S_ b s]
  have h0 : constant (F := Ideal) S_ .f32 0x00000000#32 (Shape.Idx.first h_S_) = (0 : EReal) := Ideal.ofBits_zero_f32
  rw [h0, zero_add]
  refine congrArg (fun t : EReal => Mx (ix2 b s) - (Mx (ix2 b s) + Ideal.log t)) (Finset.sum_congr rfl fun v _ => ?_)
  rw [hostExp_apply, subf_apply, bcast_row]

/-- The program's per-row value is the specification's. -/
theorem refP_eq (X : FVec Ideal S2x1024x2048 .f32) (W : FVec Ideal S32000x2048 .f32) : refP X W = Cert.Spec.seqlp X W := by
  funext i
  obtain ⟨b, s, rfl⟩ : ∃ (b : Fin 2) (s : Fin 1024), i = ix2 b s := ⟨i 0, i 1, eq_ix2 i⟩
  unfold refP
  rw [rowValue_apply, refMax_apply]
  show _ = Cert.Spec.rowMax X W b s - (Cert.Spec.rowMax X W b s + Ideal.log (Cert.Spec.expSum X W b s))
  unfold Cert.Spec.expSum
  exact congrArg (fun t : EReal => Cert.Spec.rowMax X W b s - (Cert.Spec.rowMax X W b s + Ideal.log t))
    (Finset.sum_congr rfl fun v _ => by rw [refLogits_apply])

/-- The program's sum of all the logits is the triple sum. -/
theorem refTot_eq (X : FVec Ideal S2x1024x2048 .f32) (W : FVec Ideal S32000x2048 .f32) :
    refTot X W = fun _ => ∑ b : Fin 2, ∑ s : Fin 1024, ∑ v : Fin 32000, Cert.Spec.logit X W b s v := by
  funext j
  unfold refTot
  show Ideal.hostReduceAdd reducesTo_S2x1024x32000_S_d0_1_2 (refLogits X W)
      (constant (F := Ideal) S_ .f32 0x00000000#32 (Shape.Idx.first h_S_)) j = _
  rw [Ideal.hostReduceAdd_total reducesTo_S2x1024x32000_S_d0_1_2 (fun b => b.elim0)]
  have h0 : constant (F := Ideal) S_ .f32 0x00000000#32 (Shape.Idx.first h_S_) = (0 : EReal) := Ideal.ofBits_zero_f32
  rw [h0, zero_add, sum_idx3 (n0 := 2) (n1 := 1024) (n2 := 32000)]
  exact Finset.sum_congr rfl fun b _ => Finset.sum_congr rfl fun s _ => Finset.sum_congr rfl fun v _ => refLogits_apply X W b s v

end Cert.ReferenceIdeal.RefValue

end
-- ==== Proof.RefRead.lean ====
/-
  The reference's results as mathematics.  Its per-row arrays are the specification's (the largest
  log-softmax value of each row, for the policy's pair of arrays and for the reference model's) and
  its sum of logits is the triple sum of the specification's logits; so every weakly fair execution
  terminates with the five results at the closing function of those, and the arguments unchanged.
  Nothing is assumed of the inputs.
-/
import proofs.«154765_j27539330302083_2_alg».proof.Proof.RefRun
import proofs.«154765_j27539330302083_2_alg».proof.Proof.RefMath

noncomputable section

namespace Cert.ReferenceIdeal.RefValue

open Cert.ReferenceIdeal Cert.ReferenceIdeal.Gen Idealize.ShloMosaic Idealize.ShloMosaic.TcCoe Idealize.SL.Sem Idealize.ShloMosaic.StableHlo
open scoped BigOperators

/-- The closing function at the program's composed terms is the closing function at the specification's. -/
theorem tail_ref_eq (X X' : FVec Ideal S2x1024x2048 .f32) (W W' : FVec Ideal S32000x2048 .f32)
    (mask : (⟨S2x1024, .i32⟩ : BufTy).Contents (Elt Ideal)) (R : FVec Ideal S2 .f32) (k : Fin 5) :
    Cert.Spec.tail (refP X W) (refP X' W') mask R (refTot X W) k
      = Cert.Spec.tail (Cert.Spec.seqlp X W) (Cert.Spec.seqlp X' W') mask R
          (fun _ => ∑ b : Fin 2, ∑ s : Fin 1024, ∑ v : Fin 32000, Cert.Spec.logit X W b s v) k := by
  rw [refP_eq, refP_eq, refTot_eq]

theorem run_spec (m' : (ℓ : Loc nD τ sig) → Buf (Elt Ideal) ℓ) (g' : Dev nD → PrngReg) :
    θ_run (defs (F := Ideal)) (onTc (τ := τ) (main (F := Ideal))) ⟨m', fun _ => 0, g'⟩ fun r => ∀ c : Dev nD,
      r.2.mem ((c.tc : Thread nD τ).loc main_v43) = Cert.Spec.tail (Cert.Spec.seqlp (m' ((c.tc : Thread nD τ).loc main_arg0)) (m' ((c.tc : Thread nD τ).loc main_arg1))) (Cert.Spec.seqlp (m' ((c.tc : Thread nD τ).loc main_arg4)) (m' ((c.tc : Thread nD τ).loc main_arg5))) (m' ((c.tc : Thread nD τ).loc main_arg2)) (m' ((c.tc : Thread nD τ).loc main_arg3)) (fun _ => ∑ b : Fin 2, ∑ s : Fin 1024, ∑ v : Fin 32000, Cert.Spec.logit (m' ((c.tc : Thread nD τ).loc main_arg0)) (m' ((c.tc : Thread nD τ).loc main_arg1)) b s v) 0
      ∧ r.2.mem ((c.tc : Thread nD τ).loc main_v45) = Cert.Spec.tail (Cert.Spec.seqlp (m' ((c.tc : Thread nD τ).loc main_arg0)) (m' ((c.tc : Thread nD τ).loc main_arg1))) (Cert.Spec.seqlp (m' ((c.tc : Thread nD τ).loc main_arg4)) (m' ((c.tc : Thread nD τ).loc main_arg5))) (m' ((c.tc : Thread nD τ).loc main_arg2)) (m' ((c.tc : Thread nD τ).loc main_arg3)) (fun _ => ∑ b : Fin 2, ∑ s : Fin 1024, ∑ v : Fin 32000, Cert.Spec.logit (m' ((c.tc : Thread nD τ).loc main_arg0)) (m' ((c.tc : Thread nD τ).loc main_arg1)) b s v) 1
      ∧ r.2.mem ((c.tc : Thread nD τ).loc main_v46) = Cert.Spec.tail (Cert.Spec.seqlp (m' ((c.tc : Thread nD τ).loc main_arg0)) (m' ((c.tc : Thread nD τ).loc main_arg1))) (Cert.Spec.seqlp (m' ((c.tc : Thread nD τ).loc main_arg4)) (m' ((c.tc : Thread nD τ).loc main_arg5))) (m' ((c.tc : Thread nD τ).loc main_arg2)) (m' ((c.tc : Thread nD τ).loc main_arg3)) (fun _ => ∑ b : Fin 2, ∑ s : Fin 1024, ∑ v : Fin 32000, Cert.Spec.logit (m' ((c.tc : Thread nD τ).loc main_arg0)) (m' ((c.tc : Thread nD τ).loc main_arg1)) b s v) 2
      ∧ r.2.mem ((c.tc : Thread nD τ).loc main_v48) = Cert.Spec.tail (Cert.Spec.seqlp (m' ((c.tc : Thread nD τ).loc main_arg0)) (m' ((c.tc : Thread nD τ).loc main_arg1))) (Cert.Spec.seqlp (m' ((c.tc : Thread nD τ).loc main_arg4)) (m' ((c.tc : Thread nD τ).loc main_arg5))) (m' ((c.tc : Thread nD τ).loc main_arg2)) (m' ((c.tc : Thread nD τ).loc main_arg3)) (fun _ => ∑ b : Fin 2, ∑ s : Fin 1024, ∑ v : Fin 32000, Cert.Spec.logit (m' ((c.tc : Thread nD τ).loc main_arg0)) (m' ((c.tc : Thread nD τ).loc main_arg1)) b s v) 3
      ∧ r.2.mem ((c.tc : Thread nD τ).loc main_v50) = Cert.Spec.tail (Cert.Spec.seqlp (m' ((c.tc : Thread nD τ).loc main_arg0)) (m' ((c.tc : Thread nD τ).loc main_arg1))) (Cert.Spec.seqlp (m' ((c.tc : Thread nD τ).loc main_arg4)) (m' ((c.tc : Thread nD τ).loc main_arg5))) (m' ((c.tc : Thread nD τ).loc main_arg2)) (m' ((c.tc : Thread nD τ).loc main_arg3)) (fun _ => ∑ b : Fin 2, ∑ s : Fin 1024, ∑ v : Fin 32000, Cert.Spec.logit (m' ((c.tc : Thread nD τ).loc main_arg0)) (m' ((c.tc : Thread nD τ).loc main_arg1)) b s v) 4
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5) :=
  (θ_run defs _ _).mono (fun _ h c =>
      ⟨((h c).1).trans (tail_ref_eq _ _ _ _ _ _ 0),
       ((h c).2.1).trans (tail_ref_eq _ _ _ _ _ _ 1),
       ((h c).2.2.1).trans (tail_ref_eq _ _ _ _ _ _ 2),
       ((h c).2.2.2.1).trans (tail_ref_eq _ _ _ _ _ _ 3),
       ((h c).2.2.2.2.1).trans (tail_ref_eq _ _ _ _ _ _ 4),
       (h c).2.2.2.2.2⟩)
    (run m' g')

end Cert.ReferenceIdeal.RefValue

end
-- ==== Proof.Finite.lean ====
/-
  Finite inputs are real numbers.  The precondition says of each float argument that every entry's absolute value
  is below plus infinity; an extended real with that property is neither infinity, so it is a real.
-/
import proofs.«154765_j27539330302083_2_alg».proof.Pre_finite_inputs
import proofs.«154765_j27539330302083_2_alg».proof.Proof.Gen.Pre_finite_inputs
import Idealize.ShloMosaic.Lib.ReduceAll
import Idealize.ShloMosaic.Lib.Affine
import Idealize.ShloMosaic.Lib.ValueIdx
import Idealize.ShloMosaic.PureOps.Ideal
import Idealize.ShloMosaic.PureOps.Ideal.Laws

noncomputable section

namespace Cert.Finite

open Idealize.ShloMosaic Idealize.ShloMosaic.ValueIdx Cert.Pre_finite_inputs

instance : Subsingleton S_.Idx := ⟨fun a b => funext fun d => d.elim0⟩

/-- An extended real whose absolute value is below plus infinity is a real. -/
theorem real_of_abs_lt (x : EReal)
    (h : Ideal.cmp .olt (max x (-x)) (Ideal.ofBits .f32 0x7F800000#32) = 1#1) : ∃ r : ℝ, x = (r : EReal) := by
  have ht : Ideal.ofBits .f32 0x7F800000#32 = ⊤ := by simp [Ideal.ofBits, Ideal.ieee]
  rw [ht] at h
  induction x using EReal.rec with
  | bot => exfalso; revert h; simp [Ideal.cmp]
  | coe r => exact ⟨r, rfl⟩
  | top => exfalso; revert h; simp [Ideal.cmp]

/-- One argument: the comparison of its absolute values with the plus-infinity word, all ones, makes every entry real. -/
theorem real_entries {S : Shape} (a : FVec Ideal S .f32) (hb : S_.BroadcastsInDim S (![] : Fin 0 → Fin S.rank))
    (hr : ∀ i, cmpf (F := Ideal) .olt (Host.absf (F := Ideal) a) (broadcastInDim S ![] hb (constant (F := Ideal) S_ .f32 0x7F800000#32)) i = 1#1) (i : S.Idx) :
    ∃ r : ℝ, a i = (r : EReal) :=
  real_of_abs_lt (a i) (hr i)

/-- The precondition, all ones, makes every entry of the four matrices a real. -/
theorem of_pre [Facts] (a0 : FVec Ideal S2x1024x2048 .f32) (a1 : FVec Ideal S32000x2048 .f32) (a2 : IVec S2x1024 32) (a3 : FVec Ideal S2 .f32)
    (a4 : FVec Ideal S2x1024x2048 .f32) (a5 : FVec Ideal S32000x2048 .f32)
    (h : fn (F := Ideal) a0 a1 a2 a3 a4 a5 = fun _ => 1#1) :
    (∀ i, ∃ r : ℝ, a0 i = (r : EReal)) ∧ (∀ i, ∃ r : ℝ, a1 i = (r : EReal)) ∧ (∀ i, ∃ r : ℝ, a4 i = (r : EReal)) ∧ (∀ i, ∃ r : ℝ, a5 i = (r : EReal)) := by
  have h0 := congrFun h ix0
  dsimp only [fn, fn_part1] at h0
  obtain ⟨h18, h22⟩ := IntOp.andi_eq_one.1 h0
  obtain ⟨h13, h17⟩ := IntOp.andi_eq_one.1 h18
  obtain ⟨h8, h12⟩ := IntOp.andi_eq_one.1 h13
  obtain ⟨h3, h7⟩ := IntOp.andi_eq_one.1 h8
  exact ⟨real_entries a0 _ (Host.reduce_andi_all _ _ _ _ _ h3), real_entries a1 _ (Host.reduce_andi_all _ _ _ _ _ h7),
    real_entries a4 _ (Host.reduce_andi_all _ _ _ _ _ h17), real_entries a5 _ (Host.reduce_andi_all _ _ _ _ _ h22)⟩

end Cert.Finite

end
-- ==== Proof.lean ====
/-
  The certificate: a fused language-model head — logits of 2 x 1024 rows against a 32000-entry vocabulary, the
  largest log-softmax value of every row by an online (tile by tile) softmax, the row sums of the logits — run
  once for the policy and once for a reference model, and closed by the policy-gradient statistics, against the
  same quantities computed in two passes by plain array operations.

  Frames: each of the three programs runs to the end, faults nowhere and leaves its six argument arrays as
  launched.  For the two kernel programs this is the run of the program as a list of segments (host operations,
  the first kernel, a host operation, the second kernel, the closing host operations), each kernel's grid walked
  point by point with the three (two) running columns carried in scratch from one point to the next; for the
  reference it is the run of its host operations.

  Values, at the extended reals: walking the vocabulary in 50 tiles of 640 while keeping a running maximum m, a
  running sum of exp (logit - m) rescaled by exp (m_old - m_new) whenever the maximum grows, and a running sum of
  logits, ends — for real entries, which the precondition provides — at the row's maximum M, at the sum over the
  whole vocabulary of exp (logit - M), and at the sum of the row's logits; so the kernels' output arrays hold
  M - (M + log (sum of exp (logit - M))) and the row sums, exactly what the reference's two passes compute, and the
  sum of the row sums is the sum of all logits.  Both programs then apply the same closing operations.
-/
import proofs.«154765_j27539330302083_2_alg».proof.Defs
import proofs.«154765_j27539330302083_2_alg».proof.Proof.Gen.Kernel
import proofs.«154765_j27539330302083_2_alg».proof.Proof.Gen.KernelIdeal
import proofs.«154765_j27539330302083_2_alg».proof.Proof.Gen.ReferenceIdeal
import proofs.«154765_j27539330302083_2_alg».proof.Proof.Gen.Pre_finite_inputs
import proofs.«154765_j27539330302083_2_alg».proof.Proof.KB.Frame
import proofs.«154765_j27539330302083_2_alg».proof.Proof.KI.Results
import proofs.«154765_j27539330302083_2_alg».proof.Proof.RefRead
import proofs.«154765_j27539330302083_2_alg».proof.Proof.Finite

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Hand.frame (F := Bits) m ρ

/-- So does the idealized kernel program. -/
theorem frame_ki : Cert.frame_KernelIdeal := fun m ρ _ => Cert.KernelIdeal.Hand.frame (F := Ideal) m ρ

/-- And the reference: its run, with the results dropped. -/
theorem frame_ri : Cert.frame_ReferenceIdeal := fun m ρ _ =>
  (θ_run Cert.ReferenceIdeal.defs _ _).mono (fun _ h c => (h c).2.2.2.2.2) (Cert.ReferenceIdeal.RefValue.run_spec m ρ)

/-- The idealization rewrote nothing. -/
theorem preserves : Cert.preserves_Kernel_KernelIdeal := trivial

open Cert.KernelIdeal Cert.KernelIdeal.Hand in
/-- From memories agreeing on the arguments both idealized programs end with the five results at the closing
    function of the specification's per-row arrays of those arguments. -/
theorem algebraic : Cert.algebraic_KernelIdeal_ReferenceIdeal := by
  intro m g m' g' hpre hagree
  have hfin := fun c => Cert.Finite.of_pre _ _ _ _ _ _ (hpre c)
  refine ⟨fun c => vals m c 0, fun c => vals m c 1, fun c => vals m c 2, fun c => vals m c 3, fun c => vals m c 4, ?_, ?_⟩
  · refine (θ_run Cert.KernelIdeal.defs _ _).mono (fun r h c => ?_) (run_all (F := Ideal) m g)
    obtain ⟨hX, hW, hX', hW'⟩ := hfin c
    have hc := closing_eq m c hX hW hX' hW'
    exact ⟨(h c _ (mem_uc main_v27 (by decide))).trans ((res_v27 m c).trans (congrFun hc 0)),
      (h c _ (mem_uc main_v31 (by decide))).trans ((res_v31 m c).trans (congrFun hc 1)),
      (h c _ (mem_uc main_v32 (by decide))).trans ((res_v32 m c).trans (congrFun hc 2)),
      (h c _ (mem_uc main_v29 (by decide))).trans ((res_v29 m c).trans (congrFun hc 3)),
      (h c _ (mem_uc main_v34 (by decide))).trans ((res_v34 m c).trans (congrFun hc 4)),
      (h c _ (mem_uc main_arg0 (by decide))).trans (W13_main_arg0 m c),
      (h c _ (mem_uc main_arg1 (by decide))).trans (W13_main_arg1 m c),
      (h c _ (mem_uc main_arg2 (by decide))).trans (W13_main_arg2 m c),
      (h c _ (mem_uc main_arg3 (by decide))).trans (W13_main_arg3 m c),
      (h c _ (mem_uc main_arg4 (by decide))).trans (W13_main_arg4 m c),
      (h c _ (mem_uc main_arg5 (by decide))).trans (W13_main_arg5 m c)⟩
  · refine (θ_run Cert.ReferenceIdeal.defs _ _).mono (fun r h c => ?_) (Cert.ReferenceIdeal.RefValue.run_spec m' g')
    obtain ⟨h0, h1, h2, h3, h4, hargs⟩ := h c
    obtain ⟨a0, a1, a2, a3, a4, a5⟩ := hagree c
    refine ⟨h0.trans ?_, h1.trans ?_, h2.trans ?_, h3.trans ?_, h4.trans ?_, hargs⟩ <;>
      rw [a0, a1, a2, a3, a4, a5]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
